-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)) (v3 : (c : Dev Cert.KernelIdeal.nD) → Buf (Elt Ideal) ((c.tc : Thread Cert.KernelIdeal.nD Cert.KernelIdeal.τ).loc Cert.KernelIdeal.main_v50_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_v50_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_v118) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S7x128x128 : Shape := ⟨3, ![7, 128, 128]⟩
abbrev S7x128 : Shape := ⟨2, ![7, 128]⟩
abbrev S7 : Shape := ⟨1, ![7]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S7x128x128 : S_.BroadcastsInDim S7x128x128 (![] : Fin 0 → Fin S7x128x128.rank)
  reducesTo_S7x128x128_S_d0_1_2 : S7x128x128.ReducesTo [0, 1, 2] S_
  bcast_S_S7x128 : S_.BroadcastsInDim S7x128 (![] : Fin 0 → Fin S7x128.rank)
  reducesTo_S7x128_S_d0_1 : S7x128.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg4 : FVec F S7 .f32) (main_v13 : IVec S_ 1) (main_v16 : IVec S7x128 1) : IVec S_ 1 :=
  let main_c_5 : IVec S_ 1 := constantI S_ 1 1#1
  let main_v17 : IVec S_ 1 := (fun x v => Host.reduce IntOp.andi x v reducesTo_S7x128_S_d0_1 h_S_) main_v16 main_c_5
  let main_v18 : IVec S_ 1 := andi main_v13 main_v17
  let main_v19 : FVec F S7 .f32 := Host.absf main_arg4
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S7x128x128 .f32) (main_arg3 : FVec F S7x128 .f32) (main_arg4 : FVec F S7 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S7x128x128 .f32 := Host.absf main_arg2
  let main_cst_2 : FVec F S_ .f32 := constant S_ .f32 0x7F800000#32
  let main_v10 : FVec F S7x128x128 .f32 := broadcastInDim S7x128x128 ![] bcast_S_S7x128x128 main_cst_2
  let main_v11 : IVec S7x128x128 1 := cmpf .olt main_v9 main_v10
  let main_c_3 : IVec S_ 1 := constantI S_ 1 1#1
  let main_v12 : IVec S_ 1 := (fun x v => Host.reduce IntOp.andi x v reducesTo_S7x128x128_S_d0_1_2 h_S_) main_v11 main_c_3
  let main_v13 : IVec S_ 1 := andi main_v8 main_v12
  let main_v14 : FVec F S7x128 .f32 := Host.absf main_arg3
  let main_cst_4 : FVec F S_ .f32 := constant S_ .f32 0x7F800000#32
  let main_v15 : FVec F S7x128 .f32 := broadcastInDim S7x128 ![] bcast_S_S7x128 main_cst_4
  let main_v16 : IVec S7x128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S7x128x128 : Shape := ⟨3, ![7, 128, 128]⟩
abbrev S7x128 : Shape := ⟨2, ![7, 128]⟩
abbrev S7 : Shape := ⟨1, ![7]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1 : Shape := ⟨1, ![1]⟩
abbrev S_ : Shape := ⟨0, ![]⟩
abbrev S200x10000 : Shape := ⟨2, ![200, 10000]⟩
abbrev S200x128 : Shape := ⟨2, ![200, 128]⟩
abbrev S128x512 : Shape := ⟨2, ![128, 512]⟩
abbrev S512 : Shape := ⟨1, ![512]⟩
abbrev S1x512 : Shape := ⟨2, ![1, 512]⟩
abbrev S4 : Shape := ⟨1, ![4]⟩
abbrev S4x128 : Shape := ⟨2, ![4, 128]⟩
abbrev S10000x512 : Shape := ⟨2, ![10000, 512]⟩
abbrev S200x512 : Shape := ⟨2, ![200, 512]⟩

abbrev nBuf : Space → Nat
  | .hbm => 60
  | .vmem => 44
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S7x128x128, .f32⟩
  | .hbm, ⟨3, _⟩ => ⟨S7x128, .f32⟩
  | .hbm, ⟨4, _⟩ => ⟨S7, .f32⟩
  | .hbm, ⟨5, _⟩ => ⟨S1x128x128, .f32⟩
  | .hbm, ⟨6, _⟩ => ⟨S128x128, .f32⟩
  | .hbm, ⟨7, _⟩ => ⟨S1x128, .f32⟩
  | .hbm, ⟨8, _⟩ => ⟨S128, .f32⟩
  | .hbm, ⟨9, _⟩ => ⟨S1x128, .f32⟩
  | .hbm, ⟨10, _⟩ => ⟨S1, .f32⟩
  | .hbm, ⟨11, _⟩ => ⟨S_, .f32⟩
  | .hbm, ⟨12, _⟩ => ⟨S1x128, .f32⟩
  | .hbm, ⟨13, _⟩ => ⟨S10000x128, .f32⟩
  | .hbm, ⟨14, _⟩ => ⟨S10000x10000, .bf16⟩
  | .hbm, ⟨15, _⟩ => ⟨S1x128x128, .f32⟩
  | .hbm, ⟨16, _⟩ => ⟨S128x128, .f32⟩
  | .hbm, ⟨17, _⟩ => ⟨S1x128, .f32⟩
  | .hbm, ⟨18, _⟩ => ⟨S128, .f32⟩
  | .hbm, ⟨19, _⟩ => ⟨S1x128, .f32⟩
  | .hbm, ⟨20, _⟩ => ⟨S1, .f32⟩
  | .hbm, ⟨21, _⟩ => ⟨S_, .f32⟩
  | .hbm, ⟨22, _⟩ => ⟨S1x128, .f32⟩
  | .hbm, ⟨23, _⟩ => ⟨S10000x128, .f32⟩
  | .hbm, ⟨24, _⟩ => ⟨S1x128x128, .f32⟩
  | .hbm, ⟨25, _⟩ => ⟨S128x128, .f32⟩
  | .hbm, ⟨26, _⟩ => ⟨S1x128, .f32⟩
  | .hbm, ⟨27, _⟩ => ⟨S128, .f32⟩
  | .hbm, ⟨28, _⟩ => ⟨S1x128, .f32⟩
  | .hbm, ⟨29, _⟩ => ⟨S1, .f32⟩
  | .hbm, ⟨30, _⟩ => ⟨S_, .f32⟩
  | .hbm, ⟨31, _⟩ => ⟨S1x128, .f32⟩
  | .hbm, ⟨32, _⟩ => ⟨S10000x128, .f32⟩
  | .hbm, ⟨33, _⟩ => ⟨S1x128x128, .f32⟩
  | .hbm, ⟨34, _⟩ => ⟨S128x128, .f32⟩
  | .hbm, ⟨35, _⟩ => ⟨S1x128x128, .f32⟩
  | .hbm, ⟨36, _⟩ => ⟨S128x128, .f32⟩
  | .hbm, ⟨37, _⟩ => ⟨S1x128x128, .f32⟩
  | .hbm, ⟨38, _⟩ => ⟨S128x128, .f32⟩
  | .hbm, ⟨39, _⟩ => ⟨S1x128x128, .f32⟩
  | .hbm, ⟨40, _⟩ => ⟨S128x128, .f32⟩
  | .hbm, ⟨41, _⟩ => ⟨S128x512, .f32⟩
  | .hbm, ⟨42, _⟩ => ⟨S1x128, .f32⟩
  | .hbm, ⟨43, _⟩ => ⟨S128, .f32⟩
  | .hbm, ⟨44, _⟩ => ⟨S1x128, .f32⟩
  | .hbm, ⟨45, _⟩ => ⟨S128, .f32⟩
  | .hbm, ⟨46, _⟩ => ⟨S1x128, .f32⟩
  | .hbm, ⟨47, _⟩ => ⟨S128, .f32⟩
  | .hbm, ⟨48, _⟩ => ⟨S1x128, .f32⟩
  | .hbm, ⟨49, _⟩ => ⟨S128, .f32⟩
  | .hbm, ⟨50, _⟩ => ⟨S512, .f32⟩
  | .hbm, ⟨51, _⟩ => ⟨S1x512, .f32⟩
  | .hbm, ⟨52, _⟩ => ⟨S4, .f32⟩
  | .hbm, ⟨53, _⟩ => ⟨S4x128, .f32⟩
  | .hbm, ⟨54, _⟩ => ⟨S512, .f32⟩
  | .hbm, ⟨55, _⟩ => ⟨S1x512, .f32⟩
  | .hbm, ⟨56, _⟩ => ⟨S10000x128, .f32⟩
  | .hbm, ⟨57, _⟩ => ⟨S10000x128, .f32⟩
  | .hbm, ⟨58, _⟩ => ⟨S10000x128, .f32⟩
  | .hbm, ⟨59, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S200x128, .f32⟩
  | .local _ .vmem, ⟨7, _⟩ => ⟨S200x128, .f32⟩
  | .local _ .vmem, ⟨8, _⟩ => ⟨S200x10000, .bf16⟩
  | .local _ .vmem, ⟨9, _⟩ => ⟨S200x10000, .bf16⟩
  | .local _ .vmem, ⟨10, _⟩ => ⟨S10000x128, .f32⟩
  | .local _ .vmem, ⟨11, _⟩ => ⟨S200x10000, .bf16⟩
  | .local _ .vmem, ⟨12, _⟩ => ⟨S200x10000, .bf16⟩
  | .local _ .vmem, ⟨13, _⟩ => ⟨S10000x128, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S200x128, .f32⟩
  | .local _ .vmem, ⟨18, _⟩ => ⟨S200x128, .f32⟩
  | .local _ .vmem, ⟨19, _⟩ => ⟨S10000x128, .bf16⟩
  | .local _ .vmem, ⟨20, _⟩ => ⟨S200x10000, .bf16⟩
  | .local _ .vmem, ⟨21, _⟩ => ⟨S200x10000, .bf16⟩
  | .local _ .vmem, ⟨22, _⟩ => ⟨S10000x128, .f32⟩
  | .local _ .vmem, ⟨23, _⟩ => ⟨S128x128, .f32⟩
  | .local _ .vmem, ⟨24, _⟩ => ⟨S1x128, .f32⟩
  | .local _ .vmem, ⟨25, _⟩ => ⟨S1x128, .f32⟩
  | .local _ .vmem, ⟨26, _⟩ => ⟨S200x128, .f32⟩
  | .local _ .vmem, ⟨27, _⟩ => ⟨S200x128, .f32⟩
  | .local _ .vmem, ⟨28, _⟩ => ⟨S10000x128, .bf16⟩
  | .local _ .vmem, ⟨29, _⟩ => ⟨S200x10000, .bf16⟩
  | .local _ .vmem, ⟨30, _⟩ => ⟨S200x10000, .bf16⟩
  | .local _ .vmem, ⟨31, _⟩ => ⟨S10000x128, .f32⟩
  | .local _ .vmem, ⟨32, _⟩ => ⟨S128x512, .f32⟩
  | .local _ .vmem, ⟨33, _⟩ => ⟨S1x512, .f32⟩
  | .local _ .vmem, ⟨34, _⟩ => ⟨S1x512, .f32⟩
  | .local _ .vmem, ⟨35, _⟩ => ⟨S200x128, .f32⟩
  | .local _ .vmem, ⟨36, _⟩ => ⟨S200x128, .f32⟩
  | .local _ .vmem, ⟨37, _⟩ => ⟨S200x128, .f32⟩
  | .local _ .vmem, ⟨38, _⟩ => ⟨S200x128, .f32⟩
  | .local _ .vmem, ⟨39, _⟩ => ⟨S200x128, .f32⟩
  | .local _ .vmem, ⟨40, _⟩ => ⟨S200x128, .f32⟩
  | .local _ .vmem, ⟨41, _⟩ => ⟨S200x128, .f32⟩
  | .local _ .vmem, ⟨42, _⟩ => ⟨S200x128, .f32⟩
  | .local _ .vmem, ⟨43, _⟩ => ⟨S10000x512, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50_0 : Ref sig .tc := ⟨.hbm, 56, rfl⟩
abbrev main_v50_1 : Ref sig .tc := ⟨.hbm, 57, rfl⟩
abbrev main_v50_2 : Ref sig .tc := ⟨.hbm, 58, rfl⟩
abbrev main_v50_3 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_scratch0 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc3_stg6_0 : Ref sig .tc := ⟨.vmem, 37, rfl⟩
abbrev cc3_stg6_1 : Ref sig .tc := ⟨.vmem, 38, rfl⟩
abbrev cc3_stg7_0 : Ref sig .tc := ⟨.vmem, 39, rfl⟩
abbrev cc3_stg7_1 : Ref sig .tc := ⟨.vmem, 40, rfl⟩
abbrev cc3_stg8_0 : Ref sig .tc := ⟨.vmem, 41, rfl⟩
abbrev cc3_stg8_1 : Ref sig .tc := ⟨.vmem, 42, rfl⟩
abbrev cc3_scratch0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc3_sem6_0 : DmaSem sig := 34
abbrev cc3_sem6_1 : DmaSem sig := 35
abbrev cc3_sem7_0 : DmaSem sig := 36
abbrev cc3_sem7_1 : DmaSem sig := 37
abbrev cc3_sem8_0 : DmaSem sig := 38
abbrev cc3_sem8_1 : DmaSem sig := 39

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S200x10000 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S200x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S200x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S200x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S200x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S200x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S200x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S7x128x128_S1x128x128_0_0_0 : S7x128x128.Slices ![0, 0, 0] S1x128x128
  shapeCasts_S1x128x128_S128x128 : S1x128x128.ShapeCasts S128x128
  slices_S7x128_S1x128_0_0 : S7x128.Slices ![0, 0] S1x128
  shapeCasts_S1x128_S128 : S1x128.ShapeCasts S128
  bcast_S128_S1x128_1 : S128.BroadcastsInDim S1x128 (![1] : Fin 1 → Fin S1x128.rank)
  slices_S7_S1_0 : S7.Slices ![0] S1
  shapeCasts_S1_S_ : S1.ShapeCasts S_
  bcast_S_S1x128 : S_.BroadcastsInDim S1x128 (![] : Fin 0 → Fin S1x128.rank)
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  bitsLt_bf16_f32 : FTy.bits .bf16 < FTy.bits .f32
  packedbf16_S200x10000_S200x10000_0_0 : (Rect.unit (s := S200x10000) ![0, 0] S200x10000.size inb_S200x10000_S200x10000_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S200x128_S200x128_0_0 : ∀ a, (![0, 0] : Fin 2 → Nat) a + S200x128.size a ≤ S200x128.size a
  h_S200x128 : 0 < S200x128.numel
  slices_S7x128x128_S1x128x128_1_0_0 : S7x128x128.Slices ![1, 0, 0] S1x128x128
  slices_S7x128_S1x128_1_0 : S7x128.Slices ![1, 0] S1x128
  slices_S7_S1_1 : S7.Slices ![1] S1
  packedbf16_S10000x128_S10000x128_0_0 : (Rect.unit (s := S10000x128) ![0, 0] S10000x128.size inb_S10000x128_S10000x128_0_0).PackedRows (EltTy.packing .bf16)
  shapeCasts_S200x10000_S200x10000 : S200x10000.ShapeCasts S200x10000
  slices_S7x128x128_S1x128x128_2_0_0 : S7x128x128.Slices ![2, 0, 0] S1x128x128
  slices_S7x128_S1x128_2_0 : S7x128.Slices ![2, 0] S1x128
  slices_S7_S1_2 : S7.Slices ![2] S1
  slices_S7x128x128_S1x128x128_3_0_0 : S7x128x128.Slices ![3, 0, 0] S1x128x128
  slices_S7x128x128_S1x128x128_4_0_0 : S7x128x128.Slices ![4, 0, 0] S1x128x128
  slices_S7x128x128_S1x128x128_5_0_0 : S7x128x128.Slices ![5, 0, 0] S1x128x128
  slices_S7x128x128_S1x128x128_6_0_0 : S7x128x128.Slices ![6, 0, 0] S1x128x128
  concatenates_S128x128_S128x128_S128x128_S128x128_S128x512_d1 : Shape.Concatenates [S128x128, S128x128, S128x128, S128x128] S128x512 1
  slices_S7x128_S1x128_3_0 : S7x128.Slices ![3, 0] S1x128
  slices_S7x128_S1x128_4_0 : S7x128.Slices ![4, 0] S1x128
  slices_S7x128_S1x128_5_0 : S7x128.Slices ![5, 0] S1x128
  slices_S7x128_S1x128_6_0 : S7x128.Slices ![6, 0] S1x128
  concatenates_S128_S128_S128_S128_S512_d0 : Shape.Concatenates [S128, S128, S128, S128] S512 0
  bcast_S512_S1x512_1 : S512.BroadcastsInDim S1x512 (![1] : Fin 1 → Fin S1x512.rank)
  slices_S7_S4_3 : S7.Slices ![3] S4
  bcast_S4_S4x128_0 : S4.BroadcastsInDim S4x128 (![0] : Fin 1 → Fin S4x128.rank)
  shapeCasts_S4x128_S512 : S4x128.ShapeCasts S512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  packedbf16_S10000x512_S10000x512_0_0 : (Rect.unit (s := S10000x512) ![0, 0] S10000x512.size inb_S10000x512_S10000x512_0_0).PackedRows (EltTy.packing .bf16)
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S200x512 : S1x512.Broadcasts S200x512
  slices_S200x512_o0_0_S200x128 : S200x512.Slices ![0, 0] S200x128
  slices_S200x512_o0_128_S200x128 : S200x512.Slices ![0, 128] S200x128
  slices_S200x512_o0_256_S200x128 : S200x512.Slices ![0, 256] S200x128
  slices_S200x512_o0_384_S200x128 : S200x512.Slices ![0, 384] S200x128
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S10000x128_S128x512_S10000x512_1_0_0_1_n_n_wf : DotDims.WF S10000x128 S128x512 S10000x512 [1] [0] [0] [1] [] []
  dot_S200x10000_S10000x512_S200x512_1_0_0_1_n_n_wf : DotDims.WF S200x10000 S10000x512 S200x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x128.size a ≤ S10000x128.size a
  hwx0_5 : ∀ i : grid0.Coords, EltTy.bits .f32 = 32 ∨ (Rect.block (s := S10000x128) S200x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x10000.size a ≤ S10000x10000.size a
  hwx0_6 : ∀ i : grid0.Coords, EltTy.bits .bf16 = 32 ∨ (Rect.block (s := S10000x10000) S200x10000.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .bf16 = 32 ∨ (Rect.block (s := S10000x10000) S200x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x128.size a ≤ S10000x128.size a
  hwx1_5 : ∀ i : grid1.Coords, EltTy.bits .f32 = 32 ∨ (Rect.block (s := S10000x128) S200x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .bf16 = 32 ∨ (Rect.block (s := S10000x10000) S200x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S200x128.size a ≤ S10000x128.size a
  hwx2_5 : ∀ i : grid2.Coords, EltTy.bits .f32 = 32 ∨ (Rect.block (s := S10000x128) S200x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x10000.size a ≤ S10000x10000.size a
  hwx3_0 : ∀ i : grid3.Coords, EltTy.bits .bf16 = 32 ∨ (Rect.block (s := S10000x10000) S200x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .f32 = 32 ∨ (Rect.block (s := S10000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x512.size a ≤ S128x512.size a
  hwx3_2 : ∀ i : grid3.Coords, EltTy.bits .f32 = 32 ∨ (Rect.block (s := S128x512) S128x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x512.size a
  hwx3_3 : ∀ i : grid3.Coords, EltTy.bits .f32 = 32 ∨ (Rect.block (s := S1x512) S1x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x512.size a ≤ S1x512.size a
  hwx3_4 : ∀ i : grid3.Coords, EltTy.bits .f32 = 32 ∨ (Rect.block (s := S1x512) S1x512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S200x128.size a ≤ S10000x128.size a
  hwx3_5 : ∀ i : grid3.Coords, EltTy.bits .f32 = 32 ∨ (Rect.block (s := S10000x128) S200x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S200x128.size a ≤ S10000x128.size a
  hwx3_6 : ∀ i : grid3.Coords, EltTy.bits .f32 = 32 ∨ (Rect.block (s := S10000x128) S200x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S200x128.size a ≤ S10000x128.size a
  hwx3_7 : ∀ i : grid3.Coords, EltTy.bits .f32 = 32 ∨ (Rect.block (s := S10000x128) S200x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S200x128.size a ≤ S10000x128.size a
  hwx3_8 : ∀ i : grid3.Coords, EltTy.bits .f32 = 32 ∨ (Rect.block (s := S10000x128) S200x128.size (cc3_transform_8 i) (hinb3_8 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S10000x128_S128x512_S10000x512_1_0_0_1_n_n : DotDims S10000x128 S128x512 S10000x512 where
  lhsContracting := [1]
  rhsContracting := [0]
  lhsNonContracting := [0]
  rhsNonContracting := [1]
  lhsBatch := []
  rhsBatch := []
  wf := dot_S10000x128_S128x512_S10000x512_1_0_0_1_n_n_wf
def dot_S200x10000_S10000x512_S200x512_1_0_0_1_n_n : DotDims S200x10000 S10000x512 S200x512 where
  lhsContracting := [1]
  rhsContracting := [0]
  lhsNonContracting := [0]
  rhsNonContracting := [1]
  lhsBatch := []
  rhsBatch := []
  wf := dot_S200x10000_S10000x512_S200x512_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8_0) S200x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_1) S200x10000.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v8_1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S200x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v8_1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S200x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v8_1) S200x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v35) S128x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S1x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S1x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v50_0) S200x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v50_1) S200x128.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v50_2) S200x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v50_3) S200x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S7x128x128 : Shape := ⟨3, ![7, 128, 128]⟩
abbrev S7x128 : Shape := ⟨2, ![7, 128]⟩
abbrev S7 : Shape := ⟨1, ![7]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1 : Shape := ⟨1, ![1]⟩
abbrev S_ : Shape := ⟨0, ![]⟩

abbrev nBuf : Space → Nat
  | .hbm => 145
  | .vmem => 0
  | .smem => 0
  | _ => 0

abbrev hbmTy0_0 (i : Nat) : BufTy := match i % 128 with
  | 0 => ⟨S10000x128, .f32⟩
  | 1 => ⟨S10000x10000, .f32⟩
  | 2 => ⟨S7x128x128, .f32⟩
  | 3 => ⟨S7x128, .f32⟩
  | 4 => ⟨S7, .f32⟩
  | 5 => ⟨S1x128x128, .f32⟩
  | 6 => ⟨S128x128, .f32⟩
  | 7 => ⟨S1x128, .f32⟩
  | 8 => ⟨S128, .f32⟩
  | 9 => ⟨S1, .f32⟩
  | 10 => ⟨S_, .f32⟩
  | 11 => ⟨S10000x128, .f32⟩
  | 12 => ⟨S10000x128, .f32⟩
  | 13 => ⟨S1x128, .f32⟩
  | 14 => ⟨S10000x128, .f32⟩
  | 15 => ⟨S10000x128, .f32⟩
  | 16 => ⟨S_, .f32⟩
  | 17 => ⟨S10000x128, .f32⟩
  | 18 => ⟨S10000x128, .i1⟩
  | 19 => ⟨S10000x128, .f32⟩
  | 20 => ⟨S10000x128, .f32⟩
  | 21 => ⟨S10000x128, .f32⟩
  | 22 => ⟨S_, .f32⟩
  | 23 => ⟨S10000x128, .f32⟩
  | 24 => ⟨S10000x128, .f32⟩
  | 25 => ⟨S1x128x128, .f32⟩
  | 26 => ⟨S128x128, .f32⟩
  | 27 => ⟨S1x128, .f32⟩
  | 28 => ⟨S128, .f32⟩
  | 29 => ⟨S1, .f32⟩
  | 30 => ⟨S_, .f32⟩
  | 31 => ⟨S10000x128, .f32⟩
  | 32 => ⟨S10000x128, .f32⟩
  | 33 => ⟨S1x128, .f32⟩
  | 34 => ⟨S10000x128, .f32⟩
  | 35 => ⟨S10000x128, .f32⟩
  | 36 => ⟨S_, .f32⟩
  | 37 => ⟨S10000x128, .f32⟩
  | 38 => ⟨S10000x128, .i1⟩
  | 39 => ⟨S10000x128, .f32⟩
  | 40 => ⟨S10000x128, .f32⟩
  | 41 => ⟨S10000x128, .f32⟩
  | 42 => ⟨S_, .f32⟩
  | 43 => ⟨S10000x128, .f32⟩
  | 44 => ⟨S10000x128, .f32⟩
  | 45 => ⟨S1x128x128, .f32⟩
  | 46 => ⟨S128x128, .f32⟩
  | 47 => ⟨S1x128, .f32⟩
  | 48 => ⟨S128, .f32⟩
  | 49 => ⟨S1, .f32⟩
  | 50 => ⟨S_, .f32⟩
  | 51 => ⟨S10000x128, .f32⟩
  | 52 => ⟨S10000x128, .f32⟩
  | 53 => ⟨S1x128, .f32⟩
  | 54 => ⟨S10000x128, .f32⟩
  | 55 => ⟨S10000x128, .f32⟩
  | 56 => ⟨S_, .f32⟩
  | 57 => ⟨S10000x128, .f32⟩
  | 58 => ⟨S10000x128, .i1⟩
  | 59 => ⟨S10000x128, .f32⟩
  | 60 => ⟨S10000x128, .f32⟩
  | 61 => ⟨S10000x128, .f32⟩
  | 62 => ⟨S_, .f32⟩
  | 63 => ⟨S10000x128, .f32⟩
  | 64 => ⟨S10000x128, .f32⟩
  | 65 => ⟨S1x128x128, .f32⟩
  | 66 => ⟨S128x128, .f32⟩
  | 67 => ⟨S1x128, .f32⟩
  | 68 => ⟨S128, .f32⟩
  | 69 => ⟨S1, .f32⟩
  | 70 => ⟨S_, .f32⟩
  | 71 => ⟨S10000x128, .f32⟩
  | 72 => ⟨S10000x128, .f32⟩
  | 73 => ⟨S1x128, .f32⟩
  | 74 => ⟨S10000x128, .f32⟩
  | 75 => ⟨S10000x128, .f32⟩
  | 76 => ⟨S_, .f32⟩
  | 77 => ⟨S10000x128, .f32⟩
  | 78 => ⟨S10000x128, .i1⟩
  | 79 => ⟨S10000x128, .f32⟩
  | 80 => ⟨S10000x128, .f32⟩
  | 81 => ⟨S10000x128, .f32⟩
  | 82 => ⟨S_, .f32⟩
  | 83 => ⟨S10000x128, .f32⟩
  | 84 => ⟨S10000x128, .f32⟩
  | 85 => ⟨S1x128x128, .f32⟩
  | 86 => ⟨S128x128, .f32⟩
  | 87 => ⟨S1x128, .f32⟩
  | 88 => ⟨S128, .f32⟩
  | 89 => ⟨S1, .f32⟩
  | 90 => ⟨S_, .f32⟩
  | 91 => ⟨S10000x128, .f32⟩
  | 92 => ⟨S10000x128, .f32⟩
  | 93 => ⟨S1x128, .f32⟩
  | 94 => ⟨S10000x128, .f32⟩
  | 95 => ⟨S10000x128, .f32⟩
  | 96 => ⟨S_, .f32⟩
  | 97 => ⟨S10000x128, .f32⟩
  | 98 => ⟨S10000x128, .i1⟩
  | 99 => ⟨S10000x128, .f32⟩
  | 100 => ⟨S10000x128, .f32⟩
  | 101 => ⟨S10000x128, .f32⟩
  | 102 => ⟨S_, .f32⟩
  | 103 => ⟨S10000x128, .f32⟩
  | 104 => ⟨S10000x128, .f32⟩
  | 105 => ⟨S1x128x128, .f32⟩
  | 106 => ⟨S128x128, .f32⟩
  | 107 => ⟨S1x128, .f32⟩
  | 108 => ⟨S128, .f32⟩
  | 109 => ⟨S1, .f32⟩
  | 110 => ⟨S_, .f32⟩
  | 111 => ⟨S10000x128, .f32⟩
  | 112 => ⟨S10000x128, .f32⟩
  | 113 => ⟨S1x128, .f32⟩
  | 114 => ⟨S10000x128, .f32⟩
  | 115 => ⟨S10000x128, .f32⟩
  | 116 => ⟨S_, .f32⟩
  | 117 => ⟨S10000x128, .f32⟩
  | 118 => ⟨S10000x128, .i1⟩
  | 119 => ⟨S10000x128, .f32⟩
  | 120 => ⟨S10000x128, .f32⟩
  | 121 => ⟨S10000x128, .f32⟩
  | 122 => ⟨S_, .f32⟩
  | 123 => ⟨S10000x128, .f32⟩
  | 124 => ⟨S10000x128, .f32⟩
  | 125 => ⟨S1x128x128, .f32⟩
  | 126 => ⟨S128x128, .f32⟩
  | 127 => ⟨S1x128, .f32⟩
  | _ => ⟨S10000x128, .f32⟩

abbrev hbmTy0_1 (i : Nat) : BufTy := match i % 128 with
  | 0 => ⟨S128, .f32⟩
  | 1 => ⟨S1, .f32⟩
  | 2 => ⟨S_, .f32⟩
  | 3 => ⟨S10000x128, .f32⟩
  | 4 => ⟨S10000x128, .f32⟩
  | 5 => ⟨S1x128, .f32⟩
  | 6 => ⟨S10000x128, .f32⟩
  | 7 => ⟨S10000x128, .f32⟩
  | 8 => ⟨S_, .f32⟩
  | 9 => ⟨S10000x128, .f32⟩
  | 10 => ⟨S10000x128, .i1⟩
  | 11 => ⟨S10000x128, .f32⟩
  | 12 => ⟨S10000x128, .f32⟩
  | 13 => ⟨S10000x128, .f32⟩
  | 14 => ⟨S_, .f32⟩
  | 15 => ⟨S10000x128, .f32⟩
  | 16 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call1_cst : Ref sig .tc := ⟨.hbm, 22, rfl⟩
abbrev main_call1_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_0 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call3_cst : Ref sig .tc := ⟨.hbm, 42, rfl⟩
abbrev main_call3_v0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_1 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_call5_cst : Ref sig .tc := ⟨.hbm, 62, rfl⟩
abbrev main_call5_v0 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_2 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_call7_cst : Ref sig .tc := ⟨.hbm, 82, rfl⟩
abbrev main_call7_v0 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_3 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_call9_cst : Ref sig .tc := ⟨.hbm, 102, rfl⟩
abbrev main_call9_v0 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_cst_4 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_call11_cst : Ref sig .tc := ⟨.hbm, 122, rfl⟩
abbrev main_call11_v0 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_cst_5 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_call13_cst : Ref sig .tc := ⟨.hbm, 142, rfl⟩
abbrev main_call13_v0 : Ref sig .tc := ⟨.hbm, 143, rfl⟩
abbrev main_v118 : Ref sig .tc := ⟨.hbm, 144, rfl⟩

abbrev nD : Nat := 1
abbrev τ : Topo := Topo.v7x

variable {F : FTy → Type} [FloatOps F]

class Facts₀ : Prop where
  slices_S7x128x128_S1x128x128_0_0_0 : S7x128x128.Slices ![0, 0, 0] S1x128x128
  shapeCasts_S1x128x128_S128x128 : S1x128x128.ShapeCasts S128x128
  slices_S7x128_S1x128_0_0 : S7x128.Slices ![0, 0] S1x128
  shapeCasts_S1x128_S128 : S1x128.ShapeCasts S128
  slices_S7_S1_0 : S7.Slices ![0] S1
  shapeCasts_S1_S_ : S1.ShapeCasts S_
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  slices_S7x128x128_S1x128x128_1_0_0 : S7x128x128.Slices ![1, 0, 0] S1x128x128
  slices_S7x128_S1x128_1_0 : S7x128.Slices ![1, 0] S1x128
  slices_S7_S1_1 : S7.Slices ![1] S1
  slices_S7x128x128_S1x128x128_2_0_0 : S7x128x128.Slices ![2, 0, 0] S1x128x128
  slices_S7x128_S1x128_2_0 : S7x128.Slices ![2, 0] S1x128
  slices_S7_S1_2 : S7.Slices ![2] S1
  slices_S7x128x128_S1x128x128_3_0_0 : S7x128x128.Slices ![3, 0, 0] S1x128x128
  slices_S7x128_S1x128_3_0 : S7x128.Slices ![3, 0] S1x128
  slices_S7_S1_3 : S7.Slices ![3] S1
  slices_S7x128x128_S1x128x128_4_0_0 : S7x128x128.Slices ![4, 0, 0] S1x128x128
  slices_S7x128_S1x128_4_0 : S7x128.Slices ![4, 0] S1x128
  slices_S7_S1_4 : S7.Slices ![4] S1
  slices_S7x128x128_S1x128x128_5_0_0 : S7x128x128.Slices ![5, 0, 0] S1x128x128
  slices_S7x128_S1x128_5_0 : S7x128.Slices ![5, 0] S1x128
  slices_S7_S1_5 : S7.Slices ![5] S1
  slices_S7x128x128_S1x128x128_6_0_0 : S7x128x128.Slices ![6, 0, 0] S1x128x128
  slices_S7x128_S1x128_6_0 : S7x128.Slices ![6, 0] S1x128
  slices_S7_S1_6 : S7.Slices ![6] S1
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BitsRun0.lean ====
/-
  The kernel body of the first pass (one row block of the adjacency in full precision against the input features kept
  whole on chip): what it leaves at the first grid point, where the feature transform x·W is written to the scratch
  before being read back, and at every later point, where the scratch is only read. The inputs' buffers come back as
  they were; one output block holds the activation of (adjacency block)·(scratch) + bias, the other the adjacency
  block itself in the narrower format; the scratch holds the feature transform.
-/
import proofs.«148270_g13469017440497_cont_week2b_423_4_alg».proof.Proof.Gen.Kernel.Launch
import proofs.«148270_g13469017440497_cont_week2b_423_4_alg».proof.Proof.Gen.Kernel.Skeleton
import proofs.«148270_g13469017440497_cont_week2b_423_4_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a rank-2 whole-block access. -/
theorem zeros2_0 : (![0, 0] : Fin 2 → Nat) = fun _ => 0 := funext fun a => by fin_cases a <;> rfl

/-- The body's branch: the grid coordinate is zero (the first row block). -/
abbrev first0 (i : grid0.Coords) : Prop := (Scalar.cmpi .ne (Scalar.extui (Scalar.cmpi .eq (BitVec.ofNat 32 (i 0).val) 0#32)) 0#32) = 1#1
/-- It holds at the first of the fifty points only. -/
theorem first0_iff : ∀ t : Fin cfg0.N, first0 (grid0.coords t) ↔ t.val % 50 = 0 :=
  (by decide +kernel : ∀ t : Fin grid0.N, first0 (grid0.coords t) ↔ t.val % 50 = 0)

set_option maxHeartbeats 2000000 in
/-- At the first point: the scratch, whatever it held, ends at the feature transform of the two operands it was computed
    from, and each output block at its function of the adjacency block and that transform. -/
theorem runFirst0 (c : Dev nD) (i : grid0.Coords)
    (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S200x128 .f32) (harg6 : arg6.IsWhole) (arg7 : Memref sig .tc .vmem S200x10000 .bf16) (harg7 : arg7.IsWhole) (arg8 : Memref sig .tc .vmem S10000x128 .f32) (harg8 : arg8.IsWhole) (hc : first0 i)
    (x0 : Vec F S200x10000 .f32) (x1 : Vec F S10000x128 .f32) (x2 : Vec F S128x128 .f32) (x3 : Vec F S1x128 .f32) (x4 : Vec F S1x128 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare (k0_pay3 x0 (k0_pay1 x1 x2) x3 x4)
                ∗ owns (c : Thread nD τ) arg7 fullShare (k0_pay2 x0)
                ∗ owns (c : Thread nD τ) arg8 fullShare (k0_pay1 x1 x2)) -∗ K ⟨⟩))
          ⊢ wp frame (wpE (defs₀ (F := F)) Variants.none c none) E (cc0__first_pass_kernel i arg1 harg1 arg2 harg2 arg3 harg3 arg4 harg4 arg5 harg5 arg6 harg6 arg7 harg7 arg8 harg8) K := by
  have hz := zeros2_0
  simp only [cc0__first_pass_kernel_eq_skeleton]; unfold cc0__first_pass_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg1.eq_unread hf0
  obtain rfl := harg2.eq_unread hf1
  obtain rfl := harg3.eq_unread hf2
  obtain rfl := harg4.eq_unread hf3
  obtain rfl := harg5.eq_unread hf4
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_unfold_words
    rw [View.read_writes_eq_canon _ _ _ (fun y => ⟨_, List.mem_singleton_self _, View.mem_set_unit_zero hz inb_S200x128_S200x128_0_0 y⟩),
      View.canon_unit_zero hz, View.readCov_unit_zero _ hz]
    simp only [View.readAt_eq_ld, harg1.read_unread, harg2.read_unread, harg3.read_unread, harg4.read_unread, harg5.read_unread, View.ld_unit_zero (S := S200x10000) hz, View.ld_unit_zero (S := S10000x128) hz, View.ld_unit_zero (S := S128x128) hz, View.ld_unit_zero (S := S1x128) hz, View.ld_unit_zero (S := S200x128) hz]
  isplitl [H6]
  · iexists _; isplitr; swap; · iexact H6
    ipureintro
    sl_unfold_words
    rw [View.read_writes_eq_canon _ _ _ (fun y => ⟨_, List.mem_singleton_self _, View.mem_set_unit_zero hz inb_S200x10000_S200x10000_0_0 y⟩),
      View.canon_unit_zero hz]
    simp only [View.readAt_eq_ld, harg1.read_unread, harg2.read_unread, harg3.read_unread, harg4.read_unread, harg5.read_unread, View.ld_unit_zero (S := S200x10000) hz, View.ld_unit_zero (S := S10000x128) hz, View.ld_unit_zero (S := S128x128) hz, View.ld_unit_zero (S := S1x128) hz, View.ld_unit_zero (S := S200x128) hz]
  iexists _; isplitr; swap; · iexact H7
  ipureintro
  sl_unfold_words
  rw [View.read_writes_eq_canon _ _ _ (fun y => ⟨_, List.mem_singleton_self _, View.mem_set_unit_zero hz inb_S10000x128_S10000x128_0_0 y⟩),
    View.canon_unit_zero hz]
  simp only [View.readAt_eq_ld, harg1.read_unread, harg2.read_unread, harg3.read_unread, harg4.read_unread, harg5.read_unread, View.ld_unit_zero (S := S200x10000) hz, View.ld_unit_zero (S := S10000x128) hz, View.ld_unit_zero (S := S128x128) hz, View.ld_unit_zero (S := S1x128) hz, View.ld_unit_zero (S := S200x128) hz]

set_option maxHeartbeats 2000000 in
/-- At a later point: the scratch is read as found and left as found, and each output block holds its function of the
    adjacency block and the scratch. -/
theorem runLater0 (c : Dev nD) (i : grid0.Coords)
    (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S200x128 .f32) (harg6 : arg6.IsWhole) (arg7 : Memref sig .tc .vmem S200x10000 .bf16) (harg7 : arg7.IsWhole) (arg8 : Memref sig .tc .vmem S10000x128 .f32) (harg8 : arg8.IsWhole) (hc : ¬ first0 i)
    (x0 : Vec F S200x10000 .f32) (x1 : Vec F S10000x128 .f32) (x2 : Vec F S128x128 .f32) (x3 : Vec F S1x128 .f32) (x4 : Vec F S1x128 .f32) (s : Vec F S10000x128 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ owns (c : Thread nD τ) arg8 fullShare s
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare (k0_pay3 x0 s x3 x4)
                ∗ owns (c : Thread nD τ) arg7 fullShare (k0_pay2 x0)
                ∗ owns (c : Thread nD τ) arg8 fullShare s) -∗ K ⟨⟩))
          ⊢ wp frame (wpE (defs₀ (F := F)) Variants.none c none) E (cc0__first_pass_kernel i arg1 harg1 arg2 harg2 arg3 harg3 arg4 harg4 arg5 harg5 arg6 harg6 arg7 harg7 arg8 harg8) K := by
  have hz := zeros2_0
  simp only [cc0__first_pass_kernel_eq_skeleton]; unfold cc0__first_pass_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg8.eq_unread hf7
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_unfold_words
    rw [View.read_writes_eq_canon _ _ _ (fun y => ⟨_, List.mem_singleton_self _, View.mem_set_unit_zero hz inb_S200x128_S200x128_0_0 y⟩),
      View.canon_unit_zero hz]
    simp only [View.readAt_eq_ld, harg1.read_unread, harg2.read_unread, harg3.read_unread, harg4.read_unread, harg5.read_unread, harg8.read_unread, View.ld_unit_zero (S := S200x10000) hz, View.ld_unit_zero (S := S10000x128) hz, View.ld_unit_zero (S := S128x128) hz, View.ld_unit_zero (S := S1x128) hz, View.ld_unit_zero (S := S200x128) hz]
  isplitl [H6]
  · iexists _; isplitr; swap; · iexact H6
    ipureintro
    sl_unfold_words
    rw [View.read_writes_eq_canon _ _ _ (fun y => ⟨_, List.mem_singleton_self _, View.mem_set_unit_zero hz inb_S200x10000_S200x10000_0_0 y⟩),
      View.canon_unit_zero hz]
    simp only [View.readAt_eq_ld, harg1.read_unread, harg2.read_unread, harg3.read_unread, harg4.read_unread, harg5.read_unread, View.ld_unit_zero (S := S200x10000) hz, View.ld_unit_zero (S := S10000x128) hz, View.ld_unit_zero (S := S128x128) hz, View.ld_unit_zero (S := S1x128) hz, View.ld_unit_zero (S := S200x128) hz]
  iexists _; isplitr; · ipureintro; exact harg8.read_unread _
  iexact H7

end Cert.Kernel.Pass

end
-- ==== Proof.BitsPass0.lean ====
/-
  The first pass as a pipeline over fifty row blocks, entered from buffer contents `V`: what each window's buffer
  holds before and after the body at every point, the invariant between points (the scratch holds the feature
  transform x·W from the first point on, computed once from the input features and the weights, which every point
  sees whole), and the body's obligation at every point, by cases on whether the point is the first.
-/
import proofs.«148270_g13469017440497_cont_week2b_423_4_alg».proof.Proof.BitsRun0
import Idealize.ShloMosaic.Lib.Pipeline.Frame

set_option maxRecDepth 16384

noncomputable section

namespace Cert.Kernel.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the pass finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not: where it is not fetched its
    block index has not moved and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's current buffer holds its block at every point, fetched there or not: where it is not fetched its
    block index has not moved and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's current buffer holds its block at every point, fetched there or not: where it is not fetched its
    block index has not moved and the body left the block in place. -/
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Input window 3's current buffer holds its block at every point, fetched there or not: where it is not fetched its
    block index has not moved and the body left the block in place. -/
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- Input window 4's current buffer holds its block at every point, fetched there or not: where it is not fetched its
    block index has not moved and the body left the block in place. -/
theorem before0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-- The first of the fifty points. -/
abbrev pt0_0 : Fin cfg0.N := ⟨0, lt_of_lt_of_eq (by decide : 0 < 50) (show cfg0.N = 50 from N_0).symm⟩

/-- The feature transform the scratch holds from the first point on: the hidden state times the weights. -/
def seq0 (c : Dev nD) : Vec F S10000x128 .f32 := k0_pay1 (blk0 V c 1 pt0_0) (blk0 V c 2 pt0_0)

/-- The scratch between points: anything before the first point, the feature transform after it. -/
def scr0 (c : Dev nD) (t : Fin (cfg0.N + 1)) : sProp 𝕄 :=
  if t.val = 0 then iprop(∃ d : Vec F S10000x128 .f32, owns (c : Thread nD τ) (Memref.whole cc0_scratch0 : Memref sig .tc .vmem S10000x128 .f32) fullShare d)
  else owns (c : Thread nD τ) (Memref.whole cc0_scratch0 : Memref sig .tc .vmem S10000x128 .f32) fullShare (seq0 V c)

/-- The pass's proof data on core `c`: the arrays as found; each input's buffer left at its block, each output's at
    its function of the adjacency block and the feature transform; between points the scratch as above, the other
    scoped buffers and the generator register untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => k0_pay3 (blk0 V c 0 t) (seq0 V c) (blk0 V c 3 t) (blk0 V c 4 t)
    | ⟨6, _⟩ => k0_pay2 (blk0 V c 0 t)
  Φ t := iprop(scr0 V c t ∗ Pipeline.scopedRestBut (Ix := Unit) (Name := ℕ) (U := UR sig nD τ) (Lvl := ℕ) (Val := Elt F) spec0 c [cc0_scratch0] ∗ ∃ r, prngReg c r)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) :
    (dat0 V c).after 5 t = k0_pay3 (blk0 V c 0 t) (seq0 V c) (blk0 V c 3 t) (blk0 V c 4 t) := by dsimp only [dat0]
theorem after0_6 (c : Dev nD) (t : Fin cfg0.N) :
    (dat0 V c).after 6 t = k0_pay2 (blk0 V c 0 t) := by dsimp only [dat0]
theorem inv_eq0 (c : Dev nD) (t : Fin (cfg0.N + 1)) :
    (dat0 V c).Φ t = iprop(scr0 V c t ∗ Pipeline.scopedRestBut (Ix := Unit) (Name := ℕ) (U := UR sig nD τ) (Lvl := ℕ) (Val := Elt F) spec0 c [cc0_scratch0] ∗ ∃ r, prngReg c r) := by
  dsimp only [dat0]
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d
theorem before0_4 (c : Dev nD) (t : Fin cfg0.N) (d) : (dat0 V c).before 4 t d = blk0 V c 4 t :=
  before0_4_of V (dat0 V c) (A_eq0 V c 4) (after0_4 V c) t d

set_option maxHeartbeats 1000000 in
/-- The body at any point: at the first, the scratch is filled then read; at a later one it holds the feature
    transform already. The rest of the invariant and what the core owes pass through unread. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d))
        ∗ (∃ d, owns (c : Thread nD τ) (st0_4 t) fullShare ((dat0 V c).before 4 t d))
        ∗ (∃ d, owns (c : Thread nD τ) (st0_5 t) fullShare ((dat0 V c).before 5 t d))
        ∗ (∃ d, owns (c : Thread nD τ) (st0_6 t) fullShare ((dat0 V c).before 6 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)
            ∗ owns (c : Thread nD τ) (st0_3 t) fullShare ((dat0 V c).after 3 t)
            ∗ owns (c : Thread nD τ) (st0_4 t) fullShare ((dat0 V c).after 4 t)
            ∗ owns (c : Thread nD τ) (st0_5 t) fullShare ((dat0 V c).after 5 t)
            ∗ owns (c : Thread nD τ) (st0_6 t) fullShare ((dat0 V c).after 6 t))) := by
  unfold bodyAt0
  simp only [before0_0, before0_1, before0_2, before0_3, before0_4]
  rw [show (dat0 V c).owesAt () t.succ = (dat0 V c).owesAt () t.castSucc from rfl,
    after0_0, after0_1, after0_2, after0_3, after0_4, after0_5, after0_6, inv_eq0, inv_eq0]
  have hN : t.val < 50 := lt_of_lt_of_eq t.isLt (show cfg0.N = 50 from N_0)
  unfold scr0
  rw [if_neg (show ¬ t.succ.val = 0 from Nat.succ_ne_zero _)]
  by_cases h0 : t.val % 50 = 0
  · obtain rfl : t = pt0_0 := Fin.ext (by show t.val = 0; omega)
    rw [if_pos (show (pt0_0 : Fin cfg0.N).castSucc.val = 0 from rfl)]
    unfold seq0
    iintro ⟨⟨Hs, Hr, Hp⟩, Ho, ⟨%d0, H0⟩, ⟨%d1, H1⟩, ⟨%d2, H2⟩, ⟨%d3, H3⟩, ⟨%d4, H4⟩, ⟨%d5, H5⟩, ⟨%d6, H6⟩⟩
    iapply (runFirst0 c (grid0.coords pt0_0) _ _ _ _ _ _ _ _ _ _ _ _ _ _ _ _ ((first0_iff pt0_0).mpr h0)
      (blk0 V c 0 pt0_0) (blk0 V c 1 pt0_0) (blk0 V c 2 pt0_0) (blk0 V c 3 pt0_0) (blk0 V c 4 pt0_0) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Hs]; · iexact Hs
    iintro ⟨H0, H1, H2, H3, H4, H5, H6, Hs⟩
    isplitl [Hs Hr Hp]
    · isplitl [Hs]; · iexact Hs
      isplitl [Hr]; · iexact Hr
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [if_neg (show ¬ t.castSucc.val = 0 from fun h => h0 (by rw [show t.val = 0 from h]))]
    iintro ⟨⟨Hs, Hr, Hp⟩, Ho, ⟨%d0, H0⟩, ⟨%d1, H1⟩, ⟨%d2, H2⟩, ⟨%d3, H3⟩, ⟨%d4, H4⟩, ⟨%d5, H5⟩, ⟨%d6, H6⟩⟩
    iapply (runLater0 c (grid0.coords t) _ _ _ _ _ _ _ _ _ _ _ _ _ _ _ _ (fun h => h0 ((first0_iff t).mp h))
      (blk0 V c 0 t) (blk0 V c 1 t) (blk0 V c 2 t) (blk0 V c 3 t) (blk0 V c 4 t) (seq0 V c) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Hs]; · iexact Hs
    iintro ⟨H0, H1, H2, H3, H4, H5, H6, Hs⟩
    isplitl [Hs Hr Hp]
    · isplitl [Hs]; · iexact Hs
      isplitl [Hr]; · iexact Hr
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The pipeline library's body obligation for the pass, at every point. -/
theorem body_obligation0 (c : Dev nD) : BodyObligation (dat0 (F := F) V c) (defs₀ (F := F)) Variants.none () Set.univ := fun t => by
  rw [bigSep_W0, bigSep_W0]
  exact sound_body0 V c t

end

end Cert.Kernel.Pass

end
-- ==== Proof.BitsRun1.lean ====
/-
  The kernel body of pass 2 (one row block of the adjacency, stored in bf16, against the hidden state kept whole on
  chip): what it leaves at the first grid point, where the feature transform h·W is written to the scratch before being
  read back, and at every later point, where the scratch is only read. In both cases the inputs' buffers come back as
  they were, the output block holds the activation of (adjacency block)·(scratch) + bias, and the scratch holds the
  feature transform.
-/
import proofs.«148270_g13469017440497_cont_week2b_423_4_alg».proof.Proof.Gen.Kernel.Launch
import proofs.«148270_g13469017440497_cont_week2b_423_4_alg».proof.Proof.Gen.Kernel.Skeleton
import proofs.«148270_g13469017440497_cont_week2b_423_4_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a rank-2 whole-block access. -/
theorem zeros2_1 : (![0, 0] : Fin 2 → Nat) = fun _ => 0 := funext fun a => by fin_cases a <;> rfl

/-- The body's branch: the grid coordinate is zero (the first row block). -/
abbrev first1 (i : grid1.Coords) : Prop := (Scalar.cmpi .ne (Scalar.extui (Scalar.cmpi .eq (BitVec.ofNat 32 (i 0).val) 0#32)) 0#32) = 1#1
/-- It holds at the first of the fifty points only. -/
theorem first1_iff : ∀ t : Fin cfg1.N, first1 (grid1.coords t) ↔ t.val % 50 = 0 :=
  (by decide +kernel : ∀ t : Fin grid1.N, first1 (grid1.coords t) ↔ t.val % 50 = 0)

set_option maxHeartbeats 1000000 in
/-- At the first point: the scratch, whatever it held, ends at the feature transform of the two operands it was computed
    from, and the output block at the activation of the adjacency block against that transform. -/
theorem runFirst1 (c : Dev nD) (i : grid1.Coords)
    (arg1 : Memref sig .tc .vmem S200x10000 .bf16) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S200x128 .f32) (harg6 : arg6.IsWhole)
    (arg7 : Memref sig .tc .vmem S10000x128 .bf16) (harg7 : arg7.IsWhole) (hc : first1 i)
    (x0 : Vec F S200x10000 .bf16) (x1 : Vec F S10000x128 .f32) (x2 : Vec F S128x128 .f32) (x3 : Vec F S1x128 .f32) (x4 : Vec F S1x128 .f32) (E : Set ℕ) (K : PUnit → sProp 𝕄) :
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ owns (c : Thread nD τ) arg6 fullShare (k1_pay2 x0 (k1_pay1 x1 x2) x3 x4)
                ∗ owns (c : Thread nD τ) arg7 fullShare (k1_pay1 x1 x2)) -∗ K ⟨⟩))
          ⊢ wp frame (wpE (defs₀ (F := F)) Variants.none c none) E (cc1__bf16_pass_kernel i arg1 harg1 arg2 harg2 arg3 harg3 arg4 harg4 arg5 harg5 arg6 harg6 arg7 harg7) K := by
  have hz := zeros2_1
  simp only [cc1__bf16_pass_kernel_eq_skeleton]; unfold cc1__bf16_pass_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf0
  obtain rfl := harg2.eq_unread hf1
  obtain rfl := harg3.eq_unread hf2
  obtain rfl := harg4.eq_unread hf3
  obtain rfl := harg5.eq_unread hf4
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_unfold_words
    rw [View.read_writes_eq_canon _ _ _ (fun y => ⟨_, List.mem_singleton_self _, View.mem_set_unit_zero hz inb_S200x128_S200x128_0_0 y⟩),
      View.canon_unit_zero hz, View.readCov_unit_zero _ hz]
    simp only [View.readAt_eq_ld, harg1.read_unread, harg2.read_unread, harg3.read_unread, harg4.read_unread, harg5.read_unread,
      View.ld_unit_zero (S := S200x10000) hz, View.ld_unit_zero (S := S10000x128) hz, View.ld_unit_zero (S := S128x128) hz,
      View.ld_unit_zero (S := S1x128) hz]
  iexists _; isplitr; swap; · iexact H6
  ipureintro
  sl_unfold_words
  rw [View.read_writes_eq_canon _ _ _ (fun y => ⟨_, List.mem_singleton_self _, View.mem_set_unit_zero hz inb_S10000x128_S10000x128_0_0 y⟩),
    View.canon_unit_zero hz]
  simp only [View.readAt_eq_ld, harg1.read_unread, harg2.read_unread, harg3.read_unread, harg4.read_unread, harg5.read_unread,
    View.ld_unit_zero (S := S200x10000) hz, View.ld_unit_zero (S := S10000x128) hz, View.ld_unit_zero (S := S128x128) hz,
    View.ld_unit_zero (S := S1x128) hz]

set_option maxHeartbeats 1000000 in
/-- At a later point: the scratch is read as found and left as found, and the output block holds the activation of the
    adjacency block against it. -/
theorem runLater1 (c : Dev nD) (i : grid1.Coords)
    (arg1 : Memref sig .tc .vmem S200x10000 .bf16) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S200x128 .f32) (harg6 : arg6.IsWhole)
    (arg7 : Memref sig .tc .vmem S10000x128 .bf16) (harg7 : arg7.IsWhole) (hc : ¬ first1 i)
    (x0 : Vec F S200x10000 .bf16) (x1 : Vec F S10000x128 .f32) (x2 : Vec F S128x128 .f32) (x3 : Vec F S1x128 .f32) (x4 : Vec F S1x128 .f32) (s : Vec F S10000x128 .bf16) (E : Set ℕ) (K : PUnit → sProp 𝕄) :
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare s
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ owns (c : Thread nD τ) arg6 fullShare (k1_pay2 x0 s x3 x4)
                ∗ owns (c : Thread nD τ) arg7 fullShare s) -∗ K ⟨⟩))
          ⊢ wp frame (wpE (defs₀ (F := F)) Variants.none c none) E (cc1__bf16_pass_kernel i arg1 harg1 arg2 harg2 arg3 harg3 arg4 harg4 arg5 harg5 arg6 harg6 arg7 harg7) K := by
  have hz := zeros2_1
  simp only [cc1__bf16_pass_kernel_eq_skeleton]; unfold cc1__bf16_pass_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg7.eq_unread hf6
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_unfold_words
    rw [View.read_writes_eq_canon _ _ _ (fun y => ⟨_, List.mem_singleton_self _, View.mem_set_unit_zero hz inb_S200x128_S200x128_0_0 y⟩),
      View.canon_unit_zero hz]
    simp only [View.readAt_eq_ld, harg1.read_unread, harg4.read_unread, harg5.read_unread, harg7.read_unread,
      View.ld_unit_zero (S := S200x10000) hz, View.ld_unit_zero (S := S10000x128) hz, View.ld_unit_zero (S := S1x128) hz]
  iexists _; isplitr; · ipureintro; exact harg7.read_unread _
  iexact H6

end Cert.Kernel.Pass

end
-- ==== Proof.BitsPass1.lean ====
/-
  The second pass as a pipeline over fifty row blocks, entered from buffer contents `V`: what each window's buffer
  holds before and after the body at every point, the invariant between points (the scratch holds the feature
  transform h·W from the first point on, computed once from the hidden state and the weights, which every point
  sees whole), and the body's obligation at every point, by cases on whether the point is the first.
-/
import proofs.«148270_g13469017440497_cont_week2b_423_4_alg».proof.Proof.BitsRun1
import Idealize.ShloMosaic.Lib.Pipeline.Frame

set_option maxRecDepth 16384

noncomputable section

namespace Cert.Kernel.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the pass finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not: where it is not fetched its
    block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's current buffer holds its block at every point, fetched there or not: where it is not fetched its
    block index has not moved and the body left the block in place. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's current buffer holds its block at every point, fetched there or not: where it is not fetched its
    block index has not moved and the body left the block in place. -/
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Input window 3's current buffer holds its block at every point, fetched there or not: where it is not fetched its
    block index has not moved and the body left the block in place. -/
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Input window 4's current buffer holds its block at every point, fetched there or not: where it is not fetched its
    block index has not moved and the body left the block in place. -/
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- The first of the fifty points. -/
abbrev pt0_1 : Fin cfg1.N := ⟨0, lt_of_lt_of_eq (by decide : 0 < 50) (show cfg1.N = 50 from N_1).symm⟩

/-- The feature transform the scratch holds from the first point on: the hidden state times the weights. -/
def seq1 (c : Dev nD) : Vec F S10000x128 .bf16 := k1_pay1 (blk1 V c 1 pt0_1) (blk1 V c 2 pt0_1)

/-- The scratch between points: anything before the first point, the feature transform after it. -/
def scr1 (c : Dev nD) (t : Fin (cfg1.N + 1)) : sProp 𝕄 :=
  if t.val = 0 then iprop(∃ d : Vec F S10000x128 .bf16, owns (c : Thread nD τ) (Memref.whole cc1_scratch0 : Memref sig .tc .vmem S10000x128 .bf16) fullShare d)
  else owns (c : Thread nD τ) (Memref.whole cc1_scratch0 : Memref sig .tc .vmem S10000x128 .bf16) fullShare (seq1 V c)

/-- The pass's proof data on core `c`: the arrays as found; each input's buffer left at its block, each output's at
    its function of the adjacency block and the feature transform; between points the scratch as above, the other
    scoped buffers and the generator register untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => k1_pay2 (blk1 V c 0 t) (seq1 V c) (blk1 V c 3 t) (blk1 V c 4 t)
  Φ t := iprop(scr1 V c t ∗ Pipeline.scopedRestBut (Ix := Unit) (Name := ℕ) (U := UR sig nD τ) (Lvl := ℕ) (Val := Elt F) spec1 c [cc1_scratch0] ∗ ∃ r, prngReg c r)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) :
    (dat1 V c).after 5 t = k1_pay2 (blk1 V c 0 t) (seq1 V c) (blk1 V c 3 t) (blk1 V c 4 t) := by dsimp only [dat1]
theorem inv_eq1 (c : Dev nD) (t : Fin (cfg1.N + 1)) :
    (dat1 V c).Φ t = iprop(scr1 V c t ∗ Pipeline.scopedRestBut (Ix := Unit) (Name := ℕ) (U := UR sig nD τ) (Lvl := ℕ) (Val := Elt F) spec1 c [cc1_scratch0] ∗ ∃ r, prngReg c r) := by
  dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d

set_option maxHeartbeats 1000000 in
/-- The body at any point: at the first, the scratch is filled then read; at a later one it holds the feature
    transform already. The rest of the invariant and what the core owes pass through unread. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d))
        ∗ (∃ d, owns (c : Thread nD τ) (st1_4 t) fullShare ((dat1 V c).before 4 t d))
        ∗ (∃ d, owns (c : Thread nD τ) (st1_5 t) fullShare ((dat1 V c).before 5 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t)
            ∗ owns (c : Thread nD τ) (st1_4 t) fullShare ((dat1 V c).after 4 t)
            ∗ owns (c : Thread nD τ) (st1_5 t) fullShare ((dat1 V c).after 5 t))) := by
  unfold bodyAt1
  simp only [before1_0, before1_1, before1_2, before1_3, before1_4]
  rw [show (dat1 V c).owesAt () t.succ = (dat1 V c).owesAt () t.castSucc from rfl,
    after1_0, after1_1, after1_2, after1_3, after1_4, after1_5, inv_eq1, inv_eq1]
  have hN : t.val < 50 := lt_of_lt_of_eq t.isLt (show cfg1.N = 50 from N_1)
  unfold scr1
  rw [if_neg (show ¬ t.succ.val = 0 from Nat.succ_ne_zero _)]
  by_cases h0 : t.val % 50 = 0
  · obtain rfl : t = pt0_1 := Fin.ext (by show t.val = 0; omega)
    rw [if_pos (show (pt0_1 : Fin cfg1.N).castSucc.val = 0 from rfl)]
    unfold seq1
    iintro ⟨⟨Hs, Hr, Hp⟩, Ho, ⟨%d0, H0⟩, ⟨%d1, H1⟩, ⟨%d2, H2⟩, ⟨%d3, H3⟩, ⟨%d4, H4⟩, ⟨%d5, H5⟩⟩
    iapply (runFirst1 c (grid1.coords pt0_1) _ _ _ _ _ _ _ _ _ _ _ _ _ _ ((first1_iff pt0_1).mpr h0)
      (blk1 V c 0 pt0_1) (blk1 V c 1 pt0_1) (blk1 V c 2 pt0_1) (blk1 V c 3 pt0_1) (blk1 V c 4 pt0_1) Set.univ _)
    isplitl [H0]; · iexact H0
    isplitl [H1]; · iexact H1
    isplitl [H2]; · iexact H2
    isplitl [H3]; · iexact H3
    isplitl [H4]; · iexact H4
    isplitl [H5]; · iexists _; iexact H5
    isplitl [Hs]; · iexact Hs
    iintro ⟨H0, H1, H2, H3, H4, H5, Hs⟩
    isplitl [Hs Hr Hp]
    · isplitl [Hs]; · iexact Hs
      isplitl [Hr]; · iexact Hr
      iexact Hp
    isplitl [Ho]; · iexact Ho
    isplitl [H0]; · iexact H0
    isplitl [H1]; · iexact H1
    isplitl [H2]; · iexact H2
    isplitl [H3]; · iexact H3
    isplitl [H4]; · iexact H4
    iexact H5
  · rw [if_neg (show ¬ t.castSucc.val = 0 from fun h => h0 (by rw [show t.val = 0 from h]))]
    iintro ⟨⟨Hs, Hr, Hp⟩, Ho, ⟨%d0, H0⟩, ⟨%d1, H1⟩, ⟨%d2, H2⟩, ⟨%d3, H3⟩, ⟨%d4, H4⟩, ⟨%d5, H5⟩⟩
    iapply (runLater1 c (grid1.coords t) _ _ _ _ _ _ _ _ _ _ _ _ _ _ (fun h => h0 ((first1_iff t).mp h))
      (blk1 V c 0 t) (blk1 V c 1 t) (blk1 V c 2 t) (blk1 V c 3 t) (blk1 V c 4 t) (seq1 V c) Set.univ _)
    isplitl [H0]; · iexact H0
    isplitl [H1]; · iexact H1
    isplitl [H2]; · iexact H2
    isplitl [H3]; · iexact H3
    isplitl [H4]; · iexact H4
    isplitl [H5]; · iexists _; iexact H5
    isplitl [Hs]; · iexact Hs
    iintro ⟨H0, H1, H2, H3, H4, H5, Hs⟩
    isplitl [Hs Hr Hp]
    · isplitl [Hs]; · iexact Hs
      isplitl [Hr]; · iexact Hr
      iexact Hp
    isplitl [Ho]; · iexact Ho
    isplitl [H0]; · iexact H0
    isplitl [H1]; · iexact H1
    isplitl [H2]; · iexact H2
    isplitl [H3]; · iexact H3
    isplitl [H4]; · iexact H4
    iexact H5

/-- The pipeline library's body obligation for the pass, at every point. -/
theorem body_obligation1 (c : Dev nD) : BodyObligation (dat1 (F := F) V c) (defs₀ (F := F)) Variants.none () Set.univ := fun t => by
  rw [bigSep_W1, bigSep_W1]
  exact sound_body1 V c t

end

end Cert.Kernel.Pass

end
-- ==== Proof.BitsRun2.lean ====
/-
  The kernel body of pass 3 (one row block of the adjacency, stored in bf16, against the hidden state kept whole on
  chip): what it leaves at the first grid point, where the feature transform h·W is written to the scratch before being
  read back, and at every later point, where the scratch is only read. In both cases the inputs' buffers come back as
  they were, the output block holds the activation of (adjacency block)·(scratch) + bias, and the scratch holds the
  feature transform.
-/
import proofs.«148270_g13469017440497_cont_week2b_423_4_alg».proof.Proof.Gen.Kernel.Launch
import proofs.«148270_g13469017440497_cont_week2b_423_4_alg».proof.Proof.Gen.Kernel.Skeleton
import proofs.«148270_g13469017440497_cont_week2b_423_4_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a rank-2 whole-block access. -/
theorem zeros2_2 : (![0, 0] : Fin 2 → Nat) = fun _ => 0 := funext fun a => by fin_cases a <;> rfl

/-- The body's branch: the grid coordinate is zero (the first row block). -/
abbrev first2 (i : grid2.Coords) : Prop := (Scalar.cmpi .ne (Scalar.extui (Scalar.cmpi .eq (BitVec.ofNat 32 (i 0).val) 0#32)) 0#32) = 1#1
/-- It holds at the first of the fifty points only. -/
theorem first2_iff : ∀ t : Fin cfg2.N, first2 (grid2.coords t) ↔ t.val % 50 = 0 :=
  (by decide +kernel : ∀ t : Fin grid2.N, first2 (grid2.coords t) ↔ t.val % 50 = 0)

set_option maxHeartbeats 1000000 in
/-- At the first point: the scratch, whatever it held, ends at the feature transform of the two operands it was computed
    from, and the output block at the activation of the adjacency block against that transform. -/
theorem runFirst2 (c : Dev nD) (i : grid2.Coords)
    (arg1 : Memref sig .tc .vmem S200x10000 .bf16) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S200x128 .f32) (harg6 : arg6.IsWhole)
    (arg7 : Memref sig .tc .vmem S10000x128 .bf16) (harg7 : arg7.IsWhole) (hc : first2 i)
    (x0 : Vec F S200x10000 .bf16) (x1 : Vec F S10000x128 .f32) (x2 : Vec F S128x128 .f32) (x3 : Vec F S1x128 .f32) (x4 : Vec F S1x128 .f32) (E : Set ℕ) (K : PUnit → sProp 𝕄) :
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ owns (c : Thread nD τ) arg6 fullShare (k2_pay2 x0 (k2_pay1 x1 x2) x3 x4)
                ∗ owns (c : Thread nD τ) arg7 fullShare (k2_pay1 x1 x2)) -∗ K ⟨⟩))
          ⊢ wp frame (wpE (defs₀ (F := F)) Variants.none c none) E (cc2__bf16_pass_kernel i arg1 harg1 arg2 harg2 arg3 harg3 arg4 harg4 arg5 harg5 arg6 harg6 arg7 harg7) K := by
  have hz := zeros2_2
  simp only [cc2__bf16_pass_kernel_eq_skeleton]; unfold cc2__bf16_pass_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf0
  obtain rfl := harg2.eq_unread hf1
  obtain rfl := harg3.eq_unread hf2
  obtain rfl := harg4.eq_unread hf3
  obtain rfl := harg5.eq_unread hf4
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_unfold_words
    rw [View.read_writes_eq_canon _ _ _ (fun y => ⟨_, List.mem_singleton_self _, View.mem_set_unit_zero hz inb_S200x128_S200x128_0_0 y⟩),
      View.canon_unit_zero hz, View.readCov_unit_zero _ hz]
    simp only [View.readAt_eq_ld, harg1.read_unread, harg2.read_unread, harg3.read_unread, harg4.read_unread, harg5.read_unread,
      View.ld_unit_zero (S := S200x10000) hz, View.ld_unit_zero (S := S10000x128) hz, View.ld_unit_zero (S := S128x128) hz,
      View.ld_unit_zero (S := S1x128) hz]
  iexists _; isplitr; swap; · iexact H6
  ipureintro
  sl_unfold_words
  rw [View.read_writes_eq_canon _ _ _ (fun y => ⟨_, List.mem_singleton_self _, View.mem_set_unit_zero hz inb_S10000x128_S10000x128_0_0 y⟩),
    View.canon_unit_zero hz]
  simp only [View.readAt_eq_ld, harg1.read_unread, harg2.read_unread, harg3.read_unread, harg4.read_unread, harg5.read_unread,
    View.ld_unit_zero (S := S200x10000) hz, View.ld_unit_zero (S := S10000x128) hz, View.ld_unit_zero (S := S128x128) hz,
    View.ld_unit_zero (S := S1x128) hz]

set_option maxHeartbeats 1000000 in
/-- At a later point: the scratch is read as found and left as found, and the output block holds the activation of the
    adjacency block against it. -/
theorem runLater2 (c : Dev nD) (i : grid2.Coords)
    (arg1 : Memref sig .tc .vmem S200x10000 .bf16) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S200x128 .f32) (harg6 : arg6.IsWhole)
    (arg7 : Memref sig .tc .vmem S10000x128 .bf16) (harg7 : arg7.IsWhole) (hc : ¬ first2 i)
    (x0 : Vec F S200x10000 .bf16) (x1 : Vec F S10000x128 .f32) (x2 : Vec F S128x128 .f32) (x3 : Vec F S1x128 .f32) (x4 : Vec F S1x128 .f32) (s : Vec F S10000x128 .bf16) (E : Set ℕ) (K : PUnit → sProp 𝕄) :
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare s
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ owns (c : Thread nD τ) arg6 fullShare (k2_pay2 x0 s x3 x4)
                ∗ owns (c : Thread nD τ) arg7 fullShare s) -∗ K ⟨⟩))
          ⊢ wp frame (wpE (defs₀ (F := F)) Variants.none c none) E (cc2__bf16_pass_kernel i arg1 harg1 arg2 harg2 arg3 harg3 arg4 harg4 arg5 harg5 arg6 harg6 arg7 harg7) K := by
  have hz := zeros2_2
  simp only [cc2__bf16_pass_kernel_eq_skeleton]; unfold cc2__bf16_pass_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg7.eq_unread hf6
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_unfold_words
    rw [View.read_writes_eq_canon _ _ _ (fun y => ⟨_, List.mem_singleton_self _, View.mem_set_unit_zero hz inb_S200x128_S200x128_0_0 y⟩),
      View.canon_unit_zero hz]
    simp only [View.readAt_eq_ld, harg1.read_unread, harg4.read_unread, harg5.read_unread, harg7.read_unread,
      View.ld_unit_zero (S := S200x10000) hz, View.ld_unit_zero (S := S10000x128) hz, View.ld_unit_zero (S := S1x128) hz]
  iexists _; isplitr; · ipureintro; exact harg7.read_unread _
  iexact H6

end Cert.Kernel.Pass

end
-- ==== Proof.BitsPass2.lean ====
/-
  The third pass as a pipeline over fifty row blocks, entered from buffer contents `V`: what each window's buffer
  holds before and after the body at every point, the invariant between points (the scratch holds the feature
  transform h·W from the first point on, computed once from the hidden state and the weights, which every point
  sees whole), and the body's obligation at every point, by cases on whether the point is the first.
-/
import proofs.«148270_g13469017440497_cont_week2b_423_4_alg».proof.Proof.BitsRun2
import Idealize.ShloMosaic.Lib.Pipeline.Frame

set_option maxRecDepth 16384

noncomputable section

namespace Cert.Kernel.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the pass finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not: where it is not fetched its
    block index has not moved and the body left the block in place. -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- Input window 1's current buffer holds its block at every point, fetched there or not: where it is not fetched its
    block index has not moved and the body left the block in place. -/
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- Input window 2's current buffer holds its block at every point, fetched there or not: where it is not fetched its
    block index has not moved and the body left the block in place. -/
theorem before2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- Input window 3's current buffer holds its block at every point, fetched there or not: where it is not fetched its
    block index has not moved and the body left the block in place. -/
theorem before2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-- Input window 4's current buffer holds its block at every point, fetched there or not: where it is not fetched its
    block index has not moved and the body left the block in place. -/
theorem before2_4_of {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)

/-- The first of the fifty points. -/
abbrev pt0_2 : Fin cfg2.N := ⟨0, lt_of_lt_of_eq (by decide : 0 < 50) (show cfg2.N = 50 from N_2).symm⟩

/-- The feature transform the scratch holds from the first point on: the hidden state times the weights. -/
def seq2 (c : Dev nD) : Vec F S10000x128 .bf16 := k2_pay1 (blk2 V c 1 pt0_2) (blk2 V c 2 pt0_2)

/-- The scratch between points: anything before the first point, the feature transform after it. -/
def scr2 (c : Dev nD) (t : Fin (cfg2.N + 1)) : sProp 𝕄 :=
  if t.val = 0 then iprop(∃ d : Vec F S10000x128 .bf16, owns (c : Thread nD τ) (Memref.whole cc2_scratch0 : Memref sig .tc .vmem S10000x128 .bf16) fullShare d)
  else owns (c : Thread nD τ) (Memref.whole cc2_scratch0 : Memref sig .tc .vmem S10000x128 .bf16) fullShare (seq2 V c)

/-- The pass's proof data on core `c`: the arrays as found; each input's buffer left at its block, each output's at
    its function of the adjacency block and the feature transform; between points the scratch as above, the other
    scoped buffers and the generator register untouched; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => k2_pay2 (blk2 V c 0 t) (seq2 V c) (blk2 V c 3 t) (blk2 V c 4 t)
  Φ t := iprop(scr2 V c t ∗ Pipeline.scopedRestBut (Ix := Unit) (Name := ℕ) (U := UR sig nD τ) (Lvl := ℕ) (Val := Elt F) spec2 c [cc2_scratch0] ∗ ∃ r, prngReg c r)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) :
    (dat2 V c).after 5 t = k2_pay2 (blk2 V c 0 t) (seq2 V c) (blk2 V c 3 t) (blk2 V c 4 t) := by dsimp only [dat2]
theorem inv_eq2 (c : Dev nD) (t : Fin (cfg2.N + 1)) :
    (dat2 V c).Φ t = iprop(scr2 V c t ∗ Pipeline.scopedRestBut (Ix := Unit) (Name := ℕ) (U := UR sig nD τ) (Lvl := ℕ) (Val := Elt F) spec2 c [cc2_scratch0] ∗ ∃ r, prngReg c r) := by
  dsimp only [dat2]
theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d
theorem before2_2 (c : Dev nD) (t : Fin cfg2.N) (d) : (dat2 V c).before 2 t d = blk2 V c 2 t :=
  before2_2_of V (dat2 V c) (A_eq2 V c 2) (after2_2 V c) t d
theorem before2_3 (c : Dev nD) (t : Fin cfg2.N) (d) : (dat2 V c).before 3 t d = blk2 V c 3 t :=
  before2_3_of V (dat2 V c) (A_eq2 V c 3) (after2_3 V c) t d
theorem before2_4 (c : Dev nD) (t : Fin cfg2.N) (d) : (dat2 V c).before 4 t d = blk2 V c 4 t :=
  before2_4_of V (dat2 V c) (A_eq2 V c 4) (after2_4 V c) t d

set_option maxHeartbeats 1000000 in
/-- The body at any point: at the first, the scratch is filled then read; at a later one it holds the feature
    transform already. The rest of the invariant and what the core owes pass through unread. -/
theorem sound_body2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d))
        ∗ (∃ d, owns (c : Thread nD τ) (st2_3 t) fullShare ((dat2 V c).before 3 t d))
        ∗ (∃ d, owns (c : Thread nD τ) (st2_4 t) fullShare ((dat2 V c).before 4 t d))
        ∗ (∃ d, owns (c : Thread nD τ) (st2_5 t) fullShare ((dat2 V c).before 5 t d)))
      ⊢ wp frame (wpE (defs₀ (F := F)) Variants.none c none) Set.univ (bodyAt2 t) (fun _ =>
          iprop((dat2 V c).Φ t.succ ∗ (dat2 V c).owesAt () t.succ
            ∗ owns (c : Thread nD τ) (st2_0 t) fullShare ((dat2 V c).after 0 t)
            ∗ owns (c : Thread nD τ) (st2_1 t) fullShare ((dat2 V c).after 1 t)
            ∗ owns (c : Thread nD τ) (st2_2 t) fullShare ((dat2 V c).after 2 t)
            ∗ owns (c : Thread nD τ) (st2_3 t) fullShare ((dat2 V c).after 3 t)
            ∗ owns (c : Thread nD τ) (st2_4 t) fullShare ((dat2 V c).after 4 t)
            ∗ owns (c : Thread nD τ) (st2_5 t) fullShare ((dat2 V c).after 5 t))) := by
  unfold bodyAt2
  simp only [before2_0, before2_1, before2_2, before2_3, before2_4]
  rw [show (dat2 V c).owesAt () t.succ = (dat2 V c).owesAt () t.castSucc from rfl,
    after2_0, after2_1, after2_2, after2_3, after2_4, after2_5, inv_eq2, inv_eq2]
  have hN : t.val < 50 := lt_of_lt_of_eq t.isLt (show cfg2.N = 50 from N_2)
  unfold scr2
  rw [if_neg (show ¬ t.succ.val = 0 from Nat.succ_ne_zero _)]
  by_cases h0 : t.val % 50 = 0
  · obtain rfl : t = pt0_2 := Fin.ext (by show t.val = 0; omega)
    rw [if_pos (show (pt0_2 : Fin cfg2.N).castSucc.val = 0 from rfl)]
    unfold seq2
    iintro ⟨⟨Hs, Hr, Hp⟩, Ho, ⟨%d0, H0⟩, ⟨%d1, H1⟩, ⟨%d2, H2⟩, ⟨%d3, H3⟩, ⟨%d4, H4⟩, ⟨%d5, H5⟩⟩
    iapply (runFirst2 c (grid2.coords pt0_2) _ _ _ _ _ _ _ _ _ _ _ _ _ _ ((first2_iff pt0_2).mpr h0)
      (blk2 V c 0 pt0_2) (blk2 V c 1 pt0_2) (blk2 V c 2 pt0_2) (blk2 V c 3 pt0_2) (blk2 V c 4 pt0_2) Set.univ _)
    isplitl [H0]; · iexact H0
    isplitl [H1]; · iexact H1
    isplitl [H2]; · iexact H2
    isplitl [H3]; · iexact H3
    isplitl [H4]; · iexact H4
    isplitl [H5]; · iexists _; iexact H5
    isplitl [Hs]; · iexact Hs
    iintro ⟨H0, H1, H2, H3, H4, H5, Hs⟩
    isplitl [Hs Hr Hp]
    · isplitl [Hs]; · iexact Hs
      isplitl [Hr]; · iexact Hr
      iexact Hp
    isplitl [Ho]; · iexact Ho
    isplitl [H0]; · iexact H0
    isplitl [H1]; · iexact H1
    isplitl [H2]; · iexact H2
    isplitl [H3]; · iexact H3
    isplitl [H4]; · iexact H4
    iexact H5
  · rw [if_neg (show ¬ t.castSucc.val = 0 from fun h => h0 (by rw [show t.val = 0 from h]))]
    iintro ⟨⟨Hs, Hr, Hp⟩, Ho, ⟨%d0, H0⟩, ⟨%d1, H1⟩, ⟨%d2, H2⟩, ⟨%d3, H3⟩, ⟨%d4, H4⟩, ⟨%d5, H5⟩⟩
    iapply (runLater2 c (grid2.coords t) _ _ _ _ _ _ _ _ _ _ _ _ _ _ (fun h => h0 ((first2_iff t).mp h))
      (blk2 V c 0 t) (blk2 V c 1 t) (blk2 V c 2 t) (blk2 V c 3 t) (blk2 V c 4 t) (seq2 V c) Set.univ _)
    isplitl [H0]; · iexact H0
    isplitl [H1]; · iexact H1
    isplitl [H2]; · iexact H2
    isplitl [H3]; · iexact H3
    isplitl [H4]; · iexact H4
    isplitl [H5]; · iexists _; iexact H5
    isplitl [Hs]; · iexact Hs
    iintro ⟨H0, H1, H2, H3, H4, H5, Hs⟩
    isplitl [Hs Hr Hp]
    · isplitl [Hs]; · iexact Hs
      isplitl [Hr]; · iexact Hr
      iexact Hp
    isplitl [Ho]; · iexact Ho
    isplitl [H0]; · iexact H0
    isplitl [H1]; · iexact H1
    isplitl [H2]; · iexact H2
    isplitl [H3]; · iexact H3
    isplitl [H4]; · iexact H4
    iexact H5

/-- The pipeline library's body obligation for the pass, at every point. -/
theorem body_obligation2 (c : Dev nD) : BodyObligation (dat2 (F := F) V c) (defs₀ (F := F)) Variants.none () Set.univ := fun t => by
  rw [bigSep_W2, bigSep_W2]
  exact sound_body2 V c t

end

end Cert.Kernel.Pass

end
-- ==== Proof.BitsRun3.lean ====
/-
  The kernel body of the last pass, which computes the four heads at once from weights laid side by side (one row block
  of the adjacency against the final hidden state kept whole on chip): what it leaves at the first grid point, where
  the 512-wide feature transform h·[W₃ W₄ W₅ W₆] is written to the scratch before being read back, and at every later
  point, where the scratch is only read. The inputs' buffers come back as they were; output block j holds columns
  128·j … 128·j+127 of the activation of (adjacency block)·(scratch) + bias; the scratch holds the feature transform.
-/
import proofs.«148270_g13469017440497_cont_week2b_423_4_alg».proof.Proof.Gen.Kernel.Launch
import proofs.«148270_g13469017440497_cont_week2b_423_4_alg».proof.Proof.Gen.Kernel.Skeleton
import proofs.«148270_g13469017440497_cont_week2b_423_4_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a rank-2 whole-block access. -/
theorem zeros2_3 : (![0, 0] : Fin 2 → Nat) = fun _ => 0 := funext fun a => by fin_cases a <;> rfl

/-- The body's branch: the grid coordinate is zero (the first row block). -/
abbrev first3 (i : grid3.Coords) : Prop := (Scalar.cmpi .ne (Scalar.extui (Scalar.cmpi .eq (BitVec.ofNat 32 (i 0).val) 0#32)) 0#32) = 1#1
/-- It holds at the first of the fifty points only. -/
theorem first3_iff : ∀ t : Fin cfg3.N, first3 (grid3.coords t) ↔ t.val % 50 = 0 :=
  (by decide +kernel : ∀ t : Fin grid3.N, first3 (grid3.coords t) ↔ t.val % 50 = 0)

set_option maxHeartbeats 2000000 in
/-- At the first point: the scratch, whatever it held, ends at the feature transform of the two operands it was computed
    from, and each output block at its function of the adjacency block and that transform. -/
theorem runFirst3 (c : Dev nD) (i : grid3.Coords)
    (arg1 : Memref sig .tc .vmem S200x10000 .bf16) (harg1 : arg1.IsWhole) (arg2 : Memref sig .tc .vmem S10000x128 .f32) (harg2 : arg2.IsWhole) (arg3 : Memref sig .tc .vmem S128x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S200x128 .f32) (harg8 : arg8.IsWhole) (arg9 : Memref sig .tc .vmem S200x128 .f32) (harg9 : arg9.IsWhole) (arg10 : Memref sig .tc .vmem S10000x512 .bf16) (harg10 : arg10.IsWhole) (hc : first3 i)
    (x0 : Vec F S200x10000 .bf16) (x1 : Vec F S10000x128 .f32) (x2 : Vec F S128x512 .f32) (x3 : Vec F S1x512 .f32) (x4 : Vec F S1x512 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare (k3_pay3 x0 (k3_pay1 x1 x2) x3 x4)
                ∗ owns (c : Thread nD τ) arg7 fullShare (k3_pay4 x0 (k3_pay1 x1 x2) x3 x4)
                ∗ owns (c : Thread nD τ) arg8 fullShare (k3_pay5 x0 (k3_pay1 x1 x2) x3 x4)
                ∗ owns (c : Thread nD τ) arg9 fullShare (k3_pay6 x0 (k3_pay1 x1 x2) x3 x4)
                ∗ owns (c : Thread nD τ) arg10 fullShare (k3_pay1 x1 x2)) -∗ K ⟨⟩))
          ⊢ wp frame (wpE (defs₀ (F := F)) Variants.none c none) E (cc3__bf16_pass_kernel i arg1 harg1 arg2 harg2 arg3 harg3 arg4 harg4 arg5 harg5 arg6 harg6 arg7 harg7 arg8 harg8 arg9 harg9 arg10 harg10) K := by
  have hz := zeros2_3
  simp only [cc3__bf16_pass_kernel_eq_skeleton]; unfold cc3__bf16_pass_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg1.eq_unread hf0
  obtain rfl := harg2.eq_unread hf1
  obtain rfl := harg3.eq_unread hf2
  obtain rfl := harg4.eq_unread hf3
  obtain rfl := harg5.eq_unread hf4
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_unfold_words
    rw [View.read_writes_eq_canon _ _ _ (fun y => ⟨_, List.mem_singleton_self _, View.mem_set_unit_zero hz inb_S200x128_S200x128_0_0 y⟩),
      View.canon_unit_zero hz, View.readCov_unit_zero _ hz]
    simp only [View.readAt_eq_ld, harg1.read_unread, harg2.read_unread, harg3.read_unread, harg4.read_unread, harg5.read_unread, View.ld_unit_zero (S := S200x10000) hz, View.ld_unit_zero (S := S10000x128) hz, View.ld_unit_zero (S := S128x512) hz, View.ld_unit_zero (S := S1x512) hz, View.ld_unit_zero (S := S200x128) hz, View.ld_unit_zero (S := S10000x512) hz]
  isplitl [H6]
  · iexists _; isplitr; swap; · iexact H6
    ipureintro
    sl_unfold_words
    rw [View.read_writes_eq_canon _ _ _ (fun y => ⟨_, List.mem_singleton_self _, View.mem_set_unit_zero hz inb_S200x128_S200x128_0_0 y⟩),
      View.canon_unit_zero hz, View.readCov_unit_zero _ hz]
    simp only [View.readAt_eq_ld, harg1.read_unread, harg2.read_unread, harg3.read_unread, harg4.read_unread, harg5.read_unread, View.ld_unit_zero (S := S200x10000) hz, View.ld_unit_zero (S := S10000x128) hz, View.ld_unit_zero (S := S128x512) hz, View.ld_unit_zero (S := S1x512) hz, View.ld_unit_zero (S := S200x128) hz, View.ld_unit_zero (S := S10000x512) hz]
  isplitl [H7]
  · iexists _; isplitr; swap; · iexact H7
    ipureintro
    sl_unfold_words
    rw [View.read_writes_eq_canon _ _ _ (fun y => ⟨_, List.mem_singleton_self _, View.mem_set_unit_zero hz inb_S200x128_S200x128_0_0 y⟩),
      View.canon_unit_zero hz, View.readCov_unit_zero _ hz]
    simp only [View.readAt_eq_ld, harg1.read_unread, harg2.read_unread, harg3.read_unread, harg4.read_unread, harg5.read_unread, View.ld_unit_zero (S := S200x10000) hz, View.ld_unit_zero (S := S10000x128) hz, View.ld_unit_zero (S := S128x512) hz, View.ld_unit_zero (S := S1x512) hz, View.ld_unit_zero (S := S200x128) hz, View.ld_unit_zero (S := S10000x512) hz]
  isplitl [H8]
  · iexists _; isplitr; swap; · iexact H8
    ipureintro
    sl_unfold_words
    rw [View.read_writes_eq_canon _ _ _ (fun y => ⟨_, List.mem_singleton_self _, View.mem_set_unit_zero hz inb_S200x128_S200x128_0_0 y⟩),
      View.canon_unit_zero hz, View.readCov_unit_zero _ hz]
    simp only [View.readAt_eq_ld, harg1.read_unread, harg2.read_unread, harg3.read_unread, harg4.read_unread, harg5.read_unread, View.ld_unit_zero (S := S200x10000) hz, View.ld_unit_zero (S := S10000x128) hz, View.ld_unit_zero (S := S128x512) hz, View.ld_unit_zero (S := S1x512) hz, View.ld_unit_zero (S := S200x128) hz, View.ld_unit_zero (S := S10000x512) hz]
  iexists _; isplitr; swap; · iexact H9
  ipureintro
  sl_unfold_words
  rw [View.read_writes_eq_canon _ _ _ (fun y => ⟨_, List.mem_singleton_self _, View.mem_set_unit_zero hz inb_S10000x512_S10000x512_0_0 y⟩),
    View.canon_unit_zero hz]
  simp only [View.readAt_eq_ld, harg1.read_unread, harg2.read_unread, harg3.read_unread, harg4.read_unread, harg5.read_unread, View.ld_unit_zero (S := S200x10000) hz, View.ld_unit_zero (S := S10000x128) hz, View.ld_unit_zero (S := S128x512) hz, View.ld_unit_zero (S := S1x512) hz, View.ld_unit_zero (S := S200x128) hz, View.ld_unit_zero (S := S10000x512) hz]

set_option maxHeartbeats 2000000 in
/-- At a later point: the scratch is read as found and left as found, and each output block holds its function of the
    adjacency block and the scratch. -/
theorem runLater3 (c : Dev nD) (i : grid3.Coords)
    (arg1 : Memref sig .tc .vmem S200x10000 .bf16) (harg1 : arg1.IsWhole) (arg2 : Memref sig .tc .vmem S10000x128 .f32) (harg2 : arg2.IsWhole) (arg3 : Memref sig .tc .vmem S128x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S200x128 .f32) (harg8 : arg8.IsWhole) (arg9 : Memref sig .tc .vmem S200x128 .f32) (harg9 : arg9.IsWhole) (arg10 : Memref sig .tc .vmem S10000x512 .bf16) (harg10 : arg10.IsWhole) (hc : ¬ first3 i)
    (x0 : Vec F S200x10000 .bf16) (x1 : Vec F S10000x128 .f32) (x2 : Vec F S128x512 .f32) (x3 : Vec F S1x512 .f32) (x4 : Vec F S1x512 .f32) (s : Vec F S10000x512 .bf16) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare s
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare (k3_pay3 x0 s x3 x4)
                ∗ owns (c : Thread nD τ) arg7 fullShare (k3_pay4 x0 s x3 x4)
                ∗ owns (c : Thread nD τ) arg8 fullShare (k3_pay5 x0 s x3 x4)
                ∗ owns (c : Thread nD τ) arg9 fullShare (k3_pay6 x0 s x3 x4)
                ∗ owns (c : Thread nD τ) arg10 fullShare s) -∗ K ⟨⟩))
          ⊢ wp frame (wpE (defs₀ (F := F)) Variants.none c none) E (cc3__bf16_pass_kernel i arg1 harg1 arg2 harg2 arg3 harg3 arg4 harg4 arg5 harg5 arg6 harg6 arg7 harg7 arg8 harg8 arg9 harg9 arg10 harg10) K := by
  have hz := zeros2_3
  simp only [cc3__bf16_pass_kernel_eq_skeleton]; unfold cc3__bf16_pass_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%f9, %hf9, H9⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg10.eq_unread hf9
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_unfold_words
    rw [View.read_writes_eq_canon _ _ _ (fun y => ⟨_, List.mem_singleton_self _, View.mem_set_unit_zero hz inb_S200x128_S200x128_0_0 y⟩),
      View.canon_unit_zero hz]
    simp only [View.readAt_eq_ld, harg1.read_unread, harg2.read_unread, harg3.read_unread, harg4.read_unread, harg5.read_unread, harg10.read_unread, View.ld_unit_zero (S := S200x10000) hz, View.ld_unit_zero (S := S10000x128) hz, View.ld_unit_zero (S := S128x512) hz, View.ld_unit_zero (S := S1x512) hz, View.ld_unit_zero (S := S200x128) hz, View.ld_unit_zero (S := S10000x512) hz]
  isplitl [H6]
  · iexists _; isplitr; swap; · iexact H6
    ipureintro
    sl_unfold_words
    rw [View.read_writes_eq_canon _ _ _ (fun y => ⟨_, List.mem_singleton_self _, View.mem_set_unit_zero hz inb_S200x128_S200x128_0_0 y⟩),
      View.canon_unit_zero hz]
    simp only [View.readAt_eq_ld, harg1.read_unread, harg2.read_unread, harg3.read_unread, harg4.read_unread, harg5.read_unread, harg10.read_unread, View.ld_unit_zero (S := S200x10000) hz, View.ld_unit_zero (S := S10000x128) hz, View.ld_unit_zero (S := S128x512) hz, View.ld_unit_zero (S := S1x512) hz, View.ld_unit_zero (S := S200x128) hz, View.ld_unit_zero (S := S10000x512) hz]
  isplitl [H7]
  · iexists _; isplitr; swap; · iexact H7
    ipureintro
    sl_unfold_words
    rw [View.read_writes_eq_canon _ _ _ (fun y => ⟨_, List.mem_singleton_self _, View.mem_set_unit_zero hz inb_S200x128_S200x128_0_0 y⟩),
      View.canon_unit_zero hz]
    simp only [View.readAt_eq_ld, harg1.read_unread, harg2.read_unread, harg3.read_unread, harg4.read_unread, harg5.read_unread, harg10.read_unread, View.ld_unit_zero (S := S200x10000) hz, View.ld_unit_zero (S := S10000x128) hz, View.ld_unit_zero (S := S128x512) hz, View.ld_unit_zero (S := S1x512) hz, View.ld_unit_zero (S := S200x128) hz, View.ld_unit_zero (S := S10000x512) hz]
  isplitl [H8]
  · iexists _; isplitr; swap; · iexact H8
    ipureintro
    sl_unfold_words
    rw [View.read_writes_eq_canon _ _ _ (fun y => ⟨_, List.mem_singleton_self _, View.mem_set_unit_zero hz inb_S200x128_S200x128_0_0 y⟩),
      View.canon_unit_zero hz]
    simp only [View.readAt_eq_ld, harg1.read_unread, harg2.read_unread, harg3.read_unread, harg4.read_unread, harg5.read_unread, harg10.read_unread, View.ld_unit_zero (S := S200x10000) hz, View.ld_unit_zero (S := S10000x128) hz, View.ld_unit_zero (S := S128x512) hz, View.ld_unit_zero (S := S1x512) hz, View.ld_unit_zero (S := S200x128) hz, View.ld_unit_zero (S := S10000x512) hz]
  iexists _; isplitr; · ipureintro; exact harg10.read_unread _
  iexact H9

end Cert.Kernel.Pass

end
-- ==== Proof.BitsPass3.lean ====
/-
  The last pass (the four heads at once) as a pipeline over fifty row blocks, entered from buffer contents `V`: what
  each window's buffer holds before and after the body at every point, the invariant between points (the scratch
  holds the 512-wide feature transform from the first point on, computed once from the final hidden state and the
  four weight matrices side by side, which every point sees whole), and the body's obligation at every point, by
  cases on whether the point is the first.
-/
import proofs.«148270_g13469017440497_cont_week2b_423_4_alg».proof.Proof.BitsRun3
import Idealize.ShloMosaic.Lib.Pipeline.Frame

set_option maxRecDepth 16384

noncomputable section

namespace Cert.Kernel.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the pass finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current buffer holds its block at every point, fetched there or not: where it is not fetched its
    block index has not moved and the body left the block in place. -/
theorem before3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- Input window 1's current buffer holds its block at every point, fetched there or not: where it is not fetched its
    block index has not moved and the body left the block in place. -/
theorem before3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- Input window 2's current buffer holds its block at every point, fetched there or not: where it is not fetched its
    block index has not moved and the body left the block in place. -/
theorem before3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-- Input window 3's current buffer holds its block at every point, fetched there or not: where it is not fetched its
    block index has not moved and the body left the block in place. -/
theorem before3_3_of {c : Dev nD} (dat : Dat τ (Elt F) Unit ℕ (UR sig nD τ) ℕ cfg3 c) (hA : dat.A 3 = V c (Pipeline.arrRef spec3 3))
    (hafter : ∀ t, dat.after 3 t = blk3 V c 3 t) (t : Fin cfg3.N) (d) : dat.before 3 t d = blk3 V c 3 t :=
  (dat.before_in_eq_fetched 3 rfl (fun _ => rfl) (fun _ _ _ => rfl) (fun t => by rw [hafter]; unfold Dat.blockOf blk3; rw [hA]; try rfl) t d).trans
    (by unfold Dat.fetched Dat.blockOf blk3; rw [hA]; try rfl)

/-- Input window 4's current buffer holds its block at every point, fetched there or not: where it is not fetched its
    block index has not moved and the body left the block in place. -/
theorem before3_4_of {c : Dev nD} (dat : Dat τ (Elt F) Unit ℕ (UR sig nD τ) ℕ cfg3 c) (hA : dat.A 4 = V c (Pipeline.arrRef spec3 4))
    (hafter : ∀ t, dat.after 4 t = blk3 V c 4 t) (t : Fin cfg3.N) (d) : dat.before 4 t d = blk3 V c 4 t :=
  (dat.before_in_eq_fetched 4 rfl (fun _ => rfl) (fun _ _ _ => rfl) (fun t => by rw [hafter]; unfold Dat.blockOf blk3; rw [hA]; try rfl) t d).trans
    (by unfold Dat.fetched Dat.blockOf blk3; rw [hA]; try rfl)

/-- The first of the fifty points. -/
abbrev pt0_3 : Fin cfg3.N := ⟨0, lt_of_lt_of_eq (by decide : 0 < 50) (show cfg3.N = 50 from N_3).symm⟩

/-- The feature transform the scratch holds from the first point on: the hidden state times the weights. -/
def seq3 (c : Dev nD) : Vec F S10000x512 .bf16 := k3_pay1 (blk3 V c 1 pt0_3) (blk3 V c 2 pt0_3)

/-- The scratch between points: anything before the first point, the feature transform after it. -/
def scr3 (c : Dev nD) (t : Fin (cfg3.N + 1)) : sProp 𝕄 :=
  if t.val = 0 then iprop(∃ d : Vec F S10000x512 .bf16, owns (c : Thread nD τ) (Memref.whole cc3_scratch0 : Memref sig .tc .vmem S10000x512 .bf16) fullShare d)
  else owns (c : Thread nD τ) (Memref.whole cc3_scratch0 : Memref sig .tc .vmem S10000x512 .bf16) fullShare (seq3 V c)

/-- The pass's proof data on core `c`: the arrays as found; each input's buffer left at its block, each output's at
    its function of the adjacency block and the feature transform; between points the scratch as above, the other
    scoped buffers and the generator register untouched; nothing owed; full shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => k3_pay3 (blk3 V c 0 t) (seq3 V c) (blk3 V c 3 t) (blk3 V c 4 t)
    | ⟨6, _⟩ => k3_pay4 (blk3 V c 0 t) (seq3 V c) (blk3 V c 3 t) (blk3 V c 4 t)
    | ⟨7, _⟩ => k3_pay5 (blk3 V c 0 t) (seq3 V c) (blk3 V c 3 t) (blk3 V c 4 t)
    | ⟨8, _⟩ => k3_pay6 (blk3 V c 0 t) (seq3 V c) (blk3 V c 3 t) (blk3 V c 4 t)
  Φ t := iprop(scr3 V c t ∗ Pipeline.scopedRestBut (Ix := Unit) (Name := ℕ) (U := UR sig nD τ) (Lvl := ℕ) (Val := Elt F) spec3 c [cc3_scratch0] ∗ ∃ r, prngReg c r)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) : (dat3 V c).after 3 t = blk3 V c 3 t := by dsimp only [dat3]
theorem after3_4 (c : Dev nD) (t : Fin cfg3.N) : (dat3 V c).after 4 t = blk3 V c 4 t := by dsimp only [dat3]
theorem after3_5 (c : Dev nD) (t : Fin cfg3.N) :
    (dat3 V c).after 5 t = k3_pay3 (blk3 V c 0 t) (seq3 V c) (blk3 V c 3 t) (blk3 V c 4 t) := by dsimp only [dat3]
theorem after3_6 (c : Dev nD) (t : Fin cfg3.N) :
    (dat3 V c).after 6 t = k3_pay4 (blk3 V c 0 t) (seq3 V c) (blk3 V c 3 t) (blk3 V c 4 t) := by dsimp only [dat3]
theorem after3_7 (c : Dev nD) (t : Fin cfg3.N) :
    (dat3 V c).after 7 t = k3_pay5 (blk3 V c 0 t) (seq3 V c) (blk3 V c 3 t) (blk3 V c 4 t) := by dsimp only [dat3]
theorem after3_8 (c : Dev nD) (t : Fin cfg3.N) :
    (dat3 V c).after 8 t = k3_pay6 (blk3 V c 0 t) (seq3 V c) (blk3 V c 3 t) (blk3 V c 4 t) := by dsimp only [dat3]
theorem inv_eq3 (c : Dev nD) (t : Fin (cfg3.N + 1)) :
    (dat3 V c).Φ t = iprop(scr3 V c t ∗ Pipeline.scopedRestBut (Ix := Unit) (Name := ℕ) (U := UR sig nD τ) (Lvl := ℕ) (Val := Elt F) spec3 c [cc3_scratch0] ∗ ∃ r, prngReg c r) := by
  dsimp only [dat3]
theorem before3_0 (c : Dev nD) (t : Fin cfg3.N) (d) : (dat3 V c).before 0 t d = blk3 V c 0 t :=
  before3_0_of V (dat3 V c) (A_eq3 V c 0) (after3_0 V c) t d
theorem before3_1 (c : Dev nD) (t : Fin cfg3.N) (d) : (dat3 V c).before 1 t d = blk3 V c 1 t :=
  before3_1_of V (dat3 V c) (A_eq3 V c 1) (after3_1 V c) t d
theorem before3_2 (c : Dev nD) (t : Fin cfg3.N) (d) : (dat3 V c).before 2 t d = blk3 V c 2 t :=
  before3_2_of V (dat3 V c) (A_eq3 V c 2) (after3_2 V c) t d
theorem before3_3 (c : Dev nD) (t : Fin cfg3.N) (d) : (dat3 V c).before 3 t d = blk3 V c 3 t :=
  before3_3_of V (dat3 V c) (A_eq3 V c 3) (after3_3 V c) t d
theorem before3_4 (c : Dev nD) (t : Fin cfg3.N) (d) : (dat3 V c).before 4 t d = blk3 V c 4 t :=
  before3_4_of V (dat3 V c) (A_eq3 V c 4) (after3_4 V c) t d

set_option maxHeartbeats 1000000 in
/-- The body at any point: at the first, the scratch is filled then read; at a later one it holds the feature
    transform already. The rest of the invariant and what the core owes pass through unread. -/
theorem sound_body3 (c : Dev nD) (t : Fin cfg3.N) :
    iprop((dat3 V c).Φ t.castSucc ∗ (dat3 V c).owesAt () t.castSucc
        ∗ (∃ d, owns (c : Thread nD τ) (st3_0 t) fullShare ((dat3 V c).before 0 t d))
        ∗ (∃ d, owns (c : Thread nD τ) (st3_1 t) fullShare ((dat3 V c).before 1 t d))
        ∗ (∃ d, owns (c : Thread nD τ) (st3_2 t) fullShare ((dat3 V c).before 2 t d))
        ∗ (∃ d, owns (c : Thread nD τ) (st3_3 t) fullShare ((dat3 V c).before 3 t d))
        ∗ (∃ d, owns (c : Thread nD τ) (st3_4 t) fullShare ((dat3 V c).before 4 t d))
        ∗ (∃ d, owns (c : Thread nD τ) (st3_5 t) fullShare ((dat3 V c).before 5 t d))
        ∗ (∃ d, owns (c : Thread nD τ) (st3_6 t) fullShare ((dat3 V c).before 6 t d))
        ∗ (∃ d, owns (c : Thread nD τ) (st3_7 t) fullShare ((dat3 V c).before 7 t d))
        ∗ (∃ d, owns (c : Thread nD τ) (st3_8 t) fullShare ((dat3 V c).before 8 t d)))
      ⊢ wp frame (wpE (defs₀ (F := F)) Variants.none c none) Set.univ (bodyAt3 t) (fun _ =>
          iprop((dat3 V c).Φ t.succ ∗ (dat3 V c).owesAt () t.succ
            ∗ owns (c : Thread nD τ) (st3_0 t) fullShare ((dat3 V c).after 0 t)
            ∗ owns (c : Thread nD τ) (st3_1 t) fullShare ((dat3 V c).after 1 t)
            ∗ owns (c : Thread nD τ) (st3_2 t) fullShare ((dat3 V c).after 2 t)
            ∗ owns (c : Thread nD τ) (st3_3 t) fullShare ((dat3 V c).after 3 t)
            ∗ owns (c : Thread nD τ) (st3_4 t) fullShare ((dat3 V c).after 4 t)
            ∗ owns (c : Thread nD τ) (st3_5 t) fullShare ((dat3 V c).after 5 t)
            ∗ owns (c : Thread nD τ) (st3_6 t) fullShare ((dat3 V c).after 6 t)
            ∗ owns (c : Thread nD τ) (st3_7 t) fullShare ((dat3 V c).after 7 t)
            ∗ owns (c : Thread nD τ) (st3_8 t) fullShare ((dat3 V c).after 8 t))) := by
  unfold bodyAt3
  simp only [before3_0, before3_1, before3_2, before3_3, before3_4]
  rw [show (dat3 V c).owesAt () t.succ = (dat3 V c).owesAt () t.castSucc from rfl,
    after3_0, after3_1, after3_2, after3_3, after3_4, after3_5, after3_6, after3_7, after3_8, inv_eq3, inv_eq3]
  have hN : t.val < 50 := lt_of_lt_of_eq t.isLt (show cfg3.N = 50 from N_3)
  unfold scr3
  rw [if_neg (show ¬ t.succ.val = 0 from Nat.succ_ne_zero _)]
  by_cases h0 : t.val % 50 = 0
  · obtain rfl : t = pt0_3 := Fin.ext (by show t.val = 0; omega)
    rw [if_pos (show (pt0_3 : Fin cfg3.N).castSucc.val = 0 from rfl)]
    unfold seq3
    iintro ⟨⟨Hs, Hr, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runFirst3 c (grid3.coords pt0_3) _ _ _ _ _ _ _ _ _ _ _ _ _ _ _ _ _ _ _ _ ((first3_iff pt0_3).mpr h0)
      (blk3 V c 0 pt0_3) (blk3 V c 1 pt0_3) (blk3 V c 2 pt0_3) (blk3 V c 3 pt0_3) (blk3 V c 4 pt0_3) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [Hs]; · iexact Hs
    iintro ⟨H0, H1, H2, H3, H4, H5, H6, H7, H8, Hs⟩
    isplitl [Hs Hr Hp]
    · isplitl [Hs]; · iexact Hs
      isplitl [Hr]; · iexact Hr
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [if_neg (show ¬ t.castSucc.val = 0 from fun h => h0 (by rw [show t.val = 0 from h]))]
    iintro ⟨⟨Hs, Hr, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runLater3 c (grid3.coords t) _ _ _ _ _ _ _ _ _ _ _ _ _ _ _ _ _ _ _ _ (fun h => h0 ((first3_iff t).mp h))
      (blk3 V c 0 t) (blk3 V c 1 t) (blk3 V c 2 t) (blk3 V c 3 t) (blk3 V c 4 t) (seq3 V c) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [Hs]; · iexact Hs
    iintro ⟨H0, H1, H2, H3, H4, H5, H6, H7, H8, Hs⟩
    isplitl [Hs Hr Hp]
    · isplitl [Hs]; · iexact Hs
      isplitl [Hr]; · iexact Hr
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The pipeline library's body obligation for the pass, at every point. -/
theorem body_obligation3 (c : Dev nD) : BodyObligation (dat3 (F := F) V c) (defs₀ (F := F)) Variants.none () Set.univ := fun t => by
  rw [bigSep_W3, bigSep_W3]
  exact sound_body3 V c t

end

end Cert.Kernel.Pass

end
-- ==== Proof.BitsMain.lean ====
/-
  The whole program as a run: host stretch, pass, host stretch, pass, … four times. The contents of every unscoped
  buffer at each of the eight boundaries are a fold from the launch memory — a host stretch applies its operations, a
  pass replaces its arrays by what its write-backs leave —, each pass is a segment of the run entered from the contents
  before it and left at the contents after it, and at the end every unscoped buffer holds the last boundary's contents.
  No host operation and no pass writes an argument array, so each ends as launched.
-/
import proofs.«148270_g13469017440497_cont_week2b_423_4_alg».proof.Proof.BitsPass0
import proofs.«148270_g13469017440497_cont_week2b_423_4_alg».proof.Proof.BitsPass1
import proofs.«148270_g13469017440497_cont_week2b_423_4_alg».proof.Proof.BitsPass2
import proofs.«148270_g13469017440497_cont_week2b_423_4_alg».proof.Proof.BitsPass3
import proofs.«148270_g13469017440497_cont_week2b_423_4_alg».proof.Proof.Gen.Kernel.Regions
import Idealize.ShloMosaic.Lib.Pipeline.RegionsLoop
import Idealize.ShloMosaic.Lib.Pipeline.FrameSuffix

set_option maxRecDepth 16384

noncomputable section

namespace Cert.Kernel.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev bufs0 : Dev nD → Valuation τ sig (Elt F) := fun c b => m (c, b)
/-- After host stretch 0 (what pass 1 is entered from). -/
abbrev bufs1 : Dev nD → Valuation τ sig (Elt F) := fun c => StableHlo.after hostOps0 (bufs0 m c)
abbrev ent1 : (c : Dev nD) → (b : Ref sig .tc) → Buf (Elt F) ((c : Thread nD τ).loc b) := fun c b => bufs1 m c b
/-- After pass 1: its arrays at what its write-backs leave, every other buffer as entered. -/
def bufs2 (c : Dev nD) : Valuation τ sig (Elt F) :=
  Pipeline.withArrays spec0 c (bufs1 m c) fun w => (dat0 (ent1 m) c).arrAt w cfg0.N
theorem bufs2_arr (c : Dev nD) (w : Fin cfg0.W) :
    bufs2 m c (Proc.devRef .tc (Pipeline.arrRef spec0 w)) = (dat0 (ent1 m) c).arrAt w cfg0.N := by
  unfold bufs2; exact Pipeline.withArrays_arr spec0 launch0.win.arr_inj c _ _ w
theorem bufs2_of_ne (c : Dev nD) (b : Ref sig .tc) (hb : ∀ w, Pipeline.arrRef spec0 w ≠ b) :
    bufs2 m c (Proc.devRef .tc b) = bufs1 m c (Proc.devRef .tc b) := by
  unfold bufs2; exact Pipeline.withArrays_of_ne spec0 c _ _ b hb
abbrev ent2 : (c : Dev nD) → (b : Ref sig .tc) → Buf (Elt F) ((c : Thread nD τ).loc b) := fun c b => bufs2 m c b
theorem exit0_arr (c : Dev nD) (w : Fin cfg0.W) : (dat0 (ent1 m) c).arrAt w cfg0.N = ent2 m c (Pipeline.arrRef spec0 w) :=
  (bufs2_arr m c w).symm
theorem exit0_rest (c : Dev nD) : ∀ b, b ∉ Finset.univ.image (Pipeline.arrRef spec0) → ent2 m c b = ent1 m c b :=
  fun b hb => bufs2_of_ne m c b fun w e => hb (Finset.mem_image.mpr ⟨w, Finset.mem_univ _, e⟩)

/-- After host stretch 1 (what pass 2 is entered from). -/
abbrev bufs3 : Dev nD → Valuation τ sig (Elt F) := fun c => StableHlo.after hostOps1 (bufs2 m c)
abbrev ent3 : (c : Dev nD) → (b : Ref sig .tc) → Buf (Elt F) ((c : Thread nD τ).loc b) := fun c b => bufs3 m c b
/-- After pass 2: its arrays at what its write-backs leave, every other buffer as entered. -/
def bufs4 (c : Dev nD) : Valuation τ sig (Elt F) :=
  Pipeline.withArrays spec1 c (bufs3 m c) fun w => (dat1 (ent3 m) c).arrAt w cfg1.N
theorem bufs4_arr (c : Dev nD) (w : Fin cfg1.W) :
    bufs4 m c (Proc.devRef .tc (Pipeline.arrRef spec1 w)) = (dat1 (ent3 m) c).arrAt w cfg1.N := by
  unfold bufs4; exact Pipeline.withArrays_arr spec1 launch1.win.arr_inj c _ _ w
theorem bufs4_of_ne (c : Dev nD) (b : Ref sig .tc) (hb : ∀ w, Pipeline.arrRef spec1 w ≠ b) :
    bufs4 m c (Proc.devRef .tc b) = bufs3 m c (Proc.devRef .tc b) := by
  unfold bufs4; exact Pipeline.withArrays_of_ne spec1 c _ _ b hb
abbrev ent4 : (c : Dev nD) → (b : Ref sig .tc) → Buf (Elt F) ((c : Thread nD τ).loc b) := fun c b => bufs4 m c b
theorem exit1_arr (c : Dev nD) (w : Fin cfg1.W) : (dat1 (ent3 m) c).arrAt w cfg1.N = ent4 m c (Pipeline.arrRef spec1 w) :=
  (bufs4_arr m c w).symm
theorem exit1_rest (c : Dev nD) : ∀ b, b ∉ Finset.univ.image (Pipeline.arrRef spec1) → ent4 m c b = ent3 m c b :=
  fun b hb => bufs4_of_ne m c b fun w e => hb (Finset.mem_image.mpr ⟨w, Finset.mem_univ _, e⟩)

/-- After host stretch 2 (what pass 3 is entered from). -/
abbrev bufs5 : Dev nD → Valuation τ sig (Elt F) := fun c => StableHlo.after hostOps2 (bufs4 m c)
abbrev ent5 : (c : Dev nD) → (b : Ref sig .tc) → Buf (Elt F) ((c : Thread nD τ).loc b) := fun c b => bufs5 m c b
/-- After pass 3: its arrays at what its write-backs leave, every other buffer as entered. -/
def bufs6 (c : Dev nD) : Valuation τ sig (Elt F) :=
  Pipeline.withArrays spec2 c (bufs5 m c) fun w => (dat2 (ent5 m) c).arrAt w cfg2.N
theorem bufs6_arr (c : Dev nD) (w : Fin cfg2.W) :
    bufs6 m c (Proc.devRef .tc (Pipeline.arrRef spec2 w)) = (dat2 (ent5 m) c).arrAt w cfg2.N := by
  unfold bufs6; exact Pipeline.withArrays_arr spec2 launch2.win.arr_inj c _ _ w
theorem bufs6_of_ne (c : Dev nD) (b : Ref sig .tc) (hb : ∀ w, Pipeline.arrRef spec2 w ≠ b) :
    bufs6 m c (Proc.devRef .tc b) = bufs5 m c (Proc.devRef .tc b) := by
  unfold bufs6; exact Pipeline.withArrays_of_ne spec2 c _ _ b hb
abbrev ent6 : (c : Dev nD) → (b : Ref sig .tc) → Buf (Elt F) ((c : Thread nD τ).loc b) := fun c b => bufs6 m c b
theorem exit2_arr (c : Dev nD) (w : Fin cfg2.W) : (dat2 (ent5 m) c).arrAt w cfg2.N = ent6 m c (Pipeline.arrRef spec2 w) :=
  (bufs6_arr m c w).symm
theorem exit2_rest (c : Dev nD) : ∀ b, b ∉ Finset.univ.image (Pipeline.arrRef spec2) → ent6 m c b = ent5 m c b :=
  fun b hb => bufs6_of_ne m c b fun w e => hb (Finset.mem_image.mpr ⟨w, Finset.mem_univ _, e⟩)

/-- After host stretch 3 (what pass 4 is entered from). -/
abbrev bufs7 : Dev nD → Valuation τ sig (Elt F) := fun c => StableHlo.after hostOps3 (bufs6 m c)
abbrev ent7 : (c : Dev nD) → (b : Ref sig .tc) → Buf (Elt F) ((c : Thread nD τ).loc b) := fun c b => bufs7 m c b
/-- After pass 4: its arrays at what its write-backs leave, every other buffer as entered. -/
def bufs8 (c : Dev nD) : Valuation τ sig (Elt F) :=
  Pipeline.withArrays spec3 c (bufs7 m c) fun w => (dat3 (ent7 m) c).arrAt w cfg3.N
theorem bufs8_arr (c : Dev nD) (w : Fin cfg3.W) :
    bufs8 m c (Proc.devRef .tc (Pipeline.arrRef spec3 w)) = (dat3 (ent7 m) c).arrAt w cfg3.N := by
  unfold bufs8; exact Pipeline.withArrays_arr spec3 launch3.win.arr_inj c _ _ w
theorem bufs8_of_ne (c : Dev nD) (b : Ref sig .tc) (hb : ∀ w, Pipeline.arrRef spec3 w ≠ b) :
    bufs8 m c (Proc.devRef .tc b) = bufs7 m c (Proc.devRef .tc b) := by
  unfold bufs8; exact Pipeline.withArrays_of_ne spec3 c _ _ b hb
abbrev ent8 : (c : Dev nD) → (b : Ref sig .tc) → Buf (Elt F) ((c : Thread nD τ).loc b) := fun c b => bufs8 m c b
theorem exit3_arr (c : Dev nD) (w : Fin cfg3.W) : (dat3 (ent7 m) c).arrAt w cfg3.N = ent8 m c (Pipeline.arrRef spec3 w) :=
  (bufs8_arr m c w).symm
theorem exit3_rest (c : Dev nD) : ∀ b, b ∉ Finset.univ.image (Pipeline.arrRef spec3) → ent8 m c b = ent7 m c b :=
  fun b hb => bufs8_of_ne m c b fun w e => hb (Finset.mem_image.mpr ⟨w, Finset.mem_univ _, e⟩)

/-! ## The argument arrays end as launched -/

theorem bufs8_main_arg0 (c : Dev nD) : bufs8 m c (Proc.devRef .tc main_arg0) = m ((c : Thread nD τ).loc main_arg0) :=
  calc bufs8 m c (Proc.devRef .tc main_arg0)
    _ = bufs7 m c (Proc.devRef .tc main_arg0) := bufs8_of_ne m c main_arg0 (by decide)
    _ = bufs6 m c (Proc.devRef .tc main_arg0) := StableHlo.after_of_writes_sub hostOps3 _ hostOps3_writes (by decide)
    _ = bufs5 m c (Proc.devRef .tc main_arg0) := bufs6_of_ne m c main_arg0 (by decide)
    _ = bufs4 m c (Proc.devRef .tc main_arg0) := StableHlo.after_of_writes_sub hostOps2 _ hostOps2_writes (by decide)
    _ = bufs3 m c (Proc.devRef .tc main_arg0) := bufs4_of_ne m c main_arg0 (by decide)
    _ = bufs2 m c (Proc.devRef .tc main_arg0) := StableHlo.after_of_writes_sub hostOps1 _ hostOps1_writes (by decide)
    _ = bufs1 m c (Proc.devRef .tc main_arg0) := (bufs2_arr m c 1).trans (((dat0 (ent1 m) c).arrAt_in 1 rfl _).trans (A_eq0 (ent1 m) c 1))
    _ = bufs0 m c (Proc.devRef .tc main_arg0) := StableHlo.after_of_writes_sub hostOps0 _ hostOps0_writes (by decide)
    _ = m ((c : Thread nD τ).loc main_arg0) := rfl
theorem bufs8_main_arg1 (c : Dev nD) : bufs8 m c (Proc.devRef .tc main_arg1) = m ((c : Thread nD τ).loc main_arg1) :=
  calc bufs8 m c (Proc.devRef .tc main_arg1)
    _ = bufs7 m c (Proc.devRef .tc main_arg1) := bufs8_of_ne m c main_arg1 (by decide)
    _ = bufs6 m c (Proc.devRef .tc main_arg1) := StableHlo.after_of_writes_sub hostOps3 _ hostOps3_writes (by decide)
    _ = bufs5 m c (Proc.devRef .tc main_arg1) := bufs6_of_ne m c main_arg1 (by decide)
    _ = bufs4 m c (Proc.devRef .tc main_arg1) := StableHlo.after_of_writes_sub hostOps2 _ hostOps2_writes (by decide)
    _ = bufs3 m c (Proc.devRef .tc main_arg1) := bufs4_of_ne m c main_arg1 (by decide)
    _ = bufs2 m c (Proc.devRef .tc main_arg1) := StableHlo.after_of_writes_sub hostOps1 _ hostOps1_writes (by decide)
    _ = bufs1 m c (Proc.devRef .tc main_arg1) := (bufs2_arr m c 0).trans (((dat0 (ent1 m) c).arrAt_in 0 rfl _).trans (A_eq0 (ent1 m) c 0))
    _ = bufs0 m c (Proc.devRef .tc main_arg1) := StableHlo.after_of_writes_sub hostOps0 _ hostOps0_writes (by decide)
    _ = m ((c : Thread nD τ).loc main_arg1) := rfl
theorem bufs8_main_arg2 (c : Dev nD) : bufs8 m c (Proc.devRef .tc main_arg2) = m ((c : Thread nD τ).loc main_arg2) :=
  calc bufs8 m c (Proc.devRef .tc main_arg2)
    _ = bufs7 m c (Proc.devRef .tc main_arg2) := bufs8_of_ne m c main_arg2 (by decide)
    _ = bufs6 m c (Proc.devRef .tc main_arg2) := StableHlo.after_of_writes_sub hostOps3 _ hostOps3_writes (by decide)
    _ = bufs5 m c (Proc.devRef .tc main_arg2) := bufs6_of_ne m c main_arg2 (by decide)
    _ = bufs4 m c (Proc.devRef .tc main_arg2) := StableHlo.after_of_writes_sub hostOps2 _ hostOps2_writes (by decide)
    _ = bufs3 m c (Proc.devRef .tc main_arg2) := bufs4_of_ne m c main_arg2 (by decide)
    _ = bufs2 m c (Proc.devRef .tc main_arg2) := StableHlo.after_of_writes_sub hostOps1 _ hostOps1_writes (by decide)
    _ = bufs1 m c (Proc.devRef .tc main_arg2) := bufs2_of_ne m c main_arg2 (by decide)
    _ = bufs0 m c (Proc.devRef .tc main_arg2) := StableHlo.after_of_writes_sub hostOps0 _ hostOps0_writes (by decide)
    _ = m ((c : Thread nD τ).loc main_arg2) := rfl
theorem bufs8_main_arg3 (c : Dev nD) : bufs8 m c (Proc.devRef .tc main_arg3) = m ((c : Thread nD τ).loc main_arg3) :=
  calc bufs8 m c (Proc.devRef .tc main_arg3)
    _ = bufs7 m c (Proc.devRef .tc main_arg3) := bufs8_of_ne m c main_arg3 (by decide)
    _ = bufs6 m c (Proc.devRef .tc main_arg3) := StableHlo.after_of_writes_sub hostOps3 _ hostOps3_writes (by decide)
    _ = bufs5 m c (Proc.devRef .tc main_arg3) := bufs6_of_ne m c main_arg3 (by decide)
    _ = bufs4 m c (Proc.devRef .tc main_arg3) := StableHlo.after_of_writes_sub hostOps2 _ hostOps2_writes (by decide)
    _ = bufs3 m c (Proc.devRef .tc main_arg3) := bufs4_of_ne m c main_arg3 (by decide)
    _ = bufs2 m c (Proc.devRef .tc main_arg3) := StableHlo.after_of_writes_sub hostOps1 _ hostOps1_writes (by decide)
    _ = bufs1 m c (Proc.devRef .tc main_arg3) := bufs2_of_ne m c main_arg3 (by decide)
    _ = bufs0 m c (Proc.devRef .tc main_arg3) := StableHlo.after_of_writes_sub hostOps0 _ hostOps0_writes (by decide)
    _ = m ((c : Thread nD τ).loc main_arg3) := rfl
theorem bufs8_main_arg4 (c : Dev nD) : bufs8 m c (Proc.devRef .tc main_arg4) = m ((c : Thread nD τ).loc main_arg4) :=
  calc bufs8 m c (Proc.devRef .tc main_arg4)
    _ = bufs7 m c (Proc.devRef .tc main_arg4) := bufs8_of_ne m c main_arg4 (by decide)
    _ = bufs6 m c (Proc.devRef .tc main_arg4) := StableHlo.after_of_writes_sub hostOps3 _ hostOps3_writes (by decide)
    _ = bufs5 m c (Proc.devRef .tc main_arg4) := bufs6_of_ne m c main_arg4 (by decide)
    _ = bufs4 m c (Proc.devRef .tc main_arg4) := StableHlo.after_of_writes_sub hostOps2 _ hostOps2_writes (by decide)
    _ = bufs3 m c (Proc.devRef .tc main_arg4) := bufs4_of_ne m c main_arg4 (by decide)
    _ = bufs2 m c (Proc.devRef .tc main_arg4) := StableHlo.after_of_writes_sub hostOps1 _ hostOps1_writes (by decide)
    _ = bufs1 m c (Proc.devRef .tc main_arg4) := bufs2_of_ne m c main_arg4 (by decide)
    _ = bufs0 m c (Proc.devRef .tc main_arg4) := StableHlo.after_of_writes_sub hostOps0 _ hostOps0_writes (by decide)
    _ = m ((c : Thread nD τ).loc main_arg4) := rfl

/-! ## The proof data of the four passes and the thread state -/

/-- No pass has a prefetched table. -/
abbrev tables : (p : Fin 4) → (pcfgs (F := F) p).Adm := fun p => (cfgs p).toPCfg_adm
/-- Every pass's proof data, each at the contents it is entered from. -/
def allDats : (p : Fin 4) → (c : Dev nD) → Dat τ (Elt F) Unit ℕ (UR sig nD τ) ℕ (Pipeline.pin (pcfgs (F := F)) tables p) c
  | ⟨0, _⟩ => fun c => dat0 (ent1 m) c
  | ⟨1, _⟩ => fun c => dat1 (ent3 m) c
  | ⟨2, _⟩ => fun c => dat2 (ent5 m) c
  | ⟨3, _⟩ => fun c => dat3 (ent7 m) c
abbrev noVariants : Variants := Variants.none
/-- No core owes another anything: no level is assigned. -/
abbrev noPairs : GSem nD τ sig → Finset Unit := fun _ => ∅
abbrev noLevels : GSem nD τ sig → Unit → ℕ := fun _ _ => 0
/-- What rides beside the buffers through every segment: the generator register at some state, and nothing owed. -/
abbrev rest (c : Dev nD) : sProp 𝕄 := iprop((∃ r, prngReg c r) ∗ ∃ W, owes (c : Thread nD τ) (0 : CellTallies nD τ sig Unit) W)
/-- A host stretch as a segment over the unscoped buffers from contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevels :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest
/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without what is owed: every unscoped buffer at the last boundary's contents. -/
abbrev endState (c : Dev nD) : sProp 𝕄 := iprop(StableHlo.held (c : Thread nD τ) (Pipeline.ucRefs τ sig) (bufs8 m c) ∗ ∃ r, prngReg c r)

/-! ## The passes as segments -/

set_option backward.isDefEq.respectTransparency.types false in
/-- Pass 1 as a segment: entered from every unscoped buffer at the contents before it, left at the contents after
    it. Its arrays are split out of the unscoped buffers at entry and put back at exit; its scratch and the generator
    register go into the invariant at the first point and come back from it after the last; nothing is owed and the
    kernel has no semaphore of its own. -/
def region0 : Pipeline.RegionSeg (pcfgs (F := F)) tables (allDats m) () defs₀ noVariants noPairs noLevels 0 where
  win := launch0.win.to₀
  block_pos := launch0.block_pos
  stage_whole := launch0.stage_whole
  K := PEmpty
  osem k := k.elim
  ho := Pipeline.OwnSemFacts.none _
  hbody c := (body_obligation0 (ent1 m) c).loose
  hwaits := Pipeline.hwaits_of_owed_zero _ _ _ _ noPairs noLevels 0 fun _ _ => rfl
  pre c := iprop(StableHlo.held (c : Thread nD τ) (Pipeline.ucRefs τ sig) (bufs1 m c) ∗ rest c)
  post c := iprop(StableHlo.held (c : Thread nD τ) (Pipeline.ucRefs τ sig) (bufs2 m c) ∗ rest c)
  X c := iprop(∃ r, prngReg c r)
  Y c := iprop(∃ r, prngReg c r)
  Z c := Pipeline.unscopedRest (Ix := Unit) (Name := ℕ) (U := UR sig nD τ) (Lvl := ℕ) spec0 c (ent1 m c)
  hentry c := by
    rw [Pipeline.ownSems0_none]
    have hsplit := Pipeline.arrays_of_unscopedBufs (p := 0) (pcfgs (F := F)) tables (allDats m) launch0.win launch0.arr_whole c
      ((allDats m 0 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m 0 c).Φ 0 = iprop(scr0 (ent1 m) c 0 ∗ Pipeline.scopedRestBut (Ix := Unit) (Name := ℕ) (U := UR sig nD τ) (Lvl := ℕ) (Val := Elt F) spec0 c [cc0_scratch0] ∗ ∃ r, prngReg c r) from inv_eq0 (ent1 m) c 0]
    unfold scr0
    rw [if_pos (show (0 : Fin (cfg0.N + 1)).val = 0 from rfl)]
    simp only [owns_whole_eq]
    have hs : (Pipeline.scopedRest (Ix := Unit) (Name := ℕ) (U := UR sig nD τ) (Lvl := ℕ) (Val := Elt F) spec0 c : sProp 𝕄)
        ⊢ iprop(iprop((∃ f : Buf (Elt F) ((c : Thread nD τ).loc cc0_scratch0), ((c : Thread nD τ).loc cc0_scratch0) ↦{fullShare} f))
          ∗ Pipeline.scopedRestBut (Ix := Unit) (Name := ℕ) (U := UR sig nD τ) (Lvl := ℕ) (Val := Elt F) spec0 c [cc0_scratch0]) :=
      Entails.of_eq (scopedRest0_split c)
    iintro ⟨Hp, -, Hr⟩
    ihave H := hs $$ Hr
    icases H with ⟨⟨%f, Hs⟩, Hb⟩
    isplitl [Hs]
    · iexists f; iexists f; isplitr; · ipureintro; rfl
      iexact Hs
    isplitl [Hb]; · iexact Hb
    iexact Hp
  hout c := by
    rw [Pipeline.ownSems0_none, show (allDats m 0 c).Φ (Fin.last _) = iprop(scr0 (ent1 m) c (Fin.last _) ∗ Pipeline.scopedRestBut (Ix := Unit) (Name := ℕ) (U := UR sig nD τ) (Lvl := ℕ) (Val := Elt F) spec0 c [cc0_scratch0] ∗ ∃ r, prngReg c r) from inv_eq0 (ent1 m) c _]
    unfold scr0
    rw [if_neg (show ¬ (Fin.last cfg0.N).val = 0 from by rw [Fin.val_last, show cfg0.N = 50 from N_0]; decide)]
    simp only [owns_whole_eq]
    have hs : iprop(iprop((∃ f : Buf (Elt F) ((c : Thread nD τ).loc cc0_scratch0), ((c : Thread nD τ).loc cc0_scratch0) ↦{fullShare} f))
          ∗ Pipeline.scopedRestBut (Ix := Unit) (Name := ℕ) (U := UR sig nD τ) (Lvl := ℕ) (Val := Elt F) spec0 c [cc0_scratch0])
        ⊢ (Pipeline.scopedRest (Ix := Unit) (Name := ℕ) (U := UR sig nD τ) (Lvl := ℕ) (Val := Elt F) spec0 c : sProp 𝕄) :=
      Entails.of_eq (scopedRest0_split c).symm
    iintro ⟨⟨%f, -, Hs⟩, Hb, Hp⟩
    isplitl [Hp]; · iexact Hp
    isplitr; · iempintro
    iapply hs
    isplitl [Hs]; · iexists f; iexact Hs
    iexact Hb
  hexit c := by
    have hjoin := Pipeline.unscopedBufs_of_arrays (p := 0) (pcfgs (F := F)) tables (Ix := Unit) (Name := ℕ) (U := UR sig nD τ) (Lvl := ℕ)
      launch0.win launch0.arr_whole c (allDats m) ((allDats m 0 c).share_full fun _ => rfl)
      (ent1 m c) (ent2 m c) ((allDats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 as a segment: entered from every unscoped buffer at the contents before it, left at the contents after
    it. Its arrays are split out of the unscoped buffers at entry and put back at exit; its scratch and the generator
    register go into the invariant at the first point and come back from it after the last; nothing is owed and the
    kernel has no semaphore of its own. -/
def region1 : Pipeline.RegionSeg (pcfgs (F := F)) tables (allDats m) () defs₀ noVariants noPairs noLevels 1 where
  win := launch1.win.to₀
  block_pos := launch1.block_pos
  stage_whole := launch1.stage_whole
  K := PEmpty
  osem k := k.elim
  ho := Pipeline.OwnSemFacts.none _
  hbody c := (body_obligation1 (ent3 m) c).loose
  hwaits := Pipeline.hwaits_of_owed_zero _ _ _ _ noPairs noLevels 1 fun _ _ => rfl
  pre c := iprop(StableHlo.held (c : Thread nD τ) (Pipeline.ucRefs τ sig) (bufs3 m c) ∗ rest c)
  post c := iprop(StableHlo.held (c : Thread nD τ) (Pipeline.ucRefs τ sig) (bufs4 m c) ∗ rest c)
  X c := iprop(∃ r, prngReg c r)
  Y c := iprop(∃ r, prngReg c r)
  Z c := Pipeline.unscopedRest (Ix := Unit) (Name := ℕ) (U := UR sig nD τ) (Lvl := ℕ) spec1 c (ent3 m c)
  hentry c := by
    rw [Pipeline.ownSems0_none]
    have hsplit := Pipeline.arrays_of_unscopedBufs (p := 1) (pcfgs (F := F)) tables (allDats m) launch1.win launch1.arr_whole c
      ((allDats m 1 c).share_full fun _ => rfl) (ent3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m 1 c).Φ 0 = iprop(scr1 (ent3 m) c 0 ∗ Pipeline.scopedRestBut (Ix := Unit) (Name := ℕ) (U := UR sig nD τ) (Lvl := ℕ) (Val := Elt F) spec1 c [cc1_scratch0] ∗ ∃ r, prngReg c r) from inv_eq1 (ent3 m) c 0]
    unfold scr1
    rw [if_pos (show (0 : Fin (cfg1.N + 1)).val = 0 from rfl)]
    simp only [owns_whole_eq]
    have hs : (Pipeline.scopedRest (Ix := Unit) (Name := ℕ) (U := UR sig nD τ) (Lvl := ℕ) (Val := Elt F) spec1 c : sProp 𝕄)
        ⊢ iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) :=
      Entails.of_eq (scopedRest1_split c)
    iintro ⟨Hp, -, Hr⟩
    ihave H := hs $$ Hr
    icases H with ⟨⟨%f, Hs⟩, Hb⟩
    isplitl [Hs]
    · iexists f; iexists f; isplitr; · ipureintro; rfl
      iexact Hs
    isplitl [Hb]; · iexact Hb
    iexact Hp
  hout c := by
    rw [Pipeline.ownSems0_none, show (allDats m 1 c).Φ (Fin.last _) = iprop(scr1 (ent3 m) c (Fin.last _) ∗ Pipeline.scopedRestBut (Ix := Unit) (Name := ℕ) (U := UR sig nD τ) (Lvl := ℕ) (Val := Elt F) spec1 c [cc1_scratch0] ∗ ∃ r, prngReg c r) from inv_eq1 (ent3 m) c _]
    unfold scr1
    rw [if_neg (show ¬ (Fin.last cfg1.N).val = 0 from by rw [Fin.val_last, show cfg1.N = 50 from N_1]; decide)]
    simp only [owns_whole_eq]
    have hs : iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0])
        ⊢ (Pipeline.scopedRest (Ix := Unit) (Name := ℕ) (U := UR sig nD τ) (Lvl := ℕ) (Val := Elt F) spec1 c : sProp 𝕄) :=
      Entails.of_eq (scopedRest1_split c).symm
    iintro ⟨⟨%f, -, Hs⟩, Hb, Hp⟩
    isplitl [Hp]; · iexact Hp
    isplitr; · iempintro
    iapply hs
    isplitl [Hs]; · iexists f; iexact Hs
    iexact Hb
  hexit c := by
    have hjoin := Pipeline.unscopedBufs_of_arrays (p := 1) (pcfgs (F := F)) tables (Ix := Unit) (Name := ℕ) (U := UR sig nD τ) (Lvl := ℕ)
      launch1.win launch1.arr_whole c (allDats m) ((allDats m 1 c).share_full fun _ => rfl)
      (ent3 m c) (ent4 m c) ((allDats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 3 as a segment: entered from every unscoped buffer at the contents before it, left at the contents after
    it. Its arrays are split out of the unscoped buffers at entry and put back at exit; its scratch and the generator
    register go into the invariant at the first point and come back from it after the last; nothing is owed and the
    kernel has no semaphore of its own. -/
def region2 : Pipeline.RegionSeg (pcfgs (F := F)) tables (allDats m) () defs₀ noVariants noPairs noLevels 2 where
  win := launch2.win.to₀
  block_pos := launch2.block_pos
  stage_whole := launch2.stage_whole
  K := PEmpty
  osem k := k.elim
  ho := Pipeline.OwnSemFacts.none _
  hbody c := (body_obligation2 (ent5 m) c).loose
  hwaits := Pipeline.hwaits_of_owed_zero _ _ _ _ noPairs noLevels 2 fun _ _ => rfl
  pre c := iprop(StableHlo.held (c : Thread nD τ) (Pipeline.ucRefs τ sig) (bufs5 m c) ∗ rest c)
  post c := iprop(StableHlo.held (c : Thread nD τ) (Pipeline.ucRefs τ sig) (bufs6 m c) ∗ rest c)
  X c := iprop(∃ r, prngReg c r)
  Y c := iprop(∃ r, prngReg c r)
  Z c := Pipeline.unscopedRest (Ix := Unit) (Name := ℕ) (U := UR sig nD τ) (Lvl := ℕ) spec2 c (ent5 m c)
  hentry c := by
    rw [Pipeline.ownSems0_none]
    have hsplit := Pipeline.arrays_of_unscopedBufs (p := 2) (pcfgs (F := F)) tables (allDats m) launch2.win launch2.arr_whole c
      ((allDats m 2 c).share_full fun _ => rfl) (ent5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m 2 c).Φ 0 = iprop(scr2 (ent5 m) c 0 ∗ Pipeline.scopedRestBut (Ix := Unit) (Name := ℕ) (U := UR sig nD τ) (Lvl := ℕ) (Val := Elt F) spec2 c [cc2_scratch0] ∗ ∃ r, prngReg c r) from inv_eq2 (ent5 m) c 0]
    unfold scr2
    rw [if_pos (show (0 : Fin (cfg2.N + 1)).val = 0 from rfl)]
    simp only [owns_whole_eq]
    have hs : (Pipeline.scopedRest (Ix := Unit) (Name := ℕ) (U := UR sig nD τ) (Lvl := ℕ) (Val := Elt F) spec2 c : sProp 𝕄)
        ⊢ iprop(iprop((∃ f : Buf (Elt F) ((c : Thread nD τ).loc cc2_scratch0), ((c : Thread nD τ).loc cc2_scratch0) ↦{fullShare} f))
          ∗ Pipeline.scopedRestBut (Ix := Unit) (Name := ℕ) (U := UR sig nD τ) (Lvl := ℕ) (Val := Elt F) spec2 c [cc2_scratch0]) :=
      Entails.of_eq (scopedRest2_split c)
    iintro ⟨Hp, -, Hr⟩
    ihave H := hs $$ Hr
    icases H with ⟨⟨%f, Hs⟩, Hb⟩
    isplitl [Hs]
    · iexists f; iexists f; isplitr; · ipureintro; rfl
      iexact Hs
    isplitl [Hb]; · iexact Hb
    iexact Hp
  hout c := by
    rw [Pipeline.ownSems0_none, show (allDats m 2 c).Φ (Fin.last _) = iprop(scr2 (ent5 m) c (Fin.last _) ∗ Pipeline.scopedRestBut (Ix := Unit) (Name := ℕ) (U := UR sig nD τ) (Lvl := ℕ) (Val := Elt F) spec2 c [cc2_scratch0] ∗ ∃ r, prngReg c r) from inv_eq2 (ent5 m) c _]
    unfold scr2
    rw [if_neg (show ¬ (Fin.last cfg2.N).val = 0 from by rw [Fin.val_last, show cfg2.N = 50 from N_2]; decide)]
    simp only [owns_whole_eq]
    have hs : iprop(iprop((∃ f : Buf (Elt F) ((c : Thread nD τ).loc cc2_scratch0), ((c : Thread nD τ).loc cc2_scratch0) ↦{fullShare} f))
          ∗ Pipeline.scopedRestBut (Ix := Unit) (Name := ℕ) (U := UR sig nD τ) (Lvl := ℕ) (Val := Elt F) spec2 c [cc2_scratch0])
        ⊢ (Pipeline.scopedRest (Ix := Unit) (Name := ℕ) (U := UR sig nD τ) (Lvl := ℕ) (Val := Elt F) spec2 c : sProp 𝕄) :=
      Entails.of_eq (scopedRest2_split c).symm
    iintro ⟨⟨%f, -, Hs⟩, Hb, Hp⟩
    isplitl [Hp]; · iexact Hp
    isplitr; · iempintro
    iapply hs
    isplitl [Hs]; · iexists f; iexact Hs
    iexact Hb
  hexit c := by
    have hjoin := Pipeline.unscopedBufs_of_arrays (p := 2) (pcfgs (F := F)) tables (Ix := Unit) (Name := ℕ) (U := UR sig nD τ) (Lvl := ℕ)
      launch2.win launch2.arr_whole c (allDats m) ((allDats m 2 c).share_full fun _ => rfl)
      (ent5 m c) (ent6 m c) ((allDats m 2 c).arrAt · cfg2.N) (exit2_arr m c) (exit2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 4 as a segment: entered from every unscoped buffer at the contents before it, left at the contents after
    it. Its arrays are split out of the unscoped buffers at entry and put back at exit; its scratch and the generator
    register go into the invariant at the first point and come back from it after the last; nothing is owed and the
    kernel has no semaphore of its own. -/
def region3 : Pipeline.RegionSeg (pcfgs (F := F)) tables (allDats m) () defs₀ noVariants noPairs noLevels 3 where
  win := launch3.win.to₀
  block_pos := launch3.block_pos
  stage_whole := launch3.stage_whole
  K := PEmpty
  osem k := k.elim
  ho := Pipeline.OwnSemFacts.none _
  hbody c := (body_obligation3 (ent7 m) c).loose
  hwaits := Pipeline.hwaits_of_owed_zero _ _ _ _ noPairs noLevels 3 fun _ _ => rfl
  pre c := iprop(StableHlo.held (c : Thread nD τ) (Pipeline.ucRefs τ sig) (bufs7 m c) ∗ rest c)
  post c := iprop(endState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (ent7 m c)
  hentry c := by
    rw [Pipeline.ownSems0_none]
    have hsplit := Pipeline.arrays_of_unscopedBufs (p := 3) (pcfgs (F := F)) tables (allDats m) launch3.win launch3.arr_whole c
      ((allDats m 3 c).share_full fun _ => rfl) (ent7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m 3 c).Φ 0 = iprop(scr3 (ent7 m) c 0 ∗ Pipeline.scopedRestBut (Ix := Unit) (Name := ℕ) (U := UR sig nD τ) (Lvl := ℕ) (Val := Elt F) spec3 c [cc3_scratch0] ∗ ∃ r, prngReg c r) from inv_eq3 (ent7 m) c 0]
    unfold scr3
    rw [if_pos (show (0 : Fin (cfg3.N + 1)).val = 0 from rfl)]
    simp only [owns_whole_eq]
    have hs : (Pipeline.scopedRest (Ix := Unit) (Name := ℕ) (U := UR sig nD τ) (Lvl := ℕ) (Val := Elt F) spec3 c : sProp 𝕄)
        ⊢ iprop(iprop((∃ f : Buf (Elt F) ((c : Thread nD τ).loc cc3_scratch0), ((c : Thread nD τ).loc cc3_scratch0) ↦{fullShare} f))
          ∗ Pipeline.scopedRestBut (Ix := Unit) (Name := ℕ) (U := UR sig nD τ) (Lvl := ℕ) (Val := Elt F) spec3 c [cc3_scratch0]) :=
      Entails.of_eq (scopedRest3_split c)
    iintro ⟨Hp, -, Hr⟩
    ihave H := hs $$ Hr
    icases H with ⟨⟨%f, Hs⟩, Hb⟩
    isplitl [Hs]
    · iexists f; iexists f; isplitr; · ipureintro; rfl
      iexact Hs
    isplitl [Hb]; · iexact Hb
    iexact Hp
  hout c := by
    rw [Pipeline.ownSems0_none, show (allDats m 3 c).Φ (Fin.last _) = iprop(scr3 (ent7 m) c (Fin.last _) ∗ Pipeline.scopedRestBut (Ix := Unit) (Name := ℕ) (U := UR sig nD τ) (Lvl := ℕ) (Val := Elt F) spec3 c [cc3_scratch0] ∗ ∃ r, prngReg c r) from inv_eq3 (ent7 m) c _]
    unfold scr3
    rw [if_neg (show ¬ (Fin.last cfg3.N).val = 0 from by rw [Fin.val_last, show cfg3.N = 50 from N_3]; decide)]
    simp only [owns_whole_eq]
    have hs : iprop(iprop((∃ f : Buf (Elt F) ((c : Thread nD τ).loc cc3_scratch0), ((c : Thread nD τ).loc cc3_scratch0) ↦{fullShare} f))
          ∗ Pipeline.scopedRestBut (Ix := Unit) (Name := ℕ) (U := UR sig nD τ) (Lvl := ℕ) (Val := Elt F) spec3 c [cc3_scratch0])
        ⊢ (Pipeline.scopedRest (Ix := Unit) (Name := ℕ) (U := UR sig nD τ) (Lvl := ℕ) (Val := Elt F) spec3 c : sProp 𝕄) :=
      Entails.of_eq (scopedRest3_split c).symm
    iintro ⟨⟨%f, -, Hs⟩, Hb, Hp⟩
    isplitl [Hp]; · iexact Hp
    isplitr; · iempintro
    iapply hs
    isplitl [Hs]; · iexists f; iexact Hs
    iexact Hb
  hexit c := by
    have hjoin := Pipeline.unscopedBufs_of_arrays (p := 3) (pcfgs (F := F)) tables (Ix := Unit) (Name := ℕ) (U := UR sig nD τ) (Lvl := ℕ)
      launch3.win launch3.arr_whole c (allDats m) ((allDats m 3 c).share_full fun _ => rfl)
      (ent7 m c) (ent8 m c) ((allDats m 3 c).arrAt · cfg3.N) (exit3_arr m c) (exit3_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segments : List (Pipeline.Seg (pcfgs (F := F)) tables (allDats m) () defs₀ noVariants noPairs noLevels) :=
  [ .host (hostSeg hostOps0 hostOps0_sub hostOps0_fresh (bufs0 m)),
    .region (region0 m),
    .host (hostSeg hostOps1 hostOps1_sub hostOps1_fresh (bufs2 m)),
    .region (region1 m),
    .host (hostSeg hostOps2 hostOps2_sub hostOps2_fresh (bufs4 m)),
    .region (region2 m),
    .host (hostSeg hostOps3 hostOps3_sub hostOps3_fresh (bufs6 m)),
    .region (region3 m) ]
theorem main_is_run (c : Dev nD) : main (F := F) c = Pipeline.Seg.run (segments m) := (main_chain c).trans (by chain_rfl)

set_option backward.isDefEq.respectTransparency.types false in
/-- From any memory with zero counters, every weakly fair execution of the program terminates, nothing faulting, and
    every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = bufs8 m c b) :=
  Pipeline.θ_run_regions_kit (pcfgs (F := F)) tables (allDats m) () cellOf_inj emb₁ defs₀ noVariants noPairs noLevels m ρ main (segments m)
    (fun c Q => by rw [main_is_run m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bufs0 m c) ∗ rest c)) (Tₙ := endState m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach noPairs noLevels fun c => ?_
      rw [show unscopedBufs c (fun b => m ((c : Thread nD τ).loc b)) = StableHlo.held (c : Thread nD τ) (Pipeline.ucRefs τ sig) (bufs0 m c)
        from Pipeline.unscopedBufs_held c (bufs0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bufs8 m c b)
    (hfin := fun c s' => by
      iintro ⟨⟨Hh, -⟩, HSI⟩
      unfold StableHlo.held
      imodintro
      iapply (pointsTo_read_all (Pipeline.ucRefs τ sig) (fun b => (((c : Thread nD τ)).1, b)) (bufs8 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_unscoped main_arg0 (by decide))).trans (bufs8_main_arg0 m c),
     (h c _ (mem_unscoped main_arg1 (by decide))).trans (bufs8_main_arg1 m c),
     (h c _ (mem_unscoped main_arg2 (by decide))).trans (bufs8_main_arg2 m c),
     (h c _ (mem_unscoped main_arg3 (by decide))).trans (bufs8_main_arg3 m c),
     (h c _ (mem_unscoped main_arg4 (by decide))).trans (bufs8_main_arg4 m c)⟩) (run m ρ)

end Cert.Kernel.Pass

end
-- ==== Proof.IdealRun0.lean ====
/-
  The kernel body of the first pass (one row block of the adjacency in full precision against the input features kept
  whole on chip): what it leaves at the first grid point, where the feature transform x·W is written to the scratch
  before being read back, and at every later point, where the scratch is only read. The inputs' buffers come back as
  they were; one output block holds the activation of (adjacency block)·(scratch) + bias, the other the adjacency
  block itself in the narrower format; the scratch holds the feature transform.
-/
import proofs.«148270_g13469017440497_cont_week2b_423_4_alg».proof.Proof.Gen.KernelIdeal.Launch
import proofs.«148270_g13469017440497_cont_week2b_423_4_alg».proof.Proof.Gen.KernelIdeal.Skeleton
import proofs.«148270_g13469017440497_cont_week2b_423_4_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 whole-block access. -/
theorem zeros2_0 : (![0, 0] : Fin 2 → Nat) = fun _ => 0 := funext fun a => by fin_cases a <;> rfl

/-- The body's branch: the grid coordinate is zero (the first row block). -/
abbrev first0 (i : grid0.Coords) : Prop := (Scalar.cmpi .ne (Scalar.extui (Scalar.cmpi .eq (BitVec.ofNat 32 (i 0).val) 0#32)) 0#32) = 1#1
/-- It holds at the first of the fifty points only. -/
theorem first0_iff : ∀ t : Fin cfg0.N, first0 (grid0.coords t) ↔ t.val % 50 = 0 :=
  (by decide +kernel : ∀ t : Fin grid0.N, first0 (grid0.coords t) ↔ t.val % 50 = 0)

set_option maxHeartbeats 2000000 in
/-- At the first point: the scratch, whatever it held, ends at the feature transform of the two operands it was computed
    from, and each output block at its function of the adjacency block and that transform. -/
theorem runFirst0 (c : Dev nD) (i : grid0.Coords)
    (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S200x128 .f32) (harg6 : arg6.IsWhole) (arg7 : Memref sig .tc .vmem S200x10000 .bf16) (harg7 : arg7.IsWhole) (arg8 : Memref sig .tc .vmem S10000x128 .f32) (harg8 : arg8.IsWhole) (hc : first0 i)
    (x0 : Vec F S200x10000 .f32) (x1 : Vec F S10000x128 .f32) (x2 : Vec F S128x128 .f32) (x3 : Vec F S1x128 .f32) (x4 : Vec F S1x128 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare (k0_pay3 x0 (k0_pay1 x1 x2) x3 x4)
                ∗ owns (c : Thread nD τ) arg7 fullShare (k0_pay2 x0)
                ∗ owns (c : Thread nD τ) arg8 fullShare (k0_pay1 x1 x2)) -∗ K ⟨⟩))
          ⊢ wp frame (wpE (defs₀ (F := F)) Variants.none c none) E (cc0__first_pass_kernel i arg1 harg1 arg2 harg2 arg3 harg3 arg4 harg4 arg5 harg5 arg6 harg6 arg7 harg7 arg8 harg8) K := by
  have hz := zeros2_0
  simp only [cc0__first_pass_kernel_eq_skeleton]; unfold cc0__first_pass_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg1.eq_unread hf0
  obtain rfl := harg2.eq_unread hf1
  obtain rfl := harg3.eq_unread hf2
  obtain rfl := harg4.eq_unread hf3
  obtain rfl := harg5.eq_unread hf4
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_unfold_words
    rw [View.read_writes_eq_canon _ _ _ (fun y => ⟨_, List.mem_singleton_self _, View.mem_set_unit_zero hz inb_S200x128_S200x128_0_0 y⟩),
      View.canon_unit_zero hz, View.readCov_unit_zero _ hz]
    simp only [View.readAt_eq_ld, harg1.read_unread, harg2.read_unread, harg3.read_unread, harg4.read_unread, harg5.read_unread, View.ld_unit_zero (S := S200x10000) hz, View.ld_unit_zero (S := S10000x128) hz, View.ld_unit_zero (S := S128x128) hz, View.ld_unit_zero (S := S1x128) hz, View.ld_unit_zero (S := S200x128) hz]
  isplitl [H6]
  · iexists _; isplitr; swap; · iexact H6
    ipureintro
    sl_unfold_words
    rw [View.read_writes_eq_canon _ _ _ (fun y => ⟨_, List.mem_singleton_self _, View.mem_set_unit_zero hz inb_S200x10000_S200x10000_0_0 y⟩),
      View.canon_unit_zero hz]
    simp only [View.readAt_eq_ld, harg1.read_unread, harg2.read_unread, harg3.read_unread, harg4.read_unread, harg5.read_unread, View.ld_unit_zero (S := S200x10000) hz, View.ld_unit_zero (S := S10000x128) hz, View.ld_unit_zero (S := S128x128) hz, View.ld_unit_zero (S := S1x128) hz, View.ld_unit_zero (S := S200x128) hz]
  iexists _; isplitr; swap; · iexact H7
  ipureintro
  sl_unfold_words
  rw [View.read_writes_eq_canon _ _ _ (fun y => ⟨_, List.mem_singleton_self _, View.mem_set_unit_zero hz inb_S10000x128_S10000x128_0_0 y⟩),
    View.canon_unit_zero hz]
  simp only [View.readAt_eq_ld, harg1.read_unread, harg2.read_unread, harg3.read_unread, harg4.read_unread, harg5.read_unread, View.ld_unit_zero (S := S200x10000) hz, View.ld_unit_zero (S := S10000x128) hz, View.ld_unit_zero (S := S128x128) hz, View.ld_unit_zero (S := S1x128) hz, View.ld_unit_zero (S := S200x128) hz]

set_option maxHeartbeats 2000000 in
/-- At a later point: the scratch is read as found and left as found, and each output block holds its function of the
    adjacency block and the scratch. -/
theorem runLater0 (c : Dev nD) (i : grid0.Coords)
    (arg1 : Memref sig .tc .vmem S200x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S200x128 .f32) (harg6 : arg6.IsWhole) (arg7 : Memref sig .tc .vmem S200x10000 .bf16) (harg7 : arg7.IsWhole) (arg8 : Memref sig .tc .vmem S10000x128 .f32) (harg8 : arg8.IsWhole) (hc : ¬ first0 i)
    (x0 : Vec F S200x10000 .f32) (x1 : Vec F S10000x128 .f32) (x2 : Vec F S128x128 .f32) (x3 : Vec F S1x128 .f32) (x4 : Vec F S1x128 .f32) (s : Vec F S10000x128 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ owns (c : Thread nD τ) arg8 fullShare s
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare (k0_pay3 x0 s x3 x4)
                ∗ owns (c : Thread nD τ) arg7 fullShare (k0_pay2 x0)
                ∗ owns (c : Thread nD τ) arg8 fullShare s) -∗ K ⟨⟩))
          ⊢ wp frame (wpE (defs₀ (F := F)) Variants.none c none) E (cc0__first_pass_kernel i arg1 harg1 arg2 harg2 arg3 harg3 arg4 harg4 arg5 harg5 arg6 harg6 arg7 harg7 arg8 harg8) K := by
  have hz := zeros2_0
  simp only [cc0__first_pass_kernel_eq_skeleton]; unfold cc0__first_pass_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg8.eq_unread hf7
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_unfold_words
    rw [View.read_writes_eq_canon _ _ _ (fun y => ⟨_, List.mem_singleton_self _, View.mem_set_unit_zero hz inb_S200x128_S200x128_0_0 y⟩),
      View.canon_unit_zero hz]
    simp only [View.readAt_eq_ld, harg1.read_unread, harg2.read_unread, harg3.read_unread, harg4.read_unread, harg5.read_unread, harg8.read_unread, View.ld_unit_zero (S := S200x10000) hz, View.ld_unit_zero (S := S10000x128) hz, View.ld_unit_zero (S := S128x128) hz, View.ld_unit_zero (S := S1x128) hz, View.ld_unit_zero (S := S200x128) hz]
  isplitl [H6]
  · iexists _; isplitr; swap; · iexact H6
    ipureintro
    sl_unfold_words
    rw [View.read_writes_eq_canon _ _ _ (fun y => ⟨_, List.mem_singleton_self _, View.mem_set_unit_zero hz inb_S200x10000_S200x10000_0_0 y⟩),
      View.canon_unit_zero hz]
    simp only [View.readAt_eq_ld, harg1.read_unread, harg2.read_unread, harg3.read_unread, harg4.read_unread, harg5.read_unread, View.ld_unit_zero (S := S200x10000) hz, View.ld_unit_zero (S := S10000x128) hz, View.ld_unit_zero (S := S128x128) hz, View.ld_unit_zero (S := S1x128) hz, View.ld_unit_zero (S := S200x128) hz]
  iexists _; isplitr; · ipureintro; exact harg8.read_unread _
  iexact H7

end Cert.KernelIdeal.Pass

end
-- ==== Proof.IdealPass0.lean ====
/-
  The first pass as a pipeline over fifty row blocks, entered from buffer contents `V`: what each window's buffer
  holds before and after the body at every point, the invariant between points (the scratch holds the feature
  transform x·W from the first point on, computed once from the input features and the weights, which every point
  sees whole), and the body's obligation at every point, by cases on whether the point is the first.
-/
import proofs.«148270_g13469017440497_cont_week2b_423_4_alg».proof.Proof.IdealRun0
import Idealize.ShloMosaic.Lib.Pipeline.Frame

set_option maxRecDepth 16384

noncomputable section

namespace Cert.KernelIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the pass finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not: where it is not fetched its
    block index has not moved and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's current buffer holds its block at every point, fetched there or not: where it is not fetched its
    block index has not moved and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's current buffer holds its block at every point, fetched there or not: where it is not fetched its
    block index has not moved and the body left the block in place. -/
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Input window 3's current buffer holds its block at every point, fetched there or not: where it is not fetched its
    block index has not moved and the body left the block in place. -/
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- Input window 4's current buffer holds its block at every point, fetched there or not: where it is not fetched its
    block index has not moved and the body left the block in place. -/
theorem before0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-- The first of the fifty points. -/
abbrev pt0_0 : Fin cfg0.N := ⟨0, lt_of_lt_of_eq (by decide : 0 < 50) (show cfg0.N = 50 from N_0).symm⟩

/-- The feature transform the scratch holds from the first point on: the hidden state times the weights. -/
def seq0 (c : Dev nD) : Vec F S10000x128 .f32 := k0_pay1 (blk0 V c 1 pt0_0) (blk0 V c 2 pt0_0)

/-- The scratch between points: anything before the first point, the feature transform after it. -/
def scr0 (c : Dev nD) (t : Fin (cfg0.N + 1)) : sProp 𝕄 :=
  if t.val = 0 then iprop(∃ d : Vec F S10000x128 .f32, owns (c : Thread nD τ) (Memref.whole cc0_scratch0 : Memref sig .tc .vmem S10000x128 .f32) fullShare d)
  else owns (c : Thread nD τ) (Memref.whole cc0_scratch0 : Memref sig .tc .vmem S10000x128 .f32) fullShare (seq0 V c)

/-- The pass's proof data on core `c`: the arrays as found; each input's buffer left at its block, each output's at
    its function of the adjacency block and the feature transform; between points the scratch as above, the other
    scoped buffers and the generator register untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => k0_pay3 (blk0 V c 0 t) (seq0 V c) (blk0 V c 3 t) (blk0 V c 4 t)
    | ⟨6, _⟩ => k0_pay2 (blk0 V c 0 t)
  Φ t := iprop(scr0 V c t ∗ Pipeline.scopedRestBut (Ix := Unit) (Name := ℕ) (U := UR sig nD τ) (Lvl := ℕ) (Val := Elt F) spec0 c [cc0_scratch0] ∗ ∃ r, prngReg c r)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) :
    (dat0 V c).after 5 t = k0_pay3 (blk0 V c 0 t) (seq0 V c) (blk0 V c 3 t) (blk0 V c 4 t) := by dsimp only [dat0]
theorem after0_6 (c : Dev nD) (t : Fin cfg0.N) :
    (dat0 V c).after 6 t = k0_pay2 (blk0 V c 0 t) := by dsimp only [dat0]
theorem inv_eq0 (c : Dev nD) (t : Fin (cfg0.N + 1)) :
    (dat0 V c).Φ t = iprop(scr0 V c t ∗ Pipeline.scopedRestBut (Ix := Unit) (Name := ℕ) (U := UR sig nD τ) (Lvl := ℕ) (Val := Elt F) spec0 c [cc0_scratch0] ∗ ∃ r, prngReg c r) := by
  dsimp only [dat0]
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d
theorem before0_4 (c : Dev nD) (t : Fin cfg0.N) (d) : (dat0 V c).before 4 t d = blk0 V c 4 t :=
  before0_4_of V (dat0 V c) (A_eq0 V c 4) (after0_4 V c) t d

set_option maxHeartbeats 1000000 in
/-- The body at any point: at the first, the scratch is filled then read; at a later one it holds the feature
    transform already. The rest of the invariant and what the core owes pass through unread. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d))
        ∗ (∃ d, owns (c : Thread nD τ) (st0_4 t) fullShare ((dat0 V c).before 4 t d))
        ∗ (∃ d, owns (c : Thread nD τ) (st0_5 t) fullShare ((dat0 V c).before 5 t d))
        ∗ (∃ d, owns (c : Thread nD τ) (st0_6 t) fullShare ((dat0 V c).before 6 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)
            ∗ owns (c : Thread nD τ) (st0_3 t) fullShare ((dat0 V c).after 3 t)
            ∗ owns (c : Thread nD τ) (st0_4 t) fullShare ((dat0 V c).after 4 t)
            ∗ owns (c : Thread nD τ) (st0_5 t) fullShare ((dat0 V c).after 5 t)
            ∗ owns (c : Thread nD τ) (st0_6 t) fullShare ((dat0 V c).after 6 t))) := by
  unfold bodyAt0
  simp only [before0_0, before0_1, before0_2, before0_3, before0_4]
  rw [show (dat0 V c).owesAt () t.succ = (dat0 V c).owesAt () t.castSucc from rfl,
    after0_0, after0_1, after0_2, after0_3, after0_4, after0_5, after0_6, inv_eq0, inv_eq0]
  have hN : t.val < 50 := lt_of_lt_of_eq t.isLt (show cfg0.N = 50 from N_0)
  unfold scr0
  rw [if_neg (show ¬ t.succ.val = 0 from Nat.succ_ne_zero _)]
  by_cases h0 : t.val % 50 = 0
  · obtain rfl : t = pt0_0 := Fin.ext (by show t.val = 0; omega)
    rw [if_pos (show (pt0_0 : Fin cfg0.N).castSucc.val = 0 from rfl)]
    unfold seq0
    iintro ⟨⟨Hs, Hr, Hp⟩, Ho, ⟨%d0, H0⟩, ⟨%d1, H1⟩, ⟨%d2, H2⟩, ⟨%d3, H3⟩, ⟨%d4, H4⟩, ⟨%d5, H5⟩, ⟨%d6, H6⟩⟩
    iapply (runFirst0 c (grid0.coords pt0_0) _ _ _ _ _ _ _ _ _ _ _ _ _ _ _ _ ((first0_iff pt0_0).mpr h0)
      (blk0 V c 0 pt0_0) (blk0 V c 1 pt0_0) (blk0 V c 2 pt0_0) (blk0 V c 3 pt0_0) (blk0 V c 4 pt0_0) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Hs]; · iexact Hs
    iintro ⟨H0, H1, H2, H3, H4, H5, H6, Hs⟩
    isplitl [Hs Hr Hp]
    · isplitl [Hs]; · iexact Hs
      isplitl [Hr]; · iexact Hr
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [if_neg (show ¬ t.castSucc.val = 0 from fun h => h0 (by rw [show t.val = 0 from h]))]
    iintro ⟨⟨Hs, Hr, Hp⟩, Ho, ⟨%d0, H0⟩, ⟨%d1, H1⟩, ⟨%d2, H2⟩, ⟨%d3, H3⟩, ⟨%d4, H4⟩, ⟨%d5, H5⟩, ⟨%d6, H6⟩⟩
    iapply (runLater0 c (grid0.coords t) _ _ _ _ _ _ _ _ _ _ _ _ _ _ _ _ (fun h => h0 ((first0_iff t).mp h))
      (blk0 V c 0 t) (blk0 V c 1 t) (blk0 V c 2 t) (blk0 V c 3 t) (blk0 V c 4 t) (seq0 V c) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Hs]; · iexact Hs
    iintro ⟨H0, H1, H2, H3, H4, H5, H6, Hs⟩
    isplitl [Hs Hr Hp]
    · isplitl [Hs]; · iexact Hs
      isplitl [Hr]; · iexact Hr
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The pipeline library's body obligation for the pass, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Pass

end
-- ==== Proof.IdealRun1.lean ====
/-
  The kernel body of pass 2 (one row block of the adjacency, stored in bf16, against the hidden state kept whole on
  chip): what it leaves at the first grid point, where the feature transform h·W is written to the scratch before being
  read back, and at every later point, where the scratch is only read. In both cases the inputs' buffers come back as
  they were, the output block holds the activation of (adjacency block)·(scratch) + bias, and the scratch holds the
  feature transform.
-/
import proofs.«148270_g13469017440497_cont_week2b_423_4_alg».proof.Proof.Gen.KernelIdeal.Launch
import proofs.«148270_g13469017440497_cont_week2b_423_4_alg».proof.Proof.Gen.KernelIdeal.Skeleton
import proofs.«148270_g13469017440497_cont_week2b_423_4_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 whole-block access. -/
theorem zeros2_1 : (![0, 0] : Fin 2 → Nat) = fun _ => 0 := funext fun a => by fin_cases a <;> rfl

/-- The body's branch: the grid coordinate is zero (the first row block). -/
abbrev first1 (i : grid1.Coords) : Prop := (Scalar.cmpi .ne (Scalar.extui (Scalar.cmpi .eq (BitVec.ofNat 32 (i 0).val) 0#32)) 0#32) = 1#1
/-- It holds at the first of the fifty points only. -/
theorem first1_iff : ∀ t : Fin cfg1.N, first1 (grid1.coords t) ↔ t.val % 50 = 0 :=
  (by decide +kernel : ∀ t : Fin grid1.N, first1 (grid1.coords t) ↔ t.val % 50 = 0)

set_option maxHeartbeats 1000000 in
/-- At the first point: the scratch, whatever it held, ends at the feature transform of the two operands it was computed
    from, and the output block at the activation of the adjacency block against that transform. -/
theorem runFirst1 (c : Dev nD) (i : grid1.Coords)
    (arg1 : Memref sig .tc .vmem S200x10000 .bf16) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S200x128 .f32) (harg6 : arg6.IsWhole)
    (arg7 : Memref sig .tc .vmem S10000x128 .bf16) (harg7 : arg7.IsWhole) (hc : first1 i)
    (x0 : Vec F S200x10000 .bf16) (x1 : Vec F S10000x128 .f32) (x2 : Vec F S128x128 .f32) (x3 : Vec F S1x128 .f32) (x4 : Vec F S1x128 .f32) (E : Set ℕ) (K : PUnit → sProp 𝕄) :
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ owns (c : Thread nD τ) arg6 fullShare (k1_pay2 x0 (k1_pay1 x1 x2) x3 x4)
                ∗ owns (c : Thread nD τ) arg7 fullShare (k1_pay1 x1 x2)) -∗ K ⟨⟩))
          ⊢ wp frame (wpE (defs₀ (F := F)) Variants.none c none) E (cc1__bf16_pass_kernel i arg1 harg1 arg2 harg2 arg3 harg3 arg4 harg4 arg5 harg5 arg6 harg6 arg7 harg7) K := by
  have hz := zeros2_1
  simp only [cc1__bf16_pass_kernel_eq_skeleton]; unfold cc1__bf16_pass_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf0
  obtain rfl := harg2.eq_unread hf1
  obtain rfl := harg3.eq_unread hf2
  obtain rfl := harg4.eq_unread hf3
  obtain rfl := harg5.eq_unread hf4
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_unfold_words
    rw [View.read_writes_eq_canon _ _ _ (fun y => ⟨_, List.mem_singleton_self _, View.mem_set_unit_zero hz inb_S200x128_S200x128_0_0 y⟩),
      View.canon_unit_zero hz, View.readCov_unit_zero _ hz]
    simp only [View.readAt_eq_ld, harg1.read_unread, harg2.read_unread, harg3.read_unread, harg4.read_unread, harg5.read_unread,
      View.ld_unit_zero (S := S200x10000) hz, View.ld_unit_zero (S := S10000x128) hz, View.ld_unit_zero (S := S128x128) hz,
      View.ld_unit_zero (S := S1x128) hz]
  iexists _; isplitr; swap; · iexact H6
  ipureintro
  sl_unfold_words
  rw [View.read_writes_eq_canon _ _ _ (fun y => ⟨_, List.mem_singleton_self _, View.mem_set_unit_zero hz inb_S10000x128_S10000x128_0_0 y⟩),
    View.canon_unit_zero hz]
  simp only [View.readAt_eq_ld, harg1.read_unread, harg2.read_unread, harg3.read_unread, harg4.read_unread, harg5.read_unread,
    View.ld_unit_zero (S := S200x10000) hz, View.ld_unit_zero (S := S10000x128) hz, View.ld_unit_zero (S := S128x128) hz,
    View.ld_unit_zero (S := S1x128) hz]

set_option maxHeartbeats 1000000 in
/-- At a later point: the scratch is read as found and left as found, and the output block holds the activation of the
    adjacency block against it. -/
theorem runLater1 (c : Dev nD) (i : grid1.Coords)
    (arg1 : Memref sig .tc .vmem S200x10000 .bf16) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S200x128 .f32) (harg6 : arg6.IsWhole)
    (arg7 : Memref sig .tc .vmem S10000x128 .bf16) (harg7 : arg7.IsWhole) (hc : ¬ first1 i)
    (x0 : Vec F S200x10000 .bf16) (x1 : Vec F S10000x128 .f32) (x2 : Vec F S128x128 .f32) (x3 : Vec F S1x128 .f32) (x4 : Vec F S1x128 .f32) (s : Vec F S10000x128 .bf16) (E : Set ℕ) (K : PUnit → sProp 𝕄) :
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare s
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ owns (c : Thread nD τ) arg6 fullShare (k1_pay2 x0 s x3 x4)
                ∗ owns (c : Thread nD τ) arg7 fullShare s) -∗ K ⟨⟩))
          ⊢ wp frame (wpE (defs₀ (F := F)) Variants.none c none) E (cc1__bf16_pass_kernel i arg1 harg1 arg2 harg2 arg3 harg3 arg4 harg4 arg5 harg5 arg6 harg6 arg7 harg7) K := by
  have hz := zeros2_1
  simp only [cc1__bf16_pass_kernel_eq_skeleton]; unfold cc1__bf16_pass_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg7.eq_unread hf6
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_unfold_words
    rw [View.read_writes_eq_canon _ _ _ (fun y => ⟨_, List.mem_singleton_self _, View.mem_set_unit_zero hz inb_S200x128_S200x128_0_0 y⟩),
      View.canon_unit_zero hz]
    simp only [View.readAt_eq_ld, harg1.read_unread, harg4.read_unread, harg5.read_unread, harg7.read_unread,
      View.ld_unit_zero (S := S200x10000) hz, View.ld_unit_zero (S := S10000x128) hz, View.ld_unit_zero (S := S1x128) hz]
  iexists _; isplitr; · ipureintro; exact harg7.read_unread _
  iexact H6

end Cert.KernelIdeal.Pass

end
-- ==== Proof.IdealPass1.lean ====
/-
  Pass 2 as a pipeline over fifty row blocks, entered from buffer contents `V`: what each window's buffer holds
  before and after the body at every point, the invariant between points (the scratch holds the feature transform
  h·W from the first point on, computed once from the hidden state and the weights, which every point sees whole),
  and the body's obligation at every point, by cases on whether the point is the first.
-/
import proofs.«148270_g13469017440497_cont_week2b_423_4_alg».proof.Proof.IdealRun1
import Idealize.ShloMosaic.Lib.Pipeline.Frame

set_option maxRecDepth 16384

noncomputable section

namespace Cert.KernelIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the pass finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not: where it is not fetched its
    block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's current buffer holds its block at every point, fetched there or not: where it is not fetched its
    block index has not moved and the body left the block in place. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's current buffer holds its block at every point, fetched there or not: where it is not fetched its
    block index has not moved and the body left the block in place. -/
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Input window 3's current buffer holds its block at every point, fetched there or not: where it is not fetched its
    block index has not moved and the body left the block in place. -/
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Input window 4's current buffer holds its block at every point, fetched there or not: where it is not fetched its
    block index has not moved and the body left the block in place. -/
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- The first of the fifty points. -/
abbrev pt0_1 : Fin cfg1.N := ⟨0, lt_of_lt_of_eq (by decide : 0 < 50) (show cfg1.N = 50 from N_1).symm⟩

/-- The feature transform the scratch holds from the first point on: the hidden state times the weights. -/
def seq1 (c : Dev nD) : Vec F S10000x128 .bf16 := k1_pay1 (blk1 V c 1 pt0_1) (blk1 V c 2 pt0_1)

/-- The scratch between points: anything before the first point, the feature transform after it. -/
def scr1 (c : Dev nD) (t : Fin (cfg1.N + 1)) : sProp 𝕄 :=
  if t.val = 0 then iprop(∃ d : Vec F S10000x128 .bf16, owns (c : Thread nD τ) (Memref.whole cc1_scratch0 : Memref sig .tc .vmem S10000x128 .bf16) fullShare d)
  else owns (c : Thread nD τ) (Memref.whole cc1_scratch0 : Memref sig .tc .vmem S10000x128 .bf16) fullShare (seq1 V c)

/-- The pass's proof data on core `c`: the arrays as found; each input's buffer left at its block, the output's at
    the activation of its adjacency block against the feature transform; between points the scratch as above, the
    other scoped buffers and the generator register untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => k1_pay2 (blk1 V c 0 t) (seq1 V c) (blk1 V c 3 t) (blk1 V c 4 t)
  Φ t := iprop(scr1 V c t ∗ Pipeline.scopedRestBut (Ix := Unit) (Name := ℕ) (U := UR sig nD τ) (Lvl := ℕ) (Val := Elt F) spec1 c [cc1_scratch0] ∗ ∃ r, prngReg c r)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) :
    (dat1 V c).after 5 t = k1_pay2 (blk1 V c 0 t) (seq1 V c) (blk1 V c 3 t) (blk1 V c 4 t) := by dsimp only [dat1]
theorem inv_eq1 (c : Dev nD) (t : Fin (cfg1.N + 1)) :
    (dat1 V c).Φ t = iprop(scr1 V c t ∗ Pipeline.scopedRestBut (Ix := Unit) (Name := ℕ) (U := UR sig nD τ) (Lvl := ℕ) (Val := Elt F) spec1 c [cc1_scratch0] ∗ ∃ r, prngReg c r) := by
  dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d

set_option maxHeartbeats 1000000 in
/-- The body at any point: at the first, the scratch is filled then read; at a later one it holds the feature
    transform already. The rest of the invariant and what the core owes pass through unread. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d))
        ∗ (∃ d, owns (c : Thread nD τ) (st1_4 t) fullShare ((dat1 V c).before 4 t d))
        ∗ (∃ d, owns (c : Thread nD τ) (st1_5 t) fullShare ((dat1 V c).before 5 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t)
            ∗ owns (c : Thread nD τ) (st1_4 t) fullShare ((dat1 V c).after 4 t)
            ∗ owns (c : Thread nD τ) (st1_5 t) fullShare ((dat1 V c).after 5 t))) := by
  unfold bodyAt1
  simp only [before1_0, before1_1, before1_2, before1_3, before1_4]
  rw [show (dat1 V c).owesAt () t.succ = (dat1 V c).owesAt () t.castSucc from rfl,
    after1_0, after1_1, after1_2, after1_3, after1_4, after1_5, inv_eq1, inv_eq1]
  have hN : t.val < 50 := lt_of_lt_of_eq t.isLt (show cfg1.N = 50 from N_1)
  unfold scr1
  rw [if_neg (show ¬ t.succ.val = 0 from Nat.succ_ne_zero _)]
  by_cases h0 : t.val % 50 = 0
  · obtain rfl : t = pt0_1 := Fin.ext (by show t.val = 0; omega)
    rw [if_pos (show (pt0_1 : Fin cfg1.N).castSucc.val = 0 from rfl)]
    unfold seq1
    iintro ⟨⟨Hs, Hr, Hp⟩, Ho, ⟨%d0, H0⟩, ⟨%d1, H1⟩, ⟨%d2, H2⟩, ⟨%d3, H3⟩, ⟨%d4, H4⟩, ⟨%d5, H5⟩⟩
    iapply (runFirst1 c (grid1.coords pt0_1) _ _ _ _ _ _ _ _ _ _ _ _ _ _ ((first1_iff pt0_1).mpr h0)
      (blk1 V c 0 pt0_1) (blk1 V c 1 pt0_1) (blk1 V c 2 pt0_1) (blk1 V c 3 pt0_1) (blk1 V c 4 pt0_1) Set.univ _)
    isplitl [H0]; · iexact H0
    isplitl [H1]; · iexact H1
    isplitl [H2]; · iexact H2
    isplitl [H3]; · iexact H3
    isplitl [H4]; · iexact H4
    isplitl [H5]; · iexists _; iexact H5
    isplitl [Hs]; · iexact Hs
    iintro ⟨H0, H1, H2, H3, H4, H5, Hs⟩
    isplitl [Hs Hr Hp]
    · isplitl [Hs]; · iexact Hs
      isplitl [Hr]; · iexact Hr
      iexact Hp
    isplitl [Ho]; · iexact Ho
    isplitl [H0]; · iexact H0
    isplitl [H1]; · iexact H1
    isplitl [H2]; · iexact H2
    isplitl [H3]; · iexact H3
    isplitl [H4]; · iexact H4
    iexact H5
  · rw [if_neg (show ¬ t.castSucc.val = 0 from fun h => h0 (by rw [show t.val = 0 from h]))]
    iintro ⟨⟨Hs, Hr, Hp⟩, Ho, ⟨%d0, H0⟩, ⟨%d1, H1⟩, ⟨%d2, H2⟩, ⟨%d3, H3⟩, ⟨%d4, H4⟩, ⟨%d5, H5⟩⟩
    iapply (runLater1 c (grid1.coords t) _ _ _ _ _ _ _ _ _ _ _ _ _ _ (fun h => h0 ((first1_iff t).mp h))
      (blk1 V c 0 t) (blk1 V c 1 t) (blk1 V c 2 t) (blk1 V c 3 t) (blk1 V c 4 t) (seq1 V c) Set.univ _)
    isplitl [H0]; · iexact H0
    isplitl [H1]; · iexact H1
    isplitl [H2]; · iexact H2
    isplitl [H3]; · iexact H3
    isplitl [H4]; · iexact H4
    isplitl [H5]; · iexists _; iexact H5
    isplitl [Hs]; · iexact Hs
    iintro ⟨H0, H1, H2, H3, H4, H5, Hs⟩
    isplitl [Hs Hr Hp]
    · isplitl [Hs]; · iexact Hs
      isplitl [Hr]; · iexact Hr
      iexact Hp
    isplitl [Ho]; · iexact Ho
    isplitl [H0]; · iexact H0
    isplitl [H1]; · iexact H1
    isplitl [H2]; · iexact H2
    isplitl [H3]; · iexact H3
    isplitl [H4]; · iexact H4
    iexact H5

/-- The pipeline library's body obligation for the pass, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Pass

end
-- ==== Proof.IdealRun2.lean ====
/-
  The kernel body of pass 3 (one row block of the adjacency, stored in bf16, against the hidden state kept whole on
  chip): what it leaves at the first grid point, where the feature transform h·W is written to the scratch before being
  read back, and at every later point, where the scratch is only read. In both cases the inputs' buffers come back as
  they were, the output block holds the activation of (adjacency block)·(scratch) + bias, and the scratch holds the
  feature transform.
-/
import proofs.«148270_g13469017440497_cont_week2b_423_4_alg».proof.Proof.Gen.KernelIdeal.Launch
import proofs.«148270_g13469017440497_cont_week2b_423_4_alg».proof.Proof.Gen.KernelIdeal.Skeleton
import proofs.«148270_g13469017440497_cont_week2b_423_4_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 whole-block access. -/
theorem zeros2_2 : (![0, 0] : Fin 2 → Nat) = fun _ => 0 := funext fun a => by fin_cases a <;> rfl

/-- The body's branch: the grid coordinate is zero (the first row block). -/
abbrev first2 (i : grid2.Coords) : Prop := (Scalar.cmpi .ne (Scalar.extui (Scalar.cmpi .eq (BitVec.ofNat 32 (i 0).val) 0#32)) 0#32) = 1#1
/-- It holds at the first of the fifty points only. -/
theorem first2_iff : ∀ t : Fin cfg2.N, first2 (grid2.coords t) ↔ t.val % 50 = 0 :=
  (by decide +kernel : ∀ t : Fin grid2.N, first2 (grid2.coords t) ↔ t.val % 50 = 0)

set_option maxHeartbeats 1000000 in
/-- At the first point: the scratch, whatever it held, ends at the feature transform of the two operands it was computed
    from, and the output block at the activation of the adjacency block against that transform. -/
theorem runFirst2 (c : Dev nD) (i : grid2.Coords)
    (arg1 : Memref sig .tc .vmem S200x10000 .bf16) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S200x128 .f32) (harg6 : arg6.IsWhole)
    (arg7 : Memref sig .tc .vmem S10000x128 .bf16) (harg7 : arg7.IsWhole) (hc : first2 i)
    (x0 : Vec F S200x10000 .bf16) (x1 : Vec F S10000x128 .f32) (x2 : Vec F S128x128 .f32) (x3 : Vec F S1x128 .f32) (x4 : Vec F S1x128 .f32) (E : Set ℕ) (K : PUnit → sProp 𝕄) :
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ owns (c : Thread nD τ) arg6 fullShare (k2_pay2 x0 (k2_pay1 x1 x2) x3 x4)
                ∗ owns (c : Thread nD τ) arg7 fullShare (k2_pay1 x1 x2)) -∗ K ⟨⟩))
          ⊢ wp frame (wpE (defs₀ (F := F)) Variants.none c none) E (cc2__bf16_pass_kernel i arg1 harg1 arg2 harg2 arg3 harg3 arg4 harg4 arg5 harg5 arg6 harg6 arg7 harg7) K := by
  have hz := zeros2_2
  simp only [cc2__bf16_pass_kernel_eq_skeleton]; unfold cc2__bf16_pass_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf0
  obtain rfl := harg2.eq_unread hf1
  obtain rfl := harg3.eq_unread hf2
  obtain rfl := harg4.eq_unread hf3
  obtain rfl := harg5.eq_unread hf4
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_unfold_words
    rw [View.read_writes_eq_canon _ _ _ (fun y => ⟨_, List.mem_singleton_self _, View.mem_set_unit_zero hz inb_S200x128_S200x128_0_0 y⟩),
      View.canon_unit_zero hz, View.readCov_unit_zero _ hz]
    simp only [View.readAt_eq_ld, harg1.read_unread, harg2.read_unread, harg3.read_unread, harg4.read_unread, harg5.read_unread,
      View.ld_unit_zero (S := S200x10000) hz, View.ld_unit_zero (S := S10000x128) hz, View.ld_unit_zero (S := S128x128) hz,
      View.ld_unit_zero (S := S1x128) hz]
  iexists _; isplitr; swap; · iexact H6
  ipureintro
  sl_unfold_words
  rw [View.read_writes_eq_canon _ _ _ (fun y => ⟨_, List.mem_singleton_self _, View.mem_set_unit_zero hz inb_S10000x128_S10000x128_0_0 y⟩),
    View.canon_unit_zero hz]
  simp only [View.readAt_eq_ld, harg1.read_unread, harg2.read_unread, harg3.read_unread, harg4.read_unread, harg5.read_unread,
    View.ld_unit_zero (S := S200x10000) hz, View.ld_unit_zero (S := S10000x128) hz, View.ld_unit_zero (S := S128x128) hz,
    View.ld_unit_zero (S := S1x128) hz]

set_option maxHeartbeats 1000000 in
/-- At a later point: the scratch is read as found and left as found, and the output block holds the activation of the
    adjacency block against it. -/
theorem runLater2 (c : Dev nD) (i : grid2.Coords)
    (arg1 : Memref sig .tc .vmem S200x10000 .bf16) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S200x128 .f32) (harg6 : arg6.IsWhole)
    (arg7 : Memref sig .tc .vmem S10000x128 .bf16) (harg7 : arg7.IsWhole) (hc : ¬ first2 i)
    (x0 : Vec F S200x10000 .bf16) (x1 : Vec F S10000x128 .f32) (x2 : Vec F S128x128 .f32) (x3 : Vec F S1x128 .f32) (x4 : Vec F S1x128 .f32) (s : Vec F S10000x128 .bf16) (E : Set ℕ) (K : PUnit → sProp 𝕄) :
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare s
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ owns (c : Thread nD τ) arg6 fullShare (k2_pay2 x0 s x3 x4)
                ∗ owns (c : Thread nD τ) arg7 fullShare s) -∗ K ⟨⟩))
          ⊢ wp frame (wpE (defs₀ (F := F)) Variants.none c none) E (cc2__bf16_pass_kernel i arg1 harg1 arg2 harg2 arg3 harg3 arg4 harg4 arg5 harg5 arg6 harg6 arg7 harg7) K := by
  have hz := zeros2_2
  simp only [cc2__bf16_pass_kernel_eq_skeleton]; unfold cc2__bf16_pass_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg7.eq_unread hf6
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_unfold_words
    rw [View.read_writes_eq_canon _ _ _ (fun y => ⟨_, List.mem_singleton_self _, View.mem_set_unit_zero hz inb_S200x128_S200x128_0_0 y⟩),
      View.canon_unit_zero hz]
    simp only [View.readAt_eq_ld, harg1.read_unread, harg4.read_unread, harg5.read_unread, harg7.read_unread,
      View.ld_unit_zero (S := S200x10000) hz, View.ld_unit_zero (S := S10000x128) hz, View.ld_unit_zero (S := S1x128) hz]
  iexists _; isplitr; · ipureintro; exact harg7.read_unread _
  iexact H6

end Cert.KernelIdeal.Pass

end
-- ==== Proof.IdealPass2.lean ====
/-
  The third pass as a pipeline over fifty row blocks, entered from buffer contents `V`: what each window's buffer
  holds before and after the body at every point, the invariant between points (the scratch holds the feature
  transform h·W from the first point on, computed once from the hidden state and the weights, which every point
  sees whole), and the body's obligation at every point, by cases on whether the point is the first.
-/
import proofs.«148270_g13469017440497_cont_week2b_423_4_alg».proof.Proof.IdealRun2
import Idealize.ShloMosaic.Lib.Pipeline.Frame

set_option maxRecDepth 16384

noncomputable section

namespace Cert.KernelIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the pass finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not: where it is not fetched its
    block index has not moved and the body left the block in place. -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- Input window 1's current buffer holds its block at every point, fetched there or not: where it is not fetched its
    block index has not moved and the body left the block in place. -/
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- Input window 2's current buffer holds its block at every point, fetched there or not: where it is not fetched its
    block index has not moved and the body left the block in place. -/
theorem before2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- Input window 3's current buffer holds its block at every point, fetched there or not: where it is not fetched its
    block index has not moved and the body left the block in place. -/
theorem before2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-- Input window 4's current buffer holds its block at every point, fetched there or not: where it is not fetched its
    block index has not moved and the body left the block in place. -/
theorem before2_4_of {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)

/-- The first of the fifty points. -/
abbrev pt0_2 : Fin cfg2.N := ⟨0, lt_of_lt_of_eq (by decide : 0 < 50) (show cfg2.N = 50 from N_2).symm⟩

/-- The feature transform the scratch holds from the first point on: the hidden state times the weights. -/
def seq2 (c : Dev nD) : Vec F S10000x128 .bf16 := k2_pay1 (blk2 V c 1 pt0_2) (blk2 V c 2 pt0_2)

/-- The scratch between points: anything before the first point, the feature transform after it. -/
def scr2 (c : Dev nD) (t : Fin (cfg2.N + 1)) : sProp 𝕄 :=
  if t.val = 0 then iprop(∃ d : Vec F S10000x128 .bf16, owns (c : Thread nD τ) (Memref.whole cc2_scratch0 : Memref sig .tc .vmem S10000x128 .bf16) fullShare d)
  else owns (c : Thread nD τ) (Memref.whole cc2_scratch0 : Memref sig .tc .vmem S10000x128 .bf16) fullShare (seq2 V c)

/-- The pass's proof data on core `c`: the arrays as found; each input's buffer left at its block, each output's at
    its function of the adjacency block and the feature transform; between points the scratch as above, the other
    scoped buffers and the generator register untouched; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => k2_pay2 (blk2 V c 0 t) (seq2 V c) (blk2 V c 3 t) (blk2 V c 4 t)
  Φ t := iprop(scr2 V c t ∗ Pipeline.scopedRestBut (Ix := Unit) (Name := ℕ) (U := UR sig nD τ) (Lvl := ℕ) (Val := Elt F) spec2 c [cc2_scratch0] ∗ ∃ r, prngReg c r)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) :
    (dat2 V c).after 5 t = k2_pay2 (blk2 V c 0 t) (seq2 V c) (blk2 V c 3 t) (blk2 V c 4 t) := by dsimp only [dat2]
theorem inv_eq2 (c : Dev nD) (t : Fin (cfg2.N + 1)) :
    (dat2 V c).Φ t = iprop(scr2 V c t ∗ Pipeline.scopedRestBut (Ix := Unit) (Name := ℕ) (U := UR sig nD τ) (Lvl := ℕ) (Val := Elt F) spec2 c [cc2_scratch0] ∗ ∃ r, prngReg c r) := by
  dsimp only [dat2]
theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d
theorem before2_2 (c : Dev nD) (t : Fin cfg2.N) (d) : (dat2 V c).before 2 t d = blk2 V c 2 t :=
  before2_2_of V (dat2 V c) (A_eq2 V c 2) (after2_2 V c) t d
theorem before2_3 (c : Dev nD) (t : Fin cfg2.N) (d) : (dat2 V c).before 3 t d = blk2 V c 3 t :=
  before2_3_of V (dat2 V c) (A_eq2 V c 3) (after2_3 V c) t d
theorem before2_4 (c : Dev nD) (t : Fin cfg2.N) (d) : (dat2 V c).before 4 t d = blk2 V c 4 t :=
  before2_4_of V (dat2 V c) (A_eq2 V c 4) (after2_4 V c) t d

set_option maxHeartbeats 1000000 in
/-- The body at any point: at the first, the scratch is filled then read; at a later one it holds the feature
    transform already. The rest of the invariant and what the core owes pass through unread. -/
theorem sound_body2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d))
        ∗ (∃ d, owns (c : Thread nD τ) (st2_3 t) fullShare ((dat2 V c).before 3 t d))
        ∗ (∃ d, owns (c : Thread nD τ) (st2_4 t) fullShare ((dat2 V c).before 4 t d))
        ∗ (∃ d, owns (c : Thread nD τ) (st2_5 t) fullShare ((dat2 V c).before 5 t d)))
      ⊢ wp frame (wpE (defs₀ (F := F)) Variants.none c none) Set.univ (bodyAt2 t) (fun _ =>
          iprop((dat2 V c).Φ t.succ ∗ (dat2 V c).owesAt () t.succ
            ∗ owns (c : Thread nD τ) (st2_0 t) fullShare ((dat2 V c).after 0 t)
            ∗ owns (c : Thread nD τ) (st2_1 t) fullShare ((dat2 V c).after 1 t)
            ∗ owns (c : Thread nD τ) (st2_2 t) fullShare ((dat2 V c).after 2 t)
            ∗ owns (c : Thread nD τ) (st2_3 t) fullShare ((dat2 V c).after 3 t)
            ∗ owns (c : Thread nD τ) (st2_4 t) fullShare ((dat2 V c).after 4 t)
            ∗ owns (c : Thread nD τ) (st2_5 t) fullShare ((dat2 V c).after 5 t))) := by
  unfold bodyAt2
  simp only [before2_0, before2_1, before2_2, before2_3, before2_4]
  rw [show (dat2 V c).owesAt () t.succ = (dat2 V c).owesAt () t.castSucc from rfl,
    after2_0, after2_1, after2_2, after2_3, after2_4, after2_5, inv_eq2, inv_eq2]
  have hN : t.val < 50 := lt_of_lt_of_eq t.isLt (show cfg2.N = 50 from N_2)
  unfold scr2
  rw [if_neg (show ¬ t.succ.val = 0 from Nat.succ_ne_zero _)]
  by_cases h0 : t.val % 50 = 0
  · obtain rfl : t = pt0_2 := Fin.ext (by show t.val = 0; omega)
    rw [if_pos (show (pt0_2 : Fin cfg2.N).castSucc.val = 0 from rfl)]
    unfold seq2
    iintro ⟨⟨Hs, Hr, Hp⟩, Ho, ⟨%d0, H0⟩, ⟨%d1, H1⟩, ⟨%d2, H2⟩, ⟨%d3, H3⟩, ⟨%d4, H4⟩, ⟨%d5, H5⟩⟩
    iapply (runFirst2 c (grid2.coords pt0_2) _ _ _ _ _ _ _ _ _ _ _ _ _ _ ((first2_iff pt0_2).mpr h0)
      (blk2 V c 0 pt0_2) (blk2 V c 1 pt0_2) (blk2 V c 2 pt0_2) (blk2 V c 3 pt0_2) (blk2 V c 4 pt0_2) Set.univ _)
    isplitl [H0]; · iexact H0
    isplitl [H1]; · iexact H1
    isplitl [H2]; · iexact H2
    isplitl [H3]; · iexact H3
    isplitl [H4]; · iexact H4
    isplitl [H5]; · iexists _; iexact H5
    isplitl [Hs]; · iexact Hs
    iintro ⟨H0, H1, H2, H3, H4, H5, Hs⟩
    isplitl [Hs Hr Hp]
    · isplitl [Hs]; · iexact Hs
      isplitl [Hr]; · iexact Hr
      iexact Hp
    isplitl [Ho]; · iexact Ho
    isplitl [H0]; · iexact H0
    isplitl [H1]; · iexact H1
    isplitl [H2]; · iexact H2
    isplitl [H3]; · iexact H3
    isplitl [H4]; · iexact H4
    iexact H5
  · rw [if_neg (show ¬ t.castSucc.val = 0 from fun h => h0 (by rw [show t.val = 0 from h]))]
    iintro ⟨⟨Hs, Hr, Hp⟩, Ho, ⟨%d0, H0⟩, ⟨%d1, H1⟩, ⟨%d2, H2⟩, ⟨%d3, H3⟩, ⟨%d4, H4⟩, ⟨%d5, H5⟩⟩
    iapply (runLater2 c (grid2.coords t) _ _ _ _ _ _ _ _ _ _ _ _ _ _ (fun h => h0 ((first2_iff t).mp h))
      (blk2 V c 0 t) (blk2 V c 1 t) (blk2 V c 2 t) (blk2 V c 3 t) (blk2 V c 4 t) (seq2 V c) Set.univ _)
    isplitl [H0]; · iexact H0
    isplitl [H1]; · iexact H1
    isplitl [H2]; · iexact H2
    isplitl [H3]; · iexact H3
    isplitl [H4]; · iexact H4
    isplitl [H5]; · iexists _; iexact H5
    isplitl [Hs]; · iexact Hs
    iintro ⟨H0, H1, H2, H3, H4, H5, Hs⟩
    isplitl [Hs Hr Hp]
    · isplitl [Hs]; · iexact Hs
      isplitl [Hr]; · iexact Hr
      iexact Hp
    isplitl [Ho]; · iexact Ho
    isplitl [H0]; · iexact H0
    isplitl [H1]; · iexact H1
    isplitl [H2]; · iexact H2
    isplitl [H3]; · iexact H3
    isplitl [H4]; · iexact H4
    iexact H5

/-- The pipeline library's body obligation for the pass, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Pass

end
-- ==== Proof.IdealRun3.lean ====
/-
  The kernel body of the last pass, which computes the four heads at once from weights laid side by side (one row block
  of the adjacency against the final hidden state kept whole on chip): what it leaves at the first grid point, where
  the 512-wide feature transform h·[W₃ W₄ W₅ W₆] is written to the scratch before being read back, and at every later
  point, where the scratch is only read. The inputs' buffers come back as they were; output block j holds columns
  128·j … 128·j+127 of the activation of (adjacency block)·(scratch) + bias; the scratch holds the feature transform.
-/
import proofs.«148270_g13469017440497_cont_week2b_423_4_alg».proof.Proof.Gen.KernelIdeal.Launch
import proofs.«148270_g13469017440497_cont_week2b_423_4_alg».proof.Proof.Gen.KernelIdeal.Skeleton
import proofs.«148270_g13469017440497_cont_week2b_423_4_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 whole-block access. -/
theorem zeros2_3 : (![0, 0] : Fin 2 → Nat) = fun _ => 0 := funext fun a => by fin_cases a <;> rfl

/-- The body's branch: the grid coordinate is zero (the first row block). -/
abbrev first3 (i : grid3.Coords) : Prop := (Scalar.cmpi .ne (Scalar.extui (Scalar.cmpi .eq (BitVec.ofNat 32 (i 0).val) 0#32)) 0#32) = 1#1
/-- It holds at the first of the fifty points only. -/
theorem first3_iff : ∀ t : Fin cfg3.N, first3 (grid3.coords t) ↔ t.val % 50 = 0 :=
  (by decide +kernel : ∀ t : Fin grid3.N, first3 (grid3.coords t) ↔ t.val % 50 = 0)

set_option maxHeartbeats 2000000 in
/-- At the first point: the scratch, whatever it held, ends at the feature transform of the two operands it was computed
    from, and each output block at its function of the adjacency block and that transform. -/
theorem runFirst3 (c : Dev nD) (i : grid3.Coords)
    (arg1 : Memref sig .tc .vmem S200x10000 .bf16) (harg1 : arg1.IsWhole) (arg2 : Memref sig .tc .vmem S10000x128 .f32) (harg2 : arg2.IsWhole) (arg3 : Memref sig .tc .vmem S128x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S200x128 .f32) (harg8 : arg8.IsWhole) (arg9 : Memref sig .tc .vmem S200x128 .f32) (harg9 : arg9.IsWhole) (arg10 : Memref sig .tc .vmem S10000x512 .bf16) (harg10 : arg10.IsWhole) (hc : first3 i)
    (x0 : Vec F S200x10000 .bf16) (x1 : Vec F S10000x128 .f32) (x2 : Vec F S128x512 .f32) (x3 : Vec F S1x512 .f32) (x4 : Vec F S1x512 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare (k3_pay3 x0 (k3_pay1 x1 x2) x3 x4)
                ∗ owns (c : Thread nD τ) arg7 fullShare (k3_pay4 x0 (k3_pay1 x1 x2) x3 x4)
                ∗ owns (c : Thread nD τ) arg8 fullShare (k3_pay5 x0 (k3_pay1 x1 x2) x3 x4)
                ∗ owns (c : Thread nD τ) arg9 fullShare (k3_pay6 x0 (k3_pay1 x1 x2) x3 x4)
                ∗ owns (c : Thread nD τ) arg10 fullShare (k3_pay1 x1 x2)) -∗ K ⟨⟩))
          ⊢ wp frame (wpE (defs₀ (F := F)) Variants.none c none) E (cc3__bf16_pass_kernel i arg1 harg1 arg2 harg2 arg3 harg3 arg4 harg4 arg5 harg5 arg6 harg6 arg7 harg7 arg8 harg8 arg9 harg9 arg10 harg10) K := by
  have hz := zeros2_3
  simp only [cc3__bf16_pass_kernel_eq_skeleton]; unfold cc3__bf16_pass_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg1.eq_unread hf0
  obtain rfl := harg2.eq_unread hf1
  obtain rfl := harg3.eq_unread hf2
  obtain rfl := harg4.eq_unread hf3
  obtain rfl := harg5.eq_unread hf4
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_unfold_words
    rw [View.read_writes_eq_canon _ _ _ (fun y => ⟨_, List.mem_singleton_self _, View.mem_set_unit_zero hz inb_S200x128_S200x128_0_0 y⟩),
      View.canon_unit_zero hz, View.readCov_unit_zero _ hz]
    simp only [View.readAt_eq_ld, harg1.read_unread, harg2.read_unread, harg3.read_unread, harg4.read_unread, harg5.read_unread, View.ld_unit_zero (S := S200x10000) hz, View.ld_unit_zero (S := S10000x128) hz, View.ld_unit_zero (S := S128x512) hz, View.ld_unit_zero (S := S1x512) hz, View.ld_unit_zero (S := S200x128) hz, View.ld_unit_zero (S := S10000x512) hz]
  isplitl [H6]
  · iexists _; isplitr; swap; · iexact H6
    ipureintro
    sl_unfold_words
    rw [View.read_writes_eq_canon _ _ _ (fun y => ⟨_, List.mem_singleton_self _, View.mem_set_unit_zero hz inb_S200x128_S200x128_0_0 y⟩),
      View.canon_unit_zero hz, View.readCov_unit_zero _ hz]
    simp only [View.readAt_eq_ld, harg1.read_unread, harg2.read_unread, harg3.read_unread, harg4.read_unread, harg5.read_unread, View.ld_unit_zero (S := S200x10000) hz, View.ld_unit_zero (S := S10000x128) hz, View.ld_unit_zero (S := S128x512) hz, View.ld_unit_zero (S := S1x512) hz, View.ld_unit_zero (S := S200x128) hz, View.ld_unit_zero (S := S10000x512) hz]
  isplitl [H7]
  · iexists _; isplitr; swap; · iexact H7
    ipureintro
    sl_unfold_words
    rw [View.read_writes_eq_canon _ _ _ (fun y => ⟨_, List.mem_singleton_self _, View.mem_set_unit_zero hz inb_S200x128_S200x128_0_0 y⟩),
      View.canon_unit_zero hz, View.readCov_unit_zero _ hz]
    simp only [View.readAt_eq_ld, harg1.read_unread, harg2.read_unread, harg3.read_unread, harg4.read_unread, harg5.read_unread, View.ld_unit_zero (S := S200x10000) hz, View.ld_unit_zero (S := S10000x128) hz, View.ld_unit_zero (S := S128x512) hz, View.ld_unit_zero (S := S1x512) hz, View.ld_unit_zero (S := S200x128) hz, View.ld_unit_zero (S := S10000x512) hz]
  isplitl [H8]
  · iexists _; isplitr; swap; · iexact H8
    ipureintro
    sl_unfold_words
    rw [View.read_writes_eq_canon _ _ _ (fun y => ⟨_, List.mem_singleton_self _, View.mem_set_unit_zero hz inb_S200x128_S200x128_0_0 y⟩),
      View.canon_unit_zero hz, View.readCov_unit_zero _ hz]
    simp only [View.readAt_eq_ld, harg1.read_unread, harg2.read_unread, harg3.read_unread, harg4.read_unread, harg5.read_unread, View.ld_unit_zero (S := S200x10000) hz, View.ld_unit_zero (S := S10000x128) hz, View.ld_unit_zero (S := S128x512) hz, View.ld_unit_zero (S := S1x512) hz, View.ld_unit_zero (S := S200x128) hz, View.ld_unit_zero (S := S10000x512) hz]
  iexists _; isplitr; swap; · iexact H9
  ipureintro
  sl_unfold_words
  rw [View.read_writes_eq_canon _ _ _ (fun y => ⟨_, List.mem_singleton_self _, View.mem_set_unit_zero hz inb_S10000x512_S10000x512_0_0 y⟩),
    View.canon_unit_zero hz]
  simp only [View.readAt_eq_ld, harg1.read_unread, harg2.read_unread, harg3.read_unread, harg4.read_unread, harg5.read_unread, View.ld_unit_zero (S := S200x10000) hz, View.ld_unit_zero (S := S10000x128) hz, View.ld_unit_zero (S := S128x512) hz, View.ld_unit_zero (S := S1x512) hz, View.ld_unit_zero (S := S200x128) hz, View.ld_unit_zero (S := S10000x512) hz]

set_option maxHeartbeats 2000000 in
/-- At a later point: the scratch is read as found and left as found, and each output block holds its function of the
    adjacency block and the scratch. -/
theorem runLater3 (c : Dev nD) (i : grid3.Coords)
    (arg1 : Memref sig .tc .vmem S200x10000 .bf16) (harg1 : arg1.IsWhole) (arg2 : Memref sig .tc .vmem S10000x128 .f32) (harg2 : arg2.IsWhole) (arg3 : Memref sig .tc .vmem S128x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S200x128 .f32) (harg8 : arg8.IsWhole) (arg9 : Memref sig .tc .vmem S200x128 .f32) (harg9 : arg9.IsWhole) (arg10 : Memref sig .tc .vmem S10000x512 .bf16) (harg10 : arg10.IsWhole) (hc : ¬ first3 i)
    (x0 : Vec F S200x10000 .bf16) (x1 : Vec F S10000x128 .f32) (x2 : Vec F S128x512 .f32) (x3 : Vec F S1x512 .f32) (x4 : Vec F S1x512 .f32) (s : Vec F S10000x512 .bf16) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare s
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare (k3_pay3 x0 s x3 x4)
                ∗ owns (c : Thread nD τ) arg7 fullShare (k3_pay4 x0 s x3 x4)
                ∗ owns (c : Thread nD τ) arg8 fullShare (k3_pay5 x0 s x3 x4)
                ∗ owns (c : Thread nD τ) arg9 fullShare (k3_pay6 x0 s x3 x4)
                ∗ owns (c : Thread nD τ) arg10 fullShare s) -∗ K ⟨⟩))
          ⊢ wp frame (wpE (defs₀ (F := F)) Variants.none c none) E (cc3__bf16_pass_kernel i arg1 harg1 arg2 harg2 arg3 harg3 arg4 harg4 arg5 harg5 arg6 harg6 arg7 harg7 arg8 harg8 arg9 harg9 arg10 harg10) K := by
  have hz := zeros2_3
  simp only [cc3__bf16_pass_kernel_eq_skeleton]; unfold cc3__bf16_pass_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%f9, %hf9, H9⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg10.eq_unread hf9
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_unfold_words
    rw [View.read_writes_eq_canon _ _ _ (fun y => ⟨_, List.mem_singleton_self _, View.mem_set_unit_zero hz inb_S200x128_S200x128_0_0 y⟩),
      View.canon_unit_zero hz]
    simp only [View.readAt_eq_ld, harg1.read_unread, harg2.read_unread, harg3.read_unread, harg4.read_unread, harg5.read_unread, harg10.read_unread, View.ld_unit_zero (S := S200x10000) hz, View.ld_unit_zero (S := S10000x128) hz, View.ld_unit_zero (S := S128x512) hz, View.ld_unit_zero (S := S1x512) hz, View.ld_unit_zero (S := S200x128) hz, View.ld_unit_zero (S := S10000x512) hz]
  isplitl [H6]
  · iexists _; isplitr; swap; · iexact H6
    ipureintro
    sl_unfold_words
    rw [View.read_writes_eq_canon _ _ _ (fun y => ⟨_, List.mem_singleton_self _, View.mem_set_unit_zero hz inb_S200x128_S200x128_0_0 y⟩),
      View.canon_unit_zero hz]
    simp only [View.readAt_eq_ld, harg1.read_unread, harg2.read_unread, harg3.read_unread, harg4.read_unread, harg5.read_unread, harg10.read_unread, View.ld_unit_zero (S := S200x10000) hz, View.ld_unit_zero (S := S10000x128) hz, View.ld_unit_zero (S := S128x512) hz, View.ld_unit_zero (S := S1x512) hz, View.ld_unit_zero (S := S200x128) hz, View.ld_unit_zero (S := S10000x512) hz]
  isplitl [H7]
  · iexists _; isplitr; swap; · iexact H7
    ipureintro
    sl_unfold_words
    rw [View.read_writes_eq_canon _ _ _ (fun y => ⟨_, List.mem_singleton_self _, View.mem_set_unit_zero hz inb_S200x128_S200x128_0_0 y⟩),
      View.canon_unit_zero hz]
    simp only [View.readAt_eq_ld, harg1.read_unread, harg2.read_unread, harg3.read_unread, harg4.read_unread, harg5.read_unread, harg10.read_unread, View.ld_unit_zero (S := S200x10000) hz, View.ld_unit_zero (S := S10000x128) hz, View.ld_unit_zero (S := S128x512) hz, View.ld_unit_zero (S := S1x512) hz, View.ld_unit_zero (S := S200x128) hz, View.ld_unit_zero (S := S10000x512) hz]
  isplitl [H8]
  · iexists _; isplitr; swap; · iexact H8
    ipureintro
    sl_unfold_words
    rw [View.read_writes_eq_canon _ _ _ (fun y => ⟨_, List.mem_singleton_self _, View.mem_set_unit_zero hz inb_S200x128_S200x128_0_0 y⟩),
      View.canon_unit_zero hz]
    simp only [View.readAt_eq_ld, harg1.read_unread, harg2.read_unread, harg3.read_unread, harg4.read_unread, harg5.read_unread, harg10.read_unread, View.ld_unit_zero (S := S200x10000) hz, View.ld_unit_zero (S := S10000x128) hz, View.ld_unit_zero (S := S128x512) hz, View.ld_unit_zero (S := S1x512) hz, View.ld_unit_zero (S := S200x128) hz, View.ld_unit_zero (S := S10000x512) hz]
  iexists _; isplitr; · ipureintro; exact harg10.read_unread _
  iexact H9

end Cert.KernelIdeal.Pass

end
-- ==== Proof.IdealPass3.lean ====
/-
  The last pass (the four heads at once) as a pipeline over fifty row blocks, entered from buffer contents `V`: what
  each window's buffer holds before and after the body at every point, the invariant between points (the scratch
  holds the 512-wide feature transform from the first point on, computed once from the final hidden state and the
  four weight matrices side by side, which every point sees whole), and the body's obligation at every point, by
  cases on whether the point is the first.
-/
import proofs.«148270_g13469017440497_cont_week2b_423_4_alg».proof.Proof.IdealRun3
import Idealize.ShloMosaic.Lib.Pipeline.Frame

set_option maxRecDepth 16384

noncomputable section

namespace Cert.KernelIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the pass finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current buffer holds its block at every point, fetched there or not: where it is not fetched its
    block index has not moved and the body left the block in place. -/
theorem before3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- Input window 1's current buffer holds its block at every point, fetched there or not: where it is not fetched its
    block index has not moved and the body left the block in place. -/
theorem before3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- Input window 2's current buffer holds its block at every point, fetched there or not: where it is not fetched its
    block index has not moved and the body left the block in place. -/
theorem before3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-- Input window 3's current buffer holds its block at every point, fetched there or not: where it is not fetched its
    block index has not moved and the body left the block in place. -/
theorem before3_3_of {c : Dev nD} (dat : Dat τ (Elt F) Unit ℕ (UR sig nD τ) ℕ cfg3 c) (hA : dat.A 3 = V c (Pipeline.arrRef spec3 3))
    (hafter : ∀ t, dat.after 3 t = blk3 V c 3 t) (t : Fin cfg3.N) (d) : dat.before 3 t d = blk3 V c 3 t :=
  (dat.before_in_eq_fetched 3 rfl (fun _ => rfl) (fun _ _ _ => rfl) (fun t => by rw [hafter]; unfold Dat.blockOf blk3; rw [hA]; try rfl) t d).trans
    (by unfold Dat.fetched Dat.blockOf blk3; rw [hA]; try rfl)

/-- Input window 4's current buffer holds its block at every point, fetched there or not: where it is not fetched its
    block index has not moved and the body left the block in place. -/
theorem before3_4_of {c : Dev nD} (dat : Dat τ (Elt F) Unit ℕ (UR sig nD τ) ℕ cfg3 c) (hA : dat.A 4 = V c (Pipeline.arrRef spec3 4))
    (hafter : ∀ t, dat.after 4 t = blk3 V c 4 t) (t : Fin cfg3.N) (d) : dat.before 4 t d = blk3 V c 4 t :=
  (dat.before_in_eq_fetched 4 rfl (fun _ => rfl) (fun _ _ _ => rfl) (fun t => by rw [hafter]; unfold Dat.blockOf blk3; rw [hA]; try rfl) t d).trans
    (by unfold Dat.fetched Dat.blockOf blk3; rw [hA]; try rfl)

/-- The first of the fifty points. -/
abbrev pt0_3 : Fin cfg3.N := ⟨0, lt_of_lt_of_eq (by decide : 0 < 50) (show cfg3.N = 50 from N_3).symm⟩

/-- The feature transform the scratch holds from the first point on: the hidden state times the weights. -/
def seq3 (c : Dev nD) : Vec F S10000x512 .bf16 := k3_pay1 (blk3 V c 1 pt0_3) (blk3 V c 2 pt0_3)

/-- The scratch between points: anything before the first point, the feature transform after it. -/
def scr3 (c : Dev nD) (t : Fin (cfg3.N + 1)) : sProp 𝕄 :=
  if t.val = 0 then iprop(∃ d : Vec F S10000x512 .bf16, owns (c : Thread nD τ) (Memref.whole cc3_scratch0 : Memref sig .tc .vmem S10000x512 .bf16) fullShare d)
  else owns (c : Thread nD τ) (Memref.whole cc3_scratch0 : Memref sig .tc .vmem S10000x512 .bf16) fullShare (seq3 V c)

/-- The pass's proof data on core `c`: the arrays as found; each input's buffer left at its block, each output's at
    its function of the adjacency block and the feature transform; between points the scratch as above, the other
    scoped buffers and the generator register untouched; nothing owed; full shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => k3_pay3 (blk3 V c 0 t) (seq3 V c) (blk3 V c 3 t) (blk3 V c 4 t)
    | ⟨6, _⟩ => k3_pay4 (blk3 V c 0 t) (seq3 V c) (blk3 V c 3 t) (blk3 V c 4 t)
    | ⟨7, _⟩ => k3_pay5 (blk3 V c 0 t) (seq3 V c) (blk3 V c 3 t) (blk3 V c 4 t)
    | ⟨8, _⟩ => k3_pay6 (blk3 V c 0 t) (seq3 V c) (blk3 V c 3 t) (blk3 V c 4 t)
  Φ t := iprop(scr3 V c t ∗ Pipeline.scopedRestBut (Ix := Unit) (Name := ℕ) (U := UR sig nD τ) (Lvl := ℕ) (Val := Elt F) spec3 c [cc3_scratch0] ∗ ∃ r, prngReg c r)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) : (dat3 V c).after 3 t = blk3 V c 3 t := by dsimp only [dat3]
theorem after3_4 (c : Dev nD) (t : Fin cfg3.N) : (dat3 V c).after 4 t = blk3 V c 4 t := by dsimp only [dat3]
theorem after3_5 (c : Dev nD) (t : Fin cfg3.N) :
    (dat3 V c).after 5 t = k3_pay3 (blk3 V c 0 t) (seq3 V c) (blk3 V c 3 t) (blk3 V c 4 t) := by dsimp only [dat3]
theorem after3_6 (c : Dev nD) (t : Fin cfg3.N) :
    (dat3 V c).after 6 t = k3_pay4 (blk3 V c 0 t) (seq3 V c) (blk3 V c 3 t) (blk3 V c 4 t) := by dsimp only [dat3]
theorem after3_7 (c : Dev nD) (t : Fin cfg3.N) :
    (dat3 V c).after 7 t = k3_pay5 (blk3 V c 0 t) (seq3 V c) (blk3 V c 3 t) (blk3 V c 4 t) := by dsimp only [dat3]
theorem after3_8 (c : Dev nD) (t : Fin cfg3.N) :
    (dat3 V c).after 8 t = k3_pay6 (blk3 V c 0 t) (seq3 V c) (blk3 V c 3 t) (blk3 V c 4 t) := by dsimp only [dat3]
theorem inv_eq3 (c : Dev nD) (t : Fin (cfg3.N + 1)) :
    (dat3 V c).Φ t = iprop(scr3 V c t ∗ Pipeline.scopedRestBut (Ix := Unit) (Name := ℕ) (U := UR sig nD τ) (Lvl := ℕ) (Val := Elt F) spec3 c [cc3_scratch0] ∗ ∃ r, prngReg c r) := by
  dsimp only [dat3]
theorem before3_0 (c : Dev nD) (t : Fin cfg3.N) (d) : (dat3 V c).before 0 t d = blk3 V c 0 t :=
  before3_0_of V (dat3 V c) (A_eq3 V c 0) (after3_0 V c) t d
theorem before3_1 (c : Dev nD) (t : Fin cfg3.N) (d) : (dat3 V c).before 1 t d = blk3 V c 1 t :=
  before3_1_of V (dat3 V c) (A_eq3 V c 1) (after3_1 V c) t d
theorem before3_2 (c : Dev nD) (t : Fin cfg3.N) (d) : (dat3 V c).before 2 t d = blk3 V c 2 t :=
  before3_2_of V (dat3 V c) (A_eq3 V c 2) (after3_2 V c) t d
theorem before3_3 (c : Dev nD) (t : Fin cfg3.N) (d) : (dat3 V c).before 3 t d = blk3 V c 3 t :=
  before3_3_of V (dat3 V c) (A_eq3 V c 3) (after3_3 V c) t d
theorem before3_4 (c : Dev nD) (t : Fin cfg3.N) (d) : (dat3 V c).before 4 t d = blk3 V c 4 t :=
  before3_4_of V (dat3 V c) (A_eq3 V c 4) (after3_4 V c) t d

set_option maxHeartbeats 1000000 in
/-- The body at any point: at the first, the scratch is filled then read; at a later one it holds the feature
    transform already. The rest of the invariant and what the core owes pass through unread. -/
theorem sound_body3 (c : Dev nD) (t : Fin cfg3.N) :
    iprop((dat3 V c).Φ t.castSucc ∗ (dat3 V c).owesAt () t.castSucc
        ∗ (∃ d, owns (c : Thread nD τ) (st3_0 t) fullShare ((dat3 V c).before 0 t d))
        ∗ (∃ d, owns (c : Thread nD τ) (st3_1 t) fullShare ((dat3 V c).before 1 t d))
        ∗ (∃ d, owns (c : Thread nD τ) (st3_2 t) fullShare ((dat3 V c).before 2 t d))
        ∗ (∃ d, owns (c : Thread nD τ) (st3_3 t) fullShare ((dat3 V c).before 3 t d))
        ∗ (∃ d, owns (c : Thread nD τ) (st3_4 t) fullShare ((dat3 V c).before 4 t d))
        ∗ (∃ d, owns (c : Thread nD τ) (st3_5 t) fullShare ((dat3 V c).before 5 t d))
        ∗ (∃ d, owns (c : Thread nD τ) (st3_6 t) fullShare ((dat3 V c).before 6 t d))
        ∗ (∃ d, owns (c : Thread nD τ) (st3_7 t) fullShare ((dat3 V c).before 7 t d))
        ∗ (∃ d, owns (c : Thread nD τ) (st3_8 t) fullShare ((dat3 V c).before 8 t d)))
      ⊢ wp frame (wpE (defs₀ (F := F)) Variants.none c none) Set.univ (bodyAt3 t) (fun _ =>
          iprop((dat3 V c).Φ t.succ ∗ (dat3 V c).owesAt () t.succ
            ∗ owns (c : Thread nD τ) (st3_0 t) fullShare ((dat3 V c).after 0 t)
            ∗ owns (c : Thread nD τ) (st3_1 t) fullShare ((dat3 V c).after 1 t)
            ∗ owns (c : Thread nD τ) (st3_2 t) fullShare ((dat3 V c).after 2 t)
            ∗ owns (c : Thread nD τ) (st3_3 t) fullShare ((dat3 V c).after 3 t)
            ∗ owns (c : Thread nD τ) (st3_4 t) fullShare ((dat3 V c).after 4 t)
            ∗ owns (c : Thread nD τ) (st3_5 t) fullShare ((dat3 V c).after 5 t)
            ∗ owns (c : Thread nD τ) (st3_6 t) fullShare ((dat3 V c).after 6 t)
            ∗ owns (c : Thread nD τ) (st3_7 t) fullShare ((dat3 V c).after 7 t)
            ∗ owns (c : Thread nD τ) (st3_8 t) fullShare ((dat3 V c).after 8 t))) := by
  unfold bodyAt3
  simp only [before3_0, before3_1, before3_2, before3_3, before3_4]
  rw [show (dat3 V c).owesAt () t.succ = (dat3 V c).owesAt () t.castSucc from rfl,
    after3_0, after3_1, after3_2, after3_3, after3_4, after3_5, after3_6, after3_7, after3_8, inv_eq3, inv_eq3]
  have hN : t.val < 50 := lt_of_lt_of_eq t.isLt (show cfg3.N = 50 from N_3)
  unfold scr3
  rw [if_neg (show ¬ t.succ.val = 0 from Nat.succ_ne_zero _)]
  by_cases h0 : t.val % 50 = 0
  · obtain rfl : t = pt0_3 := Fin.ext (by show t.val = 0; omega)
    rw [if_pos (show (pt0_3 : Fin cfg3.N).castSucc.val = 0 from rfl)]
    unfold seq3
    iintro ⟨⟨Hs, Hr, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runFirst3 c (grid3.coords pt0_3) _ _ _ _ _ _ _ _ _ _ _ _ _ _ _ _ _ _ _ _ ((first3_iff pt0_3).mpr h0)
      (blk3 V c 0 pt0_3) (blk3 V c 1 pt0_3) (blk3 V c 2 pt0_3) (blk3 V c 3 pt0_3) (blk3 V c 4 pt0_3) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [Hs]; · iexact Hs
    iintro ⟨H0, H1, H2, H3, H4, H5, H6, H7, H8, Hs⟩
    isplitl [Hs Hr Hp]
    · isplitl [Hs]; · iexact Hs
      isplitl [Hr]; · iexact Hr
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [if_neg (show ¬ t.castSucc.val = 0 from fun h => h0 (by rw [show t.val = 0 from h]))]
    iintro ⟨⟨Hs, Hr, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runLater3 c (grid3.coords t) _ _ _ _ _ _ _ _ _ _ _ _ _ _ _ _ _ _ _ _ (fun h => h0 ((first3_iff t).mp h))
      (blk3 V c 0 t) (blk3 V c 1 t) (blk3 V c 2 t) (blk3 V c 3 t) (blk3 V c 4 t) (seq3 V c) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [Hs]; · iexact Hs
    iintro ⟨H0, H1, H2, H3, H4, H5, H6, H7, H8, Hs⟩
    isplitl [Hs Hr Hp]
    · isplitl [Hs]; · iexact Hs
      isplitl [Hr]; · iexact Hr
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The pipeline library's body obligation for the pass, at every point. -/
theorem body_obligation3 (c : Dev nD) : BodyObligation (dat3 (F := F) V c) (defs₀ (F := F)) Variants.none () Set.univ := fun t => by
  rw [bigSep_W3, bigSep_W3]
  exact sound_body3 V c t

end

end Cert.KernelIdeal.Pass

end
-- ==== Proof.IdealMain.lean ====
/-
  The whole program as a run: host stretch, pass, host stretch, pass, … four times. The contents of every unscoped
  buffer at each of the eight boundaries are a fold from the launch memory — a host stretch applies its operations, a
  pass replaces its arrays by what its write-backs leave —, each pass is a segment of the run entered from the contents
  before it and left at the contents after it, and at the end every unscoped buffer holds the last boundary's contents.
  No host operation and no pass writes an argument array, so each ends as launched.
-/
import proofs.«148270_g13469017440497_cont_week2b_423_4_alg».proof.Proof.IdealPass0
import proofs.«148270_g13469017440497_cont_week2b_423_4_alg».proof.Proof.IdealPass1
import proofs.«148270_g13469017440497_cont_week2b_423_4_alg».proof.Proof.IdealPass2
import proofs.«148270_g13469017440497_cont_week2b_423_4_alg».proof.Proof.IdealPass3
import proofs.«148270_g13469017440497_cont_week2b_423_4_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev bufs0 : Dev nD → Valuation τ sig (Elt F) := fun c b => m (c, b)
/-- After host stretch 0 (what pass 1 is entered from). -/
abbrev bufs1 : Dev nD → Valuation τ sig (Elt F) := fun c => StableHlo.after hostOps0 (bufs0 m c)
abbrev ent1 : (c : Dev nD) → (b : Ref sig .tc) → Buf (Elt F) ((c : Thread nD τ).loc b) := fun c b => bufs1 m c b
/-- After pass 1: its arrays at what its write-backs leave, every other buffer as entered. -/
def bufs2 (c : Dev nD) : Valuation τ sig (Elt F) :=
  Pipeline.withArrays spec0 c (bufs1 m c) fun w => (dat0 (ent1 m) c).arrAt w cfg0.N
theorem bufs2_arr (c : Dev nD) (w : Fin cfg0.W) :
    bufs2 m c (Proc.devRef .tc (Pipeline.arrRef spec0 w)) = (dat0 (ent1 m) c).arrAt w cfg0.N := by
  unfold bufs2; exact Pipeline.withArrays_arr spec0 launch0.win.arr_inj c _ _ w
theorem bufs2_of_ne (c : Dev nD) (b : Ref sig .tc) (hb : ∀ w, Pipeline.arrRef spec0 w ≠ b) :
    bufs2 m c (Proc.devRef .tc b) = bufs1 m c (Proc.devRef .tc b) := by
  unfold bufs2; exact Pipeline.withArrays_of_ne spec0 c _ _ b hb
abbrev ent2 : (c : Dev nD) → (b : Ref sig .tc) → Buf (Elt F) ((c : Thread nD τ).loc b) := fun c b => bufs2 m c b
theorem exit0_arr (c : Dev nD) (w : Fin cfg0.W) : (dat0 (ent1 m) c).arrAt w cfg0.N = ent2 m c (Pipeline.arrRef spec0 w) :=
  (bufs2_arr m c w).symm
theorem exit0_rest (c : Dev nD) : ∀ b, b ∉ Finset.univ.image (Pipeline.arrRef spec0) → ent2 m c b = ent1 m c b :=
  fun b hb => bufs2_of_ne m c b fun w e => hb (Finset.mem_image.mpr ⟨w, Finset.mem_univ _, e⟩)

/-- After host stretch 1 (what pass 2 is entered from). -/
abbrev bufs3 : Dev nD → Valuation τ sig (Elt F) := fun c => StableHlo.after hostOps1 (bufs2 m c)
abbrev ent3 : (c : Dev nD) → (b : Ref sig .tc) → Buf (Elt F) ((c : Thread nD τ).loc b) := fun c b => bufs3 m c b
/-- After pass 2: its arrays at what its write-backs leave, every other buffer as entered. -/
def bufs4 (c : Dev nD) : Valuation τ sig (Elt F) :=
  Pipeline.withArrays spec1 c (bufs3 m c) fun w => (dat1 (ent3 m) c).arrAt w cfg1.N
theorem bufs4_arr (c : Dev nD) (w : Fin cfg1.W) :
    bufs4 m c (Proc.devRef .tc (Pipeline.arrRef spec1 w)) = (dat1 (ent3 m) c).arrAt w cfg1.N := by
  unfold bufs4; exact Pipeline.withArrays_arr spec1 launch1.win.arr_inj c _ _ w
theorem bufs4_of_ne (c : Dev nD) (b : Ref sig .tc) (hb : ∀ w, Pipeline.arrRef spec1 w ≠ b) :
    bufs4 m c (Proc.devRef .tc b) = bufs3 m c (Proc.devRef .tc b) := by
  unfold bufs4; exact Pipeline.withArrays_of_ne spec1 c _ _ b hb
abbrev ent4 : (c : Dev nD) → (b : Ref sig .tc) → Buf (Elt F) ((c : Thread nD τ).loc b) := fun c b => bufs4 m c b
theorem exit1_arr (c : Dev nD) (w : Fin cfg1.W) : (dat1 (ent3 m) c).arrAt w cfg1.N = ent4 m c (Pipeline.arrRef spec1 w) :=
  (bufs4_arr m c w).symm
theorem exit1_rest (c : Dev nD) : ∀ b, b ∉ Finset.univ.image (Pipeline.arrRef spec1) → ent4 m c b = ent3 m c b :=
  fun b hb => bufs4_of_ne m c b fun w e => hb (Finset.mem_image.mpr ⟨w, Finset.mem_univ _, e⟩)

/-- After host stretch 2 (what pass 3 is entered from). -/
abbrev bufs5 : Dev nD → Valuation τ sig (Elt F) := fun c => StableHlo.after hostOps2 (bufs4 m c)
abbrev ent5 : (c : Dev nD) → (b : Ref sig .tc) → Buf (Elt F) ((c : Thread nD τ).loc b) := fun c b => bufs5 m c b
/-- After pass 3: its arrays at what its write-backs leave, every other buffer as entered. -/
def bufs6 (c : Dev nD) : Valuation τ sig (Elt F) :=
  Pipeline.withArrays spec2 c (bufs5 m c) fun w => (dat2 (ent5 m) c).arrAt w cfg2.N
theorem bufs6_arr (c : Dev nD) (w : Fin cfg2.W) :
    bufs6 m c (Proc.devRef .tc (Pipeline.arrRef spec2 w)) = (dat2 (ent5 m) c).arrAt w cfg2.N := by
  unfold bufs6; exact Pipeline.withArrays_arr spec2 launch2.win.arr_inj c _ _ w
theorem bufs6_of_ne (c : Dev nD) (b : Ref sig .tc) (hb : ∀ w, Pipeline.arrRef spec2 w ≠ b) :
    bufs6 m c (Proc.devRef .tc b) = bufs5 m c (Proc.devRef .tc b) := by
  unfold bufs6; exact Pipeline.withArrays_of_ne spec2 c _ _ b hb
abbrev ent6 : (c : Dev nD) → (b : Ref sig .tc) → Buf (Elt F) ((c : Thread nD τ).loc b) := fun c b => bufs6 m c b
theorem exit2_arr (c : Dev nD) (w : Fin cfg2.W) : (dat2 (ent5 m) c).arrAt w cfg2.N = ent6 m c (Pipeline.arrRef spec2 w) :=
  (bufs6_arr m c w).symm
theorem exit2_rest (c : Dev nD) : ∀ b, b ∉ Finset.univ.image (Pipeline.arrRef spec2) → ent6 m c b = ent5 m c b :=
  fun b hb => bufs6_of_ne m c b fun w e => hb (Finset.mem_image.mpr ⟨w, Finset.mem_univ _, e⟩)

/-- After host stretch 3 (what pass 4 is entered from). -/
abbrev bufs7 : Dev nD → Valuation τ sig (Elt F) := fun c => StableHlo.after hostOps3 (bufs6 m c)
abbrev ent7 : (c : Dev nD) → (b : Ref sig .tc) → Buf (Elt F) ((c : Thread nD τ).loc b) := fun c b => bufs7 m c b
/-- After pass 4: its arrays at what its write-backs leave, every other buffer as entered. -/
def bufs8 (c : Dev nD) : Valuation τ sig (Elt F) :=
  Pipeline.withArrays spec3 c (bufs7 m c) fun w => (dat3 (ent7 m) c).arrAt w cfg3.N
theorem bufs8_arr (c : Dev nD) (w : Fin cfg3.W) :
    bufs8 m c (Proc.devRef .tc (Pipeline.arrRef spec3 w)) = (dat3 (ent7 m) c).arrAt w cfg3.N := by
  unfold bufs8; exact Pipeline.withArrays_arr spec3 launch3.win.arr_inj c _ _ w
theorem bufs8_of_ne (c : Dev nD) (b : Ref sig .tc) (hb : ∀ w, Pipeline.arrRef spec3 w ≠ b) :
    bufs8 m c (Proc.devRef .tc b) = bufs7 m c (Proc.devRef .tc b) := by
  unfold bufs8; exact Pipeline.withArrays_of_ne spec3 c _ _ b hb
abbrev ent8 : (c : Dev nD) → (b : Ref sig .tc) → Buf (Elt F) ((c : Thread nD τ).loc b) := fun c b => bufs8 m c b
theorem exit3_arr (c : Dev nD) (w : Fin cfg3.W) : (dat3 (ent7 m) c).arrAt w cfg3.N = ent8 m c (Pipeline.arrRef spec3 w) :=
  (bufs8_arr m c w).symm
theorem exit3_rest (c : Dev nD) : ∀ b, b ∉ Finset.univ.image (Pipeline.arrRef spec3) → ent8 m c b = ent7 m c b :=
  fun b hb => bufs8_of_ne m c b fun w e => hb (Finset.mem_image.mpr ⟨w, Finset.mem_univ _, e⟩)

/-! ## The argument arrays end as launched -/

theorem bufs8_main_arg0 (c : Dev nD) : bufs8 m c (Proc.devRef .tc main_arg0) = m ((c : Thread nD τ).loc main_arg0) :=
  calc bufs8 m c (Proc.devRef .tc main_arg0)
    _ = bufs7 m c (Proc.devRef .tc main_arg0) := bufs8_of_ne m c main_arg0 (by decide)
    _ = bufs6 m c (Proc.devRef .tc main_arg0) := StableHlo.after_of_writes_sub hostOps3 _ hostOps3_writes (by decide)
    _ = bufs5 m c (Proc.devRef .tc main_arg0) := bufs6_of_ne m c main_arg0 (by decide)
    _ = bufs4 m c (Proc.devRef .tc main_arg0) := StableHlo.after_of_writes_sub hostOps2 _ hostOps2_writes (by decide)
    _ = bufs3 m c (Proc.devRef .tc main_arg0) := bufs4_of_ne m c main_arg0 (by decide)
    _ = bufs2 m c (Proc.devRef .tc main_arg0) := StableHlo.after_of_writes_sub hostOps1 _ hostOps1_writes (by decide)
    _ = bufs1 m c (Proc.devRef .tc main_arg0) := (bufs2_arr m c 1).trans (((dat0 (ent1 m) c).arrAt_in 1 rfl _).trans (A_eq0 (ent1 m) c 1))
    _ = bufs0 m c (Proc.devRef .tc main_arg0) := StableHlo.after_of_writes_sub hostOps0 _ hostOps0_writes (by decide)
    _ = m ((c : Thread nD τ).loc main_arg0) := rfl
theorem bufs8_main_arg1 (c : Dev nD) : bufs8 m c (Proc.devRef .tc main_arg1) = m ((c : Thread nD τ).loc main_arg1) :=
  calc bufs8 m c (Proc.devRef .tc main_arg1)
    _ = bufs7 m c (Proc.devRef .tc main_arg1) := bufs8_of_ne m c main_arg1 (by decide)
    _ = bufs6 m c (Proc.devRef .tc main_arg1) := StableHlo.after_of_writes_sub hostOps3 _ hostOps3_writes (by decide)
    _ = bufs5 m c (Proc.devRef .tc main_arg1) := bufs6_of_ne m c main_arg1 (by decide)
    _ = bufs4 m c (Proc.devRef .tc main_arg1) := StableHlo.after_of_writes_sub hostOps2 _ hostOps2_writes (by decide)
    _ = bufs3 m c (Proc.devRef .tc main_arg1) := bufs4_of_ne m c main_arg1 (by decide)
    _ = bufs2 m c (Proc.devRef .tc main_arg1) := StableHlo.after_of_writes_sub hostOps1 _ hostOps1_writes (by decide)
    _ = bufs1 m c (Proc.devRef .tc main_arg1) := (bufs2_arr m c 0).trans (((dat0 (ent1 m) c).arrAt_in 0 rfl _).trans (A_eq0 (ent1 m) c 0))
    _ = bufs0 m c (Proc.devRef .tc main_arg1) := StableHlo.after_of_writes_sub hostOps0 _ hostOps0_writes (by decide)
    _ = m ((c : Thread nD τ).loc main_arg1) := rfl
theorem bufs8_main_arg2 (c : Dev nD) : bufs8 m c (Proc.devRef .tc main_arg2) = m ((c : Thread nD τ).loc main_arg2) :=
  calc bufs8 m c (Proc.devRef .tc main_arg2)
    _ = bufs7 m c (Proc.devRef .tc main_arg2) := bufs8_of_ne m c main_arg2 (by decide)
    _ = bufs6 m c (Proc.devRef .tc main_arg2) := StableHlo.after_of_writes_sub hostOps3 _ hostOps3_writes (by decide)
    _ = bufs5 m c (Proc.devRef .tc main_arg2) := bufs6_of_ne m c main_arg2 (by decide)
    _ = bufs4 m c (Proc.devRef .tc main_arg2) := StableHlo.after_of_writes_sub hostOps2 _ hostOps2_writes (by decide)
    _ = bufs3 m c (Proc.devRef .tc main_arg2) := bufs4_of_ne m c main_arg2 (by decide)
    _ = bufs2 m c (Proc.devRef .tc main_arg2) := StableHlo.after_of_writes_sub hostOps1 _ hostOps1_writes (by decide)
    _ = bufs1 m c (Proc.devRef .tc main_arg2) := bufs2_of_ne m c main_arg2 (by decide)
    _ = bufs0 m c (Proc.devRef .tc main_arg2) := StableHlo.after_of_writes_sub hostOps0 _ hostOps0_writes (by decide)
    _ = m ((c : Thread nD τ).loc main_arg2) := rfl
theorem bufs8_main_arg3 (c : Dev nD) : bufs8 m c (Proc.devRef .tc main_arg3) = m ((c : Thread nD τ).loc main_arg3) :=
  calc bufs8 m c (Proc.devRef .tc main_arg3)
    _ = bufs7 m c (Proc.devRef .tc main_arg3) := bufs8_of_ne m c main_arg3 (by decide)
    _ = bufs6 m c (Proc.devRef .tc main_arg3) := StableHlo.after_of_writes_sub hostOps3 _ hostOps3_writes (by decide)
    _ = bufs5 m c (Proc.devRef .tc main_arg3) := bufs6_of_ne m c main_arg3 (by decide)
    _ = bufs4 m c (Proc.devRef .tc main_arg3) := StableHlo.after_of_writes_sub hostOps2 _ hostOps2_writes (by decide)
    _ = bufs3 m c (Proc.devRef .tc main_arg3) := bufs4_of_ne m c main_arg3 (by decide)
    _ = bufs2 m c (Proc.devRef .tc main_arg3) := StableHlo.after_of_writes_sub hostOps1 _ hostOps1_writes (by decide)
    _ = bufs1 m c (Proc.devRef .tc main_arg3) := bufs2_of_ne m c main_arg3 (by decide)
    _ = bufs0 m c (Proc.devRef .tc main_arg3) := StableHlo.after_of_writes_sub hostOps0 _ hostOps0_writes (by decide)
    _ = m ((c : Thread nD τ).loc main_arg3) := rfl
theorem bufs8_main_arg4 (c : Dev nD) : bufs8 m c (Proc.devRef .tc main_arg4) = m ((c : Thread nD τ).loc main_arg4) :=
  calc bufs8 m c (Proc.devRef .tc main_arg4)
    _ = bufs7 m c (Proc.devRef .tc main_arg4) := bufs8_of_ne m c main_arg4 (by decide)
    _ = bufs6 m c (Proc.devRef .tc main_arg4) := StableHlo.after_of_writes_sub hostOps3 _ hostOps3_writes (by decide)
    _ = bufs5 m c (Proc.devRef .tc main_arg4) := bufs6_of_ne m c main_arg4 (by decide)
    _ = bufs4 m c (Proc.devRef .tc main_arg4) := StableHlo.after_of_writes_sub hostOps2 _ hostOps2_writes (by decide)
    _ = bufs3 m c (Proc.devRef .tc main_arg4) := bufs4_of_ne m c main_arg4 (by decide)
    _ = bufs2 m c (Proc.devRef .tc main_arg4) := StableHlo.after_of_writes_sub hostOps1 _ hostOps1_writes (by decide)
    _ = bufs1 m c (Proc.devRef .tc main_arg4) := bufs2_of_ne m c main_arg4 (by decide)
    _ = bufs0 m c (Proc.devRef .tc main_arg4) := StableHlo.after_of_writes_sub hostOps0 _ hostOps0_writes (by decide)
    _ = m ((c : Thread nD τ).loc main_arg4) := rfl

/-! ## The proof data of the four passes and the thread state -/

/-- No pass has a prefetched table. -/
abbrev tables : (p : Fin 4) → (pcfgs (F := F) p).Adm := fun p => (cfgs p).toPCfg_adm
/-- Every pass's proof data, each at the contents it is entered from. -/
def allDats : (p : Fin 4) → (c : Dev nD) → Dat τ (Elt F) Unit ℕ (UR sig nD τ) ℕ (Pipeline.pin (pcfgs (F := F)) tables p) c
  | ⟨0, _⟩ => fun c => dat0 (ent1 m) c
  | ⟨1, _⟩ => fun c => dat1 (ent3 m) c
  | ⟨2, _⟩ => fun c => dat2 (ent5 m) c
  | ⟨3, _⟩ => fun c => dat3 (ent7 m) c
abbrev noVariants : Variants := Variants.none
/-- No core owes another anything: no level is assigned. -/
abbrev noPairs : GSem nD τ sig → Finset Unit := fun _ => ∅
abbrev noLevels : GSem nD τ sig → Unit → ℕ := fun _ _ => 0
/-- What rides beside the buffers through every segment: the generator register at some state, and nothing owed. -/
abbrev rest (c : Dev nD) : sProp 𝕄 := iprop((∃ r, prngReg c r) ∗ ∃ W, owes (c : Thread nD τ) (0 : CellTallies nD τ sig Unit) W)
/-- A host stretch as a segment over the unscoped buffers from contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevels :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest
/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without what is owed: every unscoped buffer at the last boundary's contents. -/
abbrev endState (c : Dev nD) : sProp 𝕄 := iprop(StableHlo.held (c : Thread nD τ) (Pipeline.ucRefs τ sig) (bufs8 m c) ∗ ∃ r, prngReg c r)

/-! ## The passes as segments -/

set_option backward.isDefEq.respectTransparency.types false in
/-- Pass 1 as a segment: entered from every unscoped buffer at the contents before it, left at the contents after
    it. Its arrays are split out of the unscoped buffers at entry and put back at exit; its scratch and the generator
    register go into the invariant at the first point and come back from it after the last; nothing is owed and the
    kernel has no semaphore of its own. -/
def region0 : Pipeline.RegionSeg (pcfgs (F := F)) tables (allDats m) () defs₀ noVariants noPairs noLevels 0 where
  win := launch0.win.to₀
  block_pos := launch0.block_pos
  stage_whole := launch0.stage_whole
  K := PEmpty
  osem k := k.elim
  ho := Pipeline.OwnSemFacts.none _
  hbody c := (body_obligation0 (ent1 m) c).loose
  hwaits := Pipeline.hwaits_of_owed_zero _ _ _ _ noPairs noLevels 0 fun _ _ => rfl
  pre c := iprop(StableHlo.held (c : Thread nD τ) (Pipeline.ucRefs τ sig) (bufs1 m c) ∗ rest c)
  post c := iprop(StableHlo.held (c : Thread nD τ) (Pipeline.ucRefs τ sig) (bufs2 m c) ∗ rest c)
  X c := iprop(∃ r, prngReg c r)
  Y c := iprop(∃ r, prngReg c r)
  Z c := Pipeline.unscopedRest (Ix := Unit) (Name := ℕ) (U := UR sig nD τ) (Lvl := ℕ) spec0 c (ent1 m c)
  hentry c := by
    rw [Pipeline.ownSems0_none]
    have hsplit := Pipeline.arrays_of_unscopedBufs (p := 0) (pcfgs (F := F)) tables (allDats m) launch0.win launch0.arr_whole c
      ((allDats m 0 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m 0 c).Φ 0 = iprop(scr0 (ent1 m) c 0 ∗ Pipeline.scopedRestBut (Ix := Unit) (Name := ℕ) (U := UR sig nD τ) (Lvl := ℕ) (Val := Elt F) spec0 c [cc0_scratch0] ∗ ∃ r, prngReg c r) from inv_eq0 (ent1 m) c 0]
    unfold scr0
    rw [if_pos (show (0 : Fin (cfg0.N + 1)).val = 0 from rfl)]
    simp only [owns_whole_eq]
    have hs : (Pipeline.scopedRest (Ix := Unit) (Name := ℕ) (U := UR sig nD τ) (Lvl := ℕ) (Val := Elt F) spec0 c : sProp 𝕄)
        ⊢ iprop(iprop((∃ f : Buf (Elt F) ((c : Thread nD τ).loc cc0_scratch0), ((c : Thread nD τ).loc cc0_scratch0) ↦{fullShare} f))
          ∗ Pipeline.scopedRestBut (Ix := Unit) (Name := ℕ) (U := UR sig nD τ) (Lvl := ℕ) (Val := Elt F) spec0 c [cc0_scratch0]) :=
      Entails.of_eq (scopedRest0_split c)
    iintro ⟨Hp, -, Hr⟩
    ihave H := hs $$ Hr
    icases H with ⟨⟨%f, Hs⟩, Hb⟩
    isplitl [Hs]
    · iexists f; iexists f; isplitr; · ipureintro; rfl
      iexact Hs
    isplitl [Hb]; · iexact Hb
    iexact Hp
  hout c := by
    rw [Pipeline.ownSems0_none, show (allDats m 0 c).Φ (Fin.last _) = iprop(scr0 (ent1 m) c (Fin.last _) ∗ Pipeline.scopedRestBut (Ix := Unit) (Name := ℕ) (U := UR sig nD τ) (Lvl := ℕ) (Val := Elt F) spec0 c [cc0_scratch0] ∗ ∃ r, prngReg c r) from inv_eq0 (ent1 m) c _]
    unfold scr0
    rw [if_neg (show ¬ (Fin.last cfg0.N).val = 0 from by rw [Fin.val_last, show cfg0.N = 50 from N_0]; decide)]
    simp only [owns_whole_eq]
    have hs : iprop(iprop((∃ f : Buf (Elt F) ((c : Thread nD τ).loc cc0_scratch0), ((c : Thread nD τ).loc cc0_scratch0) ↦{fullShare} f))
          ∗ Pipeline.scopedRestBut (Ix := Unit) (Name := ℕ) (U := UR sig nD τ) (Lvl := ℕ) (Val := Elt F) spec0 c [cc0_scratch0])
        ⊢ (Pipeline.scopedRest (Ix := Unit) (Name := ℕ) (U := UR sig nD τ) (Lvl := ℕ) (Val := Elt F) spec0 c : sProp 𝕄) :=
      Entails.of_eq (scopedRest0_split c).symm
    iintro ⟨⟨%f, -, Hs⟩, Hb, Hp⟩
    isplitl [Hp]; · iexact Hp
    isplitr; · iempintro
    iapply hs
    isplitl [Hs]; · iexists f; iexact Hs
    iexact Hb
  hexit c := by
    have hjoin := Pipeline.unscopedBufs_of_arrays (p := 0) (pcfgs (F := F)) tables (Ix := Unit) (Name := ℕ) (U := UR sig nD τ) (Lvl := ℕ)
      launch0.win launch0.arr_whole c (allDats m) ((allDats m 0 c).share_full fun _ => rfl)
      (ent1 m c) (ent2 m c) ((allDats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 as a segment: entered from every unscoped buffer at the contents before it, left at the contents after
    it. Its arrays are split out of the unscoped buffers at entry and put back at exit; its scratch and the generator
    register go into the invariant at the first point and come back from it after the last; nothing is owed and the
    kernel has no semaphore of its own. -/
def region1 : Pipeline.RegionSeg (pcfgs (F := F)) tables (allDats m) () defs₀ noVariants noPairs noLevels 1 where
  win := launch1.win.to₀
  block_pos := launch1.block_pos
  stage_whole := launch1.stage_whole
  K := PEmpty
  osem k := k.elim
  ho := Pipeline.OwnSemFacts.none _
  hbody c := (body_obligation1 (ent3 m) c).loose
  hwaits := Pipeline.hwaits_of_owed_zero _ _ _ _ noPairs noLevels 1 fun _ _ => rfl
  pre c := iprop(StableHlo.held (c : Thread nD τ) (Pipeline.ucRefs τ sig) (bufs3 m c) ∗ rest c)
  post c := iprop(StableHlo.held (c : Thread nD τ) (Pipeline.ucRefs τ sig) (bufs4 m c) ∗ rest c)
  X c := iprop(∃ r, prngReg c r)
  Y c := iprop(∃ r, prngReg c r)
  Z c := Pipeline.unscopedRest (Ix := Unit) (Name := ℕ) (U := UR sig nD τ) (Lvl := ℕ) spec1 c (ent3 m c)
  hentry c := by
    rw [Pipeline.ownSems0_none]
    have hsplit := Pipeline.arrays_of_unscopedBufs (p := 1) (pcfgs (F := F)) tables (allDats m) launch1.win launch1.arr_whole c
      ((allDats m 1 c).share_full fun _ => rfl) (ent3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m 1 c).Φ 0 = iprop(scr1 (ent3 m) c 0 ∗ Pipeline.scopedRestBut (Ix := Unit) (Name := ℕ) (U := UR sig nD τ) (Lvl := ℕ) (Val := Elt F) spec1 c [cc1_scratch0] ∗ ∃ r, prngReg c r) from inv_eq1 (ent3 m) c 0]
    unfold scr1
    rw [if_pos (show (0 : Fin (cfg1.N + 1)).val = 0 from rfl)]
    simp only [owns_whole_eq]
    have hs : (Pipeline.scopedRest (Ix := Unit) (Name := ℕ) (U := UR sig nD τ) (Lvl := ℕ) (Val := Elt F) spec1 c : sProp 𝕄)
        ⊢ iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) :=
      Entails.of_eq (scopedRest1_split c)
    iintro ⟨Hp, -, Hr⟩
    ihave H := hs $$ Hr
    icases H with ⟨⟨%f, Hs⟩, Hb⟩
    isplitl [Hs]
    · iexists f; iexists f; isplitr; · ipureintro; rfl
      iexact Hs
    isplitl [Hb]; · iexact Hb
    iexact Hp
  hout c := by
    rw [Pipeline.ownSems0_none, show (allDats m 1 c).Φ (Fin.last _) = iprop(scr1 (ent3 m) c (Fin.last _) ∗ Pipeline.scopedRestBut (Ix := Unit) (Name := ℕ) (U := UR sig nD τ) (Lvl := ℕ) (Val := Elt F) spec1 c [cc1_scratch0] ∗ ∃ r, prngReg c r) from inv_eq1 (ent3 m) c _]
    unfold scr1
    rw [if_neg (show ¬ (Fin.last cfg1.N).val = 0 from by rw [Fin.val_last, show cfg1.N = 50 from N_1]; decide)]
    simp only [owns_whole_eq]
    have hs : iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0])
        ⊢ (Pipeline.scopedRest (Ix := Unit) (Name := ℕ) (U := UR sig nD τ) (Lvl := ℕ) (Val := Elt F) spec1 c : sProp 𝕄) :=
      Entails.of_eq (scopedRest1_split c).symm
    iintro ⟨⟨%f, -, Hs⟩, Hb, Hp⟩
    isplitl [Hp]; · iexact Hp
    isplitr; · iempintro
    iapply hs
    isplitl [Hs]; · iexists f; iexact Hs
    iexact Hb
  hexit c := by
    have hjoin := Pipeline.unscopedBufs_of_arrays (p := 1) (pcfgs (F := F)) tables (Ix := Unit) (Name := ℕ) (U := UR sig nD τ) (Lvl := ℕ)
      launch1.win launch1.arr_whole c (allDats m) ((allDats m 1 c).share_full fun _ => rfl)
      (ent3 m c) (ent4 m c) ((allDats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 3 as a segment: entered from every unscoped buffer at the contents before it, left at the contents after
    it. Its arrays are split out of the unscoped buffers at entry and put back at exit; its scratch and the generator
    register go into the invariant at the first point and come back from it after the last; nothing is owed and the
    kernel has no semaphore of its own. -/
def region2 : Pipeline.RegionSeg (pcfgs (F := F)) tables (allDats m) () defs₀ noVariants noPairs noLevels 2 where
  win := launch2.win.to₀
  block_pos := launch2.block_pos
  stage_whole := launch2.stage_whole
  K := PEmpty
  osem k := k.elim
  ho := Pipeline.OwnSemFacts.none _
  hbody c := (body_obligation2 (ent5 m) c).loose
  hwaits := Pipeline.hwaits_of_owed_zero _ _ _ _ noPairs noLevels 2 fun _ _ => rfl
  pre c := iprop(StableHlo.held (c : Thread nD τ) (Pipeline.ucRefs τ sig) (bufs5 m c) ∗ rest c)
  post c := iprop(StableHlo.held (c : Thread nD τ) (Pipeline.ucRefs τ sig) (bufs6 m c) ∗ rest c)
  X c := iprop(∃ r, prngReg c r)
  Y c := iprop(∃ r, prngReg c r)
  Z c := Pipeline.unscopedRest (Ix := Unit) (Name := ℕ) (U := UR sig nD τ) (Lvl := ℕ) spec2 c (ent5 m c)
  hentry c := by
    rw [Pipeline.ownSems0_none]
    have hsplit := Pipeline.arrays_of_unscopedBufs (p := 2) (pcfgs (F := F)) tables (allDats m) launch2.win launch2.arr_whole c
      ((allDats m 2 c).share_full fun _ => rfl) (ent5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m 2 c).Φ 0 = iprop(scr2 (ent5 m) c 0 ∗ Pipeline.scopedRestBut (Ix := Unit) (Name := ℕ) (U := UR sig nD τ) (Lvl := ℕ) (Val := Elt F) spec2 c [cc2_scratch0] ∗ ∃ r, prngReg c r) from inv_eq2 (ent5 m) c 0]
    unfold scr2
    rw [if_pos (show (0 : Fin (cfg2.N + 1)).val = 0 from rfl)]
    simp only [owns_whole_eq]
    have hs : (Pipeline.scopedRest (Ix := Unit) (Name := ℕ) (U := UR sig nD τ) (Lvl := ℕ) (Val := Elt F) spec2 c : sProp 𝕄)
        ⊢ iprop(iprop((∃ f : Buf (Elt F) ((c : Thread nD τ).loc cc2_scratch0), ((c : Thread nD τ).loc cc2_scratch0) ↦{fullShare} f))
          ∗ Pipeline.scopedRestBut (Ix := Unit) (Name := ℕ) (U := UR sig nD τ) (Lvl := ℕ) (Val := Elt F) spec2 c [cc2_scratch0]) :=
      Entails.of_eq (scopedRest2_split c)
    iintro ⟨Hp, -, Hr⟩
    ihave H := hs $$ Hr
    icases H with ⟨⟨%f, Hs⟩, Hb⟩
    isplitl [Hs]
    · iexists f; iexists f; isplitr; · ipureintro; rfl
      iexact Hs
    isplitl [Hb]; · iexact Hb
    iexact Hp
  hout c := by
    rw [Pipeline.ownSems0_none, show (allDats m 2 c).Φ (Fin.last _) = iprop(scr2 (ent5 m) c (Fin.last _) ∗ Pipeline.scopedRestBut (Ix := Unit) (Name := ℕ) (U := UR sig nD τ) (Lvl := ℕ) (Val := Elt F) spec2 c [cc2_scratch0] ∗ ∃ r, prngReg c r) from inv_eq2 (ent5 m) c _]
    unfold scr2
    rw [if_neg (show ¬ (Fin.last cfg2.N).val = 0 from by rw [Fin.val_last, show cfg2.N = 50 from N_2]; decide)]
    simp only [owns_whole_eq]
    have hs : iprop(iprop((∃ f : Buf (Elt F) ((c : Thread nD τ).loc cc2_scratch0), ((c : Thread nD τ).loc cc2_scratch0) ↦{fullShare} f))
          ∗ Pipeline.scopedRestBut (Ix := Unit) (Name := ℕ) (U := UR sig nD τ) (Lvl := ℕ) (Val := Elt F) spec2 c [cc2_scratch0])
        ⊢ (Pipeline.scopedRest (Ix := Unit) (Name := ℕ) (U := UR sig nD τ) (Lvl := ℕ) (Val := Elt F) spec2 c : sProp 𝕄) :=
      Entails.of_eq (scopedRest2_split c).symm
    iintro ⟨⟨%f, -, Hs⟩, Hb, Hp⟩
    isplitl [Hp]; · iexact Hp
    isplitr; · iempintro
    iapply hs
    isplitl [Hs]; · iexists f; iexact Hs
    iexact Hb
  hexit c := by
    have hjoin := Pipeline.unscopedBufs_of_arrays (p := 2) (pcfgs (F := F)) tables (Ix := Unit) (Name := ℕ) (U := UR sig nD τ) (Lvl := ℕ)
      launch2.win launch2.arr_whole c (allDats m) ((allDats m 2 c).share_full fun _ => rfl)
      (ent5 m c) (ent6 m c) ((allDats m 2 c).arrAt · cfg2.N) (exit2_arr m c) (exit2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 4 as a segment: entered from every unscoped buffer at the contents before it, left at the contents after
    it. Its arrays are split out of the unscoped buffers at entry and put back at exit; its scratch and the generator
    register go into the invariant at the first point and come back from it after the last; nothing is owed and the
    kernel has no semaphore of its own. -/
def region3 : Pipeline.RegionSeg (pcfgs (F := F)) tables (allDats m) () defs₀ noVariants noPairs noLevels 3 where
  win := launch3.win.to₀
  block_pos := launch3.block_pos
  stage_whole := launch3.stage_whole
  K := PEmpty
  osem k := k.elim
  ho := Pipeline.OwnSemFacts.none _
  hbody c := (body_obligation3 (ent7 m) c).loose
  hwaits := Pipeline.hwaits_of_owed_zero _ _ _ _ noPairs noLevels 3 fun _ _ => rfl
  pre c := iprop(StableHlo.held (c : Thread nD τ) (Pipeline.ucRefs τ sig) (bufs7 m c) ∗ rest c)
  post c := iprop(endState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (ent7 m c)
  hentry c := by
    rw [Pipeline.ownSems0_none]
    have hsplit := Pipeline.arrays_of_unscopedBufs (p := 3) (pcfgs (F := F)) tables (allDats m) launch3.win launch3.arr_whole c
      ((allDats m 3 c).share_full fun _ => rfl) (ent7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m 3 c).Φ 0 = iprop(scr3 (ent7 m) c 0 ∗ Pipeline.scopedRestBut (Ix := Unit) (Name := ℕ) (U := UR sig nD τ) (Lvl := ℕ) (Val := Elt F) spec3 c [cc3_scratch0] ∗ ∃ r, prngReg c r) from inv_eq3 (ent7 m) c 0]
    unfold scr3
    rw [if_pos (show (0 : Fin (cfg3.N + 1)).val = 0 from rfl)]
    simp only [owns_whole_eq]
    have hs : (Pipeline.scopedRest (Ix := Unit) (Name := ℕ) (U := UR sig nD τ) (Lvl := ℕ) (Val := Elt F) spec3 c : sProp 𝕄)
        ⊢ iprop(iprop((∃ f : Buf (Elt F) ((c : Thread nD τ).loc cc3_scratch0), ((c : Thread nD τ).loc cc3_scratch0) ↦{fullShare} f))
          ∗ Pipeline.scopedRestBut (Ix := Unit) (Name := ℕ) (U := UR sig nD τ) (Lvl := ℕ) (Val := Elt F) spec3 c [cc3_scratch0]) :=
      Entails.of_eq (scopedRest3_split c)
    iintro ⟨Hp, -, Hr⟩
    ihave H := hs $$ Hr
    icases H with ⟨⟨%f, Hs⟩, Hb⟩
    isplitl [Hs]
    · iexists f; iexists f; isplitr; · ipureintro; rfl
      iexact Hs
    isplitl [Hb]; · iexact Hb
    iexact Hp
  hout c := by
    rw [Pipeline.ownSems0_none, show (allDats m 3 c).Φ (Fin.last _) = iprop(scr3 (ent7 m) c (Fin.last _) ∗ Pipeline.scopedRestBut (Ix := Unit) (Name := ℕ) (U := UR sig nD τ) (Lvl := ℕ) (Val := Elt F) spec3 c [cc3_scratch0] ∗ ∃ r, prngReg c r) from inv_eq3 (ent7 m) c _]
    unfold scr3
    rw [if_neg (show ¬ (Fin.last cfg3.N).val = 0 from by rw [Fin.val_last, show cfg3.N = 50 from N_3]; decide)]
    simp only [owns_whole_eq]
    have hs : iprop(iprop((∃ f : Buf (Elt F) ((c : Thread nD τ).loc cc3_scratch0), ((c : Thread nD τ).loc cc3_scratch0) ↦{fullShare} f))
          ∗ Pipeline.scopedRestBut (Ix := Unit) (Name := ℕ) (U := UR sig nD τ) (Lvl := ℕ) (Val := Elt F) spec3 c [cc3_scratch0])
        ⊢ (Pipeline.scopedRest (Ix := Unit) (Name := ℕ) (U := UR sig nD τ) (Lvl := ℕ) (Val := Elt F) spec3 c : sProp 𝕄) :=
      Entails.of_eq (scopedRest3_split c).symm
    iintro ⟨⟨%f, -, Hs⟩, Hb, Hp⟩
    isplitl [Hp]; · iexact Hp
    isplitr; · iempintro
    iapply hs
    isplitl [Hs]; · iexists f; iexact Hs
    iexact Hb
  hexit c := by
    have hjoin := Pipeline.unscopedBufs_of_arrays (p := 3) (pcfgs (F := F)) tables (Ix := Unit) (Name := ℕ) (U := UR sig nD τ) (Lvl := ℕ)
      launch3.win launch3.arr_whole c (allDats m) ((allDats m 3 c).share_full fun _ => rfl)
      (ent7 m c) (ent8 m c) ((allDats m 3 c).arrAt · cfg3.N) (exit3_arr m c) (exit3_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segments : List (Pipeline.Seg (pcfgs (F := F)) tables (allDats m) () defs₀ noVariants noPairs noLevels) :=
  [ .host (hostSeg hostOps0 hostOps0_sub hostOps0_fresh (bufs0 m)),
    .region (region0 m),
    .host (hostSeg hostOps1 hostOps1_sub hostOps1_fresh (bufs2 m)),
    .region (region1 m),
    .host (hostSeg hostOps2 hostOps2_sub hostOps2_fresh (bufs4 m)),
    .region (region2 m),
    .host (hostSeg hostOps3 hostOps3_sub hostOps3_fresh (bufs6 m)),
    .region (region3 m) ]
theorem main_is_run (c : Dev nD) : main (F := F) c = Pipeline.Seg.run (segments m) := (main_chain c).trans (by chain_rfl)

set_option backward.isDefEq.respectTransparency.types false in
/-- From any memory with zero counters, every weakly fair execution of the program terminates, nothing faulting, and
    every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = bufs8 m c b) :=
  Pipeline.θ_run_regions_kit (pcfgs (F := F)) tables (allDats m) () cellOf_inj emb₁ defs₀ noVariants noPairs noLevels m ρ main (segments m)
    (fun c Q => by rw [main_is_run m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bufs0 m c) ∗ rest c)) (Tₙ := endState m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach noPairs noLevels fun c => ?_
      rw [show unscopedBufs c (fun b => m ((c : Thread nD τ).loc b)) = StableHlo.held (c : Thread nD τ) (Pipeline.ucRefs τ sig) (bufs0 m c)
        from Pipeline.unscopedBufs_held c (bufs0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bufs8 m c b)
    (hfin := fun c s' => by
      iintro ⟨⟨Hh, -⟩, HSI⟩
      unfold StableHlo.held
      imodintro
      iapply (pointsTo_read_all (Pipeline.ucRefs τ sig) (fun b => (((c : Thread nD τ)).1, b)) (bufs8 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_unscoped main_arg0 (by decide))).trans (bufs8_main_arg0 m c),
     (h c _ (mem_unscoped main_arg1 (by decide))).trans (bufs8_main_arg1 m c),
     (h c _ (mem_unscoped main_arg2 (by decide))).trans (bufs8_main_arg2 m c),
     (h c _ (mem_unscoped main_arg3 (by decide))).trans (bufs8_main_arg3 m c),
     (h c _ (mem_unscoped main_arg4 (by decide))).trans (bufs8_main_arg4 m c)⟩) (run m ρ)

end Cert.KernelIdeal.Pass

end
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.LayerSpec.lean ====
/-
  One layer on the extended reals, as functions of whole arrays over literal shapes. The activation is the leaky
  rectifier followed by the rectifier:  act z a = max(z if z ≥ 0 else a·z, 0).  A pass's result at row r, column q is
  act(Σₖ A(r,k)·S(k,q) + b(q), a(q)), where S is the feature transform  S(k,q) = Σⱼ H(k,j)·W(j,q).
-/
import Idealize.ShloMosaic.Lib.ValueIdx
import Idealize.ShloMosaic.PureOps.Ideal.Laws

noncomputable section

namespace Cert.LayerSpec

open Idealize.ShloMosaic Idealize.ShloMosaic.ValueIdx

/-- The activation of a pre-activation `z` with slope `a`. -/
def act (z a : Ideal FTy.f32) : Ideal FTy.f32 :=
  max (Scalar.select (FloatOps.cmpf (F := Ideal) CmpFPredicate.oge z (FloatOps.ofBits (F := Ideal) FTy.f32 0#32)) z (a * z))
    (FloatOps.ofBits (F := Ideal) FTy.f32 0#32)

/-- A pass's result as one function of whole arrays, over `B` columns. -/
def passOut {B : Nat} (A : (⟨2, ![10000, 10000]⟩ : Shape).Idx → EReal) (s : (⟨2, ![10000, B]⟩ : Shape).Idx → EReal)
    (b a : (⟨2, ![1, B]⟩ : Shape).Idx → EReal) : (⟨2, ![10000, B]⟩ : Shape).Idx → EReal :=
  fun i => act (∑ k : Fin 10000, A (ix2 (i 0) k) * s (ix2 k (i 1)) + b (ix2 (0 : Fin 1) (i 1))) (a (ix2 (0 : Fin 1) (i 1)))

/-- A feature transform as one function of whole arrays. -/
def featOut {B : Nat} (h : (⟨2, ![10000, 128]⟩ : Shape).Idx → EReal) (w : (⟨2, ![128, B]⟩ : Shape).Idx → EReal) :
    (⟨2, ![10000, B]⟩ : Shape).Idx → EReal :=
  fun i => ∑ j : Fin 128, h (ix2 (i 0) j) * w (ix2 j (i 1))

/-- Columns `off … off+127` of a 512-column array. -/
def colsFrom (off : Nat) (h : off + 128 ≤ 512) (f : (⟨2, ![10000, 512]⟩ : Shape).Idx → EReal) : (⟨2, ![10000, 128]⟩ : Shape).Idx → EReal :=
  fun i => f (ix2 (i 0) (⟨off + (i 1).val, by have h1 : (i 1).val < 128 := (i 1).isLt; omega⟩ : Fin 512))

end Cert.LayerSpec

end
-- ==== Proof.IdealBlock.lean ====
/-
  The kernel bodies' arithmetic on the extended reals, read at an index. A pass's output block at row p, column q is
  the activation  max(z if z ≥ 0 else a·z, 0)  of  z = Σₖ A(p,k)·S(k,q) + b(q),  where A is the adjacency block, S the
  feature transform kept in the scratch, b the bias row and a the slope row; the feature transform at (k,q) is
  Σⱼ H(k,j)·W(j,q). A change of float format is the identity here. The last pass's four output blocks are the four
  128-column slices of one 512-wide activation.
-/
import proofs.«148270_g13469017440497_cont_week2b_423_4_alg».proof.Proof.Gen.KernelIdeal.Skeleton
import proofs.«148270_g13469017440497_cont_week2b_423_4_alg».proof.Proof.LibDotSum
import proofs.«148270_g13469017440497_cont_week2b_423_4_alg».proof.Proof.LayerSpec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.ValueIdx Cert.KernelIdeal Cert.KernelIdeal.Gen Cert.LayerSpec

/-! ## The dimension numbers of the four matrix products, coordinate by coordinate -/

theorem dS128_l0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem dS128_l1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem dS128_r0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem dS128_r1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem dB128_l0 (i : S200x128.Idx) (q : dot_S200x10000_S10000x128_S200x128_1_0_0_1_n_n.contr.Idx) : (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem dB128_l1 (i : S200x128.Idx) (q : dot_S200x10000_S10000x128_S200x128_1_0_0_1_n_n.contr.Idx) : (dot_S200x10000_S10000x128_S200x128_1_0_0_1_n_n.lhsIdx i q 1).val = (q ⟨0, by decide⟩).val :=
  dot_S200x10000_S10000x128_S200x128_1_0_0_1_n_n.lhsIdx_val_of_single rfl i q
theorem dB128_r0 (i : S200x128.Idx) (q : dot_S200x10000_S10000x128_S200x128_1_0_0_1_n_n.contr.Idx) : (dot_S200x10000_S10000x128_S200x128_1_0_0_1_n_n.rhsIdx i q 0).val = (q ⟨0, by decide⟩).val :=
  dot_S200x10000_S10000x128_S200x128_1_0_0_1_n_n.rhsIdx_val_of_single rfl i q
theorem dB128_r1 (i : S200x128.Idx) (q : dot_S200x10000_S10000x128_S200x128_1_0_0_1_n_n.contr.Idx) : (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

theorem dS512_l0 (i : S10000x512.Idx) (q : dot_S10000x128_S128x512_S10000x512_1_0_0_1_n_n.contr.Idx) : (dot_S10000x128_S128x512_S10000x512_1_0_0_1_n_n.lhsIdx i q 0).val = (i 0).val := by
  unfold DotDims.lhsIdx
  rw [dif_neg (show ¬(0 : Fin S10000x128.rank) ∈ dot_S10000x128_S128x512_S10000x512_1_0_0_1_n_n.lhsBatch by decide), dif_pos (show (0 : Fin S10000x128.rank) ∈ dot_S10000x128_S128x512_S10000x512_1_0_0_1_n_n.lhsNonContracting by decide)]
  rfl
theorem dS512_l1 (i : S10000x512.Idx) (q : dot_S10000x128_S128x512_S10000x512_1_0_0_1_n_n.contr.Idx) : (dot_S10000x128_S128x512_S10000x512_1_0_0_1_n_n.lhsIdx i q 1).val = (q ⟨0, by decide⟩).val :=
  dot_S10000x128_S128x512_S10000x512_1_0_0_1_n_n.lhsIdx_val_of_single rfl i q
theorem dS512_r0 (i : S10000x512.Idx) (q : dot_S10000x128_S128x512_S10000x512_1_0_0_1_n_n.contr.Idx) : (dot_S10000x128_S128x512_S10000x512_1_0_0_1_n_n.rhsIdx i q 0).val = (q ⟨0, by decide⟩).val :=
  dot_S10000x128_S128x512_S10000x512_1_0_0_1_n_n.rhsIdx_val_of_single rfl i q
theorem dS512_r1 (i : S10000x512.Idx) (q : dot_S10000x128_S128x512_S10000x512_1_0_0_1_n_n.contr.Idx) : (dot_S10000x128_S128x512_S10000x512_1_0_0_1_n_n.rhsIdx i q 1).val = (i 1).val := by
  unfold DotDims.rhsIdx
  rw [dif_neg (show ¬(1 : Fin S128x512.rank) ∈ dot_S10000x128_S128x512_S10000x512_1_0_0_1_n_n.rhsBatch by decide), dif_pos (show (1 : Fin S128x512.rank) ∈ dot_S10000x128_S128x512_S10000x512_1_0_0_1_n_n.rhsNonContracting by decide)]
  rfl

theorem dB512_l0 (i : S200x512.Idx) (q : dot_S200x10000_S10000x512_S200x512_1_0_0_1_n_n.contr.Idx) : (dot_S200x10000_S10000x512_S200x512_1_0_0_1_n_n.lhsIdx i q 0).val = (i 0).val := by
  unfold DotDims.lhsIdx
  rw [dif_neg (show ¬(0 : Fin S200x10000.rank) ∈ dot_S200x10000_S10000x512_S200x512_1_0_0_1_n_n.lhsBatch by decide), dif_pos (show (0 : Fin S200x10000.rank) ∈ dot_S200x10000_S10000x512_S200x512_1_0_0_1_n_n.lhsNonContracting by decide)]
  rfl
theorem dB512_l1 (i : S200x512.Idx) (q : dot_S200x10000_S10000x512_S200x512_1_0_0_1_n_n.contr.Idx) : (dot_S200x10000_S10000x512_S200x512_1_0_0_1_n_n.lhsIdx i q 1).val = (q ⟨0, by decide⟩).val :=
  dot_S200x10000_S10000x512_S200x512_1_0_0_1_n_n.lhsIdx_val_of_single rfl i q
theorem dB512_r0 (i : S200x512.Idx) (q : dot_S200x10000_S10000x512_S200x512_1_0_0_1_n_n.contr.Idx) : (dot_S200x10000_S10000x512_S200x512_1_0_0_1_n_n.rhsIdx i q 0).val = (q ⟨0, by decide⟩).val :=
  dot_S200x10000_S10000x512_S200x512_1_0_0_1_n_n.rhsIdx_val_of_single rfl i q
theorem dB512_r1 (i : S200x512.Idx) (q : dot_S200x10000_S10000x512_S200x512_1_0_0_1_n_n.contr.Idx) : (dot_S200x10000_S10000x512_S200x512_1_0_0_1_n_n.rhsIdx i q 1).val = (i 1).val := by
  unfold DotDims.rhsIdx
  rw [dif_neg (show ¬(1 : Fin S10000x512.rank) ∈ dot_S200x10000_S10000x512_S200x512_1_0_0_1_n_n.rhsBatch by decide), dif_pos (show (1 : Fin S10000x512.rank) ∈ dot_S200x10000_S10000x512_S200x512_1_0_0_1_n_n.rhsNonContracting by decide)]
  rfl

/-- The matrix unit's product of a `10000×128` block with a `128×128` block into zeros, at row `p` and column `q`:
    the sum over the shared axis. -/
theorem mm_seq128 (x : FVec Ideal S10000x128 .f32) (w : FVec Ideal S128x128 .f32) (p : Fin 10000) (q : Fin 128) :
    matmul dot_S10000x128_S128x128_S10000x128_1_0_0_1_n_n none x w (constant S10000x128 .f32 0x00000000#32) (ix2 p q)
      = ∑ k : Fin 128, x (ix2 p k) * w (ix2 k q) := by
  refine DotSum.matmul_zero_eq_sum _ 128 rfl rfl x w (ix2 p q) (fun k => ix2 p k) (fun k => ix2 k q) (fun k => ?_) (fun k => ?_)
  · have hk := contrEquiv1_symm_val dot_S10000x128_S128x128_S10000x128_1_0_0_1_n_n 128 rfl rfl k
    funext a; apply Fin.ext
    match a with
    | ⟨0, _⟩ => exact dS128_l0 _ _
    | ⟨1, _⟩ => exact (dS128_l1 _ _).trans hk
  · have hk := contrEquiv1_symm_val dot_S10000x128_S128x128_S10000x128_1_0_0_1_n_n 128 rfl rfl k
    funext a; apply Fin.ext
    match a with
    | ⟨0, _⟩ => exact (dS128_r0 _ _).trans hk
    | ⟨1, _⟩ => exact dS128_r1 _ _

/-- The matrix unit's product of a `200×10000` block with a `10000×128` block into zeros, at row `p` and column `q`:
    the sum over the shared axis. -/
theorem mm_blk128f (x : FVec Ideal S200x10000 .f32) (w : FVec Ideal S10000x128 .f32) (p : Fin 200) (q : Fin 128) :
    matmul dot_S200x10000_S10000x128_S200x128_1_0_0_1_n_n none x w (constant S200x128 .f32 0x00000000#32) (ix2 p q)
      = ∑ k : Fin 10000, x (ix2 p k) * w (ix2 k q) := by
  refine DotSum.matmul_zero_eq_sum _ 10000 rfl rfl x w (ix2 p q) (fun k => ix2 p k) (fun k => ix2 k q) (fun k => ?_) (fun k => ?_)
  · have hk := contrEquiv1_symm_val dot_S200x10000_S10000x128_S200x128_1_0_0_1_n_n 10000 rfl rfl k
    funext a; apply Fin.ext
    match a with
    | ⟨0, _⟩ => exact dB128_l0 _ _
    | ⟨1, _⟩ => exact (dB128_l1 _ _).trans hk
  · have hk := contrEquiv1_symm_val dot_S200x10000_S10000x128_S200x128_1_0_0_1_n_n 10000 rfl rfl k
    funext a; apply Fin.ext
    match a with
    | ⟨0, _⟩ => exact (dB128_r0 _ _).trans hk
    | ⟨1, _⟩ => exact dB128_r1 _ _

/-- The matrix unit's product of a `200×10000` block with a `10000×128` block into zeros, at row `p` and column `q`:
    the sum over the shared axis. -/
theorem mm_blk128h (x : FVec Ideal S200x10000 .bf16) (w : FVec Ideal S10000x128 .bf16) (p : Fin 200) (q : Fin 128) :
    matmul dot_S200x10000_S10000x128_S200x128_1_0_0_1_n_n none x w (constant S200x128 .f32 0x00000000#32) (ix2 p q)
      = ∑ k : Fin 10000, x (ix2 p k) * w (ix2 k q) := by
  refine DotSum.matmul_zero_eq_sum _ 10000 rfl rfl x w (ix2 p q) (fun k => ix2 p k) (fun k => ix2 k q) (fun k => ?_) (fun k => ?_)
  · have hk := contrEquiv1_symm_val dot_S200x10000_S10000x128_S200x128_1_0_0_1_n_n 10000 rfl rfl k
    funext a; apply Fin.ext
    match a with
    | ⟨0, _⟩ => exact dB128_l0 _ _
    | ⟨1, _⟩ => exact (dB128_l1 _ _).trans hk
  · have hk := contrEquiv1_symm_val dot_S200x10000_S10000x128_S200x128_1_0_0_1_n_n 10000 rfl rfl k
    funext a; apply Fin.ext
    match a with
    | ⟨0, _⟩ => exact (dB128_r0 _ _).trans hk
    | ⟨1, _⟩ => exact dB128_r1 _ _

/-- The matrix unit's product of a `10000×128` block with a `128×512` block into zeros, at row `p` and column `q`:
    the sum over the shared axis. -/
theorem mm_seq512 (x : FVec Ideal S10000x128 .f32) (w : FVec Ideal S128x512 .f32) (p : Fin 10000) (q : Fin 512) :
    matmul dot_S10000x128_S128x512_S10000x512_1_0_0_1_n_n none x w (constant S10000x512 .f32 0x00000000#32) (ix2 p q)
      = ∑ k : Fin 128, x (ix2 p k) * w (ix2 k q) := by
  refine DotSum.matmul_zero_eq_sum _ 128 rfl rfl x w (ix2 p q) (fun k => ix2 p k) (fun k => ix2 k q) (fun k => ?_) (fun k => ?_)
  · have hk := contrEquiv1_symm_val dot_S10000x128_S128x512_S10000x512_1_0_0_1_n_n 128 rfl rfl k
    funext a; apply Fin.ext
    match a with
    | ⟨0, _⟩ => exact dS512_l0 _ _
    | ⟨1, _⟩ => exact (dS512_l1 _ _).trans hk
  · have hk := contrEquiv1_symm_val dot_S10000x128_S128x512_S10000x512_1_0_0_1_n_n 128 rfl rfl k
    funext a; apply Fin.ext
    match a with
    | ⟨0, _⟩ => exact (dS512_r0 _ _).trans hk
    | ⟨1, _⟩ => exact dS512_r1 _ _

/-- The matrix unit's product of a `200×10000` block with a `10000×512` block into zeros, at row `p` and column `q`:
    the sum over the shared axis. -/
theorem mm_blk512 (x : FVec Ideal S200x10000 .bf16) (w : FVec Ideal S10000x512 .bf16) (p : Fin 200) (q : Fin 512) :
    matmul dot_S200x10000_S10000x512_S200x512_1_0_0_1_n_n none x w (constant S200x512 .f32 0x00000000#32) (ix2 p q)
      = ∑ k : Fin 10000, x (ix2 p k) * w (ix2 k q) := by
  refine DotSum.matmul_zero_eq_sum _ 10000 rfl rfl x w (ix2 p q) (fun k => ix2 p k) (fun k => ix2 k q) (fun k => ?_) (fun k => ?_)
  · have hk := contrEquiv1_symm_val dot_S200x10000_S10000x512_S200x512_1_0_0_1_n_n 10000 rfl rfl k
    funext a; apply Fin.ext
    match a with
    | ⟨0, _⟩ => exact dB512_l0 _ _
    | ⟨1, _⟩ => exact (dB512_l1 _ _).trans hk
  · have hk := contrEquiv1_symm_val dot_S200x10000_S10000x512_S200x512_1_0_0_1_n_n 10000 rfl rfl k
    funext a; apply Fin.ext
    match a with
    | ⟨0, _⟩ => exact (dB512_r0 _ _).trans hk
    | ⟨1, _⟩ => exact dB512_r1 _ _

/-! ## The feature transforms -/

/-- The feature transform at row `k`, column `q`: the row of the hidden state against the column of the weights. -/
theorem seq0_apply (h : Vec Ideal S10000x128 .f32) (w : Vec Ideal S128x128 .f32) (k : Fin 10000) (q : Fin 128) :
    k0_pay1 h w (ix2 k q) = ∑ j : Fin 128, h (ix2 k j) * w (ix2 j q) := by
  unfold k0_pay1
  simp only [shapeCast_self]
  rw [mm_seq128]

/-- The feature transform at row `k`, column `q`: the row of the hidden state against the column of the weights. -/
theorem seq1_apply (h : Vec Ideal S10000x128 .f32) (w : Vec Ideal S128x128 .f32) (k : Fin 10000) (q : Fin 128) :
    k1_pay1 h w (ix2 k q) = ∑ j : Fin 128, h (ix2 k j) * w (ix2 j q) := by
  unfold k1_pay1
  simp only [shapeCast_self, truncf_apply]
  rw [mm_seq128]

/-- The feature transform at row `k`, column `q`: the row of the hidden state against the column of the weights. -/
theorem seq2_apply (h : Vec Ideal S10000x128 .f32) (w : Vec Ideal S128x128 .f32) (k : Fin 10000) (q : Fin 128) :
    k2_pay1 h w (ix2 k q) = ∑ j : Fin 128, h (ix2 k j) * w (ix2 j q) := by
  unfold k2_pay1
  simp only [shapeCast_self, truncf_apply]
  rw [mm_seq128]

/-- The feature transform at row `k`, column `q`: the row of the hidden state against the column of the weights. -/
theorem seq3_apply (h : Vec Ideal S10000x128 .f32) (w : Vec Ideal S128x512 .f32) (k : Fin 10000) (q : Fin 512) :
    k3_pay1 h w (ix2 k q) = ∑ j : Fin 128, h (ix2 k j) * w (ix2 j q) := by
  unfold k3_pay1
  simp only [shapeCast_self, truncf_apply]
  rw [mm_seq512]

/-! ## The output blocks -/

/-- The first pass's output block. -/
theorem out0_apply (x0 : Vec Ideal S200x10000 .f32) (s : Vec Ideal S10000x128 .f32) (b a : Vec Ideal S1x128 .f32) (p : Fin 200) (q : Fin 128) :
    k0_pay3 x0 s b a (ix2 p q) = act (∑ k : Fin 10000, x0 (ix2 p k) * s (ix2 k q) + b (ix2 (0 : Fin 1) q)) (a (ix2 (0 : Fin 1) q)) := by
  unfold k0_pay3
  simp only [maximumf_apply, select_apply, cmpf_apply, mulf_apply, addf_apply, broadcast_apply, shapeCast_self]
  rw [mm_blk128f, broadcastTo_1b_ab_apply, broadcastTo_1b_ab_apply]
  rfl

/-- The second pass's output block. -/
theorem out1_apply (x0 : Vec Ideal S200x10000 .bf16) (s : Vec Ideal S10000x128 .bf16) (b a : Vec Ideal S1x128 .f32) (p : Fin 200) (q : Fin 128) :
    k1_pay2 x0 s b a (ix2 p q) = act (∑ k : Fin 10000, x0 (ix2 p k) * s (ix2 k q) + b (ix2 (0 : Fin 1) q)) (a (ix2 (0 : Fin 1) q)) := by
  unfold k1_pay2
  simp only [maximumf_apply, select_apply, cmpf_apply, mulf_apply, addf_apply, broadcast_apply, shapeCast_self]
  rw [mm_blk128h, broadcastTo_1b_ab_apply, broadcastTo_1b_ab_apply]
  rfl

/-- The third pass's output block. -/
theorem out2_apply (x0 : Vec Ideal S200x10000 .bf16) (s : Vec Ideal S10000x128 .bf16) (b a : Vec Ideal S1x128 .f32) (p : Fin 200) (q : Fin 128) :
    k2_pay2 x0 s b a (ix2 p q) = act (∑ k : Fin 10000, x0 (ix2 p k) * s (ix2 k q) + b (ix2 (0 : Fin 1) q)) (a (ix2 (0 : Fin 1) q)) := by
  unfold k2_pay2
  simp only [maximumf_apply, select_apply, cmpf_apply, mulf_apply, addf_apply, broadcast_apply, shapeCast_self]
  rw [mm_blk128h, broadcastTo_1b_ab_apply, broadcastTo_1b_ab_apply]
  rfl

/-- The last pass's 512-wide activation block. -/
theorem out3_apply (x0 : Vec Ideal S200x10000 .bf16) (s : Vec Ideal S10000x512 .bf16) (b a : Vec Ideal S1x512 .f32) (p : Fin 200) (q : Fin 512) :
    k3_pay2 x0 s b a (ix2 p q) = act (∑ k : Fin 10000, x0 (ix2 p k) * s (ix2 k q) + b (ix2 (0 : Fin 1) q)) (a (ix2 (0 : Fin 1) q)) := by
  unfold k3_pay2
  simp only [maximumf_apply, select_apply, cmpf_apply, mulf_apply, addf_apply, broadcast_apply, shapeCast_self]
  rw [mm_blk512, broadcastTo_1b_ab_apply, broadcastTo_1b_ab_apply]
  rfl

/-- The first pass's second output block is its adjacency block, unchanged on the extended reals. -/
theorem copy0_apply (x0 : Vec Ideal S200x10000 .f32) (j : S200x10000.Idx) : k0_pay2 x0 j = x0 j := rfl

/-- Head block at column offset 0: columns 0 … 127 of the 512-wide activation. -/
theorem head0_apply (x0 : Vec Ideal S200x10000 .bf16) (s : Vec Ideal S10000x512 .bf16) (b a : Vec Ideal S1x512 .f32) (p : Fin 200) (q : Fin 128) :
    k3_pay3 x0 s b a (ix2 p q) = k3_pay2 x0 s b a (ix2 p (⟨0 + q.val, by have := q.isLt; omega⟩ : Fin 512)) := by
  unfold k3_pay3
  exact extractStridedSlice_apply ![0, 0] (k3_pay2 x0 s b a) slices_S200x512_o0_0_S200x128 (ix2 p q) (ix2 p (⟨0 + q.val, by have := q.isLt; omega⟩ : Fin 512)) (fun ax => match ax with
    | ⟨0, _⟩ => by show p.val = 0 + p.val; omega
    | ⟨1, _⟩ => by show 0 + q.val = 0 + q.val; rfl)

/-- Head block at column offset 128: columns 128 … 255 of the 512-wide activation. -/
theorem head1_apply (x0 : Vec Ideal S200x10000 .bf16) (s : Vec Ideal S10000x512 .bf16) (b a : Vec Ideal S1x512 .f32) (p : Fin 200) (q : Fin 128) :
    k3_pay4 x0 s b a (ix2 p q) = k3_pay2 x0 s b a (ix2 p (⟨128 + q.val, by have := q.isLt; omega⟩ : Fin 512)) := by
  unfold k3_pay4
  exact extractStridedSlice_apply ![0, 128] (k3_pay2 x0 s b a) slices_S200x512_o0_128_S200x128 (ix2 p q) (ix2 p (⟨128 + q.val, by have := q.isLt; omega⟩ : Fin 512)) (fun ax => match ax with
    | ⟨0, _⟩ => by show p.val = 0 + p.val; omega
    | ⟨1, _⟩ => by show 128 + q.val = 128 + q.val; rfl)

/-- Head block at column offset 256: columns 256 … 383 of the 512-wide activation. -/
theorem head2_apply (x0 : Vec Ideal S200x10000 .bf16) (s : Vec Ideal S10000x512 .bf16) (b a : Vec Ideal S1x512 .f32) (p : Fin 200) (q : Fin 128) :
    k3_pay5 x0 s b a (ix2 p q) = k3_pay2 x0 s b a (ix2 p (⟨256 + q.val, by have := q.isLt; omega⟩ : Fin 512)) := by
  unfold k3_pay5
  exact extractStridedSlice_apply ![0, 256] (k3_pay2 x0 s b a) slices_S200x512_o0_256_S200x128 (ix2 p q) (ix2 p (⟨256 + q.val, by have := q.isLt; omega⟩ : Fin 512)) (fun ax => match ax with
    | ⟨0, _⟩ => by show p.val = 0 + p.val; omega
    | ⟨1, _⟩ => by show 256 + q.val = 256 + q.val; rfl)

/-- Head block at column offset 384: columns 384 … 511 of the 512-wide activation. -/
theorem head3_apply (x0 : Vec Ideal S200x10000 .bf16) (s : Vec Ideal S10000x512 .bf16) (b a : Vec Ideal S1x512 .f32) (p : Fin 200) (q : Fin 128) :
    k3_pay6 x0 s b a (ix2 p q) = k3_pay2 x0 s b a (ix2 p (⟨384 + q.val, by have := q.isLt; omega⟩ : Fin 512)) := by
  unfold k3_pay6
  exact extractStridedSlice_apply ![0, 384] (k3_pay2 x0 s b a) slices_S200x512_o0_384_S200x128 (ix2 p q) (ix2 p (⟨384 + q.val, by have := q.isLt; omega⟩ : Fin 512)) (fun ax => match ax with
    | ⟨0, _⟩ => by show p.val = 0 + p.val; omega
    | ⟨1, _⟩ => by show 384 + q.val = 384 + q.val; rfl)
end Cert.KernelIdeal.Val

end
-- ==== Proof.IdealFinal0.lean ====
/-
  Pass 1's output array after its fifty points, as one function of the arrays it was entered from: block `t` of the
  output is rows 200·t … 200·t+199, the adjacency window's block at `t` is the same rows of the adjacency, the other
  inputs are whole at every point, and the fifty blocks cover the array.
-/
import proofs.«148270_g13469017440497_cont_week2b_423_4_alg».proof.Proof.IdealPass0
import proofs.«148270_g13469017440497_cont_week2b_423_4_alg».proof.Proof.IdealBlock

set_option maxRecDepth 16384

noncomputable section

namespace Cert.KernelIdeal.Val

open Idealize.ShloMosaic Idealize.ShloMosaic.ValueIdx Cert.KernelIdeal Cert.KernelIdeal.Gen Cert.KernelIdeal.Pass
open Idealize.ShloMosaic.TcCoe Idealize.SL.Sem
open Idealize.ShloMosaic.Pipeline (Dat)
open Cert.LayerSpec

variable (V : (c : Dev nD) → (b : Ref sig .tc) → Buf (Elt Ideal) ((c : Thread nD τ).loc b))

/-- The printed index maps, decided over the grid: the adjacency window and the outputs move one row block per
    point; every other window stays at its one block. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = t.val
    ∧ win0_5.index t (1 : Fin 2) = 0
    ∧ win0_6.index t (0 : Fin 2) = t.val
    ∧ win0_6.index t (1 : Fin 2) = 0 :=
  (by decide +kernel : ∀ t : Fin grid0.N, _)

/-- Window 0 at point `t` is rows 200·t … 200·t+199 of the adjacency. -/
theorem blk0_0_eq (c : Dev nD) (t : Fin cfg0.N) (p : Fin 200) (k : Fin 10000) (hr : t.val * 200 + p.val < 10000) :
    blk0 V c 0 t (ix2 p k) = V c main_arg1 (ix2 (⟨t.val * 200 + p.val, hr⟩ : Fin 10000) k) := by
  obtain ⟨e00, e01, e10, e11, e20, e21, e30, e31, e40, e41, e50, e51, e60, e61⟩ := idx0 t
  unfold blk0; rw [View.read_apply]
  show V c main_arg1 (((cfg0.win 0).blk t).view.emb (ix2 p k)) = V c main_arg1 (ix2 (⟨t.val * 200 + p.val, hr⟩ : Fin 10000) k)
  refine congrArg _ (funext fun a => Fin.ext ?_)
  match a with
  | ⟨0, _⟩ => show win0_0.index t (0 : Fin 2) * 200 + 1 * p.val = t.val * 200 + p.val; rw [e00]; omega
  | ⟨1, _⟩ => show win0_0.index t (1 : Fin 2) * 10000 + 1 * k.val = k.val; rw [e01]; omega

/-- Window 1 is its whole array at every point. -/
theorem blk0_1_eq (c : Dev nD) (t : Fin cfg0.N) (y : S10000x128.Idx) : blk0 V c 1 t y = V c main_arg0 y := by
  obtain ⟨e00, e01, e10, e11, e20, e21, e30, e31, e40, e41, e50, e51, e60, e61⟩ := idx0 t
  unfold blk0; rw [View.read_apply]
  show V c main_arg0 (((cfg0.win 1).blk t).view.emb y) = V c main_arg0 y
  refine congrArg _ (funext fun a => Fin.ext ?_)
  match a with
  | ⟨0, _⟩ => show win0_1.index t (0 : Fin 2) * 10000 + 1 * (y 0).val = (y 0).val; rw [e10]; omega
  | ⟨1, _⟩ => show win0_1.index t (1 : Fin 2) * 128 + 1 * (y 1).val = (y 1).val; rw [e11]; omega

/-- Window 2 is its whole array at every point. -/
theorem blk0_2_eq (c : Dev nD) (t : Fin cfg0.N) (y : S128x128.Idx) : blk0 V c 2 t y = V c main_v1 y := by
  obtain ⟨e00, e01, e10, e11, e20, e21, e30, e31, e40, e41, e50, e51, e60, e61⟩ := idx0 t
  unfold blk0; rw [View.read_apply]
  show V c main_v1 (((cfg0.win 2).blk t).view.emb y) = V c main_v1 y
  refine congrArg _ (funext fun a => Fin.ext ?_)
  match a with
  | ⟨0, _⟩ => show win0_2.index t (0 : Fin 2) * 128 + 1 * (y 0).val = (y 0).val; rw [e20]; omega
  | ⟨1, _⟩ => show win0_2.index t (1 : Fin 2) * 128 + 1 * (y 1).val = (y 1).val; rw [e21]; omega

/-- Window 3 is its whole array at every point. -/
theorem blk0_3_eq (c : Dev nD) (t : Fin cfg0.N) (y : S1x128.Idx) : blk0 V c 3 t y = V c main_v4 y := by
  obtain ⟨e00, e01, e10, e11, e20, e21, e30, e31, e40, e41, e50, e51, e60, e61⟩ := idx0 t
  unfold blk0; rw [View.read_apply]
  show V c main_v4 (((cfg0.win 3).blk t).view.emb y) = V c main_v4 y
  refine congrArg _ (funext fun a => Fin.ext ?_)
  match a with
  | ⟨0, _⟩ => show win0_3.index t (0 : Fin 2) * 1 + 1 * (y 0).val = (y 0).val; rw [e30]; omega
  | ⟨1, _⟩ => show win0_3.index t (1 : Fin 2) * 128 + 1 * (y 1).val = (y 1).val; rw [e31]; omega

/-- Window 4 is its whole array at every point. -/
theorem blk0_4_eq (c : Dev nD) (t : Fin cfg0.N) (y : S1x128.Idx) : blk0 V c 4 t y = V c main_v7 y := by
  obtain ⟨e00, e01, e10, e11, e20, e21, e30, e31, e40, e41, e50, e51, e60, e61⟩ := idx0 t
  unfold blk0; rw [View.read_apply]
  show V c main_v7 (((cfg0.win 4).blk t).view.emb y) = V c main_v7 y
  refine congrArg _ (funext fun a => Fin.ext ?_)
  match a with
  | ⟨0, _⟩ => show win0_4.index t (0 : Fin 2) * 1 + 1 * (y 0).val = (y 0).val; rw [e40]; omega
  | ⟨1, _⟩ => show win0_4.index t (1 : Fin 2) * 128 + 1 * (y 1).val = (y 1).val; rw [e41]; omega

/-- Where output window 5's block at point `t` sits in its array: rows 200·t … 200·t+199. -/
theorem emb0_5 (t : Fin cfg0.N) (p : Fin 200) (q : Fin 128) (hr : t.val * 200 + p.val < 10000) :
    ((cfg0.win 5).blk t).view.emb (ix2 p q) = ix2 (⟨t.val * 200 + p.val, hr⟩ : Fin 10000) q := by
  obtain ⟨e00, e01, e10, e11, e20, e21, e30, e31, e40, e41, e50, e51, e60, e61⟩ := idx0 t
  funext a; apply Fin.ext
  match a with
  | ⟨0, _⟩ => show win0_5.index t (0 : Fin 2) * 200 + 1 * p.val = t.val * 200 + p.val; rw [e50]; omega
  | ⟨1, _⟩ => show win0_5.index t (1 : Fin 2) * 128 + 1 * q.val = q.val; rw [e51]; omega

/-- An index of the array is in point `t`'s block iff each coordinate is in the block's range on its axis. -/
theorem mem_blk0_5 (t : Fin cfg0.N) (i : S10000x128.Idx) :
    i ∈ ((cfg0.win 5).blk t).view.set ↔ ∀ a : Fin 2, win0_5.index t a * S200x128.size a ≤ (i a).val ∧ (i a).val < win0_5.index t a * S200x128.size a + S200x128.size a := by
  show i ∈ ((View.whole main_v8_0).slice (win0_5.rect t)).set ↔ _
  rw [View.set_slice_whole, Rect.mem_set_unit]
  exact Iff.rfl

/-- Every row of the array is in the block of the point that is its row divided by 200. -/
theorem cover0_5 (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  let t : Fin cfg0.N := ⟨(i 0).val / 200, lt_of_lt_of_eq (by omega) (show cfg0.N = 50 from N_0).symm⟩
  refine ⟨t, flush0_5 t, ?_⟩
  rw [mem_blk0_5]
  obtain ⟨e00, e01, e10, e11, e20, e21, e30, e31, e40, e41, e50, e51, e60, e61⟩ := idx0 t
  intro a
  match a with
  | ⟨0, _⟩ =>
    show win0_5.index t (0 : Fin 2) * 200 ≤ (i 0).val ∧ (i 0).val < win0_5.index t (0 : Fin 2) * 200 + 200
    rw [e50]; show (i 0).val / 200 * 200 ≤ (i 0).val ∧ (i 0).val < (i 0).val / 200 * 200 + 200; omega
  | ⟨1, _⟩ =>
    show win0_5.index t (1 : Fin 2) * 128 ≤ (i 1).val ∧ (i 1).val < win0_5.index t (1 : Fin 2) * 128 + 128
    rw [e51]; omega

/-- What point `t` writes back into the output array is block `t` of the pass's whole result. -/
theorem flushed0_5 (c : Dev nD) (t : Fin cfg0.N) :
    (dat0 V c).flushed 5 t = ((cfg0.win 5).blk t).view.read (Elt Ideal) (passOut (V c main_arg1) (seq0 V c) (V c main_v4) (V c main_v7)) := by
  have hN : t.val < 50 := lt_of_lt_of_eq t.isLt (show cfg0.N = 50 from N_0)
  show (cfg0.win 5).cut (grid0.coords t) ((dat0 V c).after 5 t) = _
  rw [after0_5]
  funext j
  obtain ⟨p, q, rfl⟩ : ∃ (p : Fin 200) (q : Fin 128), j = ix2 p q := ⟨j 0, j 1, eq_ix2 j⟩
  have hp : p.val < 200 := p.isLt
  have hr : t.val * 200 + p.val < 10000 := by omega
  show k0_pay3 (blk0 V c 0 t) (seq0 V c) (blk0 V c 3 t) (blk0 V c 4 t) (ix2 p q)
    = passOut (V c main_arg1) (seq0 V c) (V c main_v4) (V c main_v7) (((cfg0.win 5).blk t).view.emb (ix2 p q))
  rw [out0_apply, emb0_5 t p q hr]
  unfold passOut
  simp only [blk0_0_eq V c t p _ hr, blk0_3_eq, blk0_4_eq]

/-- After the pass the output array holds the pass's whole result. -/
theorem final0_5 (c : Dev nD) :
    (dat0 V c).arrAt 5 cfg0.N = passOut (V c main_arg1) (seq0 V c) (V c main_v4) (V c main_v7) :=
  (dat0 V c).arrAt_eq_of_cover 5 _ (fun t _ => flushed0_5 V c t) cover0_5

/-- The feature transform in the scratch is the hidden state against the weights, index by index. -/
theorem seq0_eq (c : Dev nD) : seq0 V c = featOut (V c main_arg0) (V c main_v1) := by
  funext i
  obtain ⟨k, q, rfl⟩ : ∃ (k : Fin 10000) (q : Fin 128), i = ix2 k q := ⟨i 0, i 1, eq_ix2 i⟩
  unfold seq0 featOut
  rw [seq0_apply]
  simp only [blk0_1_eq, blk0_2_eq]

/-- Where the second output's block at point `t` sits in its array. -/
theorem emb0_6w (t : Fin cfg0.N) (p : Fin 200) (k : Fin 10000) (hr : t.val * 200 + p.val < 10000) :
    ((cfg0.win 6).blk t).view.emb (ix2 p k) = ix2 (⟨t.val * 200 + p.val, hr⟩ : Fin 10000) k := by
  obtain ⟨e00, e01, e10, e11, e20, e21, e30, e31, e40, e41, e50, e51, e60, e61⟩ := idx0 t
  funext a; apply Fin.ext
  match a with
  | ⟨0, _⟩ => show win0_6.index t (0 : Fin 2) * 200 + 1 * p.val = t.val * 200 + p.val; rw [e60]; omega
  | ⟨1, _⟩ => show win0_6.index t (1 : Fin 2) * 10000 + 1 * k.val = k.val; rw [e61]; omega

theorem mem_blk0_6w (t : Fin cfg0.N) (i : S10000x10000.Idx) :
    i ∈ ((cfg0.win 6).blk t).view.set ↔ ∀ a : Fin 2, win0_6.index t a * S200x10000.size a ≤ (i a).val ∧ (i a).val < win0_6.index t a * S200x10000.size a + S200x10000.size a := by
  show i ∈ ((View.whole main_v8_1).slice (win0_6.rect t)).set ↔ _
  rw [View.set_slice_whole, Rect.mem_set_unit]
  exact Iff.rfl

theorem cover0_6w (i : S10000x10000.Idx) : ∃ t : Fin cfg0.N, (cfg0.win 6).flush t = true ∧ i ∈ ((cfg0.win 6).blk t).view.set := by
  have hi0 : (i 0).val < 10000 := (i 0).isLt
  have hi1 : (i 1).val < 10000 := (i 1).isLt
  let t : Fin cfg0.N := ⟨(i 0).val / 200, lt_of_lt_of_eq (by omega) (show cfg0.N = 50 from N_0).symm⟩
  refine ⟨t, flush0_6 t, ?_⟩
  rw [mem_blk0_6w]
  obtain ⟨e00, e01, e10, e11, e20, e21, e30, e31, e40, e41, e50, e51, e60, e61⟩ := idx0 t
  intro a
  match a with
  | ⟨0, _⟩ =>
    show win0_6.index t (0 : Fin 2) * 200 ≤ (i 0).val ∧ (i 0).val < win0_6.index t (0 : Fin 2) * 200 + 200
    rw [e60]; show (i 0).val / 200 * 200 ≤ (i 0).val ∧ (i 0).val < (i 0).val / 200 * 200 + 200; omega
  | ⟨1, _⟩ =>
    show win0_6.index t (1 : Fin 2) * 10000 ≤ (i 1).val ∧ (i 1).val < win0_6.index t (1 : Fin 2) * 10000 + 10000
    rw [e61]; omega

/-- What point `t` writes back into the second output is block `t` of the adjacency itself. -/
theorem flushed0_6 (c : Dev nD) (t : Fin cfg0.N) :
    (dat0 V c).flushed 6 t = ((cfg0.win 6).blk t).view.read (Elt Ideal) (fun i : S10000x10000.Idx => (V c main_arg1 i : EReal)) := by
  have hN : t.val < 50 := lt_of_lt_of_eq t.isLt (show cfg0.N = 50 from N_0)
  show (cfg0.win 6).cut (grid0.coords t) ((dat0 V c).after 6 t) = _
  rw [after0_6]
  funext j
  obtain ⟨p, k, rfl⟩ : ∃ (p : Fin 200) (k : Fin 10000), j = ix2 p k := ⟨j 0, j 1, eq_ix2 j⟩
  have hp : p.val < 200 := p.isLt
  have hr : t.val * 200 + p.val < 10000 := by omega
  show k0_pay2 (blk0 V c 0 t) (ix2 p k) = V c main_arg1 (((cfg0.win 6).blk t).view.emb (ix2 p k))
  rw [copy0_apply, emb0_6w t p k hr, blk0_0_eq V c t p k hr]

/-- After the first pass the second output holds the adjacency. -/
theorem final0_6 (c : Dev nD) : (dat0 V c).arrAt 6 cfg0.N = (fun i : S10000x10000.Idx => (V c main_arg1 i : EReal)) :=
  (dat0 V c).arrAt_eq_of_cover 6 _ (fun t _ => flushed0_6 V c t) cover0_6w

end Cert.KernelIdeal.Val

end
-- ==== Proof.IdealFinal1.lean ====
/-
  Pass 2's output array after its fifty points, as one function of the arrays it was entered from: block `t` of the
  output is rows 200·t … 200·t+199, the adjacency window's block at `t` is the same rows of the adjacency, the other
  inputs are whole at every point, and the fifty blocks cover the array.
-/
import proofs.«148270_g13469017440497_cont_week2b_423_4_alg».proof.Proof.IdealPass1
import proofs.«148270_g13469017440497_cont_week2b_423_4_alg».proof.Proof.IdealBlock

set_option maxRecDepth 16384

noncomputable section

namespace Cert.KernelIdeal.Val

open Idealize.ShloMosaic Idealize.ShloMosaic.ValueIdx Cert.KernelIdeal Cert.KernelIdeal.Gen Cert.KernelIdeal.Pass
open Idealize.ShloMosaic.TcCoe Idealize.SL.Sem
open Idealize.ShloMosaic.Pipeline (Dat)
open Cert.LayerSpec

variable (V : (c : Dev nD) → (b : Ref sig .tc) → Buf (Elt Ideal) ((c : Thread nD τ).loc b))

/-- The printed index maps, decided over the grid: the adjacency window and the outputs move one row block per
    point; every other window stays at its one block. -/
theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

/-- Window 0 at point `t` is rows 200·t … 200·t+199 of the adjacency. -/
theorem blk1_0_eq (c : Dev nD) (t : Fin cfg1.N) (p : Fin 200) (k : Fin 10000) (hr : t.val * 200 + p.val < 10000) :
    blk1 V c 0 t (ix2 p k) = V c main_v8_1 (ix2 (⟨t.val * 200 + p.val, hr⟩ : Fin 10000) k) := by
  obtain ⟨e00, e01, e10, e11, e20, e21, e30, e31, e40, e41, e50, e51⟩ := idx1 t
  unfold blk1; rw [View.read_apply]
  show V c main_v8_1 (((cfg1.win 0).blk t).view.emb (ix2 p k)) = V c main_v8_1 (ix2 (⟨t.val * 200 + p.val, hr⟩ : Fin 10000) k)
  refine congrArg _ (funext fun a => Fin.ext ?_)
  match a with
  | ⟨0, _⟩ => show win1_0.index t (0 : Fin 2) * 200 + 1 * p.val = t.val * 200 + p.val; rw [e00]; omega
  | ⟨1, _⟩ => show win1_0.index t (1 : Fin 2) * 10000 + 1 * k.val = k.val; rw [e01]; omega

/-- Window 1 is its whole array at every point. -/
theorem blk1_1_eq (c : Dev nD) (t : Fin cfg1.N) (y : S10000x128.Idx) : blk1 V c 1 t y = V c main_v8_0 y := by
  obtain ⟨e00, e01, e10, e11, e20, e21, e30, e31, e40, e41, e50, e51⟩ := idx1 t
  unfold blk1; rw [View.read_apply]
  show V c main_v8_0 (((cfg1.win 1).blk t).view.emb y) = V c main_v8_0 y
  refine congrArg _ (funext fun a => Fin.ext ?_)
  match a with
  | ⟨0, _⟩ => show win1_1.index t (0 : Fin 2) * 10000 + 1 * (y 0).val = (y 0).val; rw [e10]; omega
  | ⟨1, _⟩ => show win1_1.index t (1 : Fin 2) * 128 + 1 * (y 1).val = (y 1).val; rw [e11]; omega

/-- Window 2 is its whole array at every point. -/
theorem blk1_2_eq (c : Dev nD) (t : Fin cfg1.N) (y : S128x128.Idx) : blk1 V c 2 t y = V c main_v10 y := by
  obtain ⟨e00, e01, e10, e11, e20, e21, e30, e31, e40, e41, e50, e51⟩ := idx1 t
  unfold blk1; rw [View.read_apply]
  show V c main_v10 (((cfg1.win 2).blk t).view.emb y) = V c main_v10 y
  refine congrArg _ (funext fun a => Fin.ext ?_)
  match a with
  | ⟨0, _⟩ => show win1_2.index t (0 : Fin 2) * 128 + 1 * (y 0).val = (y 0).val; rw [e20]; omega
  | ⟨1, _⟩ => show win1_2.index t (1 : Fin 2) * 128 + 1 * (y 1).val = (y 1).val; rw [e21]; omega

/-- Window 3 is its whole array at every point. -/
theorem blk1_3_eq (c : Dev nD) (t : Fin cfg1.N) (y : S1x128.Idx) : blk1 V c 3 t y = V c main_v13 y := by
  obtain ⟨e00, e01, e10, e11, e20, e21, e30, e31, e40, e41, e50, e51⟩ := idx1 t
  unfold blk1; rw [View.read_apply]
  show V c main_v13 (((cfg1.win 3).blk t).view.emb y) = V c main_v13 y
  refine congrArg _ (funext fun a => Fin.ext ?_)
  match a with
  | ⟨0, _⟩ => show win1_3.index t (0 : Fin 2) * 1 + 1 * (y 0).val = (y 0).val; rw [e30]; omega
  | ⟨1, _⟩ => show win1_3.index t (1 : Fin 2) * 128 + 1 * (y 1).val = (y 1).val; rw [e31]; omega

/-- Window 4 is its whole array at every point. -/
theorem blk1_4_eq (c : Dev nD) (t : Fin cfg1.N) (y : S1x128.Idx) : blk1 V c 4 t y = V c main_v16 y := by
  obtain ⟨e00, e01, e10, e11, e20, e21, e30, e31, e40, e41, e50, e51⟩ := idx1 t
  unfold blk1; rw [View.read_apply]
  show V c main_v16 (((cfg1.win 4).blk t).view.emb y) = V c main_v16 y
  refine congrArg _ (funext fun a => Fin.ext ?_)
  match a with
  | ⟨0, _⟩ => show win1_4.index t (0 : Fin 2) * 1 + 1 * (y 0).val = (y 0).val; rw [e40]; omega
  | ⟨1, _⟩ => show win1_4.index t (1 : Fin 2) * 128 + 1 * (y 1).val = (y 1).val; rw [e41]; omega

/-- Where output window 5's block at point `t` sits in its array: rows 200·t … 200·t+199. -/
theorem emb1_5 (t : Fin cfg1.N) (p : Fin 200) (q : Fin 128) (hr : t.val * 200 + p.val < 10000) :
    ((cfg1.win 5).blk t).view.emb (ix2 p q) = ix2 (⟨t.val * 200 + p.val, hr⟩ : Fin 10000) q := by
  obtain ⟨e00, e01, e10, e11, e20, e21, e30, e31, e40, e41, e50, e51⟩ := idx1 t
  funext a; apply Fin.ext
  match a with
  | ⟨0, _⟩ => show win1_5.index t (0 : Fin 2) * 200 + 1 * p.val = t.val * 200 + p.val; rw [e50]; omega
  | ⟨1, _⟩ => show win1_5.index t (1 : Fin 2) * 128 + 1 * q.val = q.val; rw [e51]; omega

/-- An index of the array is in point `t`'s block iff each coordinate is in the block's range on its axis. -/
theorem mem_blk1_5 (t : Fin cfg1.N) (i : S10000x128.Idx) :
    i ∈ ((cfg1.win 5).blk t).view.set ↔ ∀ a : Fin 2, win1_5.index t a * S200x128.size a ≤ (i a).val ∧ (i a).val < win1_5.index t a * S200x128.size a + S200x128.size a := by
  show i ∈ ((View.whole main_v17).slice (win1_5.rect t)).set ↔ _
  rw [View.set_slice_whole, Rect.mem_set_unit]
  exact Iff.rfl

/-- Every row of the array is in the block of the point that is its row divided by 200. -/
theorem cover1_5 (i : S10000x128.Idx) : ∃ t : Fin cfg1.N, (cfg1.win 5).flush t = true ∧ i ∈ ((cfg1.win 5).blk t).view.set := by
  have hi0 : (i 0).val < 10000 := (i 0).isLt
  have hi1 : (i 1).val < 128 := (i 1).isLt
  let t : Fin cfg1.N := ⟨(i 0).val / 200, lt_of_lt_of_eq (by omega) (show cfg1.N = 50 from N_1).symm⟩
  refine ⟨t, flush1_5 t, ?_⟩
  rw [mem_blk1_5]
  obtain ⟨e00, e01, e10, e11, e20, e21, e30, e31, e40, e41, e50, e51⟩ := idx1 t
  intro a
  match a with
  | ⟨0, _⟩ =>
    show win1_5.index t (0 : Fin 2) * 200 ≤ (i 0).val ∧ (i 0).val < win1_5.index t (0 : Fin 2) * 200 + 200
    rw [e50]; show (i 0).val / 200 * 200 ≤ (i 0).val ∧ (i 0).val < (i 0).val / 200 * 200 + 200; omega
  | ⟨1, _⟩ =>
    show win1_5.index t (1 : Fin 2) * 128 ≤ (i 1).val ∧ (i 1).val < win1_5.index t (1 : Fin 2) * 128 + 128
    rw [e51]; omega

/-- What point `t` writes back into the output array is block `t` of the pass's whole result. -/
theorem flushed1_5 (c : Dev nD) (t : Fin cfg1.N) :
    (dat1 V c).flushed 5 t = ((cfg1.win 5).blk t).view.read (Elt Ideal) (passOut (V c main_v8_1) (seq1 V c) (V c main_v13) (V c main_v16)) := by
  have hN : t.val < 50 := lt_of_lt_of_eq t.isLt (show cfg1.N = 50 from N_1)
  show (cfg1.win 5).cut (grid1.coords t) ((dat1 V c).after 5 t) = _
  rw [after1_5]
  funext j
  obtain ⟨p, q, rfl⟩ : ∃ (p : Fin 200) (q : Fin 128), j = ix2 p q := ⟨j 0, j 1, eq_ix2 j⟩
  have hp : p.val < 200 := p.isLt
  have hr : t.val * 200 + p.val < 10000 := by omega
  show k1_pay2 (blk1 V c 0 t) (seq1 V c) (blk1 V c 3 t) (blk1 V c 4 t) (ix2 p q)
    = passOut (V c main_v8_1) (seq1 V c) (V c main_v13) (V c main_v16) (((cfg1.win 5).blk t).view.emb (ix2 p q))
  rw [out1_apply, emb1_5 t p q hr]
  unfold passOut
  simp only [blk1_0_eq V c t p _ hr, blk1_3_eq, blk1_4_eq]

/-- After the pass the output array holds the pass's whole result. -/
theorem final1_5 (c : Dev nD) :
    (dat1 V c).arrAt 5 cfg1.N = passOut (V c main_v8_1) (seq1 V c) (V c main_v13) (V c main_v16) :=
  (dat1 V c).arrAt_eq_of_cover 5 _ (fun t _ => flushed1_5 V c t) cover1_5

/-- The feature transform in the scratch is the hidden state against the weights, index by index. -/
theorem seq1_eq (c : Dev nD) : seq1 V c = featOut (V c main_v8_0) (V c main_v10) := by
  funext i
  obtain ⟨k, q, rfl⟩ : ∃ (k : Fin 10000) (q : Fin 128), i = ix2 k q := ⟨i 0, i 1, eq_ix2 i⟩
  unfold seq1 featOut
  rw [seq1_apply]
  simp only [blk1_1_eq, blk1_2_eq]

end Cert.KernelIdeal.Val

end
-- ==== Proof.IdealFinal2.lean ====
/-
  Pass 3's output array after its fifty points, as one function of the arrays it was entered from: block `t` of the
  output is rows 200·t … 200·t+199, the adjacency window's block at `t` is the same rows of the adjacency, the other
  inputs are whole at every point, and the fifty blocks cover the array.
-/
import proofs.«148270_g13469017440497_cont_week2b_423_4_alg».proof.Proof.IdealPass2
import proofs.«148270_g13469017440497_cont_week2b_423_4_alg».proof.Proof.IdealBlock

set_option maxRecDepth 16384

noncomputable section

namespace Cert.KernelIdeal.Val

open Idealize.ShloMosaic Idealize.ShloMosaic.ValueIdx Cert.KernelIdeal Cert.KernelIdeal.Gen Cert.KernelIdeal.Pass
open Idealize.ShloMosaic.TcCoe Idealize.SL.Sem
open Idealize.ShloMosaic.Pipeline (Dat)
open Cert.LayerSpec

variable (V : (c : Dev nD) → (b : Ref sig .tc) → Buf (Elt Ideal) ((c : Thread nD τ).loc b))

/-- The printed index maps, decided over the grid: the adjacency window and the outputs move one row block per
    point; every other window stays at its one block. -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

/-- Window 0 at point `t` is rows 200·t … 200·t+199 of the adjacency. -/
theorem blk2_0_eq (c : Dev nD) (t : Fin cfg2.N) (p : Fin 200) (k : Fin 10000) (hr : t.val * 200 + p.val < 10000) :
    blk2 V c 0 t (ix2 p k) = V c main_v8_1 (ix2 (⟨t.val * 200 + p.val, hr⟩ : Fin 10000) k) := by
  obtain ⟨e00, e01, e10, e11, e20, e21, e30, e31, e40, e41, e50, e51⟩ := idx2 t
  unfold blk2; rw [View.read_apply]
  show V c main_v8_1 (((cfg2.win 0).blk t).view.emb (ix2 p k)) = V c main_v8_1 (ix2 (⟨t.val * 200 + p.val, hr⟩ : Fin 10000) k)
  refine congrArg _ (funext fun a => Fin.ext ?_)
  match a with
  | ⟨0, _⟩ => show win2_0.index t (0 : Fin 2) * 200 + 1 * p.val = t.val * 200 + p.val; rw [e00]; omega
  | ⟨1, _⟩ => show win2_0.index t (1 : Fin 2) * 10000 + 1 * k.val = k.val; rw [e01]; omega

/-- Window 1 is its whole array at every point. -/
theorem blk2_1_eq (c : Dev nD) (t : Fin cfg2.N) (y : S10000x128.Idx) : blk2 V c 1 t y = V c main_v17 y := by
  obtain ⟨e00, e01, e10, e11, e20, e21, e30, e31, e40, e41, e50, e51⟩ := idx2 t
  unfold blk2; rw [View.read_apply]
  show V c main_v17 (((cfg2.win 1).blk t).view.emb y) = V c main_v17 y
  refine congrArg _ (funext fun a => Fin.ext ?_)
  match a with
  | ⟨0, _⟩ => show win2_1.index t (0 : Fin 2) * 10000 + 1 * (y 0).val = (y 0).val; rw [e10]; omega
  | ⟨1, _⟩ => show win2_1.index t (1 : Fin 2) * 128 + 1 * (y 1).val = (y 1).val; rw [e11]; omega

/-- Window 2 is its whole array at every point. -/
theorem blk2_2_eq (c : Dev nD) (t : Fin cfg2.N) (y : S128x128.Idx) : blk2 V c 2 t y = V c main_v19 y := by
  obtain ⟨e00, e01, e10, e11, e20, e21, e30, e31, e40, e41, e50, e51⟩ := idx2 t
  unfold blk2; rw [View.read_apply]
  show V c main_v19 (((cfg2.win 2).blk t).view.emb y) = V c main_v19 y
  refine congrArg _ (funext fun a => Fin.ext ?_)
  match a with
  | ⟨0, _⟩ => show win2_2.index t (0 : Fin 2) * 128 + 1 * (y 0).val = (y 0).val; rw [e20]; omega
  | ⟨1, _⟩ => show win2_2.index t (1 : Fin 2) * 128 + 1 * (y 1).val = (y 1).val; rw [e21]; omega

/-- Window 3 is its whole array at every point. -/
theorem blk2_3_eq (c : Dev nD) (t : Fin cfg2.N) (y : S1x128.Idx) : blk2 V c 3 t y = V c main_v22 y := by
  obtain ⟨e00, e01, e10, e11, e20, e21, e30, e31, e40, e41, e50, e51⟩ := idx2 t
  unfold blk2; rw [View.read_apply]
  show V c main_v22 (((cfg2.win 3).blk t).view.emb y) = V c main_v22 y
  refine congrArg _ (funext fun a => Fin.ext ?_)
  match a with
  | ⟨0, _⟩ => show win2_3.index t (0 : Fin 2) * 1 + 1 * (y 0).val = (y 0).val; rw [e30]; omega
  | ⟨1, _⟩ => show win2_3.index t (1 : Fin 2) * 128 + 1 * (y 1).val = (y 1).val; rw [e31]; omega

/-- Window 4 is its whole array at every point. -/
theorem blk2_4_eq (c : Dev nD) (t : Fin cfg2.N) (y : S1x128.Idx) : blk2 V c 4 t y = V c main_v25 y := by
  obtain ⟨e00, e01, e10, e11, e20, e21, e30, e31, e40, e41, e50, e51⟩ := idx2 t
  unfold blk2; rw [View.read_apply]
  show V c main_v25 (((cfg2.win 4).blk t).view.emb y) = V c main_v25 y
  refine congrArg _ (funext fun a => Fin.ext ?_)
  match a with
  | ⟨0, _⟩ => show win2_4.index t (0 : Fin 2) * 1 + 1 * (y 0).val = (y 0).val; rw [e40]; omega
  | ⟨1, _⟩ => show win2_4.index t (1 : Fin 2) * 128 + 1 * (y 1).val = (y 1).val; rw [e41]; omega

/-- Where output window 5's block at point `t` sits in its array: rows 200·t … 200·t+199. -/
theorem emb2_5 (t : Fin cfg2.N) (p : Fin 200) (q : Fin 128) (hr : t.val * 200 + p.val < 10000) :
    ((cfg2.win 5).blk t).view.emb (ix2 p q) = ix2 (⟨t.val * 200 + p.val, hr⟩ : Fin 10000) q := by
  obtain ⟨e00, e01, e10, e11, e20, e21, e30, e31, e40, e41, e50, e51⟩ := idx2 t
  funext a; apply Fin.ext
  match a with
  | ⟨0, _⟩ => show win2_5.index t (0 : Fin 2) * 200 + 1 * p.val = t.val * 200 + p.val; rw [e50]; omega
  | ⟨1, _⟩ => show win2_5.index t (1 : Fin 2) * 128 + 1 * q.val = q.val; rw [e51]; omega

/-- An index of the array is in point `t`'s block iff each coordinate is in the block's range on its axis. -/
theorem mem_blk2_5 (t : Fin cfg2.N) (i : S10000x128.Idx) :
    i ∈ ((cfg2.win 5).blk t).view.set ↔ ∀ a : Fin 2, win2_5.index t a * S200x128.size a ≤ (i a).val ∧ (i a).val < win2_5.index t a * S200x128.size a + S200x128.size a := by
  show i ∈ ((View.whole main_v26).slice (win2_5.rect t)).set ↔ _
  rw [View.set_slice_whole, Rect.mem_set_unit]
  exact Iff.rfl

/-- Every row of the array is in the block of the point that is its row divided by 200. -/
theorem cover2_5 (i : S10000x128.Idx) : ∃ t : Fin cfg2.N, (cfg2.win 5).flush t = true ∧ i ∈ ((cfg2.win 5).blk t).view.set := by
  have hi0 : (i 0).val < 10000 := (i 0).isLt
  have hi1 : (i 1).val < 128 := (i 1).isLt
  let t : Fin cfg2.N := ⟨(i 0).val / 200, lt_of_lt_of_eq (by omega) (show cfg2.N = 50 from N_2).symm⟩
  refine ⟨t, flush2_5 t, ?_⟩
  rw [mem_blk2_5]
  obtain ⟨e00, e01, e10, e11, e20, e21, e30, e31, e40, e41, e50, e51⟩ := idx2 t
  intro a
  match a with
  | ⟨0, _⟩ =>
    show win2_5.index t (0 : Fin 2) * 200 ≤ (i 0).val ∧ (i 0).val < win2_5.index t (0 : Fin 2) * 200 + 200
    rw [e50]; show (i 0).val / 200 * 200 ≤ (i 0).val ∧ (i 0).val < (i 0).val / 200 * 200 + 200; omega
  | ⟨1, _⟩ =>
    show win2_5.index t (1 : Fin 2) * 128 ≤ (i 1).val ∧ (i 1).val < win2_5.index t (1 : Fin 2) * 128 + 128
    rw [e51]; omega

/-- What point `t` writes back into the output array is block `t` of the pass's whole result. -/
theorem flushed2_5 (c : Dev nD) (t : Fin cfg2.N) :
    (dat2 V c).flushed 5 t = ((cfg2.win 5).blk t).view.read (Elt Ideal) (passOut (V c main_v8_1) (seq2 V c) (V c main_v22) (V c main_v25)) := by
  have hN : t.val < 50 := lt_of_lt_of_eq t.isLt (show cfg2.N = 50 from N_2)
  show (cfg2.win 5).cut (grid2.coords t) ((dat2 V c).after 5 t) = _
  rw [after2_5]
  funext j
  obtain ⟨p, q, rfl⟩ : ∃ (p : Fin 200) (q : Fin 128), j = ix2 p q := ⟨j 0, j 1, eq_ix2 j⟩
  have hp : p.val < 200 := p.isLt
  have hr : t.val * 200 + p.val < 10000 := by omega
  show k2_pay2 (blk2 V c 0 t) (seq2 V c) (blk2 V c 3 t) (blk2 V c 4 t) (ix2 p q)
    = passOut (V c main_v8_1) (seq2 V c) (V c main_v22) (V c main_v25) (((cfg2.win 5).blk t).view.emb (ix2 p q))
  rw [out2_apply, emb2_5 t p q hr]
  unfold passOut
  simp only [blk2_0_eq V c t p _ hr, blk2_3_eq, blk2_4_eq]

/-- After the pass the output array holds the pass's whole result. -/
theorem final2_5 (c : Dev nD) :
    (dat2 V c).arrAt 5 cfg2.N = passOut (V c main_v8_1) (seq2 V c) (V c main_v22) (V c main_v25) :=
  (dat2 V c).arrAt_eq_of_cover 5 _ (fun t _ => flushed2_5 V c t) cover2_5

/-- The feature transform in the scratch is the hidden state against the weights, index by index. -/
theorem seq2_eq (c : Dev nD) : seq2 V c = featOut (V c main_v17) (V c main_v19) := by
  funext i
  obtain ⟨k, q, rfl⟩ : ∃ (k : Fin 10000) (q : Fin 128), i = ix2 k q := ⟨i 0, i 1, eq_ix2 i⟩
  unfold seq2 featOut
  rw [seq2_apply]
  simp only [blk2_1_eq, blk2_2_eq]

end Cert.KernelIdeal.Val

end
-- ==== Proof.RefValue.lean ====
/-
  The reference's seven layers read at an index: each result entry is the activation of an adjacency row against a
  column of the layer's feature transform, plus the layer's bias entry, with the layer's slope; each feature transform
  entry is a row of the previous hidden state against a column of the layer's weights.
-/
import proofs.«148270_g13469017440497_cont_week2b_423_4_alg».proof.Proof.Gen.ReferenceIdeal.Read
import proofs.«148270_g13469017440497_cont_week2b_423_4_alg».proof.Proof.LayerSpec

set_option maxRecDepth 16384

noncomputable section

namespace Cert.ReferenceIdeal.RefValue

open Cert.ReferenceIdeal Cert.ReferenceIdeal.Gen Cert.ReferenceIdeal.Read Idealize.ShloMosaic Idealize.ShloMosaic.ValueIdx Cert.LayerSpec

/-- Layer 1's feature transform at an index: the row of the previous hidden state against the column of the weights. -/
theorem feat0 (x0 : (⟨S10000x128, .f32⟩ : BufTy).Contents (Elt Ideal)) (x1 : (⟨S10000x10000, .f32⟩ : BufTy).Contents (Elt Ideal)) (x2 : (⟨S7x128x128, .f32⟩ : BufTy).Contents (Elt Ideal)) (x3 : (⟨S7x128, .f32⟩ : BufTy).Contents (Elt Ideal)) (x4 : (⟨S7, .f32⟩ : BufTy).Contents (Elt Ideal)) (i : S10000x128.Idx) :
    val_main_v6 (F := Ideal) x0 x2 i = ∑ j : Fin 128, x0 (ix2 (i 0) j) * (val_main_v1 (F := Ideal) x2) (ix2 j (i 1)) := by
  rw [val_main_v6_apply]
  refine Finset.sum_congr rfl fun k _ => ?_
  rw [show lidx_main_v6 i k = ix2 (i 0) k from funext fun a => by match a with | ⟨0, _⟩ => rfl | ⟨1, _⟩ => rfl, show ridx_main_v6 i k = ix2 k (i 1) from funext fun a => by match a with | ⟨0, _⟩ => rfl | ⟨1, _⟩ => rfl]
  rfl

/-- Layer 1's result at an index: the activation of the adjacency row against the feature transform's column, plus
    the bias, with the layer's slope. -/
theorem layer0 (x0 : (⟨S10000x128, .f32⟩ : BufTy).Contents (Elt Ideal)) (x1 : (⟨S10000x10000, .f32⟩ : BufTy).Contents (Elt Ideal)) (x2 : (⟨S7x128x128, .f32⟩ : BufTy).Contents (Elt Ideal)) (x3 : (⟨S7x128, .f32⟩ : BufTy).Contents (Elt Ideal)) (x4 : (⟨S7, .f32⟩ : BufTy).Contents (Elt Ideal)) (i : S10000x128.Idx) :
    val_main_v16 (F := Ideal) x0 x1 x2 x3 x4 i = act (∑ k : Fin 10000, x1 (ix2 (i 0) k) * (val_main_v6 (F := Ideal) x0 x2) (ix2 k (i 1)) + (val_main_v8 (F := Ideal) x3) (ix2 (0 : Fin 1) (i 1)))
      ((val_main_v5 (F := Ideal) x4) (fun a => a.elim0)) := by
  rw [val_main_v16_apply, val_main_v15_apply, val_main_v12_apply, val_main_v14_apply, val_main_v10_apply, val_main_v7_apply, val_main_v9_apply,
    val_main_v13_apply, val_main_v11_apply, val_main_call1_v0_apply]
  simp only [show ∀ k, lidx_main_v7 i k = ix2 (i 0) k from fun k => funext fun a => by match a with | ⟨0, _⟩ => rfl | ⟨1, _⟩ => rfl,
    show ∀ k, ridx_main_v7 i k = ix2 k (i 1) from fun k => funext fun a => by match a with | ⟨0, _⟩ => rfl | ⟨1, _⟩ => rfl,
    show idx_main_v9 i = ix2 (0 : Fin 1) (i 1) from funext fun a => by match a with | ⟨0, _⟩ => rfl | ⟨1, _⟩ => rfl]
  rfl

/-- Layer 2's feature transform at an index: the row of the previous hidden state against the column of the weights. -/
theorem feat1 (x0 : (⟨S10000x128, .f32⟩ : BufTy).Contents (Elt Ideal)) (x1 : (⟨S10000x10000, .f32⟩ : BufTy).Contents (Elt Ideal)) (x2 : (⟨S7x128x128, .f32⟩ : BufTy).Contents (Elt Ideal)) (x3 : (⟨S7x128, .f32⟩ : BufTy).Contents (Elt Ideal)) (x4 : (⟨S7, .f32⟩ : BufTy).Contents (Elt Ideal)) (i : S10000x128.Idx) :
    val_main_v23 (F := Ideal) x0 x1 x2 x3 x4 i = ∑ j : Fin 128, (val_main_v16 (F := Ideal) x0 x1 x2 x3 x4) (ix2 (i 0) j) * (val_main_v18 (F := Ideal) x2) (ix2 j (i 1)) := by
  rw [val_main_v23_apply]
  refine Finset.sum_congr rfl fun k _ => ?_
  rw [show lidx_main_v23 i k = ix2 (i 0) k from funext fun a => by match a with | ⟨0, _⟩ => rfl | ⟨1, _⟩ => rfl, show ridx_main_v23 i k = ix2 k (i 1) from funext fun a => by match a with | ⟨0, _⟩ => rfl | ⟨1, _⟩ => rfl]
  rfl

/-- Layer 2's result at an index: the activation of the adjacency row against the feature transform's column, plus
    the bias, with the layer's slope. -/
theorem layer1 (x0 : (⟨S10000x128, .f32⟩ : BufTy).Contents (Elt Ideal)) (x1 : (⟨S10000x10000, .f32⟩ : BufTy).Contents (Elt Ideal)) (x2 : (⟨S7x128x128, .f32⟩ : BufTy).Contents (Elt Ideal)) (x3 : (⟨S7x128, .f32⟩ : BufTy).Contents (Elt Ideal)) (x4 : (⟨S7, .f32⟩ : BufTy).Contents (Elt Ideal)) (i : S10000x128.Idx) :
    val_main_v33 (F := Ideal) x0 x1 x2 x3 x4 i = act (∑ k : Fin 10000, x1 (ix2 (i 0) k) * (val_main_v23 (F := Ideal) x0 x1 x2 x3 x4) (ix2 k (i 1)) + (val_main_v25 (F := Ideal) x3) (ix2 (0 : Fin 1) (i 1)))
      ((val_main_v22 (F := Ideal) x4) (fun a => a.elim0)) := by
  rw [val_main_v33_apply, val_main_v32_apply, val_main_v29_apply, val_main_v31_apply, val_main_v27_apply, val_main_v24_apply, val_main_v26_apply,
    val_main_v30_apply, val_main_v28_apply, val_main_call3_v0_apply]
  simp only [show ∀ k, lidx_main_v24 i k = ix2 (i 0) k from fun k => funext fun a => by match a with | ⟨0, _⟩ => rfl | ⟨1, _⟩ => rfl,
    show ∀ k, ridx_main_v24 i k = ix2 k (i 1) from fun k => funext fun a => by match a with | ⟨0, _⟩ => rfl | ⟨1, _⟩ => rfl,
    show idx_main_v26 i = ix2 (0 : Fin 1) (i 1) from funext fun a => by match a with | ⟨0, _⟩ => rfl | ⟨1, _⟩ => rfl]
  rfl

/-- Layer 3's feature transform at an index: the row of the previous hidden state against the column of the weights. -/
theorem feat2 (x0 : (⟨S10000x128, .f32⟩ : BufTy).Contents (Elt Ideal)) (x1 : (⟨S10000x10000, .f32⟩ : BufTy).Contents (Elt Ideal)) (x2 : (⟨S7x128x128, .f32⟩ : BufTy).Contents (Elt Ideal)) (x3 : (⟨S7x128, .f32⟩ : BufTy).Contents (Elt Ideal)) (x4 : (⟨S7, .f32⟩ : BufTy).Contents (Elt Ideal)) (i : S10000x128.Idx) :
    val_main_v40 (F := Ideal) x0 x1 x2 x3 x4 i = ∑ j : Fin 128, (val_main_v33 (F := Ideal) x0 x1 x2 x3 x4) (ix2 (i 0) j) * (val_main_v35 (F := Ideal) x2) (ix2 j (i 1)) := by
  rw [val_main_v40_apply]
  refine Finset.sum_congr rfl fun k _ => ?_
  rw [show lidx_main_v40 i k = ix2 (i 0) k from funext fun a => by match a with | ⟨0, _⟩ => rfl | ⟨1, _⟩ => rfl, show ridx_main_v40 i k = ix2 k (i 1) from funext fun a => by match a with | ⟨0, _⟩ => rfl | ⟨1, _⟩ => rfl]
  rfl

/-- Layer 3's result at an index: the activation of the adjacency row against the feature transform's column, plus
    the bias, with the layer's slope. -/
theorem layer2 (x0 : (⟨S10000x128, .f32⟩ : BufTy).Contents (Elt Ideal)) (x1 : (⟨S10000x10000, .f32⟩ : BufTy).Contents (Elt Ideal)) (x2 : (⟨S7x128x128, .f32⟩ : BufTy).Contents (Elt Ideal)) (x3 : (⟨S7x128, .f32⟩ : BufTy).Contents (Elt Ideal)) (x4 : (⟨S7, .f32⟩ : BufTy).Contents (Elt Ideal)) (i : S10000x128.Idx) :
    val_main_v50 (F := Ideal) x0 x1 x2 x3 x4 i = act (∑ k : Fin 10000, x1 (ix2 (i 0) k) * (val_main_v40 (F := Ideal) x0 x1 x2 x3 x4) (ix2 k (i 1)) + (val_main_v42 (F := Ideal) x3) (ix2 (0 : Fin 1) (i 1)))
      ((val_main_v39 (F := Ideal) x4) (fun a => a.elim0)) := by
  rw [val_main_v50_apply, val_main_v49_apply, val_main_v46_apply, val_main_v48_apply, val_main_v44_apply, val_main_v41_apply, val_main_v43_apply,
    val_main_v47_apply, val_main_v45_apply, val_main_call5_v0_apply]
  simp only [show ∀ k, lidx_main_v41 i k = ix2 (i 0) k from fun k => funext fun a => by match a with | ⟨0, _⟩ => rfl | ⟨1, _⟩ => rfl,
    show ∀ k, ridx_main_v41 i k = ix2 k (i 1) from fun k => funext fun a => by match a with | ⟨0, _⟩ => rfl | ⟨1, _⟩ => rfl,
    show idx_main_v43 i = ix2 (0 : Fin 1) (i 1) from funext fun a => by match a with | ⟨0, _⟩ => rfl | ⟨1, _⟩ => rfl]
  rfl

/-- Layer 4's feature transform at an index: the row of the previous hidden state against the column of the weights. -/
theorem feat3 (x0 : (⟨S10000x128, .f32⟩ : BufTy).Contents (Elt Ideal)) (x1 : (⟨S10000x10000, .f32⟩ : BufTy).Contents (Elt Ideal)) (x2 : (⟨S7x128x128, .f32⟩ : BufTy).Contents (Elt Ideal)) (x3 : (⟨S7x128, .f32⟩ : BufTy).Contents (Elt Ideal)) (x4 : (⟨S7, .f32⟩ : BufTy).Contents (Elt Ideal)) (i : S10000x128.Idx) :
    val_main_v57 (F := Ideal) x0 x1 x2 x3 x4 i = ∑ j : Fin 128, (val_main_v50 (F := Ideal) x0 x1 x2 x3 x4) (ix2 (i 0) j) * (val_main_v52 (F := Ideal) x2) (ix2 j (i 1)) := by
  rw [val_main_v57_apply]
  refine Finset.sum_congr rfl fun k _ => ?_
  rw [show lidx_main_v57 i k = ix2 (i 0) k from funext fun a => by match a with | ⟨0, _⟩ => rfl | ⟨1, _⟩ => rfl, show ridx_main_v57 i k = ix2 k (i 1) from funext fun a => by match a with | ⟨0, _⟩ => rfl | ⟨1, _⟩ => rfl]
  rfl

/-- Layer 4's result at an index: the activation of the adjacency row against the feature transform's column, plus
    the bias, with the layer's slope. -/
theorem layer3 (x0 : (⟨S10000x128, .f32⟩ : BufTy).Contents (Elt Ideal)) (x1 : (⟨S10000x10000, .f32⟩ : BufTy).Contents (Elt Ideal)) (x2 : (⟨S7x128x128, .f32⟩ : BufTy).Contents (Elt Ideal)) (x3 : (⟨S7x128, .f32⟩ : BufTy).Contents (Elt Ideal)) (x4 : (⟨S7, .f32⟩ : BufTy).Contents (Elt Ideal)) (i : S10000x128.Idx) :
    val_main_v67 (F := Ideal) x0 x1 x2 x3 x4 i = act (∑ k : Fin 10000, x1 (ix2 (i 0) k) * (val_main_v57 (F := Ideal) x0 x1 x2 x3 x4) (ix2 k (i 1)) + (val_main_v59 (F := Ideal) x3) (ix2 (0 : Fin 1) (i 1)))
      ((val_main_v56 (F := Ideal) x4) (fun a => a.elim0)) := by
  rw [val_main_v67_apply, val_main_v66_apply, val_main_v63_apply, val_main_v65_apply, val_main_v61_apply, val_main_v58_apply, val_main_v60_apply,
    val_main_v64_apply, val_main_v62_apply, val_main_call7_v0_apply]
  simp only [show ∀ k, lidx_main_v58 i k = ix2 (i 0) k from fun k => funext fun a => by match a with | ⟨0, _⟩ => rfl | ⟨1, _⟩ => rfl,
    show ∀ k, ridx_main_v58 i k = ix2 k (i 1) from fun k => funext fun a => by match a with | ⟨0, _⟩ => rfl | ⟨1, _⟩ => rfl,
    show idx_main_v60 i = ix2 (0 : Fin 1) (i 1) from funext fun a => by match a with | ⟨0, _⟩ => rfl | ⟨1, _⟩ => rfl]
  rfl

/-- Layer 5's feature transform at an index: the row of the previous hidden state against the column of the weights. -/
theorem feat4 (x0 : (⟨S10000x128, .f32⟩ : BufTy).Contents (Elt Ideal)) (x1 : (⟨S10000x10000, .f32⟩ : BufTy).Contents (Elt Ideal)) (x2 : (⟨S7x128x128, .f32⟩ : BufTy).Contents (Elt Ideal)) (x3 : (⟨S7x128, .f32⟩ : BufTy).Contents (Elt Ideal)) (x4 : (⟨S7, .f32⟩ : BufTy).Contents (Elt Ideal)) (i : S10000x128.Idx) :
    val_main_v74 (F := Ideal) x0 x1 x2 x3 x4 i = ∑ j : Fin 128, (val_main_v50 (F := Ideal) x0 x1 x2 x3 x4) (ix2 (i 0) j) * (val_main_v69 (F := Ideal) x2) (ix2 j (i 1)) := by
  rw [val_main_v74_apply]
  refine Finset.sum_congr rfl fun k _ => ?_
  rw [show lidx_main_v74 i k = ix2 (i 0) k from funext fun a => by match a with | ⟨0, _⟩ => rfl | ⟨1, _⟩ => rfl, show ridx_main_v74 i k = ix2 k (i 1) from funext fun a => by match a with | ⟨0, _⟩ => rfl | ⟨1, _⟩ => rfl]
  rfl

/-- Layer 5's result at an index: the activation of the adjacency row against the feature transform's column, plus
    the bias, with the layer's slope. -/
theorem layer4 (x0 : (⟨S10000x128, .f32⟩ : BufTy).Contents (Elt Ideal)) (x1 : (⟨S10000x10000, .f32⟩ : BufTy).Contents (Elt Ideal)) (x2 : (⟨S7x128x128, .f32⟩ : BufTy).Contents (Elt Ideal)) (x3 : (⟨S7x128, .f32⟩ : BufTy).Contents (Elt Ideal)) (x4 : (⟨S7, .f32⟩ : BufTy).Contents (Elt Ideal)) (i : S10000x128.Idx) :
    val_main_v84 (F := Ideal) x0 x1 x2 x3 x4 i = act (∑ k : Fin 10000, x1 (ix2 (i 0) k) * (val_main_v74 (F := Ideal) x0 x1 x2 x3 x4) (ix2 k (i 1)) + (val_main_v76 (F := Ideal) x3) (ix2 (0 : Fin 1) (i 1)))
      ((val_main_v73 (F := Ideal) x4) (fun a => a.elim0)) := by
  rw [val_main_v84_apply, val_main_v83_apply, val_main_v80_apply, val_main_v82_apply, val_main_v78_apply, val_main_v75_apply, val_main_v77_apply,
    val_main_v81_apply, val_main_v79_apply, val_main_call9_v0_apply]
  simp only [show ∀ k, lidx_main_v75 i k = ix2 (i 0) k from fun k => funext fun a => by match a with | ⟨0, _⟩ => rfl | ⟨1, _⟩ => rfl,
    show ∀ k, ridx_main_v75 i k = ix2 k (i 1) from fun k => funext fun a => by match a with | ⟨0, _⟩ => rfl | ⟨1, _⟩ => rfl,
    show idx_main_v77 i = ix2 (0 : Fin 1) (i 1) from funext fun a => by match a with | ⟨0, _⟩ => rfl | ⟨1, _⟩ => rfl]
  rfl

/-- Layer 6's feature transform at an index: the row of the previous hidden state against the column of the weights. -/
theorem feat5 (x0 : (⟨S10000x128, .f32⟩ : BufTy).Contents (Elt Ideal)) (x1 : (⟨S10000x10000, .f32⟩ : BufTy).Contents (Elt Ideal)) (x2 : (⟨S7x128x128, .f32⟩ : BufTy).Contents (Elt Ideal)) (x3 : (⟨S7x128, .f32⟩ : BufTy).Contents (Elt Ideal)) (x4 : (⟨S7, .f32⟩ : BufTy).Contents (Elt Ideal)) (i : S10000x128.Idx) :
    val_main_v91 (F := Ideal) x0 x1 x2 x3 x4 i = ∑ j : Fin 128, (val_main_v50 (F := Ideal) x0 x1 x2 x3 x4) (ix2 (i 0) j) * (val_main_v86 (F := Ideal) x2) (ix2 j (i 1)) := by
  rw [val_main_v91_apply]
  refine Finset.sum_congr rfl fun k _ => ?_
  rw [show lidx_main_v91 i k = ix2 (i 0) k from funext fun a => by match a with | ⟨0, _⟩ => rfl | ⟨1, _⟩ => rfl, show ridx_main_v91 i k = ix2 k (i 1) from funext fun a => by match a with | ⟨0, _⟩ => rfl | ⟨1, _⟩ => rfl]
  rfl

/-- Layer 6's result at an index: the activation of the adjacency row against the feature transform's column, plus
    the bias, with the layer's slope. -/
theorem layer5 (x0 : (⟨S10000x128, .f32⟩ : BufTy).Contents (Elt Ideal)) (x1 : (⟨S10000x10000, .f32⟩ : BufTy).Contents (Elt Ideal)) (x2 : (⟨S7x128x128, .f32⟩ : BufTy).Contents (Elt Ideal)) (x3 : (⟨S7x128, .f32⟩ : BufTy).Contents (Elt Ideal)) (x4 : (⟨S7, .f32⟩ : BufTy).Contents (Elt Ideal)) (i : S10000x128.Idx) :
    val_main_v101 (F := Ideal) x0 x1 x2 x3 x4 i = act (∑ k : Fin 10000, x1 (ix2 (i 0) k) * (val_main_v91 (F := Ideal) x0 x1 x2 x3 x4) (ix2 k (i 1)) + (val_main_v93 (F := Ideal) x3) (ix2 (0 : Fin 1) (i 1)))
      ((val_main_v90 (F := Ideal) x4) (fun a => a.elim0)) := by
  rw [val_main_v101_apply, val_main_v100_apply, val_main_v97_apply, val_main_v99_apply, val_main_v95_apply, val_main_v92_apply, val_main_v94_apply,
    val_main_v98_apply, val_main_v96_apply, val_main_call11_v0_apply]
  simp only [show ∀ k, lidx_main_v92 i k = ix2 (i 0) k from fun k => funext fun a => by match a with | ⟨0, _⟩ => rfl | ⟨1, _⟩ => rfl,
    show ∀ k, ridx_main_v92 i k = ix2 k (i 1) from fun k => funext fun a => by match a with | ⟨0, _⟩ => rfl | ⟨1, _⟩ => rfl,
    show idx_main_v94 i = ix2 (0 : Fin 1) (i 1) from funext fun a => by match a with | ⟨0, _⟩ => rfl | ⟨1, _⟩ => rfl]
  rfl

/-- Layer 7's feature transform at an index: the row of the previous hidden state against the column of the weights. -/
theorem feat6 (x0 : (⟨S10000x128, .f32⟩ : BufTy).Contents (Elt Ideal)) (x1 : (⟨S10000x10000, .f32⟩ : BufTy).Contents (Elt Ideal)) (x2 : (⟨S7x128x128, .f32⟩ : BufTy).Contents (Elt Ideal)) (x3 : (⟨S7x128, .f32⟩ : BufTy).Contents (Elt Ideal)) (x4 : (⟨S7, .f32⟩ : BufTy).Contents (Elt Ideal)) (i : S10000x128.Idx) :
    val_main_v108 (F := Ideal) x0 x1 x2 x3 x4 i = ∑ j : Fin 128, (val_main_v50 (F := Ideal) x0 x1 x2 x3 x4) (ix2 (i 0) j) * (val_main_v103 (F := Ideal) x2) (ix2 j (i 1)) := by
  rw [val_main_v108_apply]
  refine Finset.sum_congr rfl fun k _ => ?_
  rw [show lidx_main_v108 i k = ix2 (i 0) k from funext fun a => by match a with | ⟨0, _⟩ => rfl | ⟨1, _⟩ => rfl, show ridx_main_v108 i k = ix2 k (i 1) from funext fun a => by match a with | ⟨0, _⟩ => rfl | ⟨1, _⟩ => rfl]
  rfl

/-- Layer 7's result at an index: the activation of the adjacency row against the feature transform's column, plus
    the bias, with the layer's slope. -/
theorem layer6 (x0 : (⟨S10000x128, .f32⟩ : BufTy).Contents (Elt Ideal)) (x1 : (⟨S10000x10000, .f32⟩ : BufTy).Contents (Elt Ideal)) (x2 : (⟨S7x128x128, .f32⟩ : BufTy).Contents (Elt Ideal)) (x3 : (⟨S7x128, .f32⟩ : BufTy).Contents (Elt Ideal)) (x4 : (⟨S7, .f32⟩ : BufTy).Contents (Elt Ideal)) (i : S10000x128.Idx) :
    val_main_v118 (F := Ideal) x0 x1 x2 x3 x4 i = act (∑ k : Fin 10000, x1 (ix2 (i 0) k) * (val_main_v108 (F := Ideal) x0 x1 x2 x3 x4) (ix2 k (i 1)) + (val_main_v110 (F := Ideal) x3) (ix2 (0 : Fin 1) (i 1)))
      ((val_main_v107 (F := Ideal) x4) (fun a => a.elim0)) := by
  rw [val_main_v118_apply, val_main_v117_apply, val_main_v114_apply, val_main_v116_apply, val_main_v112_apply, val_main_v109_apply, val_main_v111_apply,
    val_main_v115_apply, val_main_v113_apply, val_main_call13_v0_apply]
  simp only [show ∀ k, lidx_main_v109 i k = ix2 (i 0) k from fun k => funext fun a => by match a with | ⟨0, _⟩ => rfl | ⟨1, _⟩ => rfl,
    show ∀ k, ridx_main_v109 i k = ix2 k (i 1) from fun k => funext fun a => by match a with | ⟨0, _⟩ => rfl | ⟨1, _⟩ => rfl,
    show idx_main_v111 i = ix2 (0 : Fin 1) (i 1) from funext fun a => by match a with | ⟨0, _⟩ => rfl | ⟨1, _⟩ => rfl]
  rfl

end Cert.ReferenceIdeal.RefValue

end
-- ==== Proof.IdealBridge.lean ====
/-
  The kernel's hidden states are the reference's, layer by layer. Entering a pass, the weights, bias row and slope row
  the host stretch before it prepared are the reference's slices for that layer, the hidden state is the previous
  pass's output, and the adjacency (in either format) is the adjacency; the pass's output array is then the layer's
  activation of adjacency·(hidden·weights) + bias, which is the reference's hidden state, index by index.
-/
import proofs.«148270_g13469017440497_cont_week2b_423_4_alg».proof.Proof.IdealMain
import proofs.«148270_g13469017440497_cont_week2b_423_4_alg».proof.Proof.IdealFinal0
import proofs.«148270_g13469017440497_cont_week2b_423_4_alg».proof.Proof.IdealFinal1
import proofs.«148270_g13469017440497_cont_week2b_423_4_alg».proof.Proof.IdealFinal2
import proofs.«148270_g13469017440497_cont_week2b_423_4_alg».proof.Proof.RefValue
import Idealize.ShloMosaic.Lib.StableHlo.Run

set_option maxRecDepth 16384

noncomputable section

namespace Cert.KernelIdeal.Val

open Idealize.ShloMosaic Idealize.ShloMosaic.ValueIdx Idealize.ShloMosaic.TcCoe Idealize.SL.Sem Idealize.ShloMosaic.StableHlo
open Cert.KernelIdeal Cert.KernelIdeal.Gen Cert.KernelIdeal.Pass Cert.LayerSpec
open Idealize.ShloMosaic.Pipeline (Dat)

variable (m : (ℓ : Loc nD τ sig) → Buf (Elt Ideal) ℓ) (c : Dev nD)

/-- The five argument arrays as launched. -/
abbrev a0 : S10000x128.Idx → EReal := m ((c : Thread nD τ).loc main_arg0)
abbrev a1 : S10000x10000.Idx → EReal := m ((c : Thread nD τ).loc main_arg1)
abbrev a2 : S7x128x128.Idx → EReal := m ((c : Thread nD τ).loc main_arg2)
abbrev a3 : S7x128.Idx → EReal := m ((c : Thread nD τ).loc main_arg3)
abbrev a4 : S7.Idx → EReal := m ((c : Thread nD τ).loc main_arg4)

/-! ## The argument arrays at every boundary -/

theorem arg0_at1 : bufs1 m c (Proc.devRef .tc main_arg0) = a0 m c := StableHlo.after_of_writes_sub hostOps0 _ hostOps0_writes (by decide)
theorem arg0_at2 : bufs2 m c (Proc.devRef .tc main_arg0) = a0 m c := ((bufs2_arr m c 1).trans (((dat0 (ent1 m) c).arrAt_in 1 rfl _).trans (A_eq0 (ent1 m) c 1))).trans (arg0_at1 m c)
theorem arg0_at3 : bufs3 m c (Proc.devRef .tc main_arg0) = a0 m c := (StableHlo.after_of_writes_sub hostOps1 _ hostOps1_writes (by decide)).trans (arg0_at2 m c)
theorem arg0_at4 : bufs4 m c (Proc.devRef .tc main_arg0) = a0 m c := (bufs4_of_ne m c main_arg0 (by decide)).trans (arg0_at3 m c)
theorem arg0_at5 : bufs5 m c (Proc.devRef .tc main_arg0) = a0 m c := (StableHlo.after_of_writes_sub hostOps2 _ hostOps2_writes (by decide)).trans (arg0_at4 m c)
theorem arg0_at6 : bufs6 m c (Proc.devRef .tc main_arg0) = a0 m c := (bufs6_of_ne m c main_arg0 (by decide)).trans (arg0_at5 m c)
theorem arg1_at1 : bufs1 m c (Proc.devRef .tc main_arg1) = a1 m c := StableHlo.after_of_writes_sub hostOps0 _ hostOps0_writes (by decide)
theorem arg1_at2 : bufs2 m c (Proc.devRef .tc main_arg1) = a1 m c := ((bufs2_arr m c 0).trans (((dat0 (ent1 m) c).arrAt_in 0 rfl _).trans (A_eq0 (ent1 m) c 0))).trans (arg1_at1 m c)
theorem arg1_at3 : bufs3 m c (Proc.devRef .tc main_arg1) = a1 m c := (StableHlo.after_of_writes_sub hostOps1 _ hostOps1_writes (by decide)).trans (arg1_at2 m c)
theorem arg1_at4 : bufs4 m c (Proc.devRef .tc main_arg1) = a1 m c := (bufs4_of_ne m c main_arg1 (by decide)).trans (arg1_at3 m c)
theorem arg1_at5 : bufs5 m c (Proc.devRef .tc main_arg1) = a1 m c := (StableHlo.after_of_writes_sub hostOps2 _ hostOps2_writes (by decide)).trans (arg1_at4 m c)
theorem arg1_at6 : bufs6 m c (Proc.devRef .tc main_arg1) = a1 m c := (bufs6_of_ne m c main_arg1 (by decide)).trans (arg1_at5 m c)
theorem arg2_at1 : bufs1 m c (Proc.devRef .tc main_arg2) = a2 m c := StableHlo.after_of_writes_sub hostOps0 _ hostOps0_writes (by decide)
theorem arg2_at2 : bufs2 m c (Proc.devRef .tc main_arg2) = a2 m c := (bufs2_of_ne m c main_arg2 (by decide)).trans (arg2_at1 m c)
theorem arg2_at3 : bufs3 m c (Proc.devRef .tc main_arg2) = a2 m c := (StableHlo.after_of_writes_sub hostOps1 _ hostOps1_writes (by decide)).trans (arg2_at2 m c)
theorem arg2_at4 : bufs4 m c (Proc.devRef .tc main_arg2) = a2 m c := (bufs4_of_ne m c main_arg2 (by decide)).trans (arg2_at3 m c)
theorem arg2_at5 : bufs5 m c (Proc.devRef .tc main_arg2) = a2 m c := (StableHlo.after_of_writes_sub hostOps2 _ hostOps2_writes (by decide)).trans (arg2_at4 m c)
theorem arg2_at6 : bufs6 m c (Proc.devRef .tc main_arg2) = a2 m c := (bufs6_of_ne m c main_arg2 (by decide)).trans (arg2_at5 m c)
theorem arg3_at1 : bufs1 m c (Proc.devRef .tc main_arg3) = a3 m c := StableHlo.after_of_writes_sub hostOps0 _ hostOps0_writes (by decide)
theorem arg3_at2 : bufs2 m c (Proc.devRef .tc main_arg3) = a3 m c := (bufs2_of_ne m c main_arg3 (by decide)).trans (arg3_at1 m c)
theorem arg3_at3 : bufs3 m c (Proc.devRef .tc main_arg3) = a3 m c := (StableHlo.after_of_writes_sub hostOps1 _ hostOps1_writes (by decide)).trans (arg3_at2 m c)
theorem arg3_at4 : bufs4 m c (Proc.devRef .tc main_arg3) = a3 m c := (bufs4_of_ne m c main_arg3 (by decide)).trans (arg3_at3 m c)
theorem arg3_at5 : bufs5 m c (Proc.devRef .tc main_arg3) = a3 m c := (StableHlo.after_of_writes_sub hostOps2 _ hostOps2_writes (by decide)).trans (arg3_at4 m c)
theorem arg3_at6 : bufs6 m c (Proc.devRef .tc main_arg3) = a3 m c := (bufs6_of_ne m c main_arg3 (by decide)).trans (arg3_at5 m c)
theorem arg4_at1 : bufs1 m c (Proc.devRef .tc main_arg4) = a4 m c := StableHlo.after_of_writes_sub hostOps0 _ hostOps0_writes (by decide)
theorem arg4_at2 : bufs2 m c (Proc.devRef .tc main_arg4) = a4 m c := (bufs2_of_ne m c main_arg4 (by decide)).trans (arg4_at1 m c)
theorem arg4_at3 : bufs3 m c (Proc.devRef .tc main_arg4) = a4 m c := (StableHlo.after_of_writes_sub hostOps1 _ hostOps1_writes (by decide)).trans (arg4_at2 m c)
theorem arg4_at4 : bufs4 m c (Proc.devRef .tc main_arg4) = a4 m c := (bufs4_of_ne m c main_arg4 (by decide)).trans (arg4_at3 m c)
theorem arg4_at5 : bufs5 m c (Proc.devRef .tc main_arg4) = a4 m c := (StableHlo.after_of_writes_sub hostOps2 _ hostOps2_writes (by decide)).trans (arg4_at4 m c)
theorem arg4_at6 : bufs6 m c (Proc.devRef .tc main_arg4) = a4 m c := (bufs6_of_ne m c main_arg4 (by decide)).trans (arg4_at5 m c)

/-- A scalar broadcast to a row reads the scalar at every column. -/
theorem slope_apply (y : S_.Idx → EReal) (q : Fin 128) :
    broadcastInDim S1x128 ![] bcast_S_S1x128 y (ix2 (0 : Fin 1) q) = y (fun a => a.elim0) :=
  broadcastInDim_apply _ bcast_S_S1x128 y (ix2 (0 : Fin 1) q) (fun a => a.elim0) (fun a => a.elim0)

/-! ## Layer 1 -/

/-- The weights, the bias row and the slope row pass 1 is entered with are the reference's for layer 1. -/
theorem hostW0 : (ent1 m c main_v1 : S128x128.Idx → EReal) = Cert.ReferenceIdeal.Read.val_main_v1 (F := Ideal) (a2 m c) := by
  show StableHlo.after hostOps0 (bufs0 m c) (Proc.devRef .tc main_v1) = _
  after_results
  rfl
theorem hostb0 : (ent1 m c main_v4 : S1x128.Idx → EReal) = Cert.ReferenceIdeal.Read.val_main_v8 (F := Ideal) (a3 m c) := by
  show StableHlo.after hostOps0 (bufs0 m c) (Proc.devRef .tc main_v4) = _
  after_results
  rfl
theorem hosta0 : (ent1 m c main_v7 : S1x128.Idx → EReal) = broadcastInDim S1x128 ![] bcast_S_S1x128 (Cert.ReferenceIdeal.Read.val_main_v5 (F := Ideal) (a4 m c)) := by
  show StableHlo.after hostOps0 (bufs0 m c) (Proc.devRef .tc main_v7) = _
  after_results
  rfl
theorem prevh0 : (ent1 m c main_arg0 : S10000x128.Idx → EReal) = a0 m c := arg0_at1 m c
theorem adj0 : (ent1 m c main_arg1 : S10000x10000.Idx → EReal) = a1 m c := arg1_at1 m c

/-- After pass 1 its output array holds the reference's hidden state after layer 1. -/
theorem hidden0 : (bufs2 m c (Proc.devRef .tc main_v8_0) : S10000x128.Idx → EReal) = Cert.ReferenceIdeal.Read.val_main_v16 (F := Ideal) (a0 m c) (a1 m c) (a2 m c) (a3 m c) (a4 m c) := by
  refine (bufs2_arr m c 5).trans ((final0_5 (ent1 m) c).trans ?_)
  rw [seq0_eq, adj0 m c, prevh0 m c, hostW0 m c, hostb0 m c, hosta0 m c]
  funext i
  rw [Cert.ReferenceIdeal.RefValue.layer0 (a0 m c) (a1 m c) (a2 m c) (a3 m c) (a4 m c) i]
  unfold passOut
  congr 1
  · congr 1
    refine Finset.sum_congr rfl fun k _ => ?_
    rw [Cert.ReferenceIdeal.RefValue.feat0 (a0 m c) (a1 m c) (a2 m c) (a3 m c) (a4 m c) (ix2 k (i 1))]
    rfl

/-- After the first pass the adjacency copy holds the adjacency. -/
theorem adjcopy : (bufs2 m c (Proc.devRef .tc main_v8_1) : S10000x10000.Idx → EReal) = a1 m c :=
  (bufs2_arr m c 6).trans ((final0_6 (ent1 m) c).trans (arg1_at1 m c))

/-! ## Layer 2 -/

/-- The weights, the bias row and the slope row pass 2 is entered with are the reference's for layer 2. -/
theorem hostW1 : (ent3 m c main_v10 : S128x128.Idx → EReal) = Cert.ReferenceIdeal.Read.val_main_v18 (F := Ideal) (a2 m c) := by
  show StableHlo.after hostOps1 (bufs2 m c) (Proc.devRef .tc main_v10) = _
  after_results
  rw [arg2_at2 m c]
  rfl
theorem hostb1 : (ent3 m c main_v13 : S1x128.Idx → EReal) = Cert.ReferenceIdeal.Read.val_main_v25 (F := Ideal) (a3 m c) := by
  show StableHlo.after hostOps1 (bufs2 m c) (Proc.devRef .tc main_v13) = _
  after_results
  rw [arg3_at2 m c]
  rfl
theorem hosta1 : (ent3 m c main_v16 : S1x128.Idx → EReal) = broadcastInDim S1x128 ![] bcast_S_S1x128 (Cert.ReferenceIdeal.Read.val_main_v22 (F := Ideal) (a4 m c)) := by
  show StableHlo.after hostOps1 (bufs2 m c) (Proc.devRef .tc main_v16) = _
  after_results
  rw [arg4_at2 m c]
  rfl
theorem prevh1 : (ent3 m c main_v8_0 : S10000x128.Idx → EReal) = Cert.ReferenceIdeal.Read.val_main_v16 (F := Ideal) (a0 m c) (a1 m c) (a2 m c) (a3 m c) (a4 m c) :=
  (StableHlo.after_of_writes_sub hostOps1 _ hostOps1_writes (by decide)).trans (hidden0 m c)
theorem adj1 : (ent3 m c main_v8_1 : S10000x10000.Idx → EReal) = a1 m c :=
  (StableHlo.after_of_writes_sub hostOps1 _ hostOps1_writes (by decide)).trans (adjcopy m c)

/-- After pass 2 its output array holds the reference's hidden state after layer 2. -/
theorem hidden1 : (bufs4 m c (Proc.devRef .tc main_v17) : S10000x128.Idx → EReal) = Cert.ReferenceIdeal.Read.val_main_v33 (F := Ideal) (a0 m c) (a1 m c) (a2 m c) (a3 m c) (a4 m c) := by
  refine (bufs4_arr m c 5).trans ((final1_5 (ent3 m) c).trans ?_)
  rw [seq1_eq, adj1 m c, prevh1 m c, hostW1 m c, hostb1 m c, hosta1 m c]
  funext i
  rw [Cert.ReferenceIdeal.RefValue.layer1 (a0 m c) (a1 m c) (a2 m c) (a3 m c) (a4 m c) i]
  unfold passOut
  congr 1
  · congr 1
    refine Finset.sum_congr rfl fun k _ => ?_
    rw [Cert.ReferenceIdeal.RefValue.feat1 (a0 m c) (a1 m c) (a2 m c) (a3 m c) (a4 m c) (ix2 k (i 1))]
    rfl
/-- The adjacency copy is still the adjacency after the second pass. -/
theorem adjAt4 : (bufs4 m c (Proc.devRef .tc main_v8_1) : S10000x10000.Idx → EReal) = a1 m c :=
  (bufs4_arr m c 0).trans (((dat1 (ent3 m) c).arrAt_in 0 rfl _).trans ((A_eq1 (ent3 m) c 0).trans (adj1 m c)))

/-! ## Layer 3 -/

/-- The weights, the bias row and the slope row pass 3 is entered with are the reference's for layer 3. -/
theorem hostW2 : (ent5 m c main_v19 : S128x128.Idx → EReal) = Cert.ReferenceIdeal.Read.val_main_v35 (F := Ideal) (a2 m c) := by
  show StableHlo.after hostOps2 (bufs4 m c) (Proc.devRef .tc main_v19) = _
  after_results
  rw [arg2_at4 m c]
  rfl
theorem hostb2 : (ent5 m c main_v22 : S1x128.Idx → EReal) = Cert.ReferenceIdeal.Read.val_main_v42 (F := Ideal) (a3 m c) := by
  show StableHlo.after hostOps2 (bufs4 m c) (Proc.devRef .tc main_v22) = _
  after_results
  rw [arg3_at4 m c]
  rfl
theorem hosta2 : (ent5 m c main_v25 : S1x128.Idx → EReal) = broadcastInDim S1x128 ![] bcast_S_S1x128 (Cert.ReferenceIdeal.Read.val_main_v39 (F := Ideal) (a4 m c)) := by
  show StableHlo.after hostOps2 (bufs4 m c) (Proc.devRef .tc main_v25) = _
  after_results
  rw [arg4_at4 m c]
  rfl
theorem prevh2 : (ent5 m c main_v17 : S10000x128.Idx → EReal) = Cert.ReferenceIdeal.Read.val_main_v33 (F := Ideal) (a0 m c) (a1 m c) (a2 m c) (a3 m c) (a4 m c) :=
  (StableHlo.after_of_writes_sub hostOps2 _ hostOps2_writes (by decide)).trans (hidden1 m c)
theorem adj2 : (ent5 m c main_v8_1 : S10000x10000.Idx → EReal) = a1 m c :=
  (StableHlo.after_of_writes_sub hostOps2 _ hostOps2_writes (by decide)).trans (adjAt4 m c)

/-- After pass 3 its output array holds the reference's hidden state after layer 3. -/
theorem hidden2 : (bufs6 m c (Proc.devRef .tc main_v26) : S10000x128.Idx → EReal) = Cert.ReferenceIdeal.Read.val_main_v50 (F := Ideal) (a0 m c) (a1 m c) (a2 m c) (a3 m c) (a4 m c) := by
  refine (bufs6_arr m c 5).trans ((final2_5 (ent5 m) c).trans ?_)
  rw [seq2_eq, adj2 m c, prevh2 m c, hostW2 m c, hostb2 m c, hosta2 m c]
  funext i
  rw [Cert.ReferenceIdeal.RefValue.layer2 (a0 m c) (a1 m c) (a2 m c) (a3 m c) (a4 m c) i]
  unfold passOut
  congr 1
  · congr 1
    refine Finset.sum_congr rfl fun k _ => ?_
    rw [Cert.ReferenceIdeal.RefValue.feat2 (a0 m c) (a1 m c) (a2 m c) (a3 m c) (a4 m c) (ix2 k (i 1))]
    rfl
/-- The adjacency copy is still the adjacency after the third pass. -/
theorem adjAt6 : (bufs6 m c (Proc.devRef .tc main_v8_1) : S10000x10000.Idx → EReal) = a1 m c :=
  (bufs6_arr m c 0).trans (((dat2 (ent5 m) c).arrAt_in 0 rfl _).trans ((A_eq2 (ent5 m) c 0).trans (adj2 m c)))

end Cert.KernelIdeal.Val

end
-- ==== Proof.IdealFinal3.lean ====
/-
  Pass 4's output array after its fifty points, as one function of the arrays it was entered from: block `t` of the
  output is rows 200·t … 200·t+199, the adjacency window's block at `t` is the same rows of the adjacency, the other
  inputs are whole at every point, and the fifty blocks cover the array.
-/
import proofs.«148270_g13469017440497_cont_week2b_423_4_alg».proof.Proof.IdealPass3
import proofs.«148270_g13469017440497_cont_week2b_423_4_alg».proof.Proof.IdealBlock

set_option maxRecDepth 16384

noncomputable section

namespace Cert.KernelIdeal.Val

open Idealize.ShloMosaic Idealize.ShloMosaic.ValueIdx Cert.KernelIdeal Cert.KernelIdeal.Gen Cert.KernelIdeal.Pass
open Idealize.ShloMosaic.TcCoe Idealize.SL.Sem
open Idealize.ShloMosaic.Pipeline (Dat)
open Cert.LayerSpec

variable (V : (c : Dev nD) → (b : Ref sig .tc) → Buf (Elt Ideal) ((c : Thread nD τ).loc b))

/-- The printed index maps, decided over the grid: the adjacency window and the outputs move one row block per
    point; every other window stays at its one block. -/
theorem idx3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = t.val
    ∧ win3_5.index t (1 : Fin 2) = 0
    ∧ win3_6.index t (0 : Fin 2) = t.val
    ∧ win3_6.index t (1 : Fin 2) = 0
    ∧ win3_7.index t (0 : Fin 2) = t.val
    ∧ win3_7.index t (1 : Fin 2) = 0
    ∧ win3_8.index t (0 : Fin 2) = t.val
    ∧ win3_8.index t (1 : Fin 2) = 0 :=
  (by decide +kernel : ∀ t : Fin grid3.N, _)

/-- Window 0 at point `t` is rows 200·t … 200·t+199 of the adjacency. -/
theorem blk3_0_eq (c : Dev nD) (t : Fin cfg3.N) (p : Fin 200) (k : Fin 10000) (hr : t.val * 200 + p.val < 10000) :
    blk3 V c 0 t (ix2 p k) = V c main_v8_1 (ix2 (⟨t.val * 200 + p.val, hr⟩ : Fin 10000) k) := by
  obtain ⟨e00, e01, e10, e11, e20, e21, e30, e31, e40, e41, e50, e51, e60, e61, e70, e71, e80, e81⟩ := idx3 t
  unfold blk3; rw [View.read_apply]
  show V c main_v8_1 (((cfg3.win 0).blk t).view.emb (ix2 p k)) = V c main_v8_1 (ix2 (⟨t.val * 200 + p.val, hr⟩ : Fin 10000) k)
  refine congrArg _ (funext fun a => Fin.ext ?_)
  match a with
  | ⟨0, _⟩ => show win3_0.index t (0 : Fin 2) * 200 + 1 * p.val = t.val * 200 + p.val; rw [e00]; omega
  | ⟨1, _⟩ => show win3_0.index t (1 : Fin 2) * 10000 + 1 * k.val = k.val; rw [e01]; omega

/-- Window 1 is its whole array at every point. -/
theorem blk3_1_eq (c : Dev nD) (t : Fin cfg3.N) (y : S10000x128.Idx) : blk3 V c 1 t y = V c main_v26 y := by
  obtain ⟨e00, e01, e10, e11, e20, e21, e30, e31, e40, e41, e50, e51, e60, e61, e70, e71, e80, e81⟩ := idx3 t
  unfold blk3; rw [View.read_apply]
  show V c main_v26 (((cfg3.win 1).blk t).view.emb y) = V c main_v26 y
  refine congrArg _ (funext fun a => Fin.ext ?_)
  match a with
  | ⟨0, _⟩ => show win3_1.index t (0 : Fin 2) * 10000 + 1 * (y 0).val = (y 0).val; rw [e10]; omega
  | ⟨1, _⟩ => show win3_1.index t (1 : Fin 2) * 128 + 1 * (y 1).val = (y 1).val; rw [e11]; omega

/-- Window 2 is its whole array at every point. -/
theorem blk3_2_eq (c : Dev nD) (t : Fin cfg3.N) (y : S128x512.Idx) : blk3 V c 2 t y = V c main_v35 y := by
  obtain ⟨e00, e01, e10, e11, e20, e21, e30, e31, e40, e41, e50, e51, e60, e61, e70, e71, e80, e81⟩ := idx3 t
  unfold blk3; rw [View.read_apply]
  show V c main_v35 (((cfg3.win 2).blk t).view.emb y) = V c main_v35 y
  refine congrArg _ (funext fun a => Fin.ext ?_)
  match a with
  | ⟨0, _⟩ => show win3_2.index t (0 : Fin 2) * 128 + 1 * (y 0).val = (y 0).val; rw [e20]; omega
  | ⟨1, _⟩ => show win3_2.index t (1 : Fin 2) * 512 + 1 * (y 1).val = (y 1).val; rw [e21]; omega

/-- Window 3 is its whole array at every point. -/
theorem blk3_3_eq (c : Dev nD) (t : Fin cfg3.N) (y : S1x512.Idx) : blk3 V c 3 t y = V c main_v45 y := by
  obtain ⟨e00, e01, e10, e11, e20, e21, e30, e31, e40, e41, e50, e51, e60, e61, e70, e71, e80, e81⟩ := idx3 t
  unfold blk3; rw [View.read_apply]
  show V c main_v45 (((cfg3.win 3).blk t).view.emb y) = V c main_v45 y
  refine congrArg _ (funext fun a => Fin.ext ?_)
  match a with
  | ⟨0, _⟩ => show win3_3.index t (0 : Fin 2) * 1 + 1 * (y 0).val = (y 0).val; rw [e30]; omega
  | ⟨1, _⟩ => show win3_3.index t (1 : Fin 2) * 512 + 1 * (y 1).val = (y 1).val; rw [e31]; omega

/-- Window 4 is its whole array at every point. -/
theorem blk3_4_eq (c : Dev nD) (t : Fin cfg3.N) (y : S1x512.Idx) : blk3 V c 4 t y = V c main_v49 y := by
  obtain ⟨e00, e01, e10, e11, e20, e21, e30, e31, e40, e41, e50, e51, e60, e61, e70, e71, e80, e81⟩ := idx3 t
  unfold blk3; rw [View.read_apply]
  show V c main_v49 (((cfg3.win 4).blk t).view.emb y) = V c main_v49 y
  refine congrArg _ (funext fun a => Fin.ext ?_)
  match a with
  | ⟨0, _⟩ => show win3_4.index t (0 : Fin 2) * 1 + 1 * (y 0).val = (y 0).val; rw [e40]; omega
  | ⟨1, _⟩ => show win3_4.index t (1 : Fin 2) * 512 + 1 * (y 1).val = (y 1).val; rw [e41]; omega

/-- Where output window 5's block at point `t` sits in its array: rows 200·t … 200·t+199. -/
theorem emb3_5 (t : Fin cfg3.N) (p : Fin 200) (q : Fin 128) (hr : t.val * 200 + p.val < 10000) :
    ((cfg3.win 5).blk t).view.emb (ix2 p q) = ix2 (⟨t.val * 200 + p.val, hr⟩ : Fin 10000) q := by
  obtain ⟨e00, e01, e10, e11, e20, e21, e30, e31, e40, e41, e50, e51, e60, e61, e70, e71, e80, e81⟩ := idx3 t
  funext a; apply Fin.ext
  match a with
  | ⟨0, _⟩ => show win3_5.index t (0 : Fin 2) * 200 + 1 * p.val = t.val * 200 + p.val; rw [e50]; omega
  | ⟨1, _⟩ => show win3_5.index t (1 : Fin 2) * 128 + 1 * q.val = q.val; rw [e51]; omega

/-- An index of the array is in point `t`'s block iff each coordinate is in the block's range on its axis. -/
theorem mem_blk3_5 (t : Fin cfg3.N) (i : S10000x128.Idx) :
    i ∈ ((cfg3.win 5).blk t).view.set ↔ ∀ a : Fin 2, win3_5.index t a * S200x128.size a ≤ (i a).val ∧ (i a).val < win3_5.index t a * S200x128.size a + S200x128.size a := by
  show i ∈ ((View.whole main_v50_0).slice (win3_5.rect t)).set ↔ _
  rw [View.set_slice_whole, Rect.mem_set_unit]
  exact Iff.rfl

/-- Every row of the array is in the block of the point that is its row divided by 200. -/
theorem cover3_5 (i : S10000x128.Idx) : ∃ t : Fin cfg3.N, (cfg3.win 5).flush t = true ∧ i ∈ ((cfg3.win 5).blk t).view.set := by
  have hi0 : (i 0).val < 10000 := (i 0).isLt
  have hi1 : (i 1).val < 128 := (i 1).isLt
  let t : Fin cfg3.N := ⟨(i 0).val / 200, lt_of_lt_of_eq (by omega) (show cfg3.N = 50 from N_3).symm⟩
  refine ⟨t, flush3_5 t, ?_⟩
  rw [mem_blk3_5]
  obtain ⟨e00, e01, e10, e11, e20, e21, e30, e31, e40, e41, e50, e51, e60, e61, e70, e71, e80, e81⟩ := idx3 t
  intro a
  match a with
  | ⟨0, _⟩ =>
    show win3_5.index t (0 : Fin 2) * 200 ≤ (i 0).val ∧ (i 0).val < win3_5.index t (0 : Fin 2) * 200 + 200
    rw [e50]; show (i 0).val / 200 * 200 ≤ (i 0).val ∧ (i 0).val < (i 0).val / 200 * 200 + 200; omega
  | ⟨1, _⟩ =>
    show win3_5.index t (1 : Fin 2) * 128 ≤ (i 1).val ∧ (i 1).val < win3_5.index t (1 : Fin 2) * 128 + 128
    rw [e51]; omega

/-- Where output window 6's block at point `t` sits in its array: rows 200·t … 200·t+199. -/
theorem emb3_6 (t : Fin cfg3.N) (p : Fin 200) (q : Fin 128) (hr : t.val * 200 + p.val < 10000) :
    ((cfg3.win 6).blk t).view.emb (ix2 p q) = ix2 (⟨t.val * 200 + p.val, hr⟩ : Fin 10000) q := by
  obtain ⟨e00, e01, e10, e11, e20, e21, e30, e31, e40, e41, e50, e51, e60, e61, e70, e71, e80, e81⟩ := idx3 t
  funext a; apply Fin.ext
  match a with
  | ⟨0, _⟩ => show win3_6.index t (0 : Fin 2) * 200 + 1 * p.val = t.val * 200 + p.val; rw [e60]; omega
  | ⟨1, _⟩ => show win3_6.index t (1 : Fin 2) * 128 + 1 * q.val = q.val; rw [e61]; omega

/-- An index of the array is in point `t`'s block iff each coordinate is in the block's range on its axis. -/
theorem mem_blk3_6 (t : Fin cfg3.N) (i : S10000x128.Idx) :
    i ∈ ((cfg3.win 6).blk t).view.set ↔ ∀ a : Fin 2, win3_6.index t a * S200x128.size a ≤ (i a).val ∧ (i a).val < win3_6.index t a * S200x128.size a + S200x128.size a := by
  show i ∈ ((View.whole main_v50_1).slice (win3_6.rect t)).set ↔ _
  rw [View.set_slice_whole, Rect.mem_set_unit]
  exact Iff.rfl

/-- Every row of the array is in the block of the point that is its row divided by 200. -/
theorem cover3_6 (i : S10000x128.Idx) : ∃ t : Fin cfg3.N, (cfg3.win 6).flush t = true ∧ i ∈ ((cfg3.win 6).blk t).view.set := by
  have hi0 : (i 0).val < 10000 := (i 0).isLt
  have hi1 : (i 1).val < 128 := (i 1).isLt
  let t : Fin cfg3.N := ⟨(i 0).val / 200, lt_of_lt_of_eq (by omega) (show cfg3.N = 50 from N_3).symm⟩
  refine ⟨t, flush3_6 t, ?_⟩
  rw [mem_blk3_6]
  obtain ⟨e00, e01, e10, e11, e20, e21, e30, e31, e40, e41, e50, e51, e60, e61, e70, e71, e80, e81⟩ := idx3 t
  intro a
  match a with
  | ⟨0, _⟩ =>
    show win3_6.index t (0 : Fin 2) * 200 ≤ (i 0).val ∧ (i 0).val < win3_6.index t (0 : Fin 2) * 200 + 200
    rw [e60]; show (i 0).val / 200 * 200 ≤ (i 0).val ∧ (i 0).val < (i 0).val / 200 * 200 + 200; omega
  | ⟨1, _⟩ =>
    show win3_6.index t (1 : Fin 2) * 128 ≤ (i 1).val ∧ (i 1).val < win3_6.index t (1 : Fin 2) * 128 + 128
    rw [e61]; omega

/-- Where output window 7's block at point `t` sits in its array: rows 200·t … 200·t+199. -/
theorem emb3_7 (t : Fin cfg3.N) (p : Fin 200) (q : Fin 128) (hr : t.val * 200 + p.val < 10000) :
    ((cfg3.win 7).blk t).view.emb (ix2 p q) = ix2 (⟨t.val * 200 + p.val, hr⟩ : Fin 10000) q := by
  obtain ⟨e00, e01, e10, e11, e20, e21, e30, e31, e40, e41, e50, e51, e60, e61, e70, e71, e80, e81⟩ := idx3 t
  funext a; apply Fin.ext
  match a with
  | ⟨0, _⟩ => show win3_7.index t (0 : Fin 2) * 200 + 1 * p.val = t.val * 200 + p.val; rw [e70]; omega
  | ⟨1, _⟩ => show win3_7.index t (1 : Fin 2) * 128 + 1 * q.val = q.val; rw [e71]; omega

/-- An index of the array is in point `t`'s block iff each coordinate is in the block's range on its axis. -/
theorem mem_blk3_7 (t : Fin cfg3.N) (i : S10000x128.Idx) :
    i ∈ ((cfg3.win 7).blk t).view.set ↔ ∀ a : Fin 2, win3_7.index t a * S200x128.size a ≤ (i a).val ∧ (i a).val < win3_7.index t a * S200x128.size a + S200x128.size a := by
  show i ∈ ((View.whole main_v50_2).slice (win3_7.rect t)).set ↔ _
  rw [View.set_slice_whole, Rect.mem_set_unit]
  exact Iff.rfl

/-- Every row of the array is in the block of the point that is its row divided by 200. -/
theorem cover3_7 (i : S10000x128.Idx) : ∃ t : Fin cfg3.N, (cfg3.win 7).flush t = true ∧ i ∈ ((cfg3.win 7).blk t).view.set := by
  have hi0 : (i 0).val < 10000 := (i 0).isLt
  have hi1 : (i 1).val < 128 := (i 1).isLt
  let t : Fin cfg3.N := ⟨(i 0).val / 200, lt_of_lt_of_eq (by omega) (show cfg3.N = 50 from N_3).symm⟩
  refine ⟨t, flush3_7 t, ?_⟩
  rw [mem_blk3_7]
  obtain ⟨e00, e01, e10, e11, e20, e21, e30, e31, e40, e41, e50, e51, e60, e61, e70, e71, e80, e81⟩ := idx3 t
  intro a
  match a with
  | ⟨0, _⟩ =>
    show win3_7.index t (0 : Fin 2) * 200 ≤ (i 0).val ∧ (i 0).val < win3_7.index t (0 : Fin 2) * 200 + 200
    rw [e70]; show (i 0).val / 200 * 200 ≤ (i 0).val ∧ (i 0).val < (i 0).val / 200 * 200 + 200; omega
  | ⟨1, _⟩ =>
    show win3_7.index t (1 : Fin 2) * 128 ≤ (i 1).val ∧ (i 1).val < win3_7.index t (1 : Fin 2) * 128 + 128
    rw [e71]; omega

/-- Where output window 8's block at point `t` sits in its array: rows 200·t … 200·t+199. -/
theorem emb3_8 (t : Fin cfg3.N) (p : Fin 200) (q : Fin 128) (hr : t.val * 200 + p.val < 10000) :
    ((cfg3.win 8).blk t).view.emb (ix2 p q) = ix2 (⟨t.val * 200 + p.val, hr⟩ : Fin 10000) q := by
  obtain ⟨e00, e01, e10, e11, e20, e21, e30, e31, e40, e41, e50, e51, e60, e61, e70, e71, e80, e81⟩ := idx3 t
  funext a; apply Fin.ext
  match a with
  | ⟨0, _⟩ => show win3_8.index t (0 : Fin 2) * 200 + 1 * p.val = t.val * 200 + p.val; rw [e80]; omega
  | ⟨1, _⟩ => show win3_8.index t (1 : Fin 2) * 128 + 1 * q.val = q.val; rw [e81]; omega

/-- An index of the array is in point `t`'s block iff each coordinate is in the block's range on its axis. -/
theorem mem_blk3_8 (t : Fin cfg3.N) (i : S10000x128.Idx) :
    i ∈ ((cfg3.win 8).blk t).view.set ↔ ∀ a : Fin 2, win3_8.index t a * S200x128.size a ≤ (i a).val ∧ (i a).val < win3_8.index t a * S200x128.size a + S200x128.size a := by
  show i ∈ ((View.whole main_v50_3).slice (win3_8.rect t)).set ↔ _
  rw [View.set_slice_whole, Rect.mem_set_unit]
  exact Iff.rfl

/-- Every row of the array is in the block of the point that is its row divided by 200. -/
theorem cover3_8 (i : S10000x128.Idx) : ∃ t : Fin cfg3.N, (cfg3.win 8).flush t = true ∧ i ∈ ((cfg3.win 8).blk t).view.set := by
  have hi0 : (i 0).val < 10000 := (i 0).isLt
  have hi1 : (i 1).val < 128 := (i 1).isLt
  let t : Fin cfg3.N := ⟨(i 0).val / 200, lt_of_lt_of_eq (by omega) (show cfg3.N = 50 from N_3).symm⟩
  refine ⟨t, flush3_8 t, ?_⟩
  rw [mem_blk3_8]
  obtain ⟨e00, e01, e10, e11, e20, e21, e30, e31, e40, e41, e50, e51, e60, e61, e70, e71, e80, e81⟩ := idx3 t
  intro a
  match a with
  | ⟨0, _⟩ =>
    show win3_8.index t (0 : Fin 2) * 200 ≤ (i 0).val ∧ (i 0).val < win3_8.index t (0 : Fin 2) * 200 + 200
    rw [e80]; show (i 0).val / 200 * 200 ≤ (i 0).val ∧ (i 0).val < (i 0).val / 200 * 200 + 200; omega
  | ⟨1, _⟩ =>
    show win3_8.index t (1 : Fin 2) * 128 ≤ (i 1).val ∧ (i 1).val < win3_8.index t (1 : Fin 2) * 128 + 128
    rw [e81]; omega

/-- What point `t` writes back into head 0's array is block `t` of columns 0 … 127 of the 512-wide result. -/
theorem flushed3_5 (c : Dev nD) (t : Fin cfg3.N) :
    (dat3 V c).flushed 5 t = ((cfg3.win 5).blk t).view.read (Elt Ideal)
      (colsFrom 0 (by decide) (passOut (V c main_v8_1) (seq3 V c) (V c main_v45) (V c main_v49))) := by
  have hN : t.val < 50 := lt_of_lt_of_eq t.isLt (show cfg3.N = 50 from N_3)
  show (cfg3.win 5).cut (grid3.coords t) ((dat3 V c).after 5 t) = _
  rw [after3_5]
  funext j
  obtain ⟨p, q, rfl⟩ : ∃ (p : Fin 200) (q : Fin 128), j = ix2 p q := ⟨j 0, j 1, eq_ix2 j⟩
  have hp : p.val < 200 := p.isLt
  have hr : t.val * 200 + p.val < 10000 := by omega
  show k3_pay3 (blk3 V c 0 t) (seq3 V c) (blk3 V c 3 t) (blk3 V c 4 t) (ix2 p q)
    = colsFrom 0 (by decide) (passOut (V c main_v8_1) (seq3 V c) (V c main_v45) (V c main_v49)) (((cfg3.win 5).blk t).view.emb (ix2 p q))
  rw [head0_apply, out3_apply, emb3_5 t p q hr]
  unfold colsFrom passOut
  simp only [blk3_0_eq V c t p _ hr, blk3_3_eq, blk3_4_eq]

/-- After the last pass head 0's array holds columns 0 … 127 of the 512-wide result. -/
theorem final3_5 (c : Dev nD) :
    (dat3 V c).arrAt 5 cfg3.N = colsFrom 0 (by decide) (passOut (V c main_v8_1) (seq3 V c) (V c main_v45) (V c main_v49)) :=
  (dat3 V c).arrAt_eq_of_cover 5 _ (fun t _ => flushed3_5 V c t) cover3_5

/-- What point `t` writes back into head 1's array is block `t` of columns 128 … 255 of the 512-wide result. -/
theorem flushed3_6 (c : Dev nD) (t : Fin cfg3.N) :
    (dat3 V c).flushed 6 t = ((cfg3.win 6).blk t).view.read (Elt Ideal)
      (colsFrom 128 (by decide) (passOut (V c main_v8_1) (seq3 V c) (V c main_v45) (V c main_v49))) := by
  have hN : t.val < 50 := lt_of_lt_of_eq t.isLt (show cfg3.N = 50 from N_3)
  show (cfg3.win 6).cut (grid3.coords t) ((dat3 V c).after 6 t) = _
  rw [after3_6]
  funext j
  obtain ⟨p, q, rfl⟩ : ∃ (p : Fin 200) (q : Fin 128), j = ix2 p q := ⟨j 0, j 1, eq_ix2 j⟩
  have hp : p.val < 200 := p.isLt
  have hr : t.val * 200 + p.val < 10000 := by omega
  show k3_pay4 (blk3 V c 0 t) (seq3 V c) (blk3 V c 3 t) (blk3 V c 4 t) (ix2 p q)
    = colsFrom 128 (by decide) (passOut (V c main_v8_1) (seq3 V c) (V c main_v45) (V c main_v49)) (((cfg3.win 6).blk t).view.emb (ix2 p q))
  rw [head1_apply, out3_apply, emb3_6 t p q hr]
  unfold colsFrom passOut
  simp only [blk3_0_eq V c t p _ hr, blk3_3_eq, blk3_4_eq]

/-- After the last pass head 1's array holds columns 128 … 255 of the 512-wide result. -/
theorem final3_6 (c : Dev nD) :
    (dat3 V c).arrAt 6 cfg3.N = colsFrom 128 (by decide) (passOut (V c main_v8_1) (seq3 V c) (V c main_v45) (V c main_v49)) :=
  (dat3 V c).arrAt_eq_of_cover 6 _ (fun t _ => flushed3_6 V c t) cover3_6

/-- What point `t` writes back into head 2's array is block `t` of columns 256 … 383 of the 512-wide result. -/
theorem flushed3_7 (c : Dev nD) (t : Fin cfg3.N) :
    (dat3 V c).flushed 7 t = ((cfg3.win 7).blk t).view.read (Elt Ideal)
      (colsFrom 256 (by decide) (passOut (V c main_v8_1) (seq3 V c) (V c main_v45) (V c main_v49))) := by
  have hN : t.val < 50 := lt_of_lt_of_eq t.isLt (show cfg3.N = 50 from N_3)
  show (cfg3.win 7).cut (grid3.coords t) ((dat3 V c).after 7 t) = _
  rw [after3_7]
  funext j
  obtain ⟨p, q, rfl⟩ : ∃ (p : Fin 200) (q : Fin 128), j = ix2 p q := ⟨j 0, j 1, eq_ix2 j⟩
  have hp : p.val < 200 := p.isLt
  have hr : t.val * 200 + p.val < 10000 := by omega
  show k3_pay5 (blk3 V c 0 t) (seq3 V c) (blk3 V c 3 t) (blk3 V c 4 t) (ix2 p q)
    = colsFrom 256 (by decide) (passOut (V c main_v8_1) (seq3 V c) (V c main_v45) (V c main_v49)) (((cfg3.win 7).blk t).view.emb (ix2 p q))
  rw [head2_apply, out3_apply, emb3_7 t p q hr]
  unfold colsFrom passOut
  simp only [blk3_0_eq V c t p _ hr, blk3_3_eq, blk3_4_eq]

/-- After the last pass head 2's array holds columns 256 … 383 of the 512-wide result. -/
theorem final3_7 (c : Dev nD) :
    (dat3 V c).arrAt 7 cfg3.N = colsFrom 256 (by decide) (passOut (V c main_v8_1) (seq3 V c) (V c main_v45) (V c main_v49)) :=
  (dat3 V c).arrAt_eq_of_cover 7 _ (fun t _ => flushed3_7 V c t) cover3_7

/-- What point `t` writes back into head 3's array is block `t` of columns 384 … 511 of the 512-wide result. -/
theorem flushed3_8 (c : Dev nD) (t : Fin cfg3.N) :
    (dat3 V c).flushed 8 t = ((cfg3.win 8).blk t).view.read (Elt Ideal)
      (colsFrom 384 (by decide) (passOut (V c main_v8_1) (seq3 V c) (V c main_v45) (V c main_v49))) := by
  have hN : t.val < 50 := lt_of_lt_of_eq t.isLt (show cfg3.N = 50 from N_3)
  show (cfg3.win 8).cut (grid3.coords t) ((dat3 V c).after 8 t) = _
  rw [after3_8]
  funext j
  obtain ⟨p, q, rfl⟩ : ∃ (p : Fin 200) (q : Fin 128), j = ix2 p q := ⟨j 0, j 1, eq_ix2 j⟩
  have hp : p.val < 200 := p.isLt
  have hr : t.val * 200 + p.val < 10000 := by omega
  show k3_pay6 (blk3 V c 0 t) (seq3 V c) (blk3 V c 3 t) (blk3 V c 4 t) (ix2 p q)
    = colsFrom 384 (by decide) (passOut (V c main_v8_1) (seq3 V c) (V c main_v45) (V c main_v49)) (((cfg3.win 8).blk t).view.emb (ix2 p q))
  rw [head3_apply, out3_apply, emb3_8 t p q hr]
  unfold colsFrom passOut
  simp only [blk3_0_eq V c t p _ hr, blk3_3_eq, blk3_4_eq]

/-- After the last pass head 3's array holds columns 384 … 511 of the 512-wide result. -/
theorem final3_8 (c : Dev nD) :
    (dat3 V c).arrAt 8 cfg3.N = colsFrom 384 (by decide) (passOut (V c main_v8_1) (seq3 V c) (V c main_v45) (V c main_v49)) :=
  (dat3 V c).arrAt_eq_of_cover 8 _ (fun t _ => flushed3_8 V c t) cover3_8

/-- The 512-wide feature transform in the scratch is the hidden state against the four weight matrices side by side. -/
theorem seq3_eq (c : Dev nD) : seq3 V c = featOut (V c main_v26) (V c main_v35) := by
  funext i
  obtain ⟨k, q, rfl⟩ : ∃ (k : Fin 10000) (q : Fin 512), i = ix2 k q := ⟨i 0, i 1, eq_ix2 i⟩
  unfold seq3 featOut
  rw [seq3_apply]
  simp only [blk3_1_eq, blk3_2_eq]

end Cert.KernelIdeal.Val

end
-- ==== Proof.IdealHeads.lean ====
/-
  The four heads. The last pass computes them at once from the four weight matrices laid side by side, the four bias
  rows end to end and each head's slope repeated over its 128 columns; head j's array is columns 128·j … 128·j+127 of
  that 512-wide result. Column 128·j+q of the side-by-side weights is column q of head j's weights, and likewise for the
  bias and the slope, so each head's array is the reference's result for it.
-/
import proofs.«148270_g13469017440497_cont_week2b_423_4_alg».proof.Proof.IdealBridge
import proofs.«148270_g13469017440497_cont_week2b_423_4_alg».proof.Proof.IdealFinal3

set_option maxRecDepth 16384

noncomputable section

namespace Cert.KernelIdeal.Val

open Idealize.ShloMosaic Idealize.ShloMosaic.ValueIdx Idealize.ShloMosaic.TcCoe Idealize.SL.Sem Idealize.ShloMosaic.StableHlo
open Cert.KernelIdeal Cert.KernelIdeal.Gen Cert.KernelIdeal.Pass Cert.LayerSpec
open Idealize.ShloMosaic.Pipeline (Dat)

variable (m : (ℓ : Loc nD τ sig) → Buf (Elt Ideal) ℓ) (c : Dev nD)

/-- A one-element array read as a scalar is its one element. -/
theorem scalar_of_one (v : S1.Idx → EReal) (j : S_.Idx) : shapeCast S_ v shapeCasts_S1_S_ j = v (ix1 (0 : Fin 1)) := by
  unfold shapeCast
  refine congrArg v (funext fun a => ?_)
  match a with
  | ⟨0, _⟩ => exact Fin.ext (Nat.lt_one_iff.mp (Fin.isLt _))

/-- The four weight matrices side by side, the four bias rows end to end, and each head's slope over its columns. -/
abbrev wparts : List ((s : Shape) × (s.Idx → EReal)) := [(⟨S128x128, (Cert.ReferenceIdeal.Read.val_main_v52 (F := Ideal) (a2 m c))⟩ : (s : Shape) × (s.Idx → EReal)), ⟨S128x128, (Cert.ReferenceIdeal.Read.val_main_v69 (F := Ideal) (a2 m c))⟩, ⟨S128x128, (Cert.ReferenceIdeal.Read.val_main_v86 (F := Ideal) (a2 m c))⟩, ⟨S128x128, (Cert.ReferenceIdeal.Read.val_main_v103 (F := Ideal) (a2 m c))⟩]
abbrev bparts : List ((s : Shape) × (s.Idx → EReal)) := [(⟨S128, (Cert.ReferenceIdeal.Read.val_main_v54 (F := Ideal) (a3 m c))⟩ : (s : Shape) × (s.Idx → EReal)), ⟨S128, (Cert.ReferenceIdeal.Read.val_main_v71 (F := Ideal) (a3 m c))⟩, ⟨S128, (Cert.ReferenceIdeal.Read.val_main_v88 (F := Ideal) (a3 m c))⟩, ⟨S128, (Cert.ReferenceIdeal.Read.val_main_v105 (F := Ideal) (a3 m c))⟩]
def wcat : S128x512.Idx → EReal :=
  concatenate S128x512 1 (wparts m c) concatenates_S128x128_S128x128_S128x128_S128x128_S128x512_d1
def brow : S1x512.Idx → EReal :=
  broadcastInDim S1x512 ![1] bcast_S512_S1x512_1 (concatenate S512 0 (bparts m c) concatenates_S128_S128_S128_S128_S512_d0)
def arow : S1x512.Idx → EReal :=
  broadcastInDim S1x512 ![1] bcast_S512_S1x512_1 (shapeCast S512 (broadcastInDim S4x128 ![0] bcast_S4_S4x128_0
    (extractStridedSlice S4 ![3] (a4 m c) slices_S7_S4_3)) shapeCasts_S4x128_S512)

/-! ## What the last pass is entered with -/

set_option maxHeartbeats 4000000 in
theorem hostW3 : (ent7 m c main_v35 : S128x512.Idx → EReal) = wcat m c := by
  show StableHlo.after hostOps3 (bufs6 m c) (Proc.devRef .tc main_v35) = _
  simp only [after_cons, after_nil]
  repeat (first
    | (rw [unary_result_ne]; rotate_left; decide)
    | (rw [reshape_result_ne]; rotate_left; decide)
    | (rw [nary_result_ne]; rotate_left; decide))
  rw [nary4_result]
  repeat (first
    | rw [unary_result] | rw [reshape_result]
    | (rw [unary_result_ne]; rotate_left; decide)
    | (rw [reshape_result_ne]; rotate_left; decide)
    | (rw [nary_result_ne]; rotate_left; decide))
  rw [arg2_at6 m c]
  rfl
set_option maxHeartbeats 4000000 in
theorem hostb3 : (ent7 m c main_v45 : S1x512.Idx → EReal) = brow m c := by
  show StableHlo.after hostOps3 (bufs6 m c) (Proc.devRef .tc main_v45) = _
  simp only [after_cons, after_nil]
  repeat (first
    | (rw [unary_result_ne]; rotate_left; decide)
    | (rw [reshape_result_ne]; rotate_left; decide)
    | (rw [nary_result_ne]; rotate_left; decide))
  rw [unary_result, nary4_result]
  repeat (first
    | rw [unary_result] | rw [reshape_result]
    | (rw [unary_result_ne]; rotate_left; decide)
    | (rw [reshape_result_ne]; rotate_left; decide)
    | (rw [nary_result_ne]; rotate_left; decide))
  rw [arg3_at6 m c]
  rfl
set_option maxHeartbeats 4000000 in
theorem hosta3 : (ent7 m c main_v49 : S1x512.Idx → EReal) = arow m c := by
  show StableHlo.after hostOps3 (bufs6 m c) (Proc.devRef .tc main_v49) = _
  after_results
  rw [arg4_at6 m c]
  rfl
theorem prevh3 : (ent7 m c main_v26 : S10000x128.Idx → EReal) = Cert.ReferenceIdeal.Read.val_main_v50 (F := Ideal) (a0 m c) (a1 m c) (a2 m c) (a3 m c) (a4 m c) :=
  (StableHlo.after_of_writes_sub hostOps3 _ hostOps3_writes (by decide)).trans (hidden2 m c)
theorem adj3 : (ent7 m c main_v8_1 : S10000x10000.Idx → EReal) = a1 m c :=
  (StableHlo.after_of_writes_sub hostOps3 _ hostOps3_writes (by decide)).trans (adjAt6 m c)

/-! ## Head 0 -/

/-- Columns 0 … 127 of the side-by-side weights are the weights of layer 4. -/
theorem wcols0 (jj : Fin 128) (q : Fin 128) :
    wcat m c (ix2 jj (⟨0 + q.val, by have := q.isLt; omega⟩ : Fin 512)) = (Cert.ReferenceIdeal.Read.val_main_v52 (F := Ideal) (a2 m c)) (ix2 jj q) := by
  unfold wcat
  refine concatenate_apply_piece (t := S128x512) (1 : Fin 2) (wparts m c)
    (concatenates_S128x128_S128x128_S128x128_S128x128_S128x512_d1 : Shape.Concatenates ((wparts m c).map (·.1)) S128x512 (1 : Fin 2))
    (ix2 jj (⟨0 + q.val, by have := q.isLt; omega⟩ : Fin 512)) 0 (by show (0 : Nat) < 4; decide) S128x128 (Cert.ReferenceIdeal.Read.val_main_v52 (F := Ideal) (a2 m c)) rfl rfl 0 (by rfl) (ix2 jj q) (fun b hb => ?_) rfl
  match b with
  | ⟨0, _⟩ => rfl
  | ⟨1, _⟩ => exact absurd rfl hb

/-- Entries 0 … 127 of the side-by-side bias row are the bias of layer 4. -/
theorem bcols0 (q : Fin 128) :
    brow m c (ix2 (0 : Fin 1) (⟨0 + q.val, by have := q.isLt; omega⟩ : Fin 512)) = (Cert.ReferenceIdeal.Read.val_main_v59 (F := Ideal) (a3 m c)) (ix2 (0 : Fin 1) q) := by
  unfold brow
  rw [broadcastInDim_apply _ bcast_S512_S1x512_1 _ _ (ix1 (⟨0 + q.val, by have := q.isLt; omega⟩ : Fin 512)) (fun a => match a with
    | ⟨0, _⟩ => by show 0 + q.val = if (512 : Nat) = 1 then 0 else 0 + q.val; rw [if_neg (by decide)])]
  rw [Cert.ReferenceIdeal.Read.val_main_v59_apply]
  refine (concatenate_apply_piece (t := S512) (0 : Fin 1) (bparts m c)
    (concatenates_S128_S128_S128_S128_S512_d0 : Shape.Concatenates ((bparts m c).map (·.1)) S512 (0 : Fin 1))
    (ix1 (⟨0 + q.val, by have := q.isLt; omega⟩ : Fin 512)) 0 (by show (0 : Nat) < 4; decide) S128 (Cert.ReferenceIdeal.Read.val_main_v54 (F := Ideal) (a3 m c)) rfl rfl 0 (by rfl) (ix1 q) (fun b hb => ?_) rfl).trans ?_
  · match b with
    | ⟨0, _⟩ => exact absurd rfl hb
  · exact congrArg _ (funext fun a => by match a with | ⟨0, _⟩ => rfl)

/-- Entries 0 … 127 of the side-by-side slope row are the slope of layer 4. -/
theorem acols0 (q : Fin 128) :
    arow m c (ix2 (0 : Fin 1) (⟨0 + q.val, by have := q.isLt; omega⟩ : Fin 512)) = (Cert.ReferenceIdeal.Read.val_main_v56 (F := Ideal) (a4 m c)) (fun a => a.elim0) := by
  unfold arow
  rw [broadcastInDim_apply _ bcast_S512_S1x512_1 _ _ (ix1 (⟨0 + q.val, by have := q.isLt; omega⟩ : Fin 512)) (fun a => match a with
    | ⟨0, _⟩ => by show 0 + q.val = if (512 : Nat) = 1 then 0 else 0 + q.val; rw [if_neg (by decide)])]
  rw [shapeCast_apply _ shapeCasts_S4x128_S512 _ (ix2 (⟨0, by decide⟩ : Fin 4) q) (by
    rw [Shape.rowMajor_val_two, Shape.rowMajor_val_one]; show 0 * 128 + q.val = 0 + q.val; omega)]
  rw [broadcastInDim_apply _ bcast_S4_S4x128_0 _ _ (ix1 (⟨0, by decide⟩ : Fin 4)) (fun a => match a with
    | ⟨0, _⟩ => by show 0 = if (4 : Nat) = 1 then 0 else 0; rw [if_neg (by decide)])]
  rw [extractStridedSlice_apply ![3] _ slices_S7_S4_3 _ (ix1 (⟨3, by decide⟩ : Fin 7)) (fun a => match a with
    | ⟨0, _⟩ => by show 3 = 3 + 0; rfl)]
  show a4 m c _ = shapeCast _ (Cert.ReferenceIdeal.Read.val_main_v55 (F := Ideal) (a4 m c)) _ _
  rw [scalar_of_one, Cert.ReferenceIdeal.Read.val_main_v55_apply]
  exact congrArg _ (funext fun a => by match a with | ⟨0, _⟩ => rfl)

/-- After the last pass head 0's array holds the reference's result 0. -/
theorem result0 : (bufs8 m c (Proc.devRef .tc main_v50_0) : S10000x128.Idx → EReal) = Cert.ReferenceIdeal.Read.val_main_v67 (F := Ideal) (a0 m c) (a1 m c) (a2 m c) (a3 m c) (a4 m c) := by
  refine (bufs8_arr m c 5).trans ((final3_5 (ent7 m) c).trans ?_)
  rw [seq3_eq, adj3 m c, prevh3 m c, hostW3 m c, hostb3 m c, hosta3 m c]
  funext i
  rw [Cert.ReferenceIdeal.RefValue.layer3 (a0 m c) (a1 m c) (a2 m c) (a3 m c) (a4 m c) i]
  unfold colsFrom passOut
  congr 1
  · congr 1
    · refine Finset.sum_congr rfl fun k _ => ?_
      rw [Cert.ReferenceIdeal.RefValue.feat3 (a0 m c) (a1 m c) (a2 m c) (a3 m c) (a4 m c) (ix2 k (i 1))]
      unfold featOut
      congr 1
      refine Finset.sum_congr rfl fun jj _ => ?_
      congr 1
      exact wcols0 m c jj (i 1)
    · exact bcols0 m c (i 1)
  · exact acols0 m c (i 1)

/-! ## Head 1 -/

/-- Columns 128 … 255 of the side-by-side weights are the weights of layer 5. -/
theorem wcols1 (jj : Fin 128) (q : Fin 128) :
    wcat m c (ix2 jj (⟨128 + q.val, by have := q.isLt; omega⟩ : Fin 512)) = (Cert.ReferenceIdeal.Read.val_main_v69 (F := Ideal) (a2 m c)) (ix2 jj q) := by
  unfold wcat
  refine concatenate_apply_piece (t := S128x512) (1 : Fin 2) (wparts m c)
    (concatenates_S128x128_S128x128_S128x128_S128x128_S128x512_d1 : Shape.Concatenates ((wparts m c).map (·.1)) S128x512 (1 : Fin 2))
    (ix2 jj (⟨128 + q.val, by have := q.isLt; omega⟩ : Fin 512)) 1 (by show (1 : Nat) < 4; decide) S128x128 (Cert.ReferenceIdeal.Read.val_main_v69 (F := Ideal) (a2 m c)) rfl rfl 128 (by rfl) (ix2 jj q) (fun b hb => ?_) rfl
  match b with
  | ⟨0, _⟩ => rfl
  | ⟨1, _⟩ => exact absurd rfl hb

/-- Entries 128 … 255 of the side-by-side bias row are the bias of layer 5. -/
theorem bcols1 (q : Fin 128) :
    brow m c (ix2 (0 : Fin 1) (⟨128 + q.val, by have := q.isLt; omega⟩ : Fin 512)) = (Cert.ReferenceIdeal.Read.val_main_v76 (F := Ideal) (a3 m c)) (ix2 (0 : Fin 1) q) := by
  unfold brow
  rw [broadcastInDim_apply _ bcast_S512_S1x512_1 _ _ (ix1 (⟨128 + q.val, by have := q.isLt; omega⟩ : Fin 512)) (fun a => match a with
    | ⟨0, _⟩ => by show 128 + q.val = if (512 : Nat) = 1 then 0 else 128 + q.val; rw [if_neg (by decide)])]
  rw [Cert.ReferenceIdeal.Read.val_main_v76_apply]
  refine (concatenate_apply_piece (t := S512) (0 : Fin 1) (bparts m c)
    (concatenates_S128_S128_S128_S128_S512_d0 : Shape.Concatenates ((bparts m c).map (·.1)) S512 (0 : Fin 1))
    (ix1 (⟨128 + q.val, by have := q.isLt; omega⟩ : Fin 512)) 1 (by show (1 : Nat) < 4; decide) S128 (Cert.ReferenceIdeal.Read.val_main_v71 (F := Ideal) (a3 m c)) rfl rfl 128 (by rfl) (ix1 q) (fun b hb => ?_) rfl).trans ?_
  · match b with
    | ⟨0, _⟩ => exact absurd rfl hb
  · exact congrArg _ (funext fun a => by match a with | ⟨0, _⟩ => rfl)

/-- Entries 128 … 255 of the side-by-side slope row are the slope of layer 5. -/
theorem acols1 (q : Fin 128) :
    arow m c (ix2 (0 : Fin 1) (⟨128 + q.val, by have := q.isLt; omega⟩ : Fin 512)) = (Cert.ReferenceIdeal.Read.val_main_v73 (F := Ideal) (a4 m c)) (fun a => a.elim0) := by
  unfold arow
  rw [broadcastInDim_apply _ bcast_S512_S1x512_1 _ _ (ix1 (⟨128 + q.val, by have := q.isLt; omega⟩ : Fin 512)) (fun a => match a with
    | ⟨0, _⟩ => by show 128 + q.val = if (512 : Nat) = 1 then 0 else 128 + q.val; rw [if_neg (by decide)])]
  rw [shapeCast_apply _ shapeCasts_S4x128_S512 _ (ix2 (⟨1, by decide⟩ : Fin 4) q) (by
    rw [Shape.rowMajor_val_two, Shape.rowMajor_val_one]; show 1 * 128 + q.val = 128 + q.val; omega)]
  rw [broadcastInDim_apply _ bcast_S4_S4x128_0 _ _ (ix1 (⟨1, by decide⟩ : Fin 4)) (fun a => match a with
    | ⟨0, _⟩ => by show 1 = if (4 : Nat) = 1 then 0 else 1; rw [if_neg (by decide)])]
  rw [extractStridedSlice_apply ![3] _ slices_S7_S4_3 _ (ix1 (⟨4, by decide⟩ : Fin 7)) (fun a => match a with
    | ⟨0, _⟩ => by show 4 = 3 + 1; rfl)]
  show a4 m c _ = shapeCast _ (Cert.ReferenceIdeal.Read.val_main_v72 (F := Ideal) (a4 m c)) _ _
  rw [scalar_of_one, Cert.ReferenceIdeal.Read.val_main_v72_apply]
  exact congrArg _ (funext fun a => by match a with | ⟨0, _⟩ => rfl)

/-- After the last pass head 1's array holds the reference's result 1. -/
theorem result1 : (bufs8 m c (Proc.devRef .tc main_v50_1) : S10000x128.Idx → EReal) = Cert.ReferenceIdeal.Read.val_main_v84 (F := Ideal) (a0 m c) (a1 m c) (a2 m c) (a3 m c) (a4 m c) := by
  refine (bufs8_arr m c 6).trans ((final3_6 (ent7 m) c).trans ?_)
  rw [seq3_eq, adj3 m c, prevh3 m c, hostW3 m c, hostb3 m c, hosta3 m c]
  funext i
  rw [Cert.ReferenceIdeal.RefValue.layer4 (a0 m c) (a1 m c) (a2 m c) (a3 m c) (a4 m c) i]
  unfold colsFrom passOut
  congr 1
  · congr 1
    · refine Finset.sum_congr rfl fun k _ => ?_
      rw [Cert.ReferenceIdeal.RefValue.feat4 (a0 m c) (a1 m c) (a2 m c) (a3 m c) (a4 m c) (ix2 k (i 1))]
      unfold featOut
      congr 1
      refine Finset.sum_congr rfl fun jj _ => ?_
      congr 1
      exact wcols1 m c jj (i 1)
    · exact bcols1 m c (i 1)
  · exact acols1 m c (i 1)

/-! ## Head 2 -/

/-- Columns 256 … 383 of the side-by-side weights are the weights of layer 6. -/
theorem wcols2 (jj : Fin 128) (q : Fin 128) :
    wcat m c (ix2 jj (⟨256 + q.val, by have := q.isLt; omega⟩ : Fin 512)) = (Cert.ReferenceIdeal.Read.val_main_v86 (F := Ideal) (a2 m c)) (ix2 jj q) := by
  unfold wcat
  refine concatenate_apply_piece (t := S128x512) (1 : Fin 2) (wparts m c)
    (concatenates_S128x128_S128x128_S128x128_S128x128_S128x512_d1 : Shape.Concatenates ((wparts m c).map (·.1)) S128x512 (1 : Fin 2))
    (ix2 jj (⟨256 + q.val, by have := q.isLt; omega⟩ : Fin 512)) 2 (by show (2 : Nat) < 4; decide) S128x128 (Cert.ReferenceIdeal.Read.val_main_v86 (F := Ideal) (a2 m c)) rfl rfl 256 (by rfl) (ix2 jj q) (fun b hb => ?_) rfl
  match b with
  | ⟨0, _⟩ => rfl
  | ⟨1, _⟩ => exact absurd rfl hb

/-- Entries 256 … 383 of the side-by-side bias row are the bias of layer 6. -/
theorem bcols2 (q : Fin 128) :
    brow m c (ix2 (0 : Fin 1) (⟨256 + q.val, by have := q.isLt; omega⟩ : Fin 512)) = (Cert.ReferenceIdeal.Read.val_main_v93 (F := Ideal) (a3 m c)) (ix2 (0 : Fin 1) q) := by
  unfold brow
  rw [broadcastInDim_apply _ bcast_S512_S1x512_1 _ _ (ix1 (⟨256 + q.val, by have := q.isLt; omega⟩ : Fin 512)) (fun a => match a with
    | ⟨0, _⟩ => by show 256 + q.val = if (512 : Nat) = 1 then 0 else 256 + q.val; rw [if_neg (by decide)])]
  rw [Cert.ReferenceIdeal.Read.val_main_v93_apply]
  refine (concatenate_apply_piece (t := S512) (0 : Fin 1) (bparts m c)
    (concatenates_S128_S128_S128_S128_S512_d0 : Shape.Concatenates ((bparts m c).map (·.1)) S512 (0 : Fin 1))
    (ix1 (⟨256 + q.val, by have := q.isLt; omega⟩ : Fin 512)) 2 (by show (2 : Nat) < 4; decide) S128 (Cert.ReferenceIdeal.Read.val_main_v88 (F := Ideal) (a3 m c)) rfl rfl 256 (by rfl) (ix1 q) (fun b hb => ?_) rfl).trans ?_
  · match b with
    | ⟨0, _⟩ => exact absurd rfl hb
  · exact congrArg _ (funext fun a => by match a with | ⟨0, _⟩ => rfl)

/-- Entries 256 … 383 of the side-by-side slope row are the slope of layer 6. -/
theorem acols2 (q : Fin 128) :
    arow m c (ix2 (0 : Fin 1) (⟨256 + q.val, by have := q.isLt; omega⟩ : Fin 512)) = (Cert.ReferenceIdeal.Read.val_main_v90 (F := Ideal) (a4 m c)) (fun a => a.elim0) := by
  unfold arow
  rw [broadcastInDim_apply _ bcast_S512_S1x512_1 _ _ (ix1 (⟨256 + q.val, by have := q.isLt; omega⟩ : Fin 512)) (fun a => match a with
    | ⟨0, _⟩ => by show 256 + q.val = if (512 : Nat) = 1 then 0 else 256 + q.val; rw [if_neg (by decide)])]
  rw [shapeCast_apply _ shapeCasts_S4x128_S512 _ (ix2 (⟨2, by decide⟩ : Fin 4) q) (by
    rw [Shape.rowMajor_val_two, Shape.rowMajor_val_one]; show 2 * 128 + q.val = 256 + q.val; omega)]
  rw [broadcastInDim_apply _ bcast_S4_S4x128_0 _ _ (ix1 (⟨2, by decide⟩ : Fin 4)) (fun a => match a with
    | ⟨0, _⟩ => by show 2 = if (4 : Nat) = 1 then 0 else 2; rw [if_neg (by decide)])]
  rw [extractStridedSlice_apply ![3] _ slices_S7_S4_3 _ (ix1 (⟨5, by decide⟩ : Fin 7)) (fun a => match a with
    | ⟨0, _⟩ => by show 5 = 3 + 2; rfl)]
  show a4 m c _ = shapeCast _ (Cert.ReferenceIdeal.Read.val_main_v89 (F := Ideal) (a4 m c)) _ _
  rw [scalar_of_one, Cert.ReferenceIdeal.Read.val_main_v89_apply]
  exact congrArg _ (funext fun a => by match a with | ⟨0, _⟩ => rfl)

/-- After the last pass head 2's array holds the reference's result 2. -/
theorem result2 : (bufs8 m c (Proc.devRef .tc main_v50_2) : S10000x128.Idx → EReal) = Cert.ReferenceIdeal.Read.val_main_v101 (F := Ideal) (a0 m c) (a1 m c) (a2 m c) (a3 m c) (a4 m c) := by
  refine (bufs8_arr m c 7).trans ((final3_7 (ent7 m) c).trans ?_)
  rw [seq3_eq, adj3 m c, prevh3 m c, hostW3 m c, hostb3 m c, hosta3 m c]
  funext i
  rw [Cert.ReferenceIdeal.RefValue.layer5 (a0 m c) (a1 m c) (a2 m c) (a3 m c) (a4 m c) i]
  unfold colsFrom passOut
  congr 1
  · congr 1
    · refine Finset.sum_congr rfl fun k _ => ?_
      rw [Cert.ReferenceIdeal.RefValue.feat5 (a0 m c) (a1 m c) (a2 m c) (a3 m c) (a4 m c) (ix2 k (i 1))]
      unfold featOut
      congr 1
      refine Finset.sum_congr rfl fun jj _ => ?_
      congr 1
      exact wcols2 m c jj (i 1)
    · exact bcols2 m c (i 1)
  · exact acols2 m c (i 1)

/-! ## Head 3 -/

/-- Columns 384 … 511 of the side-by-side weights are the weights of layer 7. -/
theorem wcols3 (jj : Fin 128) (q : Fin 128) :
    wcat m c (ix2 jj (⟨384 + q.val, by have := q.isLt; omega⟩ : Fin 512)) = (Cert.ReferenceIdeal.Read.val_main_v103 (F := Ideal) (a2 m c)) (ix2 jj q) := by
  unfold wcat
  refine concatenate_apply_piece (t := S128x512) (1 : Fin 2) (wparts m c)
    (concatenates_S128x128_S128x128_S128x128_S128x128_S128x512_d1 : Shape.Concatenates ((wparts m c).map (·.1)) S128x512 (1 : Fin 2))
    (ix2 jj (⟨384 + q.val, by have := q.isLt; omega⟩ : Fin 512)) 3 (by show (3 : Nat) < 4; decide) S128x128 (Cert.ReferenceIdeal.Read.val_main_v103 (F := Ideal) (a2 m c)) rfl rfl 384 (by rfl) (ix2 jj q) (fun b hb => ?_) rfl
  match b with
  | ⟨0, _⟩ => rfl
  | ⟨1, _⟩ => exact absurd rfl hb

/-- Entries 384 … 511 of the side-by-side bias row are the bias of layer 7. -/
theorem bcols3 (q : Fin 128) :
    brow m c (ix2 (0 : Fin 1) (⟨384 + q.val, by have := q.isLt; omega⟩ : Fin 512)) = (Cert.ReferenceIdeal.Read.val_main_v110 (F := Ideal) (a3 m c)) (ix2 (0 : Fin 1) q) := by
  unfold brow
  rw [broadcastInDim_apply _ bcast_S512_S1x512_1 _ _ (ix1 (⟨384 + q.val, by have := q.isLt; omega⟩ : Fin 512)) (fun a => match a with
    | ⟨0, _⟩ => by show 384 + q.val = if (512 : Nat) = 1 then 0 else 384 + q.val; rw [if_neg (by decide)])]
  rw [Cert.ReferenceIdeal.Read.val_main_v110_apply]
  refine (concatenate_apply_piece (t := S512) (0 : Fin 1) (bparts m c)
    (concatenates_S128_S128_S128_S128_S512_d0 : Shape.Concatenates ((bparts m c).map (·.1)) S512 (0 : Fin 1))
    (ix1 (⟨384 + q.val, by have := q.isLt; omega⟩ : Fin 512)) 3 (by show (3 : Nat) < 4; decide) S128 (Cert.ReferenceIdeal.Read.val_main_v105 (F := Ideal) (a3 m c)) rfl rfl 384 (by rfl) (ix1 q) (fun b hb => ?_) rfl).trans ?_
  · match b with
    | ⟨0, _⟩ => exact absurd rfl hb
  · exact congrArg _ (funext fun a => by match a with | ⟨0, _⟩ => rfl)

/-- Entries 384 … 511 of the side-by-side slope row are the slope of layer 7. -/
theorem acols3 (q : Fin 128) :
    arow m c (ix2 (0 : Fin 1) (⟨384 + q.val, by have := q.isLt; omega⟩ : Fin 512)) = (Cert.ReferenceIdeal.Read.val_main_v107 (F := Ideal) (a4 m c)) (fun a => a.elim0) := by
  unfold arow
  rw [broadcastInDim_apply _ bcast_S512_S1x512_1 _ _ (ix1 (⟨384 + q.val, by have := q.isLt; omega⟩ : Fin 512)) (fun a => match a with
    | ⟨0, _⟩ => by show 384 + q.val = if (512 : Nat) = 1 then 0 else 384 + q.val; rw [if_neg (by decide)])]
  rw [shapeCast_apply _ shapeCasts_S4x128_S512 _ (ix2 (⟨3, by decide⟩ : Fin 4) q) (by
    rw [Shape.rowMajor_val_two, Shape.rowMajor_val_one]; show 3 * 128 + q.val = 384 + q.val; omega)]
  rw [broadcastInDim_apply _ bcast_S4_S4x128_0 _ _ (ix1 (⟨3, by decide⟩ : Fin 4)) (fun a => match a with
    | ⟨0, _⟩ => by show 3 = if (4 : Nat) = 1 then 0 else 3; rw [if_neg (by decide)])]
  rw [extractStridedSlice_apply ![3] _ slices_S7_S4_3 _ (ix1 (⟨6, by decide⟩ : Fin 7)) (fun a => match a with
    | ⟨0, _⟩ => by show 6 = 3 + 3; rfl)]
  show a4 m c _ = shapeCast _ (Cert.ReferenceIdeal.Read.val_main_v106 (F := Ideal) (a4 m c)) _ _
  rw [scalar_of_one, Cert.ReferenceIdeal.Read.val_main_v106_apply]
  exact congrArg _ (funext fun a => by match a with | ⟨0, _⟩ => rfl)

/-- After the last pass head 3's array holds the reference's result 3. -/
theorem result3 : (bufs8 m c (Proc.devRef .tc main_v50_3) : S10000x128.Idx → EReal) = Cert.ReferenceIdeal.Read.val_main_v118 (F := Ideal) (a0 m c) (a1 m c) (a2 m c) (a3 m c) (a4 m c) := by
  refine (bufs8_arr m c 8).trans ((final3_8 (ent7 m) c).trans ?_)
  rw [seq3_eq, adj3 m c, prevh3 m c, hostW3 m c, hostb3 m c, hosta3 m c]
  funext i
  rw [Cert.ReferenceIdeal.RefValue.layer6 (a0 m c) (a1 m c) (a2 m c) (a3 m c) (a4 m c) i]
  unfold colsFrom passOut
  congr 1
  · congr 1
    · refine Finset.sum_congr rfl fun k _ => ?_
      rw [Cert.ReferenceIdeal.RefValue.feat6 (a0 m c) (a1 m c) (a2 m c) (a3 m c) (a4 m c) (ix2 k (i 1))]
      unfold featOut
      congr 1
      refine Finset.sum_congr rfl fun jj _ => ?_
      congr 1
      exact wcols3 m c jj (i 1)
    · exact bcols3 m c (i 1)
  · exact acols3 m c (i 1)

end Cert.KernelIdeal.Val

end
-- ==== Proof.lean ====
/-
  A seven-layer graph-convolution encoder: three layers in sequence, h ← relu(prelu(A·(h·W) + b)), then four heads
  of the same form on the final hidden state. The kernel makes four passes over row blocks of the dense adjacency A:
  the first in full precision (also storing A in a narrower format, which on the extended reals is A itself), two more
  for layers two and three, and one that computes the four heads at once from their weights laid side by side. In each
  pass the feature transform h·W is computed once, at the first row block, and kept on chip.

  The frames: every pass's body, at the first row block and at any later one, returns its inputs' buffers as they were;
  the program is four host stretches and four passes in sequence, none of which writes an argument array.
  The values, on the extended reals: row r, column q of a pass's output is act(Σₖ A(r,k)·Σⱼ h(k,j)·W(j,q) + b(q), a),
  which is the reference's layer entry for entry (the same sums in the same order); a head's 128 columns of the
  side-by-side result are that head's own layer. No finiteness of the inputs is needed.
-/
import proofs.«148270_g13469017440497_cont_week2b_423_4_alg».proof.Defs
import proofs.«148270_g13469017440497_cont_week2b_423_4_alg».proof.Proof.Gen.Kernel
import proofs.«148270_g13469017440497_cont_week2b_423_4_alg».proof.Proof.Gen.KernelIdeal
import proofs.«148270_g13469017440497_cont_week2b_423_4_alg».proof.Proof.Gen.ReferenceIdeal
import proofs.«148270_g13469017440497_cont_week2b_423_4_alg».proof.Proof.Gen.Pre_finite_inputs
import proofs.«148270_g13469017440497_cont_week2b_423_4_alg».proof.Proof.BitsMain
import proofs.«148270_g13469017440497_cont_week2b_423_4_alg».proof.Proof.IdealHeads
import Idealize.ShloMosaic.Adequacy
import Idealize.ShloMosaic.Init

noncomputable section

namespace Cert.Proof

open Idealize.ShloMosaic Idealize.SL.Sem

/-- The kernel as printed runs to the end and leaves its arguments alone. -/
theorem frame_kernel : Cert.frame_Kernel := fun m ρ _ => Cert.Kernel.Pass.frame m ρ

/-- So does the kernel read on the extended reals. -/
theorem frame_kernelIdeal : Cert.frame_KernelIdeal := fun m ρ _ => Cert.KernelIdeal.Pass.frame m ρ

/-- The reference is host operations only: its run, with the results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- No operation of the kernel was rewritten for the reading on the extended reals. -/
theorem preserves : Cert.preserves_Kernel_KernelIdeal := trivial

/-- From memories agreeing on the arguments both programs end with the reference's four results. -/
theorem algebraic : Cert.algebraic_KernelIdeal_ReferenceIdeal := by
  intro m ρ m' ρ' _ hagree
  refine ⟨fun c => Cert.ReferenceIdeal.Read.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), fun c => Cert.ReferenceIdeal.Read.val_main_v84 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), fun c => Cert.ReferenceIdeal.Read.val_main_v101 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), fun c => Cert.ReferenceIdeal.Read.val_main_v118 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun _ h c => ⟨?_, ?_, ?_, ?_, ?_, ?_, ?_, ?_, ?_⟩) (Cert.KernelIdeal.Pass.run m ρ)
    · exact (h c _ (Cert.KernelIdeal.Pass.mem_unscoped Cert.KernelIdeal.main_v50_0 (by decide))).trans (Cert.KernelIdeal.Val.result0 m c)
    · exact (h c _ (Cert.KernelIdeal.Pass.mem_unscoped Cert.KernelIdeal.main_v50_1 (by decide))).trans (Cert.KernelIdeal.Val.result1 m c)
    · exact (h c _ (Cert.KernelIdeal.Pass.mem_unscoped Cert.KernelIdeal.main_v50_2 (by decide))).trans (Cert.KernelIdeal.Val.result2 m c)
    · exact (h c _ (Cert.KernelIdeal.Pass.mem_unscoped Cert.KernelIdeal.main_v50_3 (by decide))).trans (Cert.KernelIdeal.Val.result3 m c)
    · exact (h c _ (Cert.KernelIdeal.Pass.mem_unscoped Cert.KernelIdeal.main_arg0 (by decide))).trans (Cert.KernelIdeal.Pass.bufs8_main_arg0 m c)
    · exact (h c _ (Cert.KernelIdeal.Pass.mem_unscoped Cert.KernelIdeal.main_arg1 (by decide))).trans (Cert.KernelIdeal.Pass.bufs8_main_arg1 m c)
    · exact (h c _ (Cert.KernelIdeal.Pass.mem_unscoped Cert.KernelIdeal.main_arg2 (by decide))).trans (Cert.KernelIdeal.Pass.bufs8_main_arg2 m c)
    · exact (h c _ (Cert.KernelIdeal.Pass.mem_unscoped Cert.KernelIdeal.main_arg3 (by decide))).trans (Cert.KernelIdeal.Pass.bufs8_main_arg3 m c)
    · exact (h c _ (Cert.KernelIdeal.Pass.mem_unscoped Cert.KernelIdeal.main_arg4 (by decide))).trans (Cert.KernelIdeal.Pass.bufs8_main_arg4 m c)
  · refine (θ_run Cert.ReferenceIdeal.defs _ _).mono (fun _ h c => ?_) (Cert.ReferenceIdeal.Value.run (F := Ideal) m' ρ')
    obtain ⟨h0, h1, h2, h3, k0, k1, k2, k3, k4⟩ := h c
    obtain ⟨g0, g1, g2, g3, g4⟩ := hagree c
    refine ⟨?_, ?_, ?_, ?_, k0, k1, k2, k3, k4⟩
    · rw [h0, Cert.ReferenceIdeal.Read.val_main_v67_eq, g0, g1, g2, g3, g4]
    · rw [h1, Cert.ReferenceIdeal.Read.val_main_v84_eq, g0, g1, g2, g3, g4]
    · rw [h2, Cert.ReferenceIdeal.Read.val_main_v101_eq, g0, g1, g2, g3, g4]
    · rw [h3, Cert.ReferenceIdeal.Read.val_main_v118_eq, g0, g1, g2, g3, g4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
